-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S320000x128 : Shape := ⟨2, ![320000, 128]⟩
abbrev S320000 : Shape := ⟨1, ![320000]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S320000 : S_.BroadcastsInDim S320000 (![] : Fin 0 → Fin S320000.rank)
  reducesTo_S320000_S_d0 : S320000.ReducesTo [0] S_

variable [Facts]

def fn_part1 {F : FTy → Type} [FloatOps F] (main_arg2 : IVec S320000 32) (main_arg5 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S320000 32 := broadcastInDim S320000 ![] bcast_S_S320000 main_c_8
  let main_v25 : IVec S320000 1 := cmpi .sge main_arg2 main_v24
  let main_c_9 : IVec S_ 32 := constantI S_ 32 9999#32
  let main_v26 : IVec S320000 32 := broadcastInDim S320000 ![] bcast_S_S320000 main_c_9
  let main_v27 : IVec S320000 1 := cmpi .sle main_arg2 main_v26
  let main_v28 : IVec S320000 1 := andi main_v25 main_v27
  let main_c_10 : IVec S_ 1 := constantI S_ 1 1#1
  let main_v29 : IVec S_ 1 := (fun x v => Host.reduce IntOp.andi x v reducesTo_S320000_S_d0 h_S_) main_v28 main_c_10
  let main_v30 : IVec S_ 1 := andi main_v23 main_v29
  main_v30

def fn {F : FTy → Type} [FloatOps F] (main_arg0 : FVec F S10000x128 .f32) (main_arg1 : FVec F S320000x128 .f32) (main_arg2 : IVec S320000 32) (main_arg3 : FVec F S320000x128 .f32) (main_arg4 : FVec F S128x256 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S320000x128 .f32 := Host.absf main_arg3
  let main_cst_2 : FVec F S_ .f32 := constant S_ .f32 0x7F800000#32
  let main_v10 : FVec F S320000x128 .f32 := broadcastInDim S320000x128 ![] bcast_S_S320000x128 main_cst_2
  let main_v11 : IVec S320000x128 1 := cmpf .olt main_v9 main_v10
  let main_c_3 : IVec S_ 1 := constantI S_ 1 1#1
  let main_v12 : IVec S_ 1 := (fun x v => Host.reduce IntOp.andi x v reducesTo_S320000x128_S_d0_1 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg2 main_arg5 main_v13 main_v16
-- ==== Kernel.lean ====
abbrev S10000x128 : Shape := ⟨2, ![10000, 128]⟩
abbrev S320000x128 : Shape := ⟨2, ![320000, 128]⟩
abbrev S320000 : Shape := ⟨1, ![320000]⟩
abbrev S128x256 : Shape := ⟨2, ![128, 256]⟩
abbrev S128 : Shape := ⟨1, ![128]⟩
abbrev S1x128 : Shape := ⟨2, ![1, 128]⟩
abbrev S128x128 : Shape := ⟨2, ![128, 128]⟩
abbrev S10000 : Shape := ⟨1, ![10000]⟩
abbrev S200x128 : Shape := ⟨2, ![200, 128]⟩
abbrev S_ : Shape := ⟨0, ![]⟩
abbrev S200 : Shape := ⟨1, ![200]⟩
abbrev S8000x128 : Shape := ⟨2, ![8000, 128]⟩

abbrev nBuf : Table → Nat
  | .hbm => 10
  | .local .tc .vmem => 11
  | .local .scVector .vmem => 4
  | _ => 0

abbrev bufTy : (tb : Table) → Fin (nBuf tb) → BufTy
  | .hbm, ⟨0, _⟩ => ⟨S10000x128, .f32⟩
  | .hbm, ⟨1, _⟩ => ⟨S320000x128, .f32⟩
  | .hbm, ⟨2, _⟩ => ⟨S320000, .i32⟩
  | .hbm, ⟨3, _⟩ => ⟨S320000x128, .f32⟩
  | .hbm, ⟨4, _⟩ => ⟨S128x256, .f32⟩
  | .hbm, ⟨5, _⟩ => ⟨S128, .f32⟩
  | .hbm, ⟨6, _⟩ => ⟨S1x128, .f32⟩
  | .hbm, ⟨7, _⟩ => ⟨S10000x128, .f32⟩
  | .hbm, ⟨8, _⟩ => ⟨S320000x128, .f32⟩
  | .hbm, ⟨9, _⟩ => ⟨S320000x128, .f32⟩
  | .local .tc .vmem, ⟨0, _⟩ => ⟨S10000x128, .f32⟩
  | .local .tc .vmem, ⟨1, _⟩ => ⟨S128x256, .f32⟩
  | .local .tc .vmem, ⟨2, _⟩ => ⟨S1x128, .f32⟩
  | .local .tc .vmem, ⟨3, _⟩ => ⟨S10000x128, .f32⟩
  | .local .tc .vmem, ⟨4, _⟩ => ⟨S8000x128, .f32⟩
  | .local .tc .vmem, ⟨5, _⟩ => ⟨S8000x128, .f32⟩
  | .local .tc .vmem, ⟨6, _⟩ => ⟨S8000x128, .f32⟩
  | .local .tc .vmem, ⟨7, _⟩ => ⟨S8000x128, .f32⟩
  | .local .tc .vmem, ⟨8, _⟩ => ⟨S128x256, .f32⟩
  | .local .tc .vmem, ⟨9, _⟩ => ⟨S8000x128, .f32⟩
  | .local .tc .vmem, ⟨10, _⟩ => ⟨S8000x128, .f32⟩
  | .local .scVector .vmem, ⟨0, _⟩ => ⟨S10000, .i32⟩
  | .local .scVector .vmem, ⟨1, _⟩ => ⟨S200x128, .f32⟩
  | .local .scVector .vmem, ⟨2, _⟩ => ⟨S200x128, .f32⟩
  | .local .scVector .vmem, ⟨3, _⟩ => ⟨S200x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v1_scv : Ref sig .scVector := ⟨.hbm, 7, rfl⟩
abbrev main_arg2_scv : Ref sig .scVector := ⟨.hbm, 2, rfl⟩
abbrev main_v2_scv : Ref sig .scVector := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg3_1 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
def k1_off2 (i : grid1.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v9 : BitVec 32 := Scalar.addi v2 c0_i32_7
  let c0_i32_8 : BitVec 32 := 0#32
  ![v9.toNat, 0]
def k1_off2_at (r : Fin 6) : BitVec 32 :=
  if r.val < 3 then
    if r.val < 1 then
      0#32
    else
      if r.val < 2 then
        200#32
      else
        9400#32
  else
    if r.val < 4 then
      9200#32
    else
      if r.val < 5 then
        9600#32
      else
        9800#32
@[reducible] def k1_t1_loop : Scf.Loop 32 :=
  let c0_i32_24 : BitVec 32 := 0#32
  let c15_i32 : BitVec 32 := 15#32
  let v24 : BitVec 32 := Scalar.addi c0_i32_24 c15_i32
  let c1_i32 : BitVec 32 := 1#32
  ⟨c0_i32_24, v24, c1_i32⟩
def k1_off3 (k1_t1 : Fin k1_t1_loop.trips) : Fin 1 → Nat :=
  let c3_i32 : BitVec 32 := 3#32
  let c0_i32_24 : BitVec 32 := 0#32
  let c1_i32 : BitVec 32 := 1#32
  let arg15 : BitVec 32 := Scf.iv c0_i32_24 c1_i32 k1_t1
  let v54 : BitVec 32 := Scalar.muli c3_i32 arg15
  let c2_i32_55 : BitVec 32 := 2#32
  let v55 : BitVec 32 := Scalar.addi v54 c2_i32_55
  let c200_i32_56 : BitVec 32 := 200#32
  let v56 : BitVec 32 := Scalar.muli v55 c200_i32_56
  ![v56.toNat]
def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c3_i32 : BitVec 32 := 3#32
  let c0_i32_24 : BitVec 32 := 0#32
  let c1_i32 : BitVec 32 := 1#32
  let arg15 : BitVec 32 := Scf.iv c0_i32_24 c1_i32 k1_t1
  let v54 : BitVec 32 := Scalar.muli c3_i32 arg15
  let c2_i32_55 : BitVec 32 := 2#32
  let v55 : BitVec 32 := Scalar.addi v54 c2_i32_55
  let c200_i32_59 : BitVec 32 := 200#32
  let v59 : BitVec 32 := Scalar.muli v55 c200_i32_59
  let v60 : BitVec 32 := Scalar.addi v2 v59
  let c0_i32_60 : BitVec 32 := 0#32
  ![v60.toNat, 0]
def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c3_i32 : BitVec 32 := 3#32
  let c0_i32_24 : BitVec 32 := 0#32
  let c1_i32 : BitVec 32 := 1#32
  let arg15 : BitVec 32 := Scf.iv c0_i32_24 c1_i32 k1_t1
  let v54 : BitVec 32 := Scalar.muli c3_i32 arg15
  let c2_i32_55 : BitVec 32 := 2#32
  let v55 : BitVec 32 := Scalar.addi v54 c2_i32_55
  let c1_i32_62 : BitVec 32 := 1#32
  let v63 : BitVec 32 := Scalar.subi v55 c1_i32_62
  let c200_i32_63 : BitVec 32 := 200#32
  let v64 : BitVec 32 := Scalar.muli v63 c200_i32_63
  let v65 : BitVec 32 := Scalar.addi v2 v64
  let c0_i32_64 : BitVec 32 := 0#32
  ![v65.toNat, 0]
def k1_off6 (k1_t1 : Fin k1_t1_loop.trips) (c2_i32_66 : BitVec 32) : Fin 1 → Nat :=
  let c3_i32 : BitVec 32 := 3#32
  let c0_i32_24 : BitVec 32 := 0#32
  let c1_i32 : BitVec 32 := 1#32
  let arg15 : BitVec 32 := Scf.iv c0_i32_24 c1_i32 k1_t1
  let v54 : BitVec 32 := Scalar.muli c3_i32 arg15
  let c2_i32_55 : BitVec 32 := 2#32
  let v55 : BitVec 32 := Scalar.addi v54 c2_i32_55
  let v68 : BitVec 32 := Scalar.addi v55 c2_i32_66
  let c200_i32_67 : BitVec 32 := 200#32
  let v69 : BitVec 32 := Scalar.muli v68 c200_i32_67
  ![v69.toNat]
def k1_off7 (i : grid1.Coords) (k1_t1 : Fin k1_t1_loop.trips) (c1_i32_74 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c3_i32 : BitVec 32 := 3#32
  let c0_i32_24 : BitVec 32 := 0#32
  let c1_i32 : BitVec 32 := 1#32
  let arg15 : BitVec 32 := Scf.iv c0_i32_24 c1_i32 k1_t1
  let v54 : BitVec 32 := Scalar.muli c3_i32 arg15
  let c2_i32_55 : BitVec 32 := 2#32
  let v55 : BitVec 32 := Scalar.addi v54 c2_i32_55
  let v76 : BitVec 32 := Scalar.addi v55 c1_i32_74
  let c200_i32_75 : BitVec 32 := 200#32
  let v77 : BitVec 32 := Scalar.muli v76 c200_i32_75
  let v78 : BitVec 32 := Scalar.addi v2 v77
  let c0_i32_76 : BitVec 32 := 0#32
  ![v78.toNat, 0]
abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128_S1x128 : S128.ShapeCasts S1x128
  inb_S128x256_S128x128_0_0 : ∀ a, (![0, 0] : Fin 2 → Nat) a + S128x128.size a ≤ S128x256.size a
  h_S128x128 : 0 < S128x128.numel
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000_S200_0 : ∀ a, (![0] : Fin 1 → Nat) a + S200.size a ≤ S10000.size a
  gathers_S10000x128_S200x128 : S10000x128.Gathers 0 S200x128
  inb_S10000_S200_200 : ∀ a, (![200] : Fin 1 → Nat) a + S200.size a ≤ S10000.size a
  inb_S10000_S200_400 : ∀ a, (![400] : Fin 1 → Nat) a + S200.size a ≤ S10000.size a
  inb_S10000_S200_600 : ∀ a, (![600] : Fin 1 → Nat) a + S200.size a ≤ S10000.size a
  inb_S10000_S200_9400 : ∀ a, (![9400] : Fin 1 → Nat) a + S200.size a ≤ S10000.size a
  inb_S10000_S200_9800 : ∀ a, (![9800] : Fin 1 → Nat) a + S200.size a ≤ S10000.size a
  inb_S10000_S200_9600 : ∀ a, (![9600] : Fin 1 → Nat) a + S200.size a ≤ S10000.size a
  inb_S128x256_S128x128_0_128 : ∀ a, (![0, 128] : Fin 2 → Nat) a + S128x128.size a ≤ S128x256.size a
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  dot_S10000x128_S128x128_S10000x128_1_1_0_0_n_n_wf : DotDims.WF S10000x128 S128x128 S10000x128 [1] [1] [0] [0] [] []
  dot_S8000x128_S128x128_S8000x128_1_1_0_0_n_n_wf : DotDims.WF S8000x128 S128x128 S8000x128 [1] [1] [0] [0] [] []
  hcc1_scratch4 : 4 + S_.numel ≤ 18
  hcc1_scratch5 : 5 + S_.numel ≤ 18
  hcc1_scratch6 : 6 + S_.numel ≤ 18
  hcc1_scratch7 : 7 + S_.numel ≤ 18
  hcc1_scratch8 : 8 + S_.numel ≤ 18
  hcc1_scratch9 : 9 + S_.numel ≤ 18
  hcc1_scoped0 : 10 + S_.numel ≤ 18
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hcore1 : grid1.bound 0 ≤ τ.nSC
  hsub1 : grid1.bound 1 ≤ τ.nSub
  k1_off1_inb : ∀ i : grid1.Coords, ∀ a, (k1_off1 i) a + S10000.size a ≤ S320000.size a
  k1_off2_inb : ∀ i : grid1.Coords, ∀ (r : Fin 6), ∀ a, (k1_off2 i (k1_off2_at r)) a + S200x128.size a ≤ S320000x128.size a
  k1_t1_ok : k1_t1_loop.OK
  k1_off3_inb : ∀ k1_t1 : Fin k1_t1_loop.trips, ∀ a, (k1_off3 k1_t1) a + S200.size a ≤ S10000.size a
  k1_off4_inb : ∀ (i : grid1.Coords) (k1_t1 : Fin k1_t1_loop.trips), ∀ a, (k1_off4 i k1_t1) a + S200x128.size a ≤ S320000x128.size a
  k1_off5_inb : ∀ (i : grid1.Coords) (k1_t1 : Fin k1_t1_loop.trips), ∀ a, (k1_off5 i k1_t1) a + S200x128.size a ≤ S320000x128.size a
  k1_off6_inb : ∀ k1_t1 : Fin k1_t1_loop.trips, ∀ (r : Fin 4), ∀ a, (k1_off6 k1_t1 (BitVec.ofNat 32 (1 + r.val))) a + S200.size a ≤ S10000.size a
  k1_off7_inb : ∀ (i : grid1.Coords) (k1_t1 : Fin k1_t1_loop.trips), ∀ (r : Fin 2), ∀ a, (k1_off7 i k1_t1 (BitVec.ofNat 32 (1 + r.val))) a + S200x128.size a ≤ S320000x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S320000x128.size a
  hwx2_0 : ∀ i : grid2.Coords, EltTy.bits .f32 = 32 ∨ (Rect.block (s := S320000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S320000x128.size a
  hwx2_1 : ∀ i : grid2.Coords, EltTy.bits .f32 = 32 ∨ (Rect.block (s := S320000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x128.size a ≤ S320000x128.size a
  hwx2_3 : ∀ i : grid2.Coords, EltTy.bits .f32 = 32 ∨ (Rect.block (s := S320000x128) S8000x128.size (cc2_transform_3 i) (hinb2_3 i)).WholeWords (EltTy.packing .f32)

variable [Facts₀]

abbrev cc1_scratch4 : DmaSems sig S_ := SemArray.consecutive 4 S_ hcc1_scratch4
abbrev cc1_scratch5 : DmaSems sig S_ := SemArray.consecutive 5 S_ hcc1_scratch5
abbrev cc1_scratch6 : DmaSems sig S_ := SemArray.consecutive 6 S_ hcc1_scratch6
abbrev cc1_scratch7 : DmaSems sig S_ := SemArray.consecutive 7 S_ hcc1_scratch7
abbrev cc1_scratch8 : DmaSems sig S_ := SemArray.consecutive 8 S_ hcc1_scratch8
abbrev cc1_scratch9 : DmaSems sig S_ := SemArray.consecutive 9 S_ hcc1_scratch9
abbrev cc1_scoped0 : DmaSems sig S_ := SemArray.consecutive 10 S_ hcc1_scoped0
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S8000x128_S128x128_S8000x128_1_1_0_0_n_n : DotDims S8000x128 S128x128 S8000x128 where
  lhsContracting := [1]
  rhsContracting := [1]
  lhsNonContracting := [0]
  rhsNonContracting := [0]
  lhsBatch := []
  rhsBatch := []
  wf := dot_S8000x128_S128x128_S8000x128_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg4) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win2_0 : Pipeline.Window sig grid2 :=
  Pipeline.Window.ofSpec (Memref.whole main_v2) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S8000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S320000x128 : Shape := ⟨2, ![320000, 128]⟩
abbrev S320000 : Shape := ⟨1, ![320000]⟩
abbrev S128x256 : Shape := ⟨2, ![128, 256]⟩
abbrev S128 : Shape := ⟨1, ![128]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x256 : Shape := ⟨2, ![320000, 256]⟩
abbrev S256x128 : Shape := ⟨2, ![256, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x128, .f32⟩
  | .hbm, ⟨2, _⟩ => ⟨S320000, .i32⟩
  | .hbm, ⟨3, _⟩ => ⟨S320000x128, .f32⟩
  | .hbm, ⟨4, _⟩ => ⟨S128x256, .f32⟩
  | .hbm, ⟨5, _⟩ => ⟨S128, .f32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S1, .i32⟩
  | .hbm, ⟨15, _⟩ => ⟨S_, .i32⟩
  | .hbm, ⟨16, _⟩ => ⟨S320000x1, .i32⟩
  | .hbm, ⟨17, _⟩ => ⟨S320000x1, .i1⟩
  | .hbm, ⟨18, _⟩ => ⟨S1x1, .i32⟩
  | .hbm, ⟨19, _⟩ => ⟨S320000x1, .i32⟩
  | .hbm, ⟨20, _⟩ => ⟨S320000x1, .i1⟩
  | .hbm, ⟨21, _⟩ => ⟨S320000x1, .i1⟩
  | .hbm, ⟨22, _⟩ => ⟨S_, .i1⟩
  | .hbm, ⟨23, _⟩ => ⟨S320000, .i1⟩
  | .hbm, ⟨24, _⟩ => ⟨S320000x128, .f32⟩
  | .hbm, ⟨25, _⟩ => ⟨S320000x128, .i1⟩
  | .hbm, ⟨26, _⟩ => ⟨S_, .f32⟩
  | .hbm, ⟨27, _⟩ => ⟨S320000x128, .f32⟩
  | .hbm, ⟨28, _⟩ => ⟨S320000x128, .f32⟩
  | .hbm, ⟨29, _⟩ => ⟨S320000x256, .f32⟩
  | .hbm, ⟨30, _⟩ => ⟨S256x128, .f32⟩
  | .hbm, ⟨31, _⟩ => ⟨S320000x128, .f32⟩
  | .hbm, ⟨32, _⟩ => ⟨S1x128, .f32⟩
  | .hbm, ⟨33, _⟩ => ⟨S320000x128, .f32⟩
  | .hbm, ⟨34, _⟩ => ⟨S320000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  concatenates_S320000x128_S320000x128_S320000x256_d1 : Shape.Concatenates [S320000x128, S320000x128] S320000x256 1
  transposes_S128x256_S256x128_1_0 : S128x256.Transposes [1, 0] S256x128
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  gather_S10000x128_S320000x1_S320000x128_1_0_n_n_0_1_1128_wf : GatherDims.WF S10000x128 S320000x1 S320000x128 [1] [0] [] [0] [] 1 ![1, 128]
  dot_S320000x256_S256x128_S320000x128_1_0_0_1_n_n_wf : DotDims.WF S320000x256 S256x128 S320000x128 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf

class Facts : Prop extends Facts₀ where

variable [Facts]
-- ==== Proof.PreHeads.lean ====
/-
  What the precondition says of the index array: every word of `heads`, read as a natural number, is below 10000.
  The precondition's last conjunct is the `and` over all positions of (0 ≤ heads) ∧ (heads ≤ 9999), both signed;
  a 32-bit word that is signed-nonnegative and signed-at-most 9999 is, unsigned, at most 9999.
-/
import proofs.«210904_g42554535969575_cont_8to1_b_1627_27_alg».proof.Pre_input_domain
import Idealize.ShloMosaic.Lib.ReduceAll

namespace Cert.Proof.PreHeads

open Idealize.ShloMosaic
open Cert.Pre_input_domain Cert.Pre_input_domain.Facts

/-- The rank-0 shape has one index. -/
instance subsingleton_S_ : Subsingleton S_.Idx := ⟨fun _ _ => funext fun d => d.elim0⟩

/-- A 32-bit word between 0 and 9999 as a signed integer is below 10000 as a natural number. -/
theorem toNat_lt_of_signed (w : BitVec 32) (h0 : (0#32).toInt ≤ w.toInt) (h1 : w.toInt ≤ (9999#32).toInt) : w.toNat < 10000 := by
  have e0 : (0#32 : BitVec 32).toInt = 0 := by decide
  have e1 : (9999#32 : BitVec 32).toInt = 9999 := by decide
  rw [e0] at h0; rw [e1] at h1
  have hc := BitVec.toInt_eq_toNat_cond w
  have hl := w.isLt
  split at hc <;> omega

/-- Under the precondition every index word is below 10000. -/
theorem heads_lt {F : FTy → Type} [FloatOps F] [Facts]
    (a0 : FVec F S10000x128 .f32) (a1 : FVec F S320000x128 .f32) (heads : IVec S320000 32) (a3 : FVec F S320000x128 .f32)
    (a4 : FVec F S128x256 .f32) (a5 : FVec F S128 .f32)
    (h : fn (F := F) a0 a1 heads a3 a4 a5 = fun _ => 1#1) (x : S320000.Idx) : (heads x).toNat < 10000 := by
  have h0 := congrFun h (fun d => d.elim0)
  dsimp only [fn, fn_part1] at h0
  have h1 := (IntOp.andi_eq_one.1 h0).2
  have h2 := Host.reduce_andi_all _ _ _ _ _ h1 x
  obtain ⟨hge, hle⟩ := IntOp.andi_eq_one.1 h2
  exact toNat_lt_of_signed (heads x) (IntOp.cmpi_sge.1 hge) (IntOp.cmpi_sle.1 hle)

end Cert.Proof.PreHeads
-- ==== Proof.Kernel.Setup.lean ====
/-
  The kernel's program as the SparseCore launch theorem sees it (written once per printed program; the texts differ
  only in the program they name): its label signature over the two
  TensorCore pipelines, the SparseCore configuration, the body table, and the ghost state of the whole run —
  the launch handshakes' rounds, the two pipelines' staging cells' rounds, and the counters of the tiles' own
  local copies (which need no schedule: every copy is issued and waited for by the tile that owns its semaphore).
-/
import proofs.«210904_g42554535969575_cont_8to1_b_1627_27_alg».proof.Defs
import Idealize.ShloMosaic.Lib.SparseCore.Launch
import Idealize.ShloMosaic.Lib.StableHlo.Run
import Idealize.ShloMosaic.Lib.Pipeline.Kit
import Idealize.ShloMosaic.Lib.Tactic
import proofs.«210904_g42554535969575_cont_8to1_b_1627_27_alg».proof.Proof.Gen.Kernel
import proofs.«210904_g42554535969575_cont_8to1_b_1627_27_alg».proof.Proof.Gen.Kernel.Skeleton
import proofs.«210904_g42554535969575_cont_8to1_b_1627_27_alg».proof.Proof.Gen.Kernel.Launch

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' cells' rounds, the transfers' counters -/

abbrev UH : Type := URounds (GSem nD τ sig) ℕ
abbrev UP : Type := URounds (GSem nD τ sig) Unit
abbrev UU : Type := UH × (UP × Counters)

/-- The handshakes' rounds library: the left factor. -/
abbrev EH : Emb UH (MT nD τ sig (HIx 1) (Elt F) ℕ UU ℕ) := embL

/-- The pipelines' staging cells' rounds library: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.Kernel

end
-- ==== Proof.Kernel.Fin.lean ====
/-
  How the TensorCore's final holdings read the claim off the final memory: holding an array whole at given contents,
  together with the state interpretation, says the memory holds those contents there.
-/
import proofs.«210904_g42554535969575_cont_8to1_b_1627_27_alg».proof.Proof.Kernel.Setup

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- An array of device `d`, as the TensorCore names it. -/
abbrev aLoc (d : Dev nD) (b : Ref sig .tc) : Loc nD τ sig := (SparseCore.T d).loc b

variable (m : (ℓ : Loc nD τ sig) → Buf (Elt F) ℓ)
variable (outv : (d : Dev nD) → Buf (Elt F) (aLoc d main_v3))

/-- What @main leaves the claim on device `d`: the six arguments whole at their launch contents and the result whole
    at `outv d`. -/
def FIN (d : Dev nD) : sProp 𝕄 :=
  iprop((aLoc d main_v3 ↦{fullShare} outv d)
    ∗ (aLoc d main_arg0 ↦{fullShare} m (aLoc d main_arg0)) ∗ (aLoc d main_arg1 ↦{fullShare} m (aLoc d main_arg1))
    ∗ (aLoc d main_arg2 ↦{fullShare} m (aLoc d main_arg2)) ∗ (aLoc d main_arg3 ↦{fullShare} m (aLoc d main_arg3))
    ∗ (aLoc d main_arg4 ↦{fullShare} m (aLoc d main_arg4)) ∗ (aLoc d main_arg5 ↦{fullShare} m (aLoc d main_arg5)))

/-- The claim's reading of a final state on device `d`. -/
def fq (d : Dev nD) (s' : Phys nD τ sig (Elt F)) : Prop :=
  s'.mem.mem (aLoc d main_v3) = outv d
    ∧ s'.mem.mem (aLoc d main_arg0) = m (aLoc d main_arg0) ∧ s'.mem.mem (aLoc d main_arg1) = m (aLoc d main_arg1)
    ∧ s'.mem.mem (aLoc d main_arg2) = m (aLoc d main_arg2) ∧ s'.mem.mem (aLoc d main_arg3) = m (aLoc d main_arg3)
    ∧ s'.mem.mem (aLoc d main_arg4) = m (aLoc d main_arg4) ∧ s'.mem.mem (aLoc d main_arg5) = m (aLoc d main_arg5)

omit [FloatOps F] in
/-- An array held whole at `f`, against the state interpretation: the memory holds `f` there. -/
theorem agree_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] in
theorem hfin (d : Dev nD) (s' : Phys nD τ sig (Elt F)) : iprop(FIN m outv d ∗ SI s') ⊢ (⌜fq m outv d s'⌝ : sProp 𝕄) := by
  unfold FIN fq
  iintro ⟨⟨H3, H0, H1, H2, H3', H4, H5⟩, HSI⟩
  ihave %h3 := (agree_whole (F := F) _ _ s') $$ [H3 HSI]
  · isplitl [H3] <;> iassumption
  ihave %h0 := (agree_whole (F := F) _ _ s') $$ [H0 HSI]
  · isplitl [H0] <;> iassumption
  ihave %h1 := (agree_whole (F := F) _ _ s') $$ [H1 HSI]
  · isplitl [H1] <;> iassumption
  ihave %h2 := (agree_whole (F := F) _ _ s') $$ [H2 HSI]
  · isplitl [H2] <;> iassumption
  ihave %h3' := (agree_whole (F := F) _ _ s') $$ [H3' HSI]
  · isplitl [H3'] <;> iassumption
  ihave %h4 := (agree_whole (F := F) _ _ s') $$ [H4 HSI]
  · isplitl [H4] <;> iassumption
  ihave %h5 := (agree_whole (F := F) _ _ s') $$ [H5 HSI]
  · isplitl [H5] <;> iassumption
  ipureintro
  exact ⟨h3, h0, h1, h2, h3', h4, h5⟩

end Cert.Proof.Kernel

end
-- ==== Proof.Kernel.Host.lean ====
/-
  The TensorCore's own arrays during @main: its ten unscoped buffers — the six arguments, the reshaped bias, the node
  table, the gathered rows and the result — as one set held whole, and as a chain of ten arrays each at its contents.
-/
import proofs.«210904_g42554535969575_cont_8to1_b_1627_27_alg».proof.Proof.Kernel.Fin

noncomputable section

namespace Cert.Proof.Kernel

open Cert.Kernel Cert.Kernel.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {F : FTy → Type} [FloatOps F]

local notation "𝕄" => MT nD τ sig (HIx 1) (Elt F) ℕ UU ℕ

variable (m : (ℓ : Loc nD τ sig) → Buf (Elt F) ℓ)

/-- A TensorCore array as a buffer of the device. -/
abbrev dr (b : Ref sig .tc) : DevRef τ sig := Proc.devRef .tc b

/-- The bias and its reshaped copy: the buffers of @main's one host operation. -/
abbrev Sb : Finset (DevRef τ sig) := {dr main_arg5, dr main_v0}

/-- @main's host operation: the bias as a 1 × 128 array. -/
abbrev opReshape : HloOp τ sig (Elt F) := StableHlo.reshape main_arg5 main_v0 rfl shapeCasts_S128_S1x128

/-- The launch valuation of device `d`. -/
def V0 (d : Dev nD) : Valuation τ sig (Elt F) := fun b => m (d, b)

/-- The reshaped bias: the launch bias read at the 1 × 128 shape. -/
def b2dVal (d : Dev nD) : Buf (Elt F) (aLoc d main_v0) := (opReshape (F := F)).result (V0 m d) (dr main_v0)

omit [FloatOps F] in
theorem held_Sb (d : Dev nD) (W : Valuation τ sig (Elt F)) :
    (held (SparseCore.T d) Sb W : sProp 𝕄) = iprop((aLoc d main_arg5 ↦{fullShare} W (dr main_arg5)) ∗ (aLoc d main_v0 ↦{fullShare} W (dr main_v0))) := by
  unfold held Sb
  rw [SparseCore.bigSep_insert' (by decide), bigSep_singleton]

omit [FloatOps F] in
/-- The ten unscoped arrays, one by one. -/
theorem unscopedBufs_eq (d : Dev nD) (W : (b : Ref sig .tc) → Buf (Elt F) ((d.tc : Thread nD τ).loc b)) :
    (unscopedBufs d W : sProp 𝕄)
      = iprop((aLoc d main_arg0 ↦{fullShare} W main_arg0) ∗ (aLoc d main_arg1 ↦{fullShare} W main_arg1) ∗ (aLoc d main_arg2 ↦{fullShare} W main_arg2)
          ∗ (aLoc d main_arg3 ↦{fullShare} W main_arg3) ∗ (aLoc d main_arg4 ↦{fullShare} W main_arg4) ∗ (aLoc d main_arg5 ↦{fullShare} W main_arg5)
          ∗ (aLoc d main_v0 ↦{fullShare} W main_v0) ∗ (aLoc d main_v1 ↦{fullShare} W main_v1) ∗ (aLoc d main_v2 ↦{fullShare} W main_v2)
          ∗ (aLoc d main_v3 ↦{fullShare} W main_v3)) := by
  unfold unscopedBufs
  rw [show (Finset.univ.filter fun b : Ref sig .tc => ¬ b.isScoped) = {main_arg0, main_arg1, main_arg2, main_arg3, main_arg4, main_arg5, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem hReshape : (opReshape (F := F)).bufs ⊆ Sb := show ({dr main_arg5, dr main_v0} : Finset (DevRef τ sig)) ⊆ Sb by decide

theorem reshape_arg5 (d : Dev nD) : (opReshape (F := F)).result (V0 m d) (dr main_arg5) = m (aLoc d main_arg5) :=
  (opReshape (F := F)).result_of_not_mem (V0 m d) (b := dr main_arg5) (show dr main_arg5 ∉ ({dr main_v0} : Finset (DevRef τ sig)) by decide)

end Cert.Proof.Kernel

end
-- ==== Proof.Kernel.LaunchElem.lean ====
/-
  The launch element of the run's ghost state and what the launch makes of it: the handshakes' rounds go to the
  launch theorem as they are; the pipelines' staging cells' rounds are funded into each device's cells' launch state
  and the duty tokens of the transfers its two pipelines issue, which is what @main's proof on the TensorCore
  starts from; the counters of the tiles' own copies start empty and nothing of the launch is dealt a kernel's proof.
-/
import proofs.«210904_g42554535969575_cont_8to1_b_1627_27_alg».proof.Proof.Kernel.Setup

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The launch element: the handshake cells' rounds at their launch tokens, the two pipelines' staging cells' rounds
    at the tokens of every transfer their loops issue, no counter. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof on device `d`'s TensorCore starts from: per pipeline, its staging cells' launch state and the
    duty tokens of its transfers. -/
def G (d : Dev nD) : sProp 𝕄 :=
  bigSep Finset.univ fun p : Fin 2 => iprop(Pipeline.cellsGhost (nD := nD) (τ := τ) cfgs (EP (F := F)) p d ∗ Pipeline.toksInit (nD := nD) (τ := τ) cfgs (EP (F := F)) p d)

omit [FloatOps F] in
theorem bigSep_emp' {I : Type} (s : Finset I) : (bigSep s fun _ => iprop(emp)) = (iprop(emp) : sProp 𝕄) := bigSep_emp_const s

omit [FloatOps F] in
/-- Owning an element of the pipelines' rounds through the nested injections is owning it through `EP`. -/
theorem own_EP (x : UP) :
    (BI.own (((Emb.inl : Emb UP (UP × Counters)).trans (embR : Emb (UP × Counters) (MT nD τ sig (HIx 1) (Elt F) ℕ UU ℕ))) x) : sProp 𝕄) = BI.own (EP (F := F) x) := rfl

/-- The launch element splits: the handshakes' rounds as the launch theorem takes them, each device's pipelines'
    ghost state, and nothing for the kernels' proofs. -/
theorem hu₀ (P : (K (F := F)).Pay (nD := nD) (Val := Elt F) (Name := ℕ) (U := UU)) (hx : P.x = fun _ _ => iprop(emp)) :
    iprop(ownU (u₀ (F := F)) ∗ P.oxCred ∗ (K (F := F)).freeSems0)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => P.x q thr) := by
  unfold u₀
  iintro ⟨Hu, -, -⟩
  ihave H := (ownU_pair _ _) $$ Hu
  icases H with ⟨HH, HR⟩
  ihave H2 := (own_pair_emb embR _ _) $$ HR
  icases H2 with ⟨HP, -⟩
  ihave HP' := (Entails.of_eq (own_EP (F := F) _)) $$ HP
  imod (Pipeline.fund_ghost (nD := nD) (τ := τ) cfgs (EP (F := F)) cellOf_inj) $$ HP' with ⟨Hg, Ht⟩
  imodintro
  isplitl [HH]; · iexact HH
  isplitl [Hg Ht]
  · unfold G
    simp only [bigSep_sep']
    isplitl [Hg] <;> iassumption
  · rw [hx]
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Proof.Kernel

end
-- ==== Proof.Kernel.Main.lean ====
/-
  @main on a device's TensorCore, from what the launch deals it to what the claim reads: the bias reshaped on the host,
  the node transform's region, the SparseCore call that gathers the rows, the edge transform's region. The two regions'
  runs, the call's split of the arrays among the SparseCores and the join back, and the values the three kernels leave
  are taken here as given (hypotheses of `hmain`); this module is the bookkeeping between them: which array is whole at
  which contents at each step, what the TensorCore owes the handshakes across the first region, and that its recorded
  waits stay below the next call's levels.
-/
import proofs.«210904_g42554535969575_cont_8to1_b_1627_27_alg».proof.Proof.Kernel.Host
import proofs.«210904_g42554535969575_cont_8to1_b_1627_27_alg».proof.Proof.Kernel.LaunchElem

noncomputable section

namespace Cert.Proof.Kernel

open Cert.Kernel Cert.Kernel.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-- What the TensorCore owes the handshakes sits at the calls' own indices: nothing at the index of a kernel's waits. -/
theorem Otc_none (d : Dev nD) (n : ℕ) (g : GSem nD τ sig) : (K (F := F)).Otc d n g none = 0 := by
  unfold SparseCore.Cfg.Otc
  rw [Finset.sum_apply, Finsupp.finsetSum_apply]
  refine Finset.sum_eq_zero fun q _ => ?_
  split
  · rw [Finset.sum_apply, Finsupp.finsetSum_apply]
    exact Finset.sum_eq_zero fun c _ => by rw [tallyAt_apply]; simp
  · rfl

/-- A set of recorded waits below a level stays below it when waits at the kernels' own index are added. -/
theorem wbelow_of_none {d : Dev nD} {W W' : Waits sig (HIx 1)} {b : ℕ} (hW : (K (F := F)).WBelow (SparseCore.T d) W b)
    (h : ∀ p ∈ W', p ∈ W ∨ p.2 = none) : (K (F := F)).WBelow (SparseCore.T d) W' b := by
  intro p hp
  rcases h p hp with h | h
  · exact hW p h
  · rw [h, SparseCore.Cfg.lev_none]; exact Nat.zero_le _

omit [FloatOps F] in
/-- The two pipelines' ghost state, one by one. -/
theorem G_eq (d : Dev nD) :
    (G (F := F) d : sProp 𝕄)
      = iprop((Pipeline.cellsGhost (nD := nD) (τ := τ) cfgs (EP (F := F)) 0 d ∗ Pipeline.toksInit (nD := nD) (τ := τ) cfgs (EP (F := F)) 0 d)
          ∗ (Pipeline.cellsGhost (nD := nD) (τ := τ) cfgs (EP (F := F)) 1 d ∗ Pipeline.toksInit (nD := nD) (τ := τ) cfgs (EP (F := F)) 1 d)) := by
  unfold G
  rw [show (Finset.univ : Finset (Fin 2)) = {0, 1} by decide, SparseCore.bigSep_insert' (by decide), bigSep_singleton]

variable (m : (ℓ : Loc nD τ sig) → Buf (Elt F) ℓ) (ρ : Dev nD → PrngReg)

/-! ## What is taken as given -/

variable (PP : (K (F := F)).Pay (nD := nD) (Val := Elt F) (Name := ℕ) (U := UU))
-- the node table the first region leaves, the rows the call gathers, the result the second region leaves
variable (tblV : (d : Dev nD) → Buf (Elt F) (aLoc d main_v1)) (gatV : (d : Dev nD) → Buf (Elt F) (aLoc d main_v2))
  (outV : (d : Dev nD) → Buf (Elt F) (aLoc d main_v3))

/-- The first region's run: from the node features, the weights and the reshaped bias whole (the table at anything), the
    TensorCore owing `O` with recorded waits `W₀`, to the table at `tblV d`. -/
def Region0 : Prop :=
  ∀ (d : Dev nD) (O : CellTallies nD τ sig (HIx 1)) (W₀ : Waits sig (HIx 1)), (∀ g, O g none = 0) →
    ∀ (Φ : PUnit → sProp 𝕄),
    iprop(boundary (SparseCore.T d) ∗ levAts (K (F := F)).L (K (F := F)).lev
        ∗ (Pipeline.cellsGhost (nD := nD) (τ := τ) cfgs (EP (F := F)) 0 d ∗ Pipeline.toksInit (nD := nD) (τ := τ) cfgs (EP (F := F)) 0 d)
        ∗ owes (SparseCore.T d) O W₀
        ∗ (aLoc d main_arg0 ↦{fullShare} m (aLoc d main_arg0)) ∗ (aLoc d main_arg4 ↦{fullShare} m (aLoc d main_arg4))
        ∗ (aLoc d main_v0 ↦{fullShare} b2dVal m d) ∗ (∃ f, aLoc d main_v1 ↦{fullShare} f)
        ∗ (iprop(boundary (SparseCore.T d) ∗ (∃ W', ⌜∀ p ∈ W', p ∈ W₀ ∨ p.2 = none⌝ ∗ owes (SparseCore.T d) O W')
            ∗ (aLoc d main_arg0 ↦{fullShare} m (aLoc d main_arg0)) ∗ (aLoc d main_arg4 ↦{fullShare} m (aLoc d main_arg4))
            ∗ (aLoc d main_v0 ↦{fullShare} b2dVal m d) ∗ (aLoc d main_v1 ↦{fullShare} tblV d)) -∗ Φ ⟨⟩))
      ⊢ wp frame (wpE ((K (F := F)).defs (D (F := F))) 𝒱 (SparseCore.T d) none) Set.univ
          (Prog.lift (TpuEff.customCall (SparseCore.inner (Pipeline.entry 0)) ())) Φ

/-- The second region's run: from the gathered rows, the edge features and the weights whole (the result at anything) to
    the result at `outV d`. -/
def Region1 : Prop :=
  ∀ (d : Dev nD) (O : CellTallies nD τ sig (HIx 1)) (W₀ : Waits sig (HIx 1)), (∀ g, O g none = 0) →
    ∀ (Φ : PUnit → sProp 𝕄),
    iprop(boundary (SparseCore.T d) ∗ levAts (K (F := F)).L (K (F := F)).lev
        ∗ (Pipeline.cellsGhost (nD := nD) (τ := τ) cfgs (EP (F := F)) 1 d ∗ Pipeline.toksInit (nD := nD) (τ := τ) cfgs (EP (F := F)) 1 d)
        ∗ owes (SparseCore.T d) O W₀
        ∗ (aLoc d main_v2 ↦{fullShare} gatV d) ∗ (aLoc d main_arg1 ↦{fullShare} m (aLoc d main_arg1))
        ∗ (aLoc d main_arg4 ↦{fullShare} m (aLoc d main_arg4)) ∗ (∃ f, aLoc d main_v3 ↦{fullShare} f)
        ∗ (iprop(boundary (SparseCore.T d) ∗ (∃ W', ⌜∀ p ∈ W', p ∈ W₀ ∨ p.2 = none⌝ ∗ owes (SparseCore.T d) O W')
            ∗ (aLoc d main_v2 ↦{fullShare} gatV d) ∗ (aLoc d main_arg1 ↦{fullShare} m (aLoc d main_arg1))
            ∗ (aLoc d main_arg4 ↦{fullShare} m (aLoc d main_arg4)) ∗ (aLoc d main_v3 ↦{fullShare} outV d)) -∗ Φ ⟨⟩))
      ⊢ wp frame (wpE ((K (F := F)).defs (D (F := F))) 𝒱 (SparseCore.T d) none) Set.univ
          (Prog.lift (TpuEff.customCall (SparseCore.inner (Pipeline.entry 1)) ())) Φ

/-- What the call takes for the two SparseCores: the table and the indices whole, the gathered rows' array at anything; -/
def CallSplit : Prop :=
  ∀ d : Dev nD, iprop((aLoc d main_v1 ↦{fullShare} tblV d) ∗ (aLoc d main_arg2 ↦{fullShare} m (aLoc d main_arg2)) ∗ ∃ f, aLoc d main_v2 ↦{fullShare} f)
    ⊢ bigSep Finset.univ fun c : Fin ((K (F := F)).nCore 0) => PP.st 0 d c
/-- and what it hands back: the same, the gathered rows at `gatV d`. -/
def CallJoin : Prop :=
  ∀ d : Dev nD, (bigSep Finset.univ fun c : Fin ((K (F := F)).nCore 0) => PP.dn 0 d c)
    ⊢ iprop((aLoc d main_v1 ↦{fullShare} tblV d) ∗ (aLoc d main_arg2 ↦{fullShare} m (aLoc d main_arg2)) ∗ aLoc d main_v2 ↦{fullShare} gatV d)

/-! ## @main -/

/-- @main on device `d`'s TensorCore. -/
theorem hmain (hR0 : Region0 m tblV) (hR1 : Region1 m gatV outV) (hsplit : CallSplit m PP tblV) (hjoin : CallJoin m PP tblV gatV)
    (κ : GSem nD τ sig → ℕ) (d : Dev nD) :
    iprop((K (F := F)).ctx EH PP κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m outV d) := by
  unfold SparseCore.Cfg.tcRes
  rw [unscopedBufs_eq, G_eq]
  simp only [main, wp_bind, wp_pure]
  iintro ⟨#Hctx, Hst, ⟨Hb, ⟨Ha0, Ha1, Ha2, Ha3, Ha4, Ha5, Hv0, Hv1, Hv2, Hv3⟩, -, -⟩, ⟨HG0, HG1⟩⟩
  ihave #Hlv := (SparseCore.Cfg.ctx_levAts κ) $$ Hctx
  -- the bias reshaped
  ihave Hheld := (Entails.of_eq (held_Sb (F := F) d (V0 m d)).symm) $$ [Ha5 Hv0]
  · isplitl [Ha5]; · iexact Ha5
    iexact Hv0
  iapply (wp_hlo_within 𝒱 (SparseCore.T d) none Set.univ (op := opReshape) (S := Sb) hReshape (V := V0 m d)) $$ [Hb Hheld]
  · isplitl [Hb]; · iexact Hb
    iexact Hheld
  iintro ⟨Hb, Hheld⟩
  ihave Hh := (Entails.of_eq (held_Sb (F := F) d _)) $$ Hheld
  icases Hh with ⟨Ha5, Hv0⟩
  rw [reshape_arg5, wp_ret]
  imodintro
  -- the node transform's region, the TensorCore owing the call's start signals
  unfold SparseCore.Cfg.tcSt
  icases Hst with ⟨⟨%W, %hW, HO⟩, Hrest⟩
  iapply (hR0 d _ W (Otc_none (F := F) d 0) _) $$ [Hb HG0 HO Ha0 Ha4 Hv0 Hv1 Hrest Ha1 Ha2 Ha3 Ha5 Hv2 Hv3 HG1]
  isplitl [Hb]; · iexact Hb
  isplitr; · iexact Hlv
  isplitl [HG0]; · iexact HG0
  isplitl [HO]; · iexact HO
  isplitl [Ha0]; · iexact Ha0
  isplitl [Ha4]; · iexact Ha4
  isplitl [Hv0]; · iexact Hv0
  isplitl [Hv1]; · iexists _; iexact Hv1
  iintro ⟨Hb, ⟨%W1, %hW1, HO⟩, Ha0, Ha4, Hv0, Hv1⟩
  -- the SparseCore call: the table, the indices and the rows' array out to the two SparseCores and back
  iapply ((K (F := F)).wp_run (D (F := F)) 𝒱 (EH := EH) (P := PP) κ d 0) $$ [HO Hrest Hv1 Ha2 Hv2 Hb Ha0 Ha1 Ha3 Ha4 Ha5 Hv0 Hv3 HG1]
  isplitr; · iexact Hctx
  isplitl [HO Hrest]
  · unfold SparseCore.Cfg.tcSt
    isplitl [HO]
    · iexists W1; isplitr
      · ipureintro; exact wbelow_of_none (F := F) hW hW1
      · iexact HO
    · iexact Hrest
  isplitl [Hv1 Ha2 Hv2]
  · iapply (hsplit d)
    isplitl [Hv1]; · iexact Hv1
    isplitl [Ha2]; · iexact Ha2
    iexists _; iexact Hv2
  iintro ⟨Hst, Hdn⟩
  ihave Hdn' := (hjoin d) $$ Hdn
  icases Hdn' with ⟨Hv1, Ha2, Hv2⟩
  -- the edge transform's region, nothing owed
  unfold SparseCore.Cfg.tcSt
  icases Hst with ⟨⟨%W2, %hW2, HO⟩, Hrest⟩
  iapply (hR1 d _ W2 (Otc_none (F := F) d (0 + 1)) _) $$ [Hb HG1 HO Hv2 Ha1 Ha4 Hv3 Hrest Ha0 Ha2 Ha3 Ha5 Hv0 Hv1]
  isplitl [Hb]; · iexact Hb
  isplitr; · iexact Hlv
  isplitl [HG1]; · iexact HG1
  isplitl [HO]; · iexact HO
  isplitl [Hv2]; · iexact Hv2
  isplitl [Ha1]; · iexact Ha1
  isplitl [Ha4]; · iexact Ha4
  isplitl [Hv3]; · iexists _; iexact Hv3
  iintro ⟨Hb, ⟨%W3, %hW3, HO⟩, Hv2, Ha1, Ha4, Hv3⟩
  imodintro
  isplitl [HO Hrest]
  · isplitl [HO]
    · iexists W3; isplitr
      · ipureintro; exact wbelow_of_none (F := F) hW2 hW3
      · iexact HO
    · iexact Hrest
  unfold FIN
  isplitl [Hv3]; · iexact Hv3
  isplitl [Ha0]; · iexact Ha0
  isplitl [Ha1]; · iexact Ha1
  isplitl [Ha2]; · iexact Ha2
  isplitl [Ha3]; · iexact Ha3
  isplitl [Ha4]; · iexact Ha4
  iexact Ha5

end Cert.Proof.Kernel

end
-- ==== Proof.Kernel.Run.lean ====
/-
  The program's run, from the launch theorem of a SparseCore program: every weakly fair execution of the device's 35
  threads — the TensorCore's @main, the two sequencers, the 32 tiles — terminates, nothing faulting, with the result array
  at the value the three kernels compose to and the six arguments unchanged. Given here: the tile's task and the split of
  a SparseCore's operands among its tiles, the two regions' runs, the call's split and join (hypotheses, as in `hmain`).
-/
import proofs.«210904_g42554535969575_cont_8to1_b_1627_27_alg».proof.Proof.Kernel.Main

noncomputable section

namespace Cert.Proof.Kernel

open Cert.Kernel Cert.Kernel.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)
variable (outV : (d : Dev nD) → Buf (Elt F) (aLoc d main_v3))

/-- The run's post: on every device the result at `outV`, the six arguments at their launch contents. -/
def QC : PUnit × MemSt nD τ sig (Elt F) → Prop := fun r => ∀ c : Dev nD,
  r.2.mem (aLoc c main_v3) = outV c
    ∧ r.2.mem (aLoc c main_arg0) = m (aLoc c main_arg0) ∧ r.2.mem (aLoc c main_arg1) = m (aLoc c main_arg1)
    ∧ r.2.mem (aLoc c main_arg2) = m (aLoc c main_arg2) ∧ r.2.mem (aLoc c main_arg3) = m (aLoc c main_arg3)
    ∧ r.2.mem (aLoc c main_arg4) = m (aLoc c main_arg4) ∧ r.2.mem (aLoc c main_arg5) = m (aLoc c main_arg5)

theorem run_main [∀ e, Nonempty (Elt F e)]
    (PP : (K (F := F)).Pay (nD := nD) (Val := Elt F) (Name := ℕ) (U := UU)) [PP.IsStorable]
    (hx : PP.x = fun _ _ => iprop(emp)) (hheld : PP.held = ∅)
    (tblV : (d : Dev nD) → Buf (Elt F) (aLoc d main_v1)) (gatV : (d : Dev nD) → Buf (Elt F) (aLoc d main_v2))
    (htile : (K (F := F)).TileObl (D (F := F)) 𝒱 PP v₀ 0) (hvec : (K (F := F)).VecSplit PP 0)
    (hR0 : Region0 m tblV) (hR1 : Region1 m gatV outV) (hsplit : CallSplit m PP tblV) (hjoin : CallJoin m PP tblV gatV) :
    θ_run (Cert.Kernel.defs (F := F)) (Cert.Kernel.threads (F := F)) ⟨m, fun _ => 0, ρ⟩ (QC m outV) :=
  SparseCore.Cfg.θ_run_sc (K := K (F := F)) (D := D (F := F)) (𝒱 := 𝒱) (EH := EH) (P := PP) facts v₀
    (fun q hq => match q with | 0 => nomatch hq)
    (fun q _ => match q with | 0 => htile)
    (fun q _ => match q with | 0 => hvec)
    m ρ main (fun d => G (F := F) d) (FIN m outV) (u₀ (F := F)) (hu₀ PP hx) (hmain m ρ PP tblV gatV outV hR0 hR1 hsplit hjoin)
    (fq m outV) (hfin m outV) (QC m outV) (fun _ h => h) hheld

end Cert.Proof.Kernel

end
-- ==== Proof.Kernel.RegData.lean ====
/-
  The proof data of the two TensorCore pipelines of the kernel's @main.

  Pipeline 0 has one point and four windows that are whole arrays: the node features H (10000×128), the weights
  W (128×256), the bias as a 1×128 row, and the result T. Its body stores, over the whole result,
  H · W[:, 0:128]ᵀ + bias (the bias row broadcast down the rows).

  Pipeline 1 has 40 points; at point t it sees rows [8000 t, 8000 (t+1)) of the gathered rows G, of the edge
  features E and of the result, and the weights whole; its body stores G-block + E-block · W[:, 128:256]ᵀ.

  Both bodies are one pure payload over what they load; the data below name what every staging buffer holds
  after the body at a point, over the arrays' contents at the region's entry, and what the TensorCore still
  owes other threads while the region runs (a constant tally `O`, untouched by the pipeline and its body).
-/
import proofs.«210904_g42554535969575_cont_8to1_b_1627_27_alg».proof.Proof.Kernel.Setup
import proofs.«210904_g42554535969575_cont_8to1_b_1627_27_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Proof.Kernel

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The rectangles the bodies load and store -/

/-- All of a 10000×128 buffer. -/
abbrev rH : Rect S10000x128 := Rect.unit (s := S10000x128) ![0, 0] S10000x128.size inb_S10000x128_S10000x128_0_0
/-- Columns 0–127 of the weights. -/
abbrev rWl : Rect S128x256 := Rect.unit (s := S128x256) ![0, 0] S128x128.size inb_S128x256_S128x128_0_0
/-- Columns 128–255 of the weights. -/
abbrev rWr : Rect S128x256 := Rect.unit (s := S128x256) ![0, 128] S128x128.size inb_S128x256_S128x128_0_128
/-- All of the bias row. -/
abbrev rB : Rect S1x128 := Rect.unit (s := S1x128) ![0, 0] S1x128.size inb_S1x128_S1x128_0_0
/-- All of an 8000×128 block. -/
abbrev rG : Rect S8000x128 := Rect.unit (s := S8000x128) ![0, 0] S8000x128.size inb_S8000x128_S8000x128_0_0

/-! ## What each body leaves in its output buffer -/

/-- Pipeline 0's result buffer after the body, from the three input buffers: one store over the whole buffer. -/
def out0 (x0 : Vec F S10000x128 .f32) (x1 : Vec F S128x256 .f32) (x2 : Vec F S1x128 .f32) : Vec F S10000x128 .f32 :=
  View.canon [⟨rH, k0_pay1 (View.ld x1 rWl) (View.ld x0 rH) (View.ld x2 rB)⟩]

/-- Pipeline 1's result buffer after the body at a point, from the three input buffers: one store over the whole buffer. -/
def out1 (x0 : Vec F S8000x128 .f32) (x1 : Vec F S8000x128 .f32) (x2 : Vec F S128x256 .f32) : Vec F S8000x128 .f32 :=
  View.canon [⟨rG, k2_pay1 (View.ld x2 rWr) (View.ld x0 rG) (View.ld x1 rG)⟩]

theorem cover0 (p0 : Vec F S10000x128 .f32) (y : S10000x128.Idx) :
    ∃ pc ∈ ([⟨rH, p0⟩] : List (View.Piece (Elt F) S10000x128 .f32)), y ∈ pc.1.set :=
  View.cover_of_tiled [⟨rH, p0⟩] S10000x128.size (by rfl) y

theorem cover1 (p0 : Vec F S8000x128 .f32) (y : S8000x128.Idx) :
    ∃ pc ∈ ([⟨rG, p0⟩] : List (View.Piece (Elt F) S8000x128 .f32)), y ∈ pc.1.set :=
  View.cover_of_tiled [⟨rG, p0⟩] S8000x128.size (by rfl) y

/-! ## The proof data -/

/-- No pipeline has a prefetched table. -/
abbrev adm : (p : Fin 2) → (pcfgs (F := F) p).Adm := fun p => (cfgs p).toPCfg_adm

section Data

variable (O : CellTallies nD τ sig (HIx 1)) (W₀ : Waits sig (HIx 1)) (d : Dev nD)

/-- Window `w`'s block of pipeline 0 at point `t`, read off the array's entry contents. -/
def iblk0 (A : (w : Fin cfg0.W) → Buf (Elt F) ((cfg0.win w).arr.view.loc (d.tc : Thread nD τ))) (w : Fin cfg0.W) (t : Fin cfg0.N) :
    ((cfg0.win w).xblock (cfg0.grid.coords t)).Idx → Elt F (cfg0.win w).elt :=
  ((cfg0.win w).blk t).view.read (Elt F) (A w)

/-- Pipeline 0's proof data at the entry contents `A` of its four arrays: inputs' buffers keep their blocks, the result's
    holds the body's store; the invariant is the scoped buffers no window stages; the core owes `O` throughout,
    the pairs its waits recorded before the region being `W₀`. -/
def dat0 (A : (w : Fin cfg0.W) → Buf (Elt F) ((cfg0.win w).arr.view.loc (d.tc : Thread nD τ))) : Dat τ (Elt F) (HIx 1) ℕ UU ℕ cfg0 d where
  A := A
  after w t := match w with
    | ⟨0, _⟩ => iblk0 d A 0 t
    | ⟨1, _⟩ => iblk0 d A 1 t
    | ⟨2, _⟩ => iblk0 d A 2 t
    | ⟨3, _⟩ => out0 (iblk0 d A 0 t) (iblk0 d A 1 t) (iblk0 d A 2 t)
  Φ _ := Pipeline.scopedRest spec0 d
  q _ := fullShare
  owed _ := O
  recorded _ := ↑W₀

/-- Window `w`'s block of pipeline 1 at point `t`, read off the array's entry contents. -/
def iblk1 (A : (w : Fin cfg2.W) → Buf (Elt F) ((cfg2.win w).arr.view.loc (d.tc : Thread nD τ))) (w : Fin cfg2.W) (t : Fin cfg2.N) :
    ((cfg2.win w).xblock (cfg2.grid.coords t)).Idx → Elt F (cfg2.win w).elt :=
  ((cfg2.win w).blk t).view.read (Elt F) (A w)

/-- Pipeline 1's proof data at the entry contents `A` of its four arrays. -/
def dat1 (A : (w : Fin cfg2.W) → Buf (Elt F) ((cfg2.win w).arr.view.loc (d.tc : Thread nD τ))) : Dat τ (Elt F) (HIx 1) ℕ UU ℕ cfg2 d where
  A := A
  after w t := match w with
    | ⟨0, _⟩ => iblk1 d A 0 t
    | ⟨1, _⟩ => iblk1 d A 1 t
    | ⟨2, _⟩ => iblk1 d A 2 t
    | ⟨3, _⟩ => out1 (iblk1 d A 0 t) (iblk1 d A 1 t) (iblk1 d A 2 t)
  Φ _ := Pipeline.scopedRest spec2 d
  q _ := fullShare
  owed _ := O
  recorded _ := ↑W₀

end Data

end Cert.Proof.Kernel

end
-- ==== Proof.Kernel.Reg0Body.lean ====
/-
  Pipeline 0's body (the bias matmul) at its one point: from the three input buffers at their blocks and the
  result's buffer at anything, the body loads the left half of the weights, the features and the bias row, and
  stores the payload over the whole result buffer; nothing else is touched.
-/
import proofs.«210904_g42554535969575_cont_8to1_b_1627_27_alg».proof.Proof.Kernel.RegData

set_option maxRecDepth 16384

noncomputable section

namespace Cert.Proof.Kernel

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option maxHeartbeats 1000000 in
/-- The body on whole staging memrefs: the inputs' at `x0`, `x1`, `x2` stay, the result's ends at `out0 x0 x1 x2`. -/
theorem sound_kernel0 (c : Dev nD) (E : Set ℕ) (arg0 : Memref sig .tc .vmem S10000x128 .f32) (harg0 : arg0.IsWhole)
    (arg1 : Memref sig .tc .vmem S128x256 .f32) (harg1 : arg1.IsWhole) (arg2 : Memref sig .tc .vmem S1x128 .f32) (harg2 : arg2.IsWhole)
    (arg3 : Memref sig .tc .vmem S10000x128 .f32) (harg3 : arg3.IsWhole)
    (x0 : Vec F S10000x128 .f32) (x1 : Vec F S128x256 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ y, owns (c : Thread nD τ) arg3 fullShare y)
        ∗ (iprop(owns (c : Thread nD τ) arg0 fullShare x0 ∗ owns (c : Thread nD τ) arg1 fullShare x1 ∗ owns (c : Thread nD τ) arg2 fullShare x2
            ∗ owns (c : Thread nD τ) arg3 fullShare (out0 x0 x1 x2)) -∗ K ⟨⟩))
      ⊢ wp frame (wpE (defs₀ (F := F)) Variants.none c none) E (cc0__mm_bias_kernel arg0 harg0 arg1 harg1 arg2 harg2 arg3 harg3) K := by
  simp only [cc0__mm_bias_kernel_eq_skeleton]; unfold cc0__mm_bias_kernel_skel
  unfold owns
  iintro ⟨⟨%f0, %hf0, H0⟩, ⟨%f1, %hf1, H1⟩, ⟨%f2, %hf2, H2⟩, ⟨%y, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The body obligation of pipeline 0 -/

section Obligation

variable (O : CellTallies nD τ sig (HIx 1)) (W₀ : Waits sig (HIx 1)) (d : Dev nD)
  (A : (w : Fin cfg0.W) → Buf (Elt F) ((cfg0.win w).arr.view.loc (d.tc : Thread nD τ)))

theorem after0_0 (t : Fin cfg0.N) : (dat0 O W₀ d A).after 0 t = iblk0 d A 0 t := by dsimp only [dat0]
theorem after0_1 (t : Fin cfg0.N) : (dat0 O W₀ d A).after 1 t = iblk0 d A 1 t := by dsimp only [dat0]
theorem after0_2 (t : Fin cfg0.N) : (dat0 O W₀ d A).after 2 t = iblk0 d A 2 t := by dsimp only [dat0]
theorem after0_3 (t : Fin cfg0.N) : (dat0 O W₀ d A).after 3 t = out0 (iblk0 d A 0 t) (iblk0 d A 1 t) (iblk0 d A 2 t) := by dsimp only [dat0]

/-- Each input's staging buffer holds its block when the body runs. -/
theorem before0_0 (t : Fin cfg0.N) (x) : (dat0 O W₀ d A).before 0 t x = iblk0 d A 0 t :=
  ((dat0 O W₀ d A).before_in_eq_fetched 0 rfl (fun _ => rfl) (fun _ _ _ => rfl) (fun t => by rw [after0_0]; unfold Dat.blockOf iblk0; try rfl) t x).trans
    (by unfold Dat.fetched Dat.blockOf iblk0; try rfl)
theorem before0_1 (t : Fin cfg0.N) (x) : (dat0 O W₀ d A).before 1 t x = iblk0 d A 1 t :=
  ((dat0 O W₀ d A).before_in_eq_fetched 1 rfl (fun _ => rfl) (fun _ _ _ => rfl) (fun t => by rw [after0_1]; unfold Dat.blockOf iblk0; try rfl) t x).trans
    (by unfold Dat.fetched Dat.blockOf iblk0; try rfl)
theorem before0_2 (t : Fin cfg0.N) (x) : (dat0 O W₀ d A).before 2 t x = iblk0 d A 2 t :=
  ((dat0 O W₀ d A).before_in_eq_fetched 2 rfl (fun _ => rfl) (fun _ _ _ => rfl) (fun t => by rw [after0_2]; unfold Dat.blockOf iblk0; try rfl) t x).trans
    (by unfold Dat.fetched Dat.blockOf iblk0; try rfl)

/-- What the body is called with at point `t`, -/
def bodyPre0 (t : Fin cfg0.N) : sProp 𝕄 :=
  iprop((dat0 O W₀ d A).Φ t.castSucc ∗ (dat0 O W₀ d A).owesAt none t.castSucc
    ∗ (∃ x, owns (d : Thread nD τ) (st0_0 t) fullShare ((dat0 O W₀ d A).before 0 t x))
    ∗ (∃ x, owns (d : Thread nD τ) (st0_1 t) fullShare ((dat0 O W₀ d A).before 1 t x))
    ∗ (∃ x, owns (d : Thread nD τ) (st0_2 t) fullShare ((dat0 O W₀ d A).before 2 t x))
    ∗ (∃ x, owns (d : Thread nD τ) (st0_3 t) fullShare ((dat0 O W₀ d A).before 3 t x)))

/-- and what it returns. -/
def bodyPost0 (t : Fin cfg0.N) : sProp 𝕄 :=
  iprop((dat0 O W₀ d A).Φ t.succ ∗ (dat0 O W₀ d A).owesAt none t.succ
    ∗ owns (d : Thread nD τ) (st0_0 t) fullShare ((dat0 O W₀ d A).after 0 t)
    ∗ owns (d : Thread nD τ) (st0_1 t) fullShare ((dat0 O W₀ d A).after 1 t)
    ∗ owns (d : Thread nD τ) (st0_2 t) fullShare ((dat0 O W₀ d A).after 2 t)
    ∗ owns (d : Thread nD τ) (st0_3 t) fullShare ((dat0 O W₀ d A).after 3 t))

/-- The body at the point: the inputs' buffers hold their blocks, the invariant and what the core owes pass through unread. -/
theorem sound_body0 (t : Fin cfg0.N) :
    bodyPre0 O W₀ d A t ⊢ wp frame (wpE (defs₀ (F := F)) Variants.none d none) Set.univ (bodyAt0 t) (fun _ => bodyPost0 O W₀ d A t) := by
  unfold bodyPre0 bodyPost0 bodyAt0
  simp only [before0_0, before0_1, before0_2]
  rw [show (dat0 O W₀ d A).Φ t.succ = (dat0 O W₀ d A).Φ t.castSucc from rfl,
    show (dat0 O W₀ d A).owesAt none t.succ = (dat0 O W₀ d A).owesAt none t.castSucc from rfl,
    after0_0, after0_1, after0_2, after0_3]
  iintro ⟨HΦ, Ho, ⟨%x0, H0⟩, ⟨%x1, H1⟩, ⟨%x2, H2⟩, ⟨%x3, H3⟩⟩
  iapply (sound_kernel0 d Set.univ _ _ _ _ _ _ _ _ (iblk0 d A 0 t) (iblk0 d A 1 t) (iblk0 d A 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 : BodyObligation (dat0 (F := F) O W₀ d A) (defs₀ (F := F)) Variants.none none Set.univ := fun t => by
  rw [bigSep_W0, bigSep_W0]
  exact sound_body0 O W₀ d A t

end Obligation

end Cert.Proof.Kernel

end
-- ==== Proof.Kernel.Reg0.lean ====
/-
  Pipeline 0 as a kernel region of @main entered while the TensorCore owes other threads a constant tally: the
  region's record for the library's region rule, and the rule applied — from the region boundary, the pipeline's
  staging cells' launch state and duty tokens, the four arrays whole, and what the core owes, the region's call
  runs to the boundary, the three inputs unchanged and the result at what the single point's write-back leaves.
-/
import proofs.«210904_g42554535969575_cont_8to1_b_1627_27_alg».proof.Proof.Kernel.Reg0Body

set_option maxRecDepth 16384

noncomputable section

namespace Cert.Proof.Kernel

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Region

variable (O : CellTallies nD τ sig (HIx 1)) (hO : ∀ g, O g none = 0) (W₀ : Waits sig (HIx 1))

/-- Arbitrary contents, for the pipeline that is not being entered. -/
def junk {ℓ : Loc nD τ sig} : Buf (Elt F) ℓ := Classical.arbitrary _

/-- The proof data family when region 0 is entered at the arrays' contents `A`. -/
def pdatsA (A : (c : Dev nD) → (w : Fin cfg0.W) → Buf (Elt F) ((cfg0.win w).arr.view.loc (c.tc : Thread nD τ))) :
    (p : Fin 2) → (c : Dev nD) → Dat τ (Elt F) (HIx 1) ℕ UU ℕ (Pipeline.pin (pcfgs (F := F)) adm p) c
  | ⟨0, _⟩ => fun c => dat0 O W₀ c (A c)
  | ⟨1, _⟩ => fun c => dat1 O W₀ c (fun _ => junk)

/-- The four arrays of pipeline 0 whole at contents `X`. -/
def arrs0 (c : Dev nD) (X : (w : Fin cfg0.W) → Buf (Elt F) ((cfg0.win w).arr.view.loc (c.tc : Thread nD τ))) : sProp 𝕄 :=
  iprop((((c : Thread nD τ).loc main_arg0) ↦{fullShare} X 0) ∗ (((c : Thread nD τ).loc main_arg4) ↦{fullShare} X 1)
    ∗ (((c : Thread nD τ).loc main_v0) ↦{fullShare} X 2) ∗ (((c : Thread nD τ).loc main_v1) ↦{fullShare} X 3))

variable (A : (c : Dev nD) → (w : Fin cfg0.W) → Buf (Elt F) ((cfg0.win w).arr.view.loc (c.tc : Thread nD τ)))

set_option backward.isDefEq.respectTransparency.types false in
/-- REGION 0. -/
def reg0 : Pipeline.RegionSeg (pcfgs (F := F)) adm (pdatsA O W₀ A) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 O W₀ c (A c)).loose
  hwaits c := Pipeline.cellsWaits_intro (Pipeline.pin (pcfgs (F := F)) adm) (pdatsA O W₀ A) none 0 c
    fun w s t => (K (F := F)).mayWait_none _ hO
  pre c := iprop(arrs0 c (A c) ∗ owes (c : Thread nD τ) O W₀)
  post c := iprop(arrs0 c ((pdatsA O W₀ A 0 c).arrAt · cfg0.N) ∗ ∃ W', ⌜∀ p ∈ W', p ∈ W₀ ∨ p.2 = none⌝ ∗ owes (c : Thread nD τ) O W')
  X _ := iprop(emp)
  Y _ := iprop(emp)
  Z _ := iprop(emp)
  hentry c := by
    rw [Pipeline.ownSems0_none, Pipeline.arrays_eq (Pipeline.pin (pcfgs (F := F)) adm) (pdatsA O W₀ A) 0 c launch0.arr_whole
      ((pdatsA O W₀ A 0 c).share_full fun _ => rfl), bigSep_W0]
    unfold arrs0
    iintro ⟨⟨⟨H0, H1, H2, H3⟩, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W₀; isplitr; · ipureintro; exact fun _ h => Or.inl h
      iexact HO
    isplitr <;> iempintro
  hin c := by
    rw [show (pdatsA O W₀ A 0 c).Φ 0 = Pipeline.scopedRest spec0 c from rfl]
    iintro ⟨-, -, Hr⟩
    iexact Hr
  hout c := by
    rw [Pipeline.ownSems0_none, show (pdatsA O W₀ A 0 c).Φ (Fin.last _) = Pipeline.scopedRest spec0 c from rfl]
    iintro Hr
    isplitr; · iempintro
    isplitr; · iempintro
    iexact Hr
  hexit c := by
    rw [Pipeline.arrays_eq (Pipeline.pin (pcfgs (F := F)) adm) (pdatsA O W₀ A) 0 c launch0.arr_whole
      ((pdatsA O W₀ A 0 c).share_full fun _ => rfl), bigSep_W0]
    unfold arrs0
    iintro ⟨⟨H0, H1, H2, H3⟩, HO, -, -⟩
    imodintro
    isplitl [H0 H1 H2 H3]
    · isplitl [H0]; · iexact H0
      isplitl [H1]; · iexact H1
      isplitl [H2]; · iexact H2
      iexact H3
    unfold Pipeline.Dat.owesAt Pipeline.owesWithin
    icases HO with ⟨%W', %hW', HO⟩
    iexists W'; isplitr
    · ipureintro
      intro p hp
      rcases hW' (Finset.mem_coe.mpr hp) with h | ⟨w, s, rfl⟩
      · exact Or.inl (Finset.mem_coe.mp h)
      · exact Or.inr rfl
    iexact HO

/-- Pipeline `p`'s region call, in the pipelines' own signature. -/
abbrev callP (p : Fin 2) : Prog (TpuEff nD τ sig (Elt F) (ΛP (F := F)) .tc) PUnit :=
  .op (.customCall (Pipeline.entry p) ()) fun _ => .ret PUnit.unit

/-- The region's call in the SparseCore program's signature is the pipeline's own call, lifted. -/
theorem liftCall (p : Fin 2) :
    (SparseCore.liftProg (Q := 1) (callP (F := F) p) : Prog (TpuEff nD τ sig (Elt F) (SparseCore.Sig (ΛP (F := F)) 1) .tc) PUnit)
      = Prog.lift (.customCall (SparseCore.inner (Pipeline.entry p)) ()) := rfl

include hO in
set_option backward.isDefEq.respectTransparency.types false in
/-- REGION 0 ENTERED from @main on the TensorCore of device `d`, the core owing `O` with recorded pairs `W₀`. -/
theorem enter0 (d : Dev nD) (Φ : PUnit → sProp 𝕄) :
    iprop(boundary (SparseCore.T d) ∗ levAts (K (F := F)).L (K (F := F)).lev
        ∗ (Pipeline.cellsGhost (nD := nD) (τ := τ) cfgs (EP (F := F)) 0 d ∗ Pipeline.toksInit (nD := nD) (τ := τ) cfgs (EP (F := F)) 0 d)
        ∗ owes (SparseCore.T d) O W₀ ∗ arrs0 d (A d)
        ∗ (iprop(boundary (SparseCore.T d) ∗ arrs0 d ((pdatsA O W₀ A 0 d).arrAt · cfg0.N)
              ∗ ∃ W', ⌜∀ p ∈ W', p ∈ W₀ ∨ p.2 = none⌝ ∗ owes (SparseCore.T d) O W')
            -∗ Φ ⟨⟩))
      ⊢ wp frame (wpE ((K (F := F)).defs (D (F := F))) 𝒱 (SparseCore.T d) none) Set.univ
          (Prog.lift (.customCall (SparseCore.inner (Pipeline.entry 0)) ())) Φ := by
  rw [← liftCall]
  have h1 := Pipeline.RegionSeg.wp (pcfgs (F := F)) adm (pdatsA O W₀ A) (none : HIx 1) cellOf_inj (EP (F := F)) defs₀ 𝒱₀
    (K (F := F)).L (K (F := F)).lev (reg0 O hO W₀ A) d none (fun _ h => nomatch h) (α := PUnit) (fun _ => Prog.ret PUnit.unit)
    (fun _ => iprop(boundary (SparseCore.T d) ∗ arrs0 d ((pdatsA O W₀ A 0 d).arrAt · cfg0.N)
              ∗ ∃ W', ⌜∀ p ∈ W', p ∈ W₀ ∨ p.2 = none⌝ ∗ owes (SparseCore.T d) O W'))
  have h2 := (K (F := F)).wp_liftProg (D (F := F)) 𝒱 (SparseCore.T d) Set.univ none
    (callP (F := F) 0) (fun _ => iprop(boundary (SparseCore.T d) ∗ arrs0 d ((pdatsA O W₀ A 0 d).arrAt · cfg0.N)
              ∗ ∃ W', ⌜∀ p ∈ W', p ∈ W₀ ∨ p.2 = none⌝ ∗ owes (SparseCore.T d) O W'))
  rw [show (reg0 O hO W₀ A).post d = iprop(arrs0 d ((pdatsA O W₀ A 0 d).arrAt · cfg0.N)
      ∗ ∃ W', ⌜∀ p ∈ W', p ∈ W₀ ∨ p.2 = none⌝ ∗ owes (SparseCore.T d) O W') from rfl,
    show (reg0 O hO W₀ A).pre d = iprop(arrs0 d (A d) ∗ owes (SparseCore.T d) O W₀) from rfl] at h1
  refine (?_ : _ ⊢ iprop(wp frame (wpE ((K (F := F)).defs (D (F := F))) 𝒱 (SparseCore.T d) none) Set.univ
      (SparseCore.liftProg (Q := 1) (callP (F := F) 0)) (fun _ => iprop(boundary (SparseCore.T d) ∗ arrs0 d ((pdatsA O W₀ A 0 d).arrAt · cfg0.N)
              ∗ ∃ W', ⌜∀ p ∈ W', p ∈ W₀ ∨ p.2 = none⌝ ∗ owes (SparseCore.T d) O W'))
      ∗ (∀ a, iprop(boundary (SparseCore.T d) ∗ arrs0 d ((pdatsA O W₀ A 0 d).arrAt · cfg0.N)
              ∗ ∃ W', ⌜∀ p ∈ W', p ∈ W₀ ∨ p.2 = none⌝ ∗ owes (SparseCore.T d) O W') -∗ Φ a))).trans
    (wp_wand_r _ _ _)
  iintro ⟨Hb, Hlev, ⟨Hg, Ht⟩, HO, Ha, Hk⟩
  isplitr [Hk]
  · iapply h2
    iapply h1
    isplitr
    · iintro H
      iapply (le_wp_ret _ _ _ _ _)
      iexact H
    isplitl [Hb]; · iexact Hb
    isplitl [Ha HO]
    · isplitl [Ha]; · iexact Ha
      iexact HO
    isplitl [Hlev]; · iexact Hlev
    isplitl [Hg]; · iexact Hg
    iexact Ht
  · iintro %a
    iexact Hk

end Region

end Cert.Proof.Kernel

end
-- ==== Proof.Kernel.Reg1Body.lean ====
/-
  Pipeline 1's body (the residual add of a matmul) at a point of its grid of 40: from the block of gathered rows,
  the block of edge features and the weights in their staging buffers, and the result's buffer at anything, the body
  loads the right half of the weights and the two blocks, and stores G-block + E-block · W[:, 128:256]ᵀ over the whole
  result buffer; nothing else is touched.
-/
import proofs.«210904_g42554535969575_cont_8to1_b_1627_27_alg».proof.Proof.Kernel.RegData

set_option maxRecDepth 16384

noncomputable section

namespace Cert.Proof.Kernel

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option maxHeartbeats 1000000 in
/-- The body on whole staging memrefs: the inputs' at `x0`, `x1`, `x2` stay, the result's ends at `out1 x0 x1 x2`. -/
theorem sound_kernel2 (c : Dev nD) (E : Set ℕ) (i : grid2.Coords) (arg1 : Memref sig .tc .vmem S8000x128 .f32) (harg1 : arg1.IsWhole)
    (arg2 : Memref sig .tc .vmem S8000x128 .f32) (harg2 : arg2.IsWhole) (arg3 : Memref sig .tc .vmem S128x256 .f32) (harg3 : arg3.IsWhole)
    (arg4 : Memref sig .tc .vmem S8000x128 .f32) (harg4 : arg4.IsWhole)
    (x0 : Vec F S8000x128 .f32) (x1 : Vec F S8000x128 .f32) (x2 : Vec F S128x256 .f32) (K : PUnit → sProp 𝕄) :
    iprop(owns (c : Thread nD τ) arg1 fullShare x0 ∗ owns (c : Thread nD τ) arg2 fullShare x1 ∗ owns (c : Thread nD τ) arg3 fullShare x2
        ∗ (∃ y, owns (c : Thread nD τ) arg4 fullShare y)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc2__add_mm_kernel i arg1 harg1 arg2 harg2 arg3 harg3 arg4 harg4) K := by
  simp only [cc2__add_mm_kernel_eq_skeleton]; unfold cc2__add_mm_kernel_skel
  unfold owns
  iintro ⟨⟨%f0, %hf0, H0⟩, ⟨%f1, %hf1, H1⟩, ⟨%f2, %hf2, H2⟩, ⟨%y, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The body obligation of pipeline 1 -/

section Obligation

variable (O : CellTallies nD τ sig (HIx 1)) (W₀ : Waits sig (HIx 1)) (d : Dev nD)
  (A : (w : Fin cfg2.W) → Buf (Elt F) ((cfg2.win w).arr.view.loc (d.tc : Thread nD τ)))

theorem after1_0 (t : Fin cfg2.N) : (dat1 O W₀ d A).after 0 t = iblk1 d A 0 t := by dsimp only [dat1]
theorem after1_1 (t : Fin cfg2.N) : (dat1 O W₀ d A).after 1 t = iblk1 d A 1 t := by dsimp only [dat1]
theorem after1_2 (t : Fin cfg2.N) : (dat1 O W₀ d A).after 2 t = iblk1 d A 2 t := by dsimp only [dat1]
theorem after1_3 (t : Fin cfg2.N) : (dat1 O W₀ d A).after 3 t = out1 (iblk1 d A 0 t) (iblk1 d A 1 t) (iblk1 d A 2 t) := by dsimp only [dat1]

/-- Each input's current staging buffer holds its block when the body runs, fetched at that point or not. -/
theorem before1_0 (t : Fin cfg2.N) (x) : (dat1 O W₀ d A).before 0 t x = iblk1 d A 0 t :=
  ((dat1 O W₀ d A).before_in_eq_fetched 0 rfl (fun _ => rfl) (fun _ _ _ => rfl) (fun t => by rw [after1_0]; unfold Dat.blockOf iblk1; try rfl) t x).trans
    (by unfold Dat.fetched Dat.blockOf iblk1; try rfl)
theorem before1_1 (t : Fin cfg2.N) (x) : (dat1 O W₀ d A).before 1 t x = iblk1 d A 1 t :=
  ((dat1 O W₀ d A).before_in_eq_fetched 1 rfl (fun _ => rfl) (fun _ _ _ => rfl) (fun t => by rw [after1_1]; unfold Dat.blockOf iblk1; try rfl) t x).trans
    (by unfold Dat.fetched Dat.blockOf iblk1; try rfl)
theorem before1_2 (t : Fin cfg2.N) (x) : (dat1 O W₀ d A).before 2 t x = iblk1 d A 2 t :=
  ((dat1 O W₀ d A).before_in_eq_fetched 2 rfl (fun _ => rfl) (fun _ _ _ => rfl) (fun t => by rw [after1_2]; unfold Dat.blockOf iblk1; try rfl) t x).trans
    (by unfold Dat.fetched Dat.blockOf iblk1; try rfl)

/-- What the body is called with at point `t`, -/
def bodyPre1 (t : Fin cfg2.N) : sProp 𝕄 :=
  iprop((dat1 O W₀ d A).Φ t.castSucc ∗ (dat1 O W₀ d A).owesAt none t.castSucc
    ∗ (∃ x, owns (d : Thread nD τ) (st2_0 t) fullShare ((dat1 O W₀ d A).before 0 t x))
    ∗ (∃ x, owns (d : Thread nD τ) (st2_1 t) fullShare ((dat1 O W₀ d A).before 1 t x))
    ∗ (∃ x, owns (d : Thread nD τ) (st2_2 t) fullShare ((dat1 O W₀ d A).before 2 t x))
    ∗ (∃ x, owns (d : Thread nD τ) (st2_3 t) fullShare ((dat1 O W₀ d A).before 3 t x)))

/-- and what it returns. -/
def bodyPost1 (t : Fin cfg2.N) : sProp 𝕄 :=
  iprop((dat1 O W₀ d A).Φ t.succ ∗ (dat1 O W₀ d A).owesAt none t.succ
    ∗ owns (d : Thread nD τ) (st2_0 t) fullShare ((dat1 O W₀ d A).after 0 t)
    ∗ owns (d : Thread nD τ) (st2_1 t) fullShare ((dat1 O W₀ d A).after 1 t)
    ∗ owns (d : Thread nD τ) (st2_2 t) fullShare ((dat1 O W₀ d A).after 2 t)
    ∗ owns (d : Thread nD τ) (st2_3 t) fullShare ((dat1 O W₀ d A).after 3 t))

/-- The body at any point: the inputs' buffers hold their blocks, the invariant and what the core owes pass through unread. -/
theorem sound_body1 (t : Fin cfg2.N) :
    bodyPre1 O W₀ d A t ⊢ wp frame (wpE (defs₀ (F := F)) Variants.none d none) Set.univ (bodyAt2 t) (fun _ => bodyPost1 O W₀ d A t) := by
  unfold bodyPre1 bodyPost1 bodyAt2
  simp only [before1_0, before1_1, before1_2]
  rw [show (dat1 O W₀ d A).Φ t.succ = (dat1 O W₀ d A).Φ t.castSucc from rfl,
    show (dat1 O W₀ d A).owesAt none t.succ = (dat1 O W₀ d A).owesAt none t.castSucc from rfl,
    after1_0, after1_1, after1_2, after1_3]
  iintro ⟨HΦ, Ho, ⟨%x0, H0⟩, ⟨%x1, H1⟩, ⟨%x2, H2⟩, ⟨%x3, H3⟩⟩
  iapply (sound_kernel2 d Set.univ _ _ _ _ _ _ _ _ _ (iblk1 d A 0 t) (iblk1 d A 1 t) (iblk1 d A 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 : BodyObligation (dat1 (F := F) O W₀ d A) (defs₀ (F := F)) Variants.none none Set.univ := fun t => by
  rw [bigSep_W2, bigSep_W2]
  exact sound_body1 O W₀ d A t

end Obligation

end Cert.Proof.Kernel

end
-- ==== Proof.Kernel.Reg1.lean ====
/-
  Pipeline 1 as a kernel region of @main entered while the TensorCore owes other threads a constant tally: the
  region's record for the library's region rule, and the rule applied — from the region boundary, the pipeline's
  staging cells' launch state and duty tokens, the four arrays whole, and what the core owes, the region's call
  runs to the boundary, the three inputs unchanged and the result at what the 40 points' write-backs leave.
-/
import proofs.«210904_g42554535969575_cont_8to1_b_1627_27_alg».proof.Proof.Kernel.Reg1Body
import proofs.«210904_g42554535969575_cont_8to1_b_1627_27_alg».proof.Proof.Kernel.Reg0

set_option maxRecDepth 16384

noncomputable section

namespace Cert.Proof.Kernel

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Region

variable (O : CellTallies nD τ sig (HIx 1)) (hO : ∀ g, O g none = 0) (W₀ : Waits sig (HIx 1))

/-- The proof data family when region 1 is entered at the arrays' contents `A`. -/
def pdatsB (A : (c : Dev nD) → (w : Fin cfg2.W) → Buf (Elt F) ((cfg2.win w).arr.view.loc (c.tc : Thread nD τ))) :
    (p : Fin 2) → (c : Dev nD) → Dat τ (Elt F) (HIx 1) ℕ UU ℕ (Pipeline.pin (pcfgs (F := F)) adm p) c
  | ⟨0, _⟩ => fun c => dat0 O W₀ c (fun _ => junk)
  | ⟨1, _⟩ => fun c => dat1 O W₀ c (A c)

/-- The four arrays of pipeline 1 whole at contents `X`. -/
def arrs1 (c : Dev nD) (X : (w : Fin cfg2.W) → Buf (Elt F) ((cfg2.win w).arr.view.loc (c.tc : Thread nD τ))) : sProp 𝕄 :=
  iprop((((c : Thread nD τ).loc main_v2) ↦{fullShare} X 0) ∗ (((c : Thread nD τ).loc main_arg1) ↦{fullShare} X 1)
    ∗ (((c : Thread nD τ).loc main_arg4) ↦{fullShare} X 2) ∗ (((c : Thread nD τ).loc main_v3) ↦{fullShare} X 3))

variable (A : (c : Dev nD) → (w : Fin cfg2.W) → Buf (Elt F) ((cfg2.win w).arr.view.loc (c.tc : Thread nD τ)))

set_option backward.isDefEq.respectTransparency.types false in
/-- REGION 1. -/
def reg1 : Pipeline.RegionSeg (pcfgs (F := F)) adm (pdatsB O W₀ A) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation1 O W₀ c (A c)).loose
  hwaits c := Pipeline.cellsWaits_intro (Pipeline.pin (pcfgs (F := F)) adm) (pdatsB O W₀ A) none 1 c
    fun w s t => (K (F := F)).mayWait_none _ hO
  pre c := iprop(arrs1 c (A c) ∗ owes (c : Thread nD τ) O W₀)
  post c := iprop(arrs1 c ((pdatsB O W₀ A 1 c).arrAt · cfg2.N) ∗ ∃ W', ⌜∀ p ∈ W', p ∈ W₀ ∨ p.2 = none⌝ ∗ owes (c : Thread nD τ) O W')
  X _ := iprop(emp)
  Y _ := iprop(emp)
  Z _ := iprop(emp)
  hentry c := by
    rw [Pipeline.ownSems0_none, Pipeline.arrays_eq (Pipeline.pin (pcfgs (F := F)) adm) (pdatsB O W₀ A) 1 c launch2.arr_whole
      ((pdatsB O W₀ A 1 c).share_full fun _ => rfl), bigSep_W2]
    unfold arrs1
    iintro ⟨⟨⟨H0, H1, H2, H3⟩, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W₀; isplitr; · ipureintro; exact fun _ h => Or.inl h
      iexact HO
    isplitr <;> iempintro
  hin c := by
    rw [show (pdatsB O W₀ A 1 c).Φ 0 = Pipeline.scopedRest spec2 c from rfl]
    iintro ⟨-, -, Hr⟩
    iexact Hr
  hout c := by
    rw [Pipeline.ownSems0_none, show (pdatsB O W₀ A 1 c).Φ (Fin.last _) = Pipeline.scopedRest spec2 c from rfl]
    iintro Hr
    isplitr; · iempintro
    isplitr; · iempintro
    iexact Hr
  hexit c := by
    rw [Pipeline.arrays_eq (Pipeline.pin (pcfgs (F := F)) adm) (pdatsB O W₀ A) 1 c launch2.arr_whole
      ((pdatsB O W₀ A 1 c).share_full fun _ => rfl), bigSep_W2]
    unfold arrs1
    iintro ⟨⟨H0, H1, H2, H3⟩, HO, -, -⟩
    imodintro
    isplitl [H0 H1 H2 H3]
    · isplitl [H0]; · iexact H0
      isplitl [H1]; · iexact H1
      isplitl [H2]; · iexact H2
      iexact H3
    unfold Pipeline.Dat.owesAt Pipeline.owesWithin
    icases HO with ⟨%W', %hW', HO⟩
    iexists W'; isplitr
    · ipureintro
      intro p hp
      rcases hW' (Finset.mem_coe.mpr hp) with h | ⟨w, s, rfl⟩
      · exact Or.inl (Finset.mem_coe.mp h)
      · exact Or.inr rfl
    iexact HO

include hO in
set_option backward.isDefEq.respectTransparency.types false in
/-- REGION 1 ENTERED from @main on the TensorCore of device `d`, the core owing `O` with recorded pairs `W₀`. -/
theorem enter1 (d : Dev nD) (Φ : PUnit → sProp 𝕄) :
    iprop(boundary (SparseCore.T d) ∗ levAts (K (F := F)).L (K (F := F)).lev
        ∗ (Pipeline.cellsGhost (nD := nD) (τ := τ) cfgs (EP (F := F)) 1 d ∗ Pipeline.toksInit (nD := nD) (τ := τ) cfgs (EP (F := F)) 1 d)
        ∗ owes (SparseCore.T d) O W₀ ∗ arrs1 d (A d)
        ∗ (iprop(boundary (SparseCore.T d) ∗ arrs1 d ((pdatsB O W₀ A 1 d).arrAt · cfg2.N)
              ∗ ∃ W', ⌜∀ p ∈ W', p ∈ W₀ ∨ p.2 = none⌝ ∗ owes (SparseCore.T d) O W')
            -∗ Φ ⟨⟩))
      ⊢ wp frame (wpE ((K (F := F)).defs (D (F := F))) 𝒱 (SparseCore.T d) none) Set.univ
          (Prog.lift (.customCall (SparseCore.inner (Pipeline.entry 1)) ())) Φ := by
  rw [← liftCall]
  have h1 := Pipeline.RegionSeg.wp (pcfgs (F := F)) adm (pdatsB O W₀ A) (none : HIx 1) cellOf_inj (EP (F := F)) defs₀ 𝒱₀
    (K (F := F)).L (K (F := F)).lev (reg1 O hO W₀ A) d none (fun _ h => nomatch h) (α := PUnit) (fun _ => Prog.ret PUnit.unit)
    (fun _ => iprop(boundary (SparseCore.T d) ∗ arrs1 d ((pdatsB O W₀ A 1 d).arrAt · cfg2.N)
              ∗ ∃ W', ⌜∀ p ∈ W', p ∈ W₀ ∨ p.2 = none⌝ ∗ owes (SparseCore.T d) O W'))
  have h2 := (K (F := F)).wp_liftProg (D (F := F)) 𝒱 (SparseCore.T d) Set.univ none
    (callP (F := F) 1) (fun _ => iprop(boundary (SparseCore.T d) ∗ arrs1 d ((pdatsB O W₀ A 1 d).arrAt · cfg2.N)
              ∗ ∃ W', ⌜∀ p ∈ W', p ∈ W₀ ∨ p.2 = none⌝ ∗ owes (SparseCore.T d) O W'))
  rw [show (reg1 O hO W₀ A).post d = iprop(arrs1 d ((pdatsB O W₀ A 1 d).arrAt · cfg2.N)
      ∗ ∃ W', ⌜∀ p ∈ W', p ∈ W₀ ∨ p.2 = none⌝ ∗ owes (SparseCore.T d) O W') from rfl,
    show (reg1 O hO W₀ A).pre d = iprop(arrs1 d (A d) ∗ owes (SparseCore.T d) O W₀) from rfl] at h1
  refine (?_ : _ ⊢ iprop(wp frame (wpE ((K (F := F)).defs (D (F := F))) 𝒱 (SparseCore.T d) none) Set.univ
      (SparseCore.liftProg (Q := 1) (callP (F := F) 1)) (fun _ => iprop(boundary (SparseCore.T d) ∗ arrs1 d ((pdatsB O W₀ A 1 d).arrAt · cfg2.N)
              ∗ ∃ W', ⌜∀ p ∈ W', p ∈ W₀ ∨ p.2 = none⌝ ∗ owes (SparseCore.T d) O W'))
      ∗ (∀ a, iprop(boundary (SparseCore.T d) ∗ arrs1 d ((pdatsB O W₀ A 1 d).arrAt · cfg2.N)
              ∗ ∃ W', ⌜∀ p ∈ W', p ∈ W₀ ∨ p.2 = none⌝ ∗ owes (SparseCore.T d) O W') -∗ Φ a))).trans
    (wp_wand_r _ _ _)
  iintro ⟨Hb, Hlev, ⟨Hg, Ht⟩, HO, Ha, Hk⟩
  isplitr [Hk]
  · iapply h2
    iapply h1
    isplitr
    · iintro H
      iapply (le_wp_ret _ _ _ _ _)
      iexact H
    isplitl [Hb]; · iexact Hb
    isplitl [Ha HO]
    · isplitl [Ha]; · iexact Ha
      iexact HO
    isplitl [Hlev]; · iexact Hlev
    isplitl [Hg]; · iexact Hg
    iexact Ht
  · iintro %a
    iexact Hk

end Region

end Cert.Proof.Kernel

end
-- ==== Proof.Kernel.RegVal.lean ====
/-
  What the two pipelines of the kernel's @main leave in their result arrays, as whole-array functions of the arrays
  they read at entry.

  Pipeline 0 has one point whose blocks are the whole arrays, so its result array ends at the body's store of the
  three whole inputs. Pipeline 1's point t reads rows [8000 t, 8000 (t+1)) of the gathered rows and of the edge
  features and writes the same rows of the result: the 40 blocks tile the 320000 rows, so row r of the result is row
  r mod 8000 of the body's store of block r / 8000 of the two row arrays and the weights.
-/
import proofs.«210904_g42554535969575_cont_8to1_b_1627_27_alg».proof.Proof.Kernel.Reg0Body
import proofs.«210904_g42554535969575_cont_8to1_b_1627_27_alg».proof.Proof.Kernel.Reg1Body
import Idealize.ShloMosaic.Lib.Pipeline.Value
import Idealize.ShloMosaic.Lib.ValueIdx

set_option maxRecDepth 16384

noncomputable section

namespace Cert.Proof.Kernel

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

attribute [local irreducible] out0 out1

theorem hz2 : (![0, 0] : Fin 2 → Nat) = fun _ => 0 := funext fun a => by fin_cases a <;> rfl

/-! ## Pipeline 0 -/

/-- The node table after region 0: the body's store of the features, the weights and the bias row, each whole. -/
abbrev tblVal (H : Vec F S10000x128 .f32) (W : Vec F S128x256 .f32) (b : Vec F S1x128 .f32) : Vec F S10000x128 .f32 :=
  out0 H W b

/-- Every window of pipeline 0 sits at block index 0 on both axes, at its one point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- A whole-array window's block at the one point is the array itself. -/
theorem read0_0 (t : Fin cfg0.N) (X : Vec F S10000x128 .f32) : ((cfg0.win 0).blk t).view.read (Elt F) X = X := by
  obtain ⟨a0, a1, b0, b1, c0, c1, d0, d1⟩ := idx0 t
  funext j
  show X (((cfg0.win 0).blk t).view.emb j) = X j
  congr 1; funext a; apply Fin.ext
  match a with
  | ⟨0, _⟩ => show win0_0.index t (0 : Fin 2) * 10000 + 1 * (j 0).val = (j 0).val; omega
  | ⟨1, _⟩ => show win0_0.index t (1 : Fin 2) * 128 + 1 * (j 1).val = (j 1).val; omega
theorem read0_1 (t : Fin cfg0.N) (X : Vec F S128x256 .f32) : ((cfg0.win 1).blk t).view.read (Elt F) X = X := by
  obtain ⟨a0, a1, b0, b1, c0, c1, d0, d1⟩ := idx0 t
  funext j
  show X (((cfg0.win 1).blk t).view.emb j) = X j
  congr 1; funext a; apply Fin.ext
  match a with
  | ⟨0, _⟩ => show win0_1.index t (0 : Fin 2) * 128 + 1 * (j 0).val = (j 0).val; omega
  | ⟨1, _⟩ => show win0_1.index t (1 : Fin 2) * 256 + 1 * (j 1).val = (j 1).val; omega
theorem read0_2 (t : Fin cfg0.N) (X : Vec F S1x128 .f32) : ((cfg0.win 2).blk t).view.read (Elt F) X = X := by
  obtain ⟨a0, a1, b0, b1, c0, c1, d0, d1⟩ := idx0 t
  funext j
  show X (((cfg0.win 2).blk t).view.emb j) = X j
  congr 1; funext a; apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega
/-- What the result's buffer holds is written back whole, where the block of the array is the array. -/
theorem cut0_3 (t : Fin cfg0.N) (X : Vec F S10000x128 .f32) : (cfg0.win 3).cut (grid0.coords t) X = ((cfg0.win 3).blk t).view.read (Elt F) X := by
  obtain ⟨a0, a1, b0, b1, c0, c1, d0, d1⟩ := idx0 t
  funext j
  show X j = X (((cfg0.win 3).blk t).view.emb j)
  congr 1; funext a; apply Fin.ext
  match a with
  | ⟨0, _⟩ => show (j 0).val = win0_3.index t (0 : Fin 2) * 10000 + 1 * (j 0).val; omega
  | ⟨1, _⟩ => show (j 1).val = win0_3.index t (1 : Fin 2) * 128 + 1 * (j 1).val; omega

section V0
variable (O : CellTallies nD τ sig (HIx 1)) (W₀ : Waits sig (HIx 1)) (d : Dev nD)
  (A : (w : Fin cfg0.W) → Buf (Elt F) ((cfg0.win w).arr.view.loc (d.tc : Thread nD τ)))

/-- What the one point writes back is the whole of `tblVal` of the entry arrays. -/
theorem flushed0_eq (t : Fin cfg0.N) :
    (dat0 O W₀ d A).flushed 3 t = ((cfg0.win 3).blk t).view.read (Elt F) (tblVal (A 0) (A 1) (A 2)) := by
  show (cfg0.win 3).cut (grid0.coords t) ((dat0 O W₀ d A).after 3 t) = _
  rw [after0_3]
  unfold iblk0
  rw [read0_0 t (A 0), read0_1 t (A 1), read0_2 t (A 2)]
  exact cut0_3 t _

/-- An index of the result array is in the point's block iff each coordinate is in the block's range. -/
theorem mem_blk0 (t : Fin cfg0.N) (i : S10000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v1).slice (win0_3.rect t)).set ↔ _
  rw [View.set_slice_whole, Rect.mem_set_unit]
  exact Iff.rfl

/-- THE RESULT ARRAY after region 0. -/
theorem final0 : (dat0 O W₀ d A).arrAt 3 cfg0.N = tblVal (A 0) (A 1) (A 2) :=
  (dat0 O W₀ d A).arrAt_eq_of_cover 3 _ (fun t _ => flushed0_eq O W₀ d A t) fun i => by
    refine ⟨t0_0, flush0_3 t0_0, ?_⟩
    rw [mem_blk0]
    obtain ⟨a0, a1, b0, b1, c0, c1, d0, d1⟩ := idx0 t0_0
    intro a
    match a with
    | ⟨0, _⟩ => show win0_3.index t0_0 (0 : Fin 2) * 10000 ≤ (i 0).val ∧ (i 0).val < win0_3.index t0_0 (0 : Fin 2) * 10000 + 10000; have h : (i 0).val < 10000 := (i 0).isLt; omega
    | ⟨1, _⟩ => show win0_3.index t0_0 (1 : Fin 2) * 128 ≤ (i 1).val ∧ (i 1).val < win0_3.index t0_0 (1 : Fin 2) * 128 + 128; have h : (i 1).val < 128 := (i 1).isLt; omega

/-- The input arrays are never written. -/
theorem kept0_0 : (dat0 O W₀ d A).arrAt 0 cfg0.N = A 0 := (dat0 O W₀ d A).arrAt_in 0 rfl _
theorem kept0_1 : (dat0 O W₀ d A).arrAt 1 cfg0.N = A 1 := (dat0 O W₀ d A).arrAt_in 1 rfl _
theorem kept0_2 : (dat0 O W₀ d A).arrAt 2 cfg0.N = A 2 := (dat0 O W₀ d A).arrAt_in 2 rfl _

end V0

/-! ## Pipeline 1 -/

/-- Row `n` (taken modulo the extent), column `b` of a 320000×128 array. -/
abbrev rowIx (n : ℕ) (b : Fin 128) : S320000x128.Idx := ix2 (⟨n % 320000, Nat.mod_lt _ (by decide)⟩ : Fin 320000) b

/-- Block `t` of the rows of a 320000×128 array: rows [8000 t, 8000 (t+1)). -/
def rowBlk (X : Vec F S320000x128 .f32) (t : ℕ) : Vec F S8000x128 .f32 :=
  fun j => X (rowIx (8000 * t + (j 0).val) (j 1))

/-- The result after region 1: row `r` is row `r % 8000` of the body's store of block `r / 8000` of the gathered rows, of
    the edge features, and the weights. -/
def outVal (G : Vec F S320000x128 .f32) (E : Vec F S320000x128 .f32) (W : Vec F S128x256 .f32) : Vec F S320000x128 .f32 :=
  fun i => out1 (rowBlk G ((i 0).val / 8000)) (rowBlk E ((i 0).val / 8000)) W
    (ix2 (⟨(i 0).val % 8000, Nat.mod_lt _ (by decide)⟩ : Fin 8000) (i 1))

/-- The block index maps of pipeline 1: the three row windows sit at block `t` of the rows, the weights at block 0. -/
theorem idx1 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt40 (t : Fin cfg2.N) : t.val < 40 := lt_of_lt_of_eq t.isLt N_2

/-- A row window's block at point `t` is block `t` of the rows. -/
theorem read1_0 (t : Fin cfg2.N) (X : Vec F S320000x128 .f32) : ((cfg2.win 0).blk t).view.read (Elt F) X = rowBlk X t.val := by
  obtain ⟨a0, a1, b0, b1, c0, c1, d0, d1⟩ := idx1 t
  have ht := lt40 t
  funext j
  show X (((cfg2.win 0).blk t).view.emb j) = X (rowIx (8000 * t.val + (j 0).val) (j 1))
  congr 1; funext a; apply Fin.ext
  match a with
  | ⟨0, _⟩ => show win2_0.index t (0 : Fin 2) * 8000 + 1 * (j 0).val = (8000 * t.val + (j 0).val) % 320000; have h : (j 0).val < 8000 := (j 0).isLt; omega
  | ⟨1, _⟩ => show win2_0.index t (1 : Fin 2) * 128 + 1 * (j 1).val = (j 1).val; omega
theorem read1_1 (t : Fin cfg2.N) (X : Vec F S320000x128 .f32) : ((cfg2.win 1).blk t).view.read (Elt F) X = rowBlk X t.val := by
  obtain ⟨a0, a1, b0, b1, c0, c1, d0, d1⟩ := idx1 t
  have ht := lt40 t
  funext j
  show X (((cfg2.win 1).blk t).view.emb j) = X (rowIx (8000 * t.val + (j 0).val) (j 1))
  congr 1; funext a; apply Fin.ext
  match a with
  | ⟨0, _⟩ => show win2_1.index t (0 : Fin 2) * 8000 + 1 * (j 0).val = (8000 * t.val + (j 0).val) % 320000; have h : (j 0).val < 8000 := (j 0).isLt; omega
  | ⟨1, _⟩ => show win2_1.index t (1 : Fin 2) * 128 + 1 * (j 1).val = (j 1).val; omega
/-- The weights' window is the whole array at every point. -/
theorem read1_2 (t : Fin cfg2.N) (X : Vec F S128x256 .f32) : ((cfg2.win 2).blk t).view.read (Elt F) X = X := by
  obtain ⟨a0, a1, b0, b1, c0, c1, d0, d1⟩ := idx1 t
  funext j
  show X (((cfg2.win 2).blk t).view.emb j) = X j
  congr 1; funext a; apply Fin.ext
  match a with
  | ⟨0, _⟩ => show win2_2.index t (0 : Fin 2) * 128 + 1 * (j 0).val = (j 0).val; omega
  | ⟨1, _⟩ => show win2_2.index t (1 : Fin 2) * 256 + 1 * (j 1).val = (j 1).val; omega
/-- What the result's buffer holds at point `t` is written back whole onto rows [8000 t, 8000 (t+1)). -/
theorem cut1_3 (t : Fin cfg2.N) (Y : Vec F S8000x128 .f32) (Z : Vec F S320000x128 .f32)
    (h : ∀ j : S8000x128.Idx, Y j = Z (rowIx (8000 * t.val + (j 0).val) (j 1))) :
    (cfg2.win 3).cut (grid2.coords t) Y = ((cfg2.win 3).blk t).view.read (Elt F) Z := by
  obtain ⟨a0, a1, b0, b1, c0, c1, d0, d1⟩ := idx1 t
  have ht := lt40 t
  funext j
  show Y j = Z (((cfg2.win 3).blk t).view.emb j)
  rw [h j]
  congr 1; funext a; apply Fin.ext
  match a with
  | ⟨0, _⟩ => show (8000 * t.val + (j 0).val) % 320000 = win2_3.index t (0 : Fin 2) * 8000 + 1 * (j 0).val; have h : (j 0).val < 8000 := (j 0).isLt; omega
  | ⟨1, _⟩ => show (j 1).val = win2_3.index t (1 : Fin 2) * 128 + 1 * (j 1).val; omega

/-- Row `8000 t + j₀` of `outVal` is row `j₀` of the body's store of block `t`. -/
theorem outVal_blk (G : Vec F S320000x128 .f32) (E : Vec F S320000x128 .f32) (W : Vec F S128x256 .f32) (t : ℕ) (ht : t < 40) (j : S8000x128.Idx) :
    out1 (rowBlk G t) (rowBlk E t) W j = outVal G E W (rowIx (8000 * t + (j 0).val) (j 1)) := by
  have hj0 : (j 0).val < 8000 := (j 0).isLt
  have q : (8000 * t + (j 0).val) % 320000 / 8000 = t := by omega
  have r : (⟨(8000 * t + (j 0).val) % 320000 % 8000, Nat.mod_lt _ (by decide)⟩ : Fin 8000) = j 0 :=
    Fin.ext (by show (8000 * t + (j 0).val) % 320000 % 8000 = (j 0).val; omega)
  unfold outVal
  show _ = out1 (rowBlk G ((8000 * t + (j 0).val) % 320000 / 8000)) (rowBlk E ((8000 * t + (j 0).val) % 320000 / 8000)) W
    (ix2 (⟨(8000 * t + (j 0).val) % 320000 % 8000, Nat.mod_lt _ (by decide)⟩ : Fin 8000) (j 1))
  rw [q, r]
  exact congrArg _ (eq_ix2 j)

section V1
variable (O : CellTallies nD τ sig (HIx 1)) (W₀ : Waits sig (HIx 1)) (d : Dev nD)
  (A : (w : Fin cfg2.W) → Buf (Elt F) ((cfg2.win w).arr.view.loc (d.tc : Thread nD τ)))

/-- What point `t` writes back is block `t` of `outVal` of the entry arrays. -/
theorem flushed1_eq (t : Fin cfg2.N) :
    (dat1 O W₀ d A).flushed 3 t = ((cfg2.win 3).blk t).view.read (Elt F) (outVal (A 0) (A 1) (A 2)) := by
  show (cfg2.win 3).cut (grid2.coords t) ((dat1 O W₀ d A).after 3 t) = _
  rw [after1_3]
  unfold iblk1
  rw [read1_0 t (A 0), read1_1 t (A 1), read1_2 t (A 2)]
  exact cut1_3 t _ _ fun j => outVal_blk (A 0) (A 1) (A 2) t.val (lt40 t) j

/-- An index of the result array is in point `t`'s block iff each coordinate is in the block's range. -/
theorem mem_blk1 (t : Fin cfg2.N) (i : S320000x128.Idx) :
    i ∈ ((cfg2.win 3).blk t).view.set ↔ ∀ a : Fin 2, win2_3.index t a * S8000x128.size a ≤ (i a).val ∧ (i a).val < win2_3.index t a * S8000x128.size a + S8000x128.size a := by
  show i ∈ ((View.whole main_v3).slice (win2_3.rect t)).set ↔ _
  rw [View.set_slice_whole, Rect.mem_set_unit]
  exact Iff.rfl

/-- THE RESULT ARRAY after region 1: the 40 blocks of 8000 rows cover the 320000 rows. -/
theorem final1 : (dat1 O W₀ d A).arrAt 3 cfg2.N = outVal (A 0) (A 1) (A 2) :=
  (dat1 O W₀ d A).arrAt_eq_of_cover 3 _ (fun t _ => flushed1_eq O W₀ d A t) fun i => by
    have hi0 : (i 0).val < 320000 := (i 0).isLt
    have hi1 : (i 1).val < 128 := (i 1).isLt
    have hN := N_2
    let t : Fin cfg2.N := ⟨(i 0).val / 8000, by show (i 0).val / 8000 < grid2.N; omega⟩
    refine ⟨t, flush2_3 t, ?_⟩
    rw [mem_blk1]
    obtain ⟨a0, a1, b0, b1, c0, c1, d0, d1⟩ := idx1 t
    have ht : t.val = (i 0).val / 8000 := rfl
    intro a
    match a with
    | ⟨0, _⟩ => show win2_3.index t (0 : Fin 2) * 8000 ≤ (i 0).val ∧ (i 0).val < win2_3.index t (0 : Fin 2) * 8000 + 8000; omega
    | ⟨1, _⟩ => show win2_3.index t (1 : Fin 2) * 128 ≤ (i 1).val ∧ (i 1).val < win2_3.index t (1 : Fin 2) * 128 + 128; omega

/-- The input arrays are never written. -/
theorem kept1_0 : (dat1 O W₀ d A).arrAt 0 cfg2.N = A 0 := (dat1 O W₀ d A).arrAt_in 0 rfl _
theorem kept1_1 : (dat1 O W₀ d A).arrAt 1 cfg2.N = A 1 := (dat1 O W₀ d A).arrAt_in 1 rfl _
theorem kept1_2 : (dat1 O W₀ d A).arrAt 2 cfg2.N = A 2 := (dat1 O W₀ d A).arrAt_in 2 rfl _

end V1

end Cert.Proof.Kernel

end
-- ==== Proof.Kernel.RegEnter.lean ====
/-
  The two TensorCore regions of the kernel's @main as the TensorCore's proof meets them: entered from the region
  boundary with the pipeline's staging cells' launch state, what the core owes, and the four window arrays whole —
  the three inputs at given contents, the result at anything — each region's call runs to the boundary with the
  inputs unchanged and the result at its value: region 0 leaves the node table, the body's store of the features,
  the weights and the bias row; region 1 leaves, on every block of 8000 rows, the body's store of that block of the
  gathered rows and of the edge features and the weights.
-/
import proofs.«210904_g42554535969575_cont_8to1_b_1627_27_alg».proof.Proof.Kernel.Reg0
import proofs.«210904_g42554535969575_cont_8to1_b_1627_27_alg».proof.Proof.Kernel.Reg1
import proofs.«210904_g42554535969575_cont_8to1_b_1627_27_alg».proof.Proof.Kernel.RegVal
import proofs.«210904_g42554535969575_cont_8to1_b_1627_27_alg».proof.Proof.Kernel.Main

set_option maxRecDepth 16384

noncomputable section

namespace Cert.Proof.Kernel

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- A family over the devices with a given member at `d`. -/
def atDev (d : Dev nD) {β : Dev nD → Type} (f : β d) (dflt : (c : Dev nD) → β c) : (c : Dev nD) → β c :=
  fun c => if h : c = d then h ▸ f else dflt c

theorem atDev_self (d : Dev nD) {β : Dev nD → Type} (f : β d) (dflt : (c : Dev nD) → β c) : atDev d f dflt d = f := by
  unfold atDev; rw [dif_pos rfl]

/-- Pipeline 0's arrays' contents, window by window. -/
def A0of (H : (c : Dev nD) → Buf (Elt F) ((c : Thread nD τ).loc main_arg0)) (W : (c : Dev nD) → Buf (Elt F) ((c : Thread nD τ).loc main_arg4))
    (b : (c : Dev nD) → Buf (Elt F) ((c : Thread nD τ).loc main_v0)) (y : (c : Dev nD) → Buf (Elt F) ((c : Thread nD τ).loc main_v1)) :
    (c : Dev nD) → (w : Fin cfg0.W) → Buf (Elt F) ((cfg0.win w).arr.view.loc (c.tc : Thread nD τ))
  | c, ⟨0, _⟩ => H c
  | c, ⟨1, _⟩ => W c
  | c, ⟨2, _⟩ => b c
  | c, ⟨3, _⟩ => y c

/-- Pipeline 1's arrays' contents, window by window. -/
def A1of (G : (c : Dev nD) → Buf (Elt F) ((c : Thread nD τ).loc main_v2)) (E : (c : Dev nD) → Buf (Elt F) ((c : Thread nD τ).loc main_arg1))
    (W : (c : Dev nD) → Buf (Elt F) ((c : Thread nD τ).loc main_arg4)) (y : (c : Dev nD) → Buf (Elt F) ((c : Thread nD τ).loc main_v3)) :
    (c : Dev nD) → (w : Fin cfg2.W) → Buf (Elt F) ((cfg2.win w).arr.view.loc (c.tc : Thread nD τ))
  | c, ⟨0, _⟩ => G c
  | c, ⟨1, _⟩ => E c
  | c, ⟨2, _⟩ => W c
  | c, ⟨3, _⟩ => y c

variable (m : (ℓ : Loc nD τ sig) → Buf (Elt F) ℓ)

/-- REGION 0: the node table. -/
theorem region0 : Region0 m (fun d => tblVal (m (aLoc d main_arg0)) (m (aLoc d main_arg4)) (b2dVal m d)) := by
  intro d O W₀ hO Φ
  iintro ⟨Hb, Hlev, Hg, HO, H0, H1, H2, ⟨%f, H3⟩, Hk⟩
  have hA3 : atDev d (β := fun c => Buf (Elt F) ((c : Thread nD τ).loc main_v1)) f (fun _ => junk) d = f :=
    atDev_self d (β := fun c => Buf (Elt F) ((c : Thread nD τ).loc main_v1)) f (fun _ => junk)
  iapply (enter0 O hO W₀ (A0of (fun c => m (aLoc c main_arg0)) (fun c => m (aLoc c main_arg4)) (fun c => b2dVal m c)
    (atDev d (β := fun c => Buf (Elt F) ((c : Thread nD τ).loc main_v1)) f (fun _ => junk))) d Φ)
  isplitl [Hb]; · iexact Hb
  isplitl [Hlev]; · iexact Hlev
  isplitl [Hg]; · iexact Hg
  isplitl [HO]; · iexact HO
  isplitl [H0 H1 H2 H3]
  · unfold arrs0
    isplitl [H0]; · iexact H0
    isplitl [H1]; · iexact H1
    isplitl [H2]; · iexact H2
    show _ ⊢ (((d : Thread nD τ).loc main_v1) ↦{fullShare} atDev d (β := fun c => Buf (Elt F) ((c : Thread nD τ).loc main_v1)) f (fun _ => junk) d)
    rw [hA3]
  iintro ⟨Hb, Ha, HO⟩
  iapply Hk
  isplitl [Hb]; · iexact Hb
  isplitl [HO]; · iexact HO
  unfold arrs0
  beta_reduce
  rw [show (pdatsA O W₀ (A0of (fun c => m (aLoc c main_arg0)) (fun c => m (aLoc c main_arg4)) (fun c => b2dVal m c)
        (atDev d (β := fun c => Buf (Elt F) ((c : Thread nD τ).loc main_v1)) f (fun _ => junk))) 0 d).arrAt 0 cfg0.N = m (aLoc d main_arg0) from kept0_0 O W₀ d _,
    show (pdatsA O W₀ (A0of (fun c => m (aLoc c main_arg0)) (fun c => m (aLoc c main_arg4)) (fun c => b2dVal m c)
        (atDev d (β := fun c => Buf (Elt F) ((c : Thread nD τ).loc main_v1)) f (fun _ => junk))) 0 d).arrAt 1 cfg0.N = m (aLoc d main_arg4) from kept0_1 O W₀ d _,
    show (pdatsA O W₀ (A0of (fun c => m (aLoc c main_arg0)) (fun c => m (aLoc c main_arg4)) (fun c => b2dVal m c)
        (atDev d (β := fun c => Buf (Elt F) ((c : Thread nD τ).loc main_v1)) f (fun _ => junk))) 0 d).arrAt 2 cfg0.N = b2dVal m d from kept0_2 O W₀ d _,
    show (pdatsA O W₀ (A0of (fun c => m (aLoc c main_arg0)) (fun c => m (aLoc c main_arg4)) (fun c => b2dVal m c)
        (atDev d (β := fun c => Buf (Elt F) ((c : Thread nD τ).loc main_v1)) f (fun _ => junk))) 0 d).arrAt 3 cfg0.N
          = tblVal (m (aLoc d main_arg0)) (m (aLoc d main_arg4)) (b2dVal m d) from final0 O W₀ d _]
  iexact Ha

/-- REGION 1: the result. -/
theorem region1 (gatV : (d : Dev nD) → Buf (Elt F) (aLoc d main_v2)) :
    Region1 m gatV (fun d => outVal (gatV d) (m (aLoc d main_arg1)) (m (aLoc d main_arg4))) := by
  intro d O W₀ hO Φ
  iintro ⟨Hb, Hlev, Hg, HO, H0, H1, H2, ⟨%f, H3⟩, Hk⟩
  have hA3 : atDev d (β := fun c => Buf (Elt F) ((c : Thread nD τ).loc main_v3)) f (fun _ => junk) d = f :=
    atDev_self d (β := fun c => Buf (Elt F) ((c : Thread nD τ).loc main_v3)) f (fun _ => junk)
  iapply (enter1 O hO W₀ (A1of gatV (fun c => m (aLoc c main_arg1)) (fun c => m (aLoc c main_arg4))
    (atDev d (β := fun c => Buf (Elt F) ((c : Thread nD τ).loc main_v3)) f (fun _ => junk))) d Φ)
  isplitl [Hb]; · iexact Hb
  isplitl [Hlev]; · iexact Hlev
  isplitl [Hg]; · iexact Hg
  isplitl [HO]; · iexact HO
  isplitl [H0 H1 H2 H3]
  · unfold arrs1
    isplitl [H0]; · iexact H0
    isplitl [H1]; · iexact H1
    isplitl [H2]; · iexact H2
    show _ ⊢ (((d : Thread nD τ).loc main_v3) ↦{fullShare} atDev d (β := fun c => Buf (Elt F) ((c : Thread nD τ).loc main_v3)) f (fun _ => junk) d)
    rw [hA3]
  iintro ⟨Hb, Ha, HO⟩
  iapply Hk
  isplitl [Hb]; · iexact Hb
  isplitl [HO]; · iexact HO
  unfold arrs1
  beta_reduce
  rw [show (pdatsB O W₀ (A1of gatV (fun c => m (aLoc c main_arg1)) (fun c => m (aLoc c main_arg4))
        (atDev d (β := fun c => Buf (Elt F) ((c : Thread nD τ).loc main_v3)) f (fun _ => junk))) 1 d).arrAt 0 cfg2.N = gatV d from kept1_0 O W₀ d _,
    show (pdatsB O W₀ (A1of gatV (fun c => m (aLoc c main_arg1)) (fun c => m (aLoc c main_arg4))
        (atDev d (β := fun c => Buf (Elt F) ((c : Thread nD τ).loc main_v3)) f (fun _ => junk))) 1 d).arrAt 1 cfg2.N = m (aLoc d main_arg1) from kept1_1 O W₀ d _,
    show (pdatsB O W₀ (A1of gatV (fun c => m (aLoc c main_arg1)) (fun c => m (aLoc c main_arg4))
        (atDev d (β := fun c => Buf (Elt F) ((c : Thread nD τ).loc main_v3)) f (fun _ => junk))) 1 d).arrAt 2 cfg2.N = m (aLoc d main_arg4) from kept1_2 O W₀ d _,
    show (pdatsB O W₀ (A1of gatV (fun c => m (aLoc c main_arg1)) (fun c => m (aLoc c main_arg4))
        (atDev d (β := fun c => Buf (Elt F) ((c : Thread nD τ).loc main_v3)) f (fun _ => junk))) 1 d).arrAt 3 cfg2.N
          = outVal (gatV d) (m (aLoc d main_arg1)) (m (aLoc d main_arg4)) from final1 O W₀ d _]
  iexact Ha

end Cert.Proof.Kernel

end
-- ==== Proof.Kernel.ScPay.lean ====
/-
  What the SparseCore call's handshakes carry. The table (the first call's result) and the index array are only
  read: they travel as read shares of the whole arrays, halved between the two SparseCores and cut in sixteen among
  a SparseCore's tiles. The output is written: it travels by elements, cut along its rows into the 1600 chunks of
  200 rows the tiles store — tile (c, s), whose number is 2 s + c, owns the fifty chunks 50 (2 s + c) + k — each
  chunk at unknown contents on the way in and, on the way out, at the one function `gathered`: row e of the output
  is the row of the table that word e of the index array names.
-/
import proofs.«210904_g42554535969575_cont_8to1_b_1627_27_alg».proof.Proof.Kernel.Setup
import Idealize.ShloMosaic.Lib.SparseCore.Stream
import Idealize.ShloMosaic.Lib.ValueIdx

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type} [FloatOps F]

local notation "𝕄" => MT nD τ sig (HIx 1) (Elt F) ℕ UU ℕ

/-! ## The three arrays, as the TensorCore names them -/

abbrev tLoc (d : Dev nD) : Loc nD τ sig := (SparseCore.T d).loc main_v1
abbrev hLoc (d : Dev nD) : Loc nD τ sig := (SparseCore.T d).loc main_arg2
abbrev oLoc (d : Dev nD) : Loc nD τ sig := (SparseCore.T d).loc main_v2

variable (Tv : (d : Dev nD) → Buf (Elt F) (tLoc d)) (m : (ℓ : Loc nD τ sig) → Buf (Elt F) ℓ)
  (hh : ∀ (d : Dev nD) x, (m (hLoc d) x).toNat < 10000)

/-- The call's result: row `e` of the output is row `heads[e]` of the table. -/
def gathered (d : Dev nD) : Buf (Elt F) (oLoc d) :=
  fun y => Tv d (ValueIdx.ix2 ⟨(m (hLoc d) (ValueIdx.ix1 (y 0))).toNat, hh d _⟩ (y 1))

theorem gathered_apply (d : Dev nD) (e : Fin 320000) (j : Fin 128) :
    gathered Tv m hh d (ValueIdx.ix2 e j) = Tv d (ValueIdx.ix2 ⟨(m (hLoc d) (ValueIdx.ix1 e)).toNat, hh d _⟩ j) := rfl

/-! ## The output's chunks and the read shares -/

theorem hdiv : 1600 ∣ S320000x128.size 0 := ⟨200, rfl⟩

/-- Chunk `g` of the output: rows `[200 g, 200 g + 200)`, every column. -/
abbrev cRect (g : Fin 1600) : Rect S320000x128 := Rect.part (s := S320000x128) (a₀ := 0) hdiv g
abbrev oV : Memref sig .scVector .hbm S320000x128 .f32 := Memref.whole main_v2_scv
abbrev cSet (g : Fin 1600) : Finset S320000x128.Idx := ((oV).view.slice (cRect g)).set

/-- The number of chunk `k` of tile `(c, s)`: the tile's number is `2 s + c`, and it owns fifty consecutive chunks. -/
def gix (c : Fin 2) (s : Fin 16) (k : Fin 50) : Fin 1600 := ⟨100 * s.val + 50 * c.val + k.val, by omega⟩

/-- A SparseCore's read share: half. -/
abbrev tq (c : Fin 2) : PosShare TreeShare := pieceOf fullShare 2 (by decide) c
/-- A tile's read share: a sixteenth of its SparseCore's. -/
abbrev tqq (c : Fin 2) (s : Fin 16) : PosShare TreeShare := pieceOf (tq c) 16 (by decide) s

/-- What tile `(c, s)` is handed: its read shares of the table and of the index array, its fifty chunks of the output. -/
def goT (d : Dev nD) (c : Fin 2) (s : Fin 16) : sProp 𝕄 :=
  iprop((tLoc d ↦{tqq c s} Tv d) ∗ (hLoc d ↦{tqq c s} m (hLoc d))
    ∗ bigSep Finset.univ fun k : Fin 50 => iprop(∃ f, oLoc d ↦[cSet (gix c s k)]{fullShare} f))
/-- What it hands back: the shares, and its chunks holding the gathered rows. -/
def tdT (d : Dev nD) (c : Fin 2) (s : Fin 16) : sProp 𝕄 :=
  iprop((tLoc d ↦{tqq c s} Tv d) ∗ (hLoc d ↦{tqq c s} m (hLoc d))
    ∗ bigSep Finset.univ fun k : Fin 50 => oLoc d ↦[cSet (gix c s k)]{fullShare} gathered Tv m hh d)
/-- What SparseCore `c` is handed, -/
def stC (d : Dev nD) (c : Fin 2) : sProp 𝕄 :=
  iprop((tLoc d ↦{tq c} Tv d) ∗ (hLoc d ↦{tq c} m (hLoc d))
    ∗ bigSep Finset.univ fun s : Fin 16 => bigSep Finset.univ fun k : Fin 50 => iprop(∃ f, oLoc d ↦[cSet (gix c s k)]{fullShare} f))
/-- and hands back. -/
def dnC (d : Dev nD) (c : Fin 2) : sProp 𝕄 :=
  iprop((tLoc d ↦{tq c} Tv d) ∗ (hLoc d ↦{tq c} m (hLoc d))
    ∗ bigSep Finset.univ fun s : Fin 16 => bigSep Finset.univ fun k : Fin 50 => oLoc d ↦[cSet (gix c s k)]{fullShare} gathered Tv m hh d)

instance goT_storable (d : Dev nD) (c : Fin 2) (s : Fin 16) : BI.Storable (upEmb : UEmb _ 𝕄) (goT Tv m d c s) := by
  unfold goT; infer_instance
instance tdT_storable (d : Dev nD) (c : Fin 2) (s : Fin 16) : BI.Storable (upEmb : UEmb _ 𝕄) (tdT Tv m hh d c s) := by
  unfold tdT; infer_instance
instance stC_storable (d : Dev nD) (c : Fin 2) : BI.Storable (upEmb : UEmb _ 𝕄) (stC Tv m d c) := by
  unfold stC; infer_instance
instance dnC_storable (d : Dev nD) (c : Fin 2) : BI.Storable (upEmb : UEmb _ 𝕄) (dnC Tv m hh d c) := by
  unfold dnC; infer_instance

/-- The one call's payloads; the tiles' proofs consume nothing of the launch's. -/
def P : (K (F := F)).Pay (nD := nD) (Val := Elt F) (Name := ℕ) (U := UU) where
  st := fun q d c => match q with | 0 => stC Tv m d (Fin.cast nCore_zero c)
  dn := fun q d c => match q with | 0 => dnC Tv m hh d (Fin.cast nCore_zero c)
  go := fun q d c i => match q with | 0 => goT Tv m d (Fin.cast nCore_zero c) (Fin.cast nSub_zero i)
  td := fun q d c i => match q with | 0 => tdT Tv m hh d (Fin.cast nCore_zero c) (Fin.cast nSub_zero i)
  x := fun _ _ => iprop(emp)

instance P_storable : (P Tv m hh).IsStorable where
  st q d c := match q with | 0 => (inferInstance : BI.Storable (upEmb : UEmb _ 𝕄) (stC Tv m d (Fin.cast nCore_zero c)))
  dn q d c := match q with | 0 => (inferInstance : BI.Storable (upEmb : UEmb _ 𝕄) (dnC Tv m hh d (Fin.cast nCore_zero c)))
  go q d c i := match q with | 0 => (inferInstance : BI.Storable (upEmb : UEmb _ 𝕄) (goT Tv m d (Fin.cast nCore_zero c) (Fin.cast nSub_zero i)))
  td q d c i := match q with | 0 => (inferInstance : BI.Storable (upEmb : UEmb _ 𝕄) (tdT Tv m hh d (Fin.cast nCore_zero c) (Fin.cast nSub_zero i)))

theorem P_st (d : Dev nD) (c : Fin ((K (F := F)).nCore 0)) : (P Tv m hh).st 0 d c = stC Tv m d (Fin.cast nCore_zero c) := rfl
theorem P_dn (d : Dev nD) (c : Fin ((K (F := F)).nCore 0)) : (P Tv m hh).dn 0 d c = dnC Tv m hh d (Fin.cast nCore_zero c) := rfl
theorem P_go (d : Dev nD) (c : Fin ((K (F := F)).nCore 0)) (i : Fin ((K (F := F)).nSub 0)) :
    (P Tv m hh).go 0 d c i = goT Tv m d (Fin.cast nCore_zero c) (Fin.cast nSub_zero i) := rfl
theorem P_td (d : Dev nD) (c : Fin ((K (F := F)).nCore 0)) (i : Fin ((K (F := F)).nSub 0)) :
    (P Tv m hh).td 0 d c i = tdT Tv m hh d (Fin.cast nCore_zero c) (Fin.cast nSub_zero i) := rfl

end Cert.Proof.Kernel

end
-- ==== Proof.Kernel.ScSplit.lean ====
/-
  How the call's operands split and its results join. The table and the index array are read shares all the way
  down: a share is the separating product of its pieces. The output is its 1600 chunks of 200 rows, which are
  pairwise disjoint and cover it; numbered 100 s + 50 c + k they regroup as SparseCore c, tile s, chunk k.
-/
import proofs.«210904_g42554535969575_cont_8to1_b_1627_27_alg».proof.Proof.Kernel.ScPay

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

/-! ## The chunks: disjoint, covering, regrouped -/

omit [FloatOps F] in
theorem cSet_eq (g : Fin 1600) : cSet g = (cRect g).set := by
  show ((View.whole (main_v2_scv : Ref sig .scVector)).slice (cRect g)).set = _
  exact View.set_slice_whole _ _

omit [FloatOps F] in
theorem cSet_disjoint : ∀ g ∈ (Finset.univ : Finset (Fin 1600)), ∀ g' ∈ (Finset.univ : Finset (Fin 1600)), g ≠ g' → Disjoint (cSet g) (cSet g') :=
  fun g _ g' _ h => by rw [cSet_eq, cSet_eq]; exact Rect.part_disjoint hdiv h

omit [FloatOps F] in
theorem cSet_cover : (Finset.univ : Finset (Fin 1600)).biUnion cSet = Finset.univ :=
  (Finset.biUnion_congr rfl fun g _ => cSet_eq g).trans (Rect.biUnion_part hdiv)

/-- Chunk numbers are triples: SparseCore, tile, chunk of the tile. -/
def gEquiv : Fin 2 × Fin 16 × Fin 50 ≃ Fin 1600 where
  toFun p := gix p.1 p.2.1 p.2.2
  invFun g := (⟨g.val / 50 % 2, Nat.mod_lt _ (by decide)⟩, ⟨g.val / 100, by have := g.isLt; omega⟩, ⟨g.val % 50, Nat.mod_lt _ (by decide)⟩)
  left_inv := by
    rintro ⟨c, s, k⟩
    have hc := c.isLt; have hs := s.isLt; have hk := k.isLt
    simp only [gix, Prod.mk.injEq]
    refine ⟨Fin.ext ?_, Fin.ext ?_, Fin.ext ?_⟩ <;> simp only <;> omega
  right_inv := by
    intro g
    have hg := g.isLt
    apply Fin.ext
    simp only [gix]
    omega

omit [FloatOps F] in
/-- The output whole is its chunks, grouped by SparseCore, tile and chunk. -/
theorem out_split (d : Dev nD) (f : Buf (Elt F) (oLoc d)) :
    (oLoc d ↦{fullShare} f : sProp 𝕄)
      = bigSep Finset.univ fun c : Fin 2 => bigSep Finset.univ fun s : Fin 16 => bigSep Finset.univ fun k : Fin 50 =>
          oLoc d ↦[cSet (gix c s k)]{fullShare} f := by
  have h1 : (oLoc d ↦{fullShare} f : sProp 𝕄) = bigSep Finset.univ fun g : Fin 1600 => oLoc d ↦[cSet g]{fullShare} f := by
    rw [← pointsTo_biUnion Finset.univ (ℓ := oLoc d) cSet cSet_disjoint, cSet_cover]; try rfl
  rw [h1, bigSep_univ_equiv gEquiv (fun g : Fin 1600 => (oLoc d ↦[cSet g]{fullShare} f : sProp 𝕄)), bigSep_univ_prod]
  refine bigSep_congr fun c _ => ?_
  rw [bigSep_univ_prod]
  rfl

omit [FloatOps F] in
/-- Chunks held at one function are chunks held at some. -/
theorem chunk_some (d : Dev nD) (f : Buf (Elt F) (oLoc d)) (g : Fin 1600) :
    (oLoc d ↦[cSet g]{fullShare} f : sProp 𝕄) ⊢ (iprop(∃ f, oLoc d ↦[cSet g]{fullShare} f) : sProp 𝕄) := by
  iintro H; iexists f; iexact H

omit [FloatOps F] in
theorem out_some (d : Dev nD) (f : Buf (Elt F) (oLoc d)) :
    iprop(bigSep Finset.univ fun c : Fin 2 => bigSep Finset.univ fun s : Fin 16 => bigSep Finset.univ fun k : Fin 50 =>
        (oLoc d ↦[cSet (gix c s k)]{fullShare} f : sProp 𝕄))
      ⊢ ((bigSep Finset.univ fun c : Fin 2 => bigSep Finset.univ fun s : Fin 16 => bigSep Finset.univ fun k : Fin 50 =>
        iprop(∃ f, oLoc d ↦[cSet (gix c s k)]{fullShare} f)) : sProp 𝕄) :=
  bigSep_mono fun c _ => bigSep_mono fun s _ => bigSep_mono fun k _ => chunk_some d f (gix c s k)

/-! ## Families over the call's grid are families over the literal extents -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## A SparseCore's operands among its tiles -/

theorem vecSplit' : (K (F := F)).VecSplit' (P Tv m hh) 0 := by
  intro d c
  show stC Tv m d (Fin.cast nCore_zero c) ⊢ |={Set.univ}=> iprop(
      (bigSep Finset.univ fun i : Fin ((K (F := F)).nSub 0) => goT Tv m d (Fin.cast nCore_zero c) (Fin.cast nSub_zero i))
      ∗ ((bigSep Finset.univ fun i : Fin ((K (F := F)).nSub 0) => tdT Tv m hh d (Fin.cast nCore_zero c) (Fin.cast nSub_zero i))
          -∗ dnC Tv m hh d (Fin.cast nCore_zero c)))
  generalize (Fin.cast nCore_zero c : Fin 2) = c'
  rw [bigSep_tasks (F := F) (fun s => goT Tv m d c' s), bigSep_tasks (F := F) (fun s => tdT Tv m hh d c' s)]
  unfold stC dnC goT tdT
  rw [bigSep_sep', bigSep_sep', bigSep_sep', bigSep_sep']
  rw [pointsTo_piecesOf (Finset.univ) (Tv d) (show 0 < 16 by decide) (tq c'),
    pointsTo_piecesOf (Finset.univ) (m (hLoc d)) (show 0 < 16 by decide) (tq c')]
  iintro ⟨Ht, Hh, Ho⟩; imodintro
  isplitl [Ht Hh Ho]
  · isplitl [Ht]; · iexact Ht
    isplitl [Hh]; · iexact Hh
    iexact Ho
  iintro ⟨Ht, Hh, Ho⟩
  isplitl [Ht]; · iexact Ht
  isplitl [Hh]; · iexact Hh
  iexact Ho

theorem vecSplit : (K (F := F)).VecSplit (P Tv m hh) 0 := SparseCore.Cfg.VecSplit.of_plain (vecSplit' Tv m hh)

/-! ## The TensorCore's arrays among the SparseCores, and back -/

theorem st0_intro (d : Dev nD) :
    iprop((tLoc d ↦{fullShare} Tv d) ∗ (hLoc d ↦{fullShare} m (hLoc d)) ∗ ∃ f, oLoc d ↦{fullShare} f)
      ⊢ bigSep Finset.univ fun c : Fin ((K (F := F)).nCore 0) => (P Tv m hh).st 0 d c := by
  show _ ⊢ bigSep Finset.univ fun c : Fin ((K (F := F)).nCore 0) => stC Tv m d (Fin.cast nCore_zero c)
  rw [bigSep_cores (F := F) (fun c => stC Tv m d c)]
  unfold stC
  rw [bigSep_sep', bigSep_sep']
  rw [pointsTo_piecesOf (Finset.univ) (Tv d) (show 0 < 2 by decide) fullShare,
    pointsTo_piecesOf (Finset.univ) (m (hLoc d)) (show 0 < 2 by decide) fullShare]
  iintro ⟨Ht, Hh, %f, Ho⟩
  isplitl [Ht]; · iexact Ht
  isplitl [Hh]; · iexact Hh
  ihave Ho := (Entails.of_eq (out_split (F := F) d f)) $$ Ho
  ihave Ho' := (out_some (F := F) d f) $$ Ho
  iexact Ho'

theorem dn0_elim (d : Dev nD) :
    (bigSep Finset.univ fun c : Fin ((K (F := F)).nCore 0) => (P Tv m hh).dn 0 d c)
      ⊢ iprop((tLoc d ↦{fullShare} Tv d) ∗ (hLoc d ↦{fullShare} m (hLoc d)) ∗ oLoc d ↦{fullShare} gathered Tv m hh d) := by
  show (bigSep Finset.univ fun c : Fin ((K (F := F)).nCore 0) => dnC Tv m hh d (Fin.cast nCore_zero c)) ⊢ _
  rw [bigSep_cores (F := F) (fun c => dnC Tv m hh d c)]
  unfold dnC
  rw [bigSep_sep', bigSep_sep']
  rw [pointsTo_piecesOf (Finset.univ) (Tv d) (show 0 < 2 by decide) fullShare,
    pointsTo_piecesOf (Finset.univ) (m (hLoc d)) (show 0 < 2 by decide) fullShare, out_split (F := F) d (gathered Tv m hh d)]

end Cert.Proof.Kernel

end
-- ==== Proof.Kernel.All.lean ====
/-
  The kernel's run composed: the node table is the first region's value of the launch features, weights and reshaped
  bias; the gathered rows are the table's rows at the heads; the result is the second region's value of the gathered rows,
  the edge features and the weights. From the launch theorem's run (`run_main`) with the two regions' runs, the
  SparseCore call's payloads, split and join, and the tile's task.
-/
import proofs.«210904_g42554535969575_cont_8to1_b_1627_27_alg».proof.Proof.Kernel.Run
import proofs.«210904_g42554535969575_cont_8to1_b_1627_27_alg».proof.Proof.Kernel.RegEnter
import proofs.«210904_g42554535969575_cont_8to1_b_1627_27_alg».proof.Proof.Kernel.ScSplit

noncomputable section

namespace Cert.Proof.Kernel

open Cert.Kernel Cert.Kernel.Gen

open Idealize.ShloMosaic
open Idealize.ShloMosaic.SparseCore.Cfg (HIx Pay)
open Idealize.SL Idealize.SL.Sem Idealize.SL.BI
open scoped Idealize.SL.BI
open Idealize.SL.BI.BIBase

variable {F : FTy → Type} [FloatOps F]

variable (m : (ℓ : Loc nD τ sig) → Buf (Elt F) ℓ) (ρ : Dev nD → PrngReg)
  (hh : ∀ (d : Dev nD) x, (m (hLoc d) x).toNat < 10000)

/-- The node table: H · W[:, 0:128]ᵀ + b. -/
def tblAll (d : Dev nD) : Buf (Elt F) (aLoc d main_v1) := tblVal (m (aLoc d main_arg0)) (m (aLoc d main_arg4)) (b2dVal m d)
/-- The gathered rows: row e is the table's row heads[e]. -/
def gatAll (d : Dev nD) : Buf (Elt F) (aLoc d main_v2) := gathered (tblAll m) m hh d
/-- The result: the gathered rows plus E · W[:, 128:256]ᵀ. -/
def outAll (d : Dev nD) : Buf (Elt F) (aLoc d main_v3) := outVal (gatAll m hh d) (m (aLoc d main_arg1)) (m (aLoc d main_arg4))

/-- The run of the whole program, given the tile's task. -/
theorem run_all [∀ e, Nonempty (Elt F e)]
    (htile : (K (F := F)).TileObl (D (F := F)) 𝒱 (P (tblAll m) m hh) v₀ 0) :
    θ_run (Cert.Kernel.defs (F := F)) (Cert.Kernel.threads (F := F)) ⟨m, fun _ => 0, ρ⟩ (QC m (outAll m hh)) :=
by
  have h0 : Region0 m (tblAll m) := by delta tblAll; exact region0 m
  have h1 : Region1 m (gatAll m hh) (outAll m hh) := by delta outAll; exact region1 m (gatAll m hh)
  have h2 : CallSplit m (P (tblAll m) m hh) (tblAll m) := st0_intro (tblAll m) m hh
  have h3 : CallJoin m (P (tblAll m) m hh) (tblAll m) (gatAll m hh) := by delta gatAll; exact dn0_elim (tblAll m) m hh
  have hx : (P (tblAll m) m hh).x = fun _ _ => iprop(emp) := rfl
  have hd : (P (tblAll m) m hh).held = ∅ := rfl
  exact run_main m ρ (outAll m hh) (P (tblAll m) m hh) hx hd (tblAll m) (gatAll m hh) htile (vecSplit (tblAll m) m hh) h0 h1 h2 h3

end Cert.Proof.Kernel

end
-- ==== Proof.Kernel.ScGeom.lean ====
/-
  The kernel's chunk offsets as arithmetic. Tile (c, s) of the SparseCore call, whose number is 2 s + c, owns rows
  [10000 (2 s + c), 10000 (2 s + c) + 10000) of the output, which it stores in fifty chunks of 200 rows: chunk j starts
  at row 20000 s + 10000 c + 200 j. The offsets the kernel computes in 32-bit words — before the loop at the literal
  rows 0, 200, 9200 … 9800, in trip k of the loop at rows 600 k + 200, + 400, + 600, + 800 — are these, and the index
  scratch is read in windows of 200 words at 600 k + 400 … 600 k + 1200.
-/
import proofs.«210904_g42554535969575_cont_8to1_b_1627_27_alg».proof.Proof.Kernel.ScSplit

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "tV" => (Memref.whole Cert.Kernel.main_v1_scv : Memref Cert.Kernel.sig Kind.scVector Space.hbm Cert.Kernel.S10000x128 EltTy.f32)
local notation "hV" => (Memref.whole Cert.Kernel.main_arg2_scv : Memref Cert.Kernel.sig Kind.scVector Space.hbm Cert.Kernel.S320000 EltTy.i32)
local notation "oW" => (Memref.whole Cert.Kernel.main_v2_scv : Memref Cert.Kernel.sig Kind.scVector Space.hbm Cert.Kernel.S320000x128 EltTy.f32)
local notation "sI" => (Memref.whole Cert.Kernel.cc1_scratch0 : Memref Cert.Kernel.sig Kind.scVector Space.vmem Cert.Kernel.S10000 EltTy.i32)
local notation "r0" => (Memref.whole Cert.Kernel.cc1_scratch1 : Memref Cert.Kernel.sig Kind.scVector Space.vmem Cert.Kernel.S200x128 EltTy.f32)
local notation "r1" => (Memref.whole Cert.Kernel.cc1_scratch2 : Memref Cert.Kernel.sig Kind.scVector Space.vmem Cert.Kernel.S200x128 EltTy.f32)
local notation "r2" => (Memref.whole Cert.Kernel.cc1_scratch3 : Memref Cert.Kernel.sig Kind.scVector Space.vmem Cert.Kernel.S200x128 EltTy.f32)

section Tile
variable (d : Dev nD) (L : grid1.Coords)

/-! ## The tile's coordinates, its slices of the arrays, its chunks -/

/-- The tile's SparseCore and vector subcore, as the device numbers them, -/
abbrev cV (L : grid1.Coords) : Fin τ.nSC := (L 0).castLE hcore1
abbrev jV (L : grid1.Coords) : Fin τ.nSub := (L 1).castLE hsub1
/-- and as the call's grid does. -/
abbrev cL (L : grid1.Coords) : Fin 2 := Fin.cast (show grid1.bound 0 = 2 from rfl) (L 0)
abbrev sL (L : grid1.Coords) : Fin 16 := Fin.cast (show grid1.bound 1 = 16 from rfl) (L 1)

/-- 200 rows of the output from an offset, -/
abbrev oSl (off : Fin 2 → Nat) (inb : ∀ a, off a + S200x128.size a ≤ S320000x128.size a) : Memref sig .scVector .hbm S200x128 .f32 :=
  (oW).slice (Rect.unit (s := S320000x128) off S200x128.size inb) (fun _ => rfl)
/-- 200 words of the index scratch from an offset, -/
abbrev iSl (off : Fin 1 → Nat) (inb : ∀ a, off a + S200.size a ≤ S10000.size a) : Memref sig .scVector .vmem S200 .i32 :=
  (sI).slice (Rect.unit (s := S10000) off S200.size inb) (fun _ => rfl)
/-- and the whole table, as the kernel slices it. -/
abbrev tSl : Memref sig .scVector .hbm S10000x128 .f32 :=
  (tV).slice (Rect.unit (s := S10000x128) ![0, 0] S10000x128.size inb_S10000x128_S10000x128_0_0) (fun _ => rfl)

/-- Where the tile's chunk `c` starts in the output (the last chunk's start for any later number). -/
def oOff (L : grid1.Coords) (c : Nat) : Fin 2 → Nat := ![20000 * (L 1).val + 10000 * (L 0).val + min (200 * c) 9800, 0]

theorem oOff_inb (L : grid1.Coords) (c : Nat) : ∀ a, oOff L c a + S200x128.size a ≤ S320000x128.size a :=
  Fin.forall_fin_two.mpr ⟨by
    have h1 : (L 1).val < 16 := (L 1).isLt
    have h0 : (L 0).val < 2 := (L 0).isLt
    show 20000 * (L 1).val + 10000 * (L 0).val + min (200 * c) 9800 + 200 ≤ 320000
    omega, by show 0 + 128 ≤ 128; omega⟩

/-- The elements of the tile's chunk `j`. -/
abbrev oSet (L : grid1.Coords) (j : Nat) : Finset S320000x128.Idx := (oSl (oOff L j) (oOff_inb L j)).view.set

theorem oSl_congr {off off' : Fin 2 → Nat} (h : off = off') (inb) (inb') : oSl off inb = oSl off' inb' := by subst h; rfl
theorem iSl_congr {off off' : Fin 1 → Nat} (h : off = off') (inb) (inb') : iSl off inb = iSl off' inb' := by subst h; rfl

/-- The two windows of the index scratch trip `k` of the loop reads lie inside it. -/
theorem wA (k : Nat) (hk : k ≤ 15) : ∀ a, (![600 * k + 400] : Fin 1 → Nat) a + S200.size a ≤ S10000.size a :=
  Fin.forall_fin_one.mpr (by show 600 * k + 400 + 200 ≤ 10000; omega)
theorem wB (k : Nat) (hk : k ≤ 15) : ∀ a, (![600 * k + 600] : Fin 1 → Nat) a + S200.size a ≤ S10000.size a :=
  Fin.forall_fin_one.mpr (by show 600 * k + 600 + 200 ≤ 10000; omega)
abbrev iWA (k : Nat) (hk : k ≤ 15) : Finset S10000.Idx := (iSl ![600 * k + 400] (wA k hk)).view.set
abbrev iWB (k : Nat) (hk : k ≤ 15) : Finset S10000.Idx := (iSl ![600 * k + 600] (wB k hk)).view.set

/-! ## The offsets the kernel computes are the chunks' starts

Trip `k` of the loop (`k < 15`) stores chunk `3 k + 2`, waits for the store of chunk `3 k + 1`, stores chunk `3 k + 3`,
stores chunk `3 k + 4` and waits for the store of chunk `3 k + 3`; all are below chunk 49, so the cap in `oOff` is idle.
Its two gathers read the windows of the index scratch at `600 (k + 1) + 400` and `600 (k + 1) + 600`. -/

theorem trip_lt (k : Fin k1_t1_loop.trips) : k.val < 15 := Nat.lt_of_lt_of_le k.isLt k1_t1_abs.2.1

theorem off4_eq (k : Fin k1_t1_loop.trips) : k1_off4 L k = oOff L (3 * k.val + 2) := by
  have hk := trip_lt k
  rw [k1_off4_eq]
  unfold oOff
  refine congrArg (fun x : Nat => (![x, 0] : Fin 2 → Nat)) ?_
  omega

theorem off5_eq (k : Fin k1_t1_loop.trips) : k1_off5 L k = oOff L (3 * k.val + 1) := by
  have hk := trip_lt k
  rw [k1_off5_eq]
  unfold oOff
  refine congrArg (fun x : Nat => (![x, 0] : Fin 2 → Nat)) ?_
  omega

theorem off7_1 (k : Fin k1_t1_loop.trips) : k1_off7 L k 1#32 = oOff L (3 * k.val + 3) := by
  have hk := trip_lt k
  refine (k1_off7_eq L k ⟨0, by decide⟩ : k1_off7 L k 1#32 = _).trans ?_
  unfold oOff
  refine congrArg (fun x : Nat => (![x, 0] : Fin 2 → Nat)) ?_
  show 20000 * (L 1).val + 10000 * (L 0).val + 600 * k.val + 200 * 0 + 600 = _
  omega

theorem off7_2 (k : Fin k1_t1_loop.trips) : k1_off7 L k 2#32 = oOff L (3 * k.val + 4) := by
  have hk := trip_lt k
  refine (k1_off7_eq L k ⟨1, by decide⟩ : k1_off7 L k 2#32 = _).trans ?_
  unfold oOff
  refine congrArg (fun x : Nat => (![x, 0] : Fin 2 → Nat)) ?_
  show 20000 * (L 1).val + 10000 * (L 0).val + 600 * k.val + 200 * 1 + 600 = _
  omega

theorem off6_3 (k : Fin k1_t1_loop.trips) : k1_off6 k 3#32 = ![600 * (k.val + 1) + 400] := by
  refine (k1_off6_eq k ⟨2, by decide⟩ : k1_off6 k 3#32 = _).trans ?_
  refine congrArg (fun x : Nat => (![x] : Fin 1 → Nat)) ?_
  show 600 * k.val + 200 * 2 + 600 = _
  omega

theorem off6_4 (k : Fin k1_t1_loop.trips) : k1_off6 k 4#32 = ![600 * (k.val + 1) + 600] := by
  refine (k1_off6_eq k ⟨3, by decide⟩ : k1_off6 k 4#32 = _).trans ?_
  refine congrArg (fun x : Nat => (![x] : Fin 1 → Nat)) ?_
  show 600 * k.val + 200 * 3 + 600 = _
  omega

/-! ## The literal offsets outside the loop

Before and after the loop the kernel addresses the output at the tile's first row plus one of six literal rows:
0, 200, 9200, 9400, 9600, 9800 — chunks 0, 1, 46, 47, 48, 49. -/

theorem k1_off2_eq : ∀ (i : grid1.Coords) (r : Fin 6),
    k1_off2 i (k1_off2_at r) = ![20000 * (i 1).val + 10000 * (i 0).val + (k1_off2_at r).toNat, 0] := by decide +kernel

theorem off2_0 : k1_off2 L 0#32 = oOff L 0 := by
  refine (k1_off2_eq L ⟨0, by decide⟩ : k1_off2 L 0#32 = _).trans ?_
  unfold oOff
  refine congrArg (fun x : Nat => (![x, 0] : Fin 2 → Nat)) ?_
  show 20000 * (L 1).val + 10000 * (L 0).val + 0 = _
  omega

theorem off2_200 : k1_off2 L 200#32 = oOff L 1 := by
  refine (k1_off2_eq L ⟨1, by decide⟩ : k1_off2 L 200#32 = _).trans ?_
  unfold oOff
  refine congrArg (fun x : Nat => (![x, 0] : Fin 2 → Nat)) ?_
  show 20000 * (L 1).val + 10000 * (L 0).val + 200 = _
  omega

theorem off2_9200 : k1_off2 L 9200#32 = oOff L 46 := by
  refine (k1_off2_eq L ⟨3, by decide⟩ : k1_off2 L 9200#32 = _).trans ?_
  unfold oOff
  refine congrArg (fun x : Nat => (![x, 0] : Fin 2 → Nat)) ?_
  show 20000 * (L 1).val + 10000 * (L 0).val + 9200 = _
  omega

theorem off2_9400 : k1_off2 L 9400#32 = oOff L 47 := by
  refine (k1_off2_eq L ⟨2, by decide⟩ : k1_off2 L 9400#32 = _).trans ?_
  unfold oOff
  refine congrArg (fun x : Nat => (![x, 0] : Fin 2 → Nat)) ?_
  show 20000 * (L 1).val + 10000 * (L 0).val + 9400 = _
  omega

theorem off2_9600 : k1_off2 L 9600#32 = oOff L 48 := by
  refine (k1_off2_eq L ⟨4, by decide⟩ : k1_off2 L 9600#32 = _).trans ?_
  unfold oOff
  refine congrArg (fun x : Nat => (![x, 0] : Fin 2 → Nat)) ?_
  show 20000 * (L 1).val + 10000 * (L 0).val + 9600 = _
  omega

theorem off2_9800 : k1_off2 L 9800#32 = oOff L 49 := by
  refine (k1_off2_eq L ⟨5, by decide⟩ : k1_off2 L 9800#32 = _).trans ?_
  unfold oOff
  refine congrArg (fun x : Nat => (![x, 0] : Fin 2 → Nat)) ?_
  show 20000 * (L 1).val + 10000 * (L 0).val + 9800 = _
  omega

end Tile

end Cert.Proof.Kernel

end
-- ==== Proof.Kernel.ScGeomSets.lean ====
/-
  Runs of a tile's chunk numbers split into the next three and the rest, a family over the fifty chunk numbers read
  over the numbers below fifty, and the tile's chunk j of the output — 200 rows from row 20000 s + 10000 c + 200 j —
  as chunk 100 s + 50 c + j of the output's cut into 1600 chunks of 200 rows.
-/
import proofs.«210904_g42554535969575_cont_8to1_b_1627_27_alg».proof.Proof.Kernel.ScGeom

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Runs of chunk numbers -/

/-- The chunks from `3 k + 2` on: the next three, then the rest. -/
theorem ico_split (k : Nat) (hk : k < 15) :
    Finset.Ico (3 * k + 2) 50 = insert (3 * k + 2) (insert (3 * k + 3) (insert (3 * k + 4) (Finset.Ico (3 * k + 5) 50))) := by
  ext x
  simp only [Finset.mem_Ico, Finset.mem_insert]
  omega

/-- The chunks below `3 (k + 1) + 1`: those below `3 k + 1` and the next three. -/
theorem range_split (k : Nat) :
    Finset.range (3 * (k + 1) + 1) = insert (3 * k + 3) (insert (3 * k + 2) (insert (3 * k + 1) (Finset.range (3 * k + 1)))) := by
  ext x
  simp only [Finset.mem_range, Finset.mem_insert]
  omega

omit [FloatOps F] in
/-- A family over the fifty chunk numbers as a family over the numbers below fifty. -/
theorem chunks_in (Φ : Nat → sProp 𝕄) : (bigSep Finset.univ fun k : Fin 50 => Φ k.val) = bigSep (Finset.range 50) Φ := by
  rw [← Nat.Iio_eq_range, ← Fin.map_valEmbedding_univ, BI.bigSep_map]; rfl

/-! ## A tile's chunk of the output is a chunk of the cut into 1600 -/

section Tile

variable (L : grid1.Coords)

/-- Chunk `j` of tile `L`, rows `[20000 s + 10000 c + 200 j, … + 200)` of the output, is chunk `100 s + 50 c + j` of the
    output's cut into 1600 chunks of 200 rows. -/
theorem oSet_eq (j : Nat) (h : j < 50) : oSet L j = cSet (gix (cL L) (sL L) ⟨j, h⟩) := by
  rw [cSet_eq]
  show ((View.whole (main_v2_scv : Ref sig .scVector)).slice (Rect.unit (s := S320000x128) (oOff L j) S200x128.size (oOff_inb L j))).set = _
  rw [View.set_slice_whole]
  ext i
  rw [Rect.mem_set_unit, Rect.mem_set_unit]
  show (∀ a : Fin 2, oOff L j a ≤ ((i a : Fin _) : Nat) ∧ ((i a : Fin _) : Nat) < oOff L j a + S200x128.size a)
    ↔ (∀ a : Fin 2, S320000x128.partIx 0 (gix (cL L) (sL L) ⟨j, h⟩).val a * S320000x128.partSize 0 1600 a ≤ ((i a : Fin _) : Nat)
        ∧ ((i a : Fin _) : Nat) < S320000x128.partIx 0 (gix (cL L) (sL L) ⟨j, h⟩).val a * S320000x128.partSize 0 1600 a + S320000x128.partSize 0 1600 a)
  rw [Fin.forall_fin_two, Fin.forall_fin_two]
  have h0 : (L 0).val < 2 := (L 0).isLt
  have h1 : (L 1).val < 16 := (L 1).isLt
  show (20000 * (L 1).val + 10000 * (L 0).val + min (200 * j) 9800 ≤ (i 0).val
        ∧ (i 0).val < 20000 * (L 1).val + 10000 * (L 0).val + min (200 * j) 9800 + 200)
      ∧ (0 ≤ (i 1).val ∧ (i 1).val < 0 + 128)
    ↔ ((100 * (L 1).val + 50 * (L 0).val + j) * 200 ≤ (i 0).val
        ∧ (i 0).val < (100 * (L 1).val + 50 * (L 0).val + j) * 200 + 200)
      ∧ (0 * 128 ≤ (i 1).val ∧ (i 1).val < 0 * 128 + 128)
  omega

end Tile

end Cert.Proof.Kernel

end
-- ==== Proof.Kernel.ScInv.lean ====
/-
  The tile's ring of three slots: what is held between two trips of its loop. Chunk `c = 3 k + 2` is being gathered
  into slot 2 and chunk `c + 1` into slot 0, chunk `c - 1` is being stored out of slot 1; the chunks below `c - 1` hold
  the gathered rows and the chunks from `c` on are still to be written. Each copy in flight is held as the capability
  of its wait; what a slot will hold when its gather lands, and what a chunk holds when its store lands, are stated
  against the one function `gathered`.
-/
import proofs.«210904_g42554535969575_cont_8to1_b_1627_27_alg».proof.Proof.Kernel.ScGeomSets
import Idealize.ShloMosaic.Lib.SparseCore.Ops

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

local notation "tV" => (Memref.whole Cert.Kernel.main_v1_scv : Memref Cert.Kernel.sig Kind.scVector Space.hbm Cert.Kernel.S10000x128 EltTy.f32)
local notation "hV" => (Memref.whole Cert.Kernel.main_arg2_scv : Memref Cert.Kernel.sig Kind.scVector Space.hbm Cert.Kernel.S320000 EltTy.i32)
local notation "oW" => (Memref.whole Cert.Kernel.main_v2_scv : Memref Cert.Kernel.sig Kind.scVector Space.hbm Cert.Kernel.S320000x128 EltTy.f32)
local notation "sI" => (Memref.whole Cert.Kernel.cc1_scratch0 : Memref Cert.Kernel.sig Kind.scVector Space.vmem Cert.Kernel.S10000 EltTy.i32)
local notation "r0" => (Memref.whole Cert.Kernel.cc1_scratch1 : Memref Cert.Kernel.sig Kind.scVector Space.vmem Cert.Kernel.S200x128 EltTy.f32)
local notation "r1" => (Memref.whole Cert.Kernel.cc1_scratch2 : Memref Cert.Kernel.sig Kind.scVector Space.vmem Cert.Kernel.S200x128 EltTy.f32)
local notation "r2" => (Memref.whole Cert.Kernel.cc1_scratch3 : Memref Cert.Kernel.sig Kind.scVector Space.vmem Cert.Kernel.S200x128 EltTy.f32)

section Tile

variable (d : Dev nD) (L : grid1.Coords)

abbrev g0c (d : Dev nD) (c : Fin τ.nSC) (i : Fin τ.nSub) : GSem nD τ sig := (V d c i, .dma cc1_scratch4.sem)
abbrev g1c (d : Dev nD) (c : Fin τ.nSC) (i : Fin τ.nSub) : GSem nD τ sig := (V d c i, .dma cc1_scratch5.sem)
abbrev g2c (d : Dev nD) (c : Fin τ.nSC) (i : Fin τ.nSub) : GSem nD τ sig := (V d c i, .dma cc1_scratch6.sem)
abbrev o0c (d : Dev nD) (c : Fin τ.nSC) (i : Fin τ.nSub) : GSem nD τ sig := (V d c i, .dma cc1_scratch7.sem)
abbrev o1c (d : Dev nD) (c : Fin τ.nSC) (i : Fin τ.nSub) : GSem nD τ sig := (V d c i, .dma cc1_scratch8.sem)
abbrev o2c (d : Dev nD) (c : Fin τ.nSC) (i : Fin τ.nSub) : GSem nD τ sig := (V d c i, .dma cc1_scratch9.sem)
abbrev icc (d : Dev nD) (c : Fin τ.nSC) (i : Fin τ.nSub) : GSem nD τ sig := (V d c i, .dma cc1_scoped0.sem)

/-- A slot's contents `X` (read through the slot's view `v`) are the rows of the output chunk at offsets `off`. -/
def SlotIs (off : Fin 2 → Nat) (inb : ∀ a, off a + S200x128.size a ≤ S320000x128.size a)
    (v : View sig .scVector .vmem S200x128 .f32) (X : v.ty.Contents (Elt F)) : Prop :=
  ∀ y : S200x128.Idx, v.read (Elt F) X y = gathered Tv m hh d ((oSl off inb).view.emb y)

/-- The output's contents `Y` hold, on the chunk at offsets `off`, the gathered rows. -/
def ChunkAt (off : Fin 2 → Nat) (inb : ∀ a, off a + S200x128.size a ≤ S320000x128.size a) (Y : Buf (Elt F) (oLoc d)) : Prop :=
  ∀ y : S200x128.Idx, (oSl off inb).view.read (Elt F) Y y = gathered Tv m hh d ((oSl off inb).view.emb y)

/-- The ring's state before trip `k`. -/
def inv (q : PosShare TreeShare) (O : CellTallies nD τ sig (HIx 1)) (W : Waits sig (HIx 1))
    (fJ : Buf (Elt F) ((V d (cV L) (jV L)).loc cc1_scratch0)) (k : Nat) (_ : PUnit) : sProp 𝕄 :=
  iprop(∃ hk : k ≤ 15, Transfers.MayWaits (V d (cV L) (jV L)) (default : HIx 1) O
    ∗ ((tV).view.loc (V d (cV L) (jV L)) ↦{Transfers.shareTokN q 5} Tv d)
    ∗ semVal (g1c d (cV L) (jV L)) 0 ∗ semVal (o0c d (cV L) (jV L)) 0 ∗ semVal (o2c d (cV L) (jV L)) 0
    ∗ (∃ X2 : Buf (Elt F) ((V d (cV L) (jV L)).loc cc1_scratch3), ⌜SlotIs Tv m hh d (oOff L (3 * k + 2)) (oOff_inb L _) (r2).view X2⌝ ∗ Transfers.Flight countersEmb (V d (cV L) (jV L)) (SemLoc.dma cc1_scratch6.sem) (default : HIx 1) 819200
          iprop(((((r2).view.loc (V d (cV L) (jV L)) ↦[(r2).view.set]{fullShare} X2) ∗ ((sI).view.loc (V d (cV L) (jV L)) ↦[iWA k hk]{fullShare} fJ))
            ∗ ((tV).view.loc (V d (cV L) (jV L)) ↦[(tSl).view.set]{Transfers.shareTokN q 6} Tv d)) : sProp 𝕄)
        ∗ ((r2).view.loc (V d (cV L) (jV L)) ↦[Finset.univ \ (r2).view.set]{fullShare} X2))
    ∗ ((tV).view.loc (V d (cV L) (jV L)) ↦[Finset.univ \ (tSl).view.set]{Transfers.shareTokN q 6} Tv d)
    ∗ (∃ (Y : Buf (Elt F) (oLoc d)) (X1 : Buf (Elt F) ((V d (cV L) (jV L)).loc cc1_scratch2)), ⌜ChunkAt Tv m hh d (oOff L (3 * k + 1)) (oOff_inb L _) Y⌝ ∗ Transfers.Flight countersEmb (V d (cV L) (jV L)) (SemLoc.dma cc1_scratch8.sem) (default : HIx 1) 819200
          iprop((((oSl (oOff L (3 * k + 1)) (oOff_inb L _)).view.loc (V d (cV L) (jV L)) ↦[(oSl (oOff L (3 * k + 1)) (oOff_inb L _)).view.set]{fullShare} Y)
            ∗ ((r1).view.loc (V d (cV L) (jV L)) ↦[(r1).view.set]{fullShare} X1)) : sProp 𝕄)
        ∗ ((r1).view.loc (V d (cV L) (jV L)) ↦[Finset.univ \ (r1).view.set]{fullShare} X1))
    ∗ (∃ X0 : Buf (Elt F) ((V d (cV L) (jV L)).loc cc1_scratch1), ⌜SlotIs Tv m hh d (oOff L (3 * k + 3)) (oOff_inb L _) (r0).view X0⌝ ∗ Transfers.Flight countersEmb (V d (cV L) (jV L)) (SemLoc.dma cc1_scratch4.sem) (default : HIx 1) 819200
          iprop(((((r0).view.loc (V d (cV L) (jV L)) ↦[(r0).view.set]{fullShare} X0) ∗ ((sI).view.loc (V d (cV L) (jV L)) ↦[iWB k hk]{fullShare} fJ))
            ∗ ((tV).view.loc (V d (cV L) (jV L)) ↦[(tSl).view.set]{Transfers.shareTokN q 4} Tv d)) : sProp 𝕄)
        ∗ ((r0).view.loc (V d (cV L) (jV L)) ↦[Finset.univ \ (r0).view.set]{fullShare} X0))
    ∗ ((tV).view.loc (V d (cV L) (jV L)) ↦[Finset.univ \ (tSl).view.set]{Transfers.shareTokN q 4} Tv d)
    ∗ ((sI).view.loc (V d (cV L) (jV L)) ↦[(Finset.univ \ iWA k hk) \ iWB k hk]{fullShare} fJ)
    ∗ (bigSep (Finset.range (3 * k + 1)) fun j => oLoc d ↦[oSet L j]{fullShare} gathered Tv m hh d)
    ∗ (bigSep (Finset.Ico (3 * k + 2) 50) fun j => iprop(∃ g, oLoc d ↦[oSet L j]{fullShare} g))
    ∗ ∃ W', ⌜∀ p ∈ W', p ∈ W ∨ p.2 = none⌝ ∗ owes (V d (cV L) (jV L)) O W')

end Tile

end Cert.Proof.Kernel

end
-- ==== Proof.Kernel.ScFacts.lean ====
/-
  Pure facts about the tile's ring: a slot a gather has landed in holds its chunk's rows; what a store of such a slot
  leaves in the output holds the gathered rows on the chunk; a chunk held through its slice is the chunk the call's
  split names; and the chunks still to be written, from the trip's first on, are the trip's three and the rest.
-/
import proofs.«210904_g42554535969575_cont_8to1_b_1627_27_alg».proof.Proof.Kernel.ScInv

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

local notation "tV" => (Memref.whole Cert.Kernel.main_v1_scv : Memref Cert.Kernel.sig Kind.scVector Space.hbm Cert.Kernel.S10000x128 EltTy.f32)
local notation "hV" => (Memref.whole Cert.Kernel.main_arg2_scv : Memref Cert.Kernel.sig Kind.scVector Space.hbm Cert.Kernel.S320000 EltTy.i32)
local notation "oW" => (Memref.whole Cert.Kernel.main_v2_scv : Memref Cert.Kernel.sig Kind.scVector Space.hbm Cert.Kernel.S320000x128 EltTy.f32)
local notation "sI" => (Memref.whole Cert.Kernel.cc1_scratch0 : Memref Cert.Kernel.sig Kind.scVector Space.vmem Cert.Kernel.S10000 EltTy.i32)
local notation "r0" => (Memref.whole Cert.Kernel.cc1_scratch1 : Memref Cert.Kernel.sig Kind.scVector Space.vmem Cert.Kernel.S200x128 EltTy.f32)
local notation "r1" => (Memref.whole Cert.Kernel.cc1_scratch2 : Memref Cert.Kernel.sig Kind.scVector Space.vmem Cert.Kernel.S200x128 EltTy.f32)
local notation "r2" => (Memref.whole Cert.Kernel.cc1_scratch3 : Memref Cert.Kernel.sig Kind.scVector Space.vmem Cert.Kernel.S200x128 EltTy.f32)

section Tile

variable (d : Dev nD) (L : grid1.Coords)

/-! ## A chunk of the output, as the tile holds it and as the call's split names it -/

omit [FloatOps F] in
/-- A chunk held through its slice of the output, at the offsets of the tile's chunk `j`, is that chunk of the output
    held by elements. -/
theorem ch_eq {off : Fin 2 → Nat} (j : Nat) (h : off = oOff L j) (inb : ∀ a, off a + S200x128.size a ≤ S320000x128.size a)
    (g : Buf (Elt F) (oLoc d)) :
    ((oSl off inb).view.loc (V d (cV L) (jV L)) ↦[(oSl off inb).view.set]{fullShare} g : sProp 𝕄)
      = (oLoc d ↦[oSet L j]{fullShare} g : sProp 𝕄) := by
  subst h; rfl

/-- F3. A chunk whose store has landed holds the gathered rows. -/
theorem chunk_done (j : Nat) {off : Fin 2 → Nat} (h : off = oOff L j) (inb : ∀ a, off a + S200x128.size a ≤ S320000x128.size a)
    (Z : Buf (Elt F) (oLoc d)) (hZ : ChunkAt Tv m hh d off inb Z) :
    iprop((oSl off inb).view.loc (V d (cV L) (jV L)) ↦[(oSl off inb).view.set]{fullShare} Z)
      ⊢ (oLoc d ↦[oSet L j]{fullShare} gathered Tv m hh d : sProp 𝕄) := by
  rw [ch_eq d L j h inb Z]
  subst h
  refine Entails.of_eq (pointsTo_congr fun i hi => ?_)
  obtain ⟨y, -, rfl⟩ := Finset.mem_map.mp hi
  exact ((View.read_apply _ _).trans (cast_eq _ _)).symm.trans (hZ y)

/-- F2. What a store of a slot holding the chunk's rows leaves in the output holds, on the chunk, the gathered rows. -/
theorem chunk_of_store (v : View sig .scVector .vmem S200x128 .f32) (X : v.ty.Contents (Elt F)) (off : Fin 2 → Nat)
    (inb : ∀ a, off a + S200x128.size a ≤ S320000x128.size a) (hX : SlotIs Tv m hh d off inb v X) {off' : Fin 2 → Nat} (h : off' = off)
    (inb' : ∀ a, off' a + S200x128.size a ≤ S320000x128.size a) (g : Buf (Elt F) (oLoc d)) :
    ChunkAt Tv m hh d off' inb' ((oSl off' inb').view.writes (Elt F) g [⟨Rect.whole S200x128, ReadAs.same.apply (v.read (Elt F) X)⟩]) := by
  subst h
  intro y
  have e := View.read_writes_cons_emb (v := (oSl off' inb').view) (f := g) (Rect.whole S200x128) (ReadAs.same.apply (v.read (Elt F) X)) [] y
  rw [Rect.emb_whole_apply] at e
  exact e.trans (hX y)

/-- F1. A slot a gather of the chunk's rows has landed in holds the chunk's rows. -/
theorem slot_of_gather (v : View sig .scVector .vmem S200x128 .f32) (b : v.ty.Contents (Elt F)) (G : S200x128.Idx → Elt F .f32) (off : Fin 2 → Nat)
    (inb : ∀ a, off a + S200x128.size a ≤ S320000x128.size a) (hG : ∀ y, G y = gathered Tv m hh d ((oSl off inb).view.emb y)) :
    SlotIs Tv m hh d off inb v (v.writes (Elt F) b [⟨Rect.whole S200x128, G⟩]) := by
  intro y
  have e := View.read_writes_cons_emb (v := v) (f := b) (Rect.whole S200x128) G [] y
  rw [Rect.emb_whole_apply] at e
  exact e.trans (hG y)

omit [FloatOps F] in
/-- A chunk still to be written, held at some contents, is its slice of the output held at some contents. -/
theorem psi_ch {off : Fin 2 → Nat} (j : Nat) (h : off = oOff L j) (inb : ∀ a, off a + S200x128.size a ≤ S320000x128.size a) :
    iprop(∃ g : Buf (Elt F) (oLoc d), oLoc d ↦[oSet L j]{fullShare} g)
      ⊢ (iprop(∃ g : Buf (Elt F) (oLoc d), (oSl off inb).view.loc (V d (cV L) (jV L)) ↦[(oSl off inb).view.set]{fullShare} g) : sProp 𝕄) := by
  iintro ⟨%g, H⟩
  iexists g
  rw [ch_eq d L j h inb g]
  iexact H

omit [FloatOps F] in
/-- F4. The chunks still to be written before trip `k`: the three the trip starts copies into, as their slices, and the rest. -/
theorem todo_take (k : Fin k1_t1_loop.trips) :
    iprop(bigSep (Finset.Ico (3 * k.val + 2) 50) fun j => iprop(∃ g : Buf (Elt F) (oLoc d), oLoc d ↦[oSet L j]{fullShare} g))
      ⊢ (iprop((∃ g : Buf (Elt F) (oLoc d), (oSl (k1_off4 L k) (k1_off4_inb L k)).view.loc (V d (cV L) (jV L)) ↦[(oSl (k1_off4 L k) (k1_off4_inb L k)).view.set]{fullShare} g)
          ∗ (∃ g : Buf (Elt F) (oLoc d), (oSl (k1_off7 L k 1#32) (k1_off7_inb L k 0)).view.loc (V d (cV L) (jV L)) ↦[(oSl (k1_off7 L k 1#32) (k1_off7_inb L k 0)).view.set]{fullShare} g)
          ∗ (∃ g : Buf (Elt F) (oLoc d), (oSl (k1_off7 L k 2#32) (k1_off7_inb L k 1)).view.loc (V d (cV L) (jV L)) ↦[(oSl (k1_off7 L k 2#32) (k1_off7_inb L k 1)).view.set]{fullShare} g)
          ∗ bigSep (Finset.Ico (3 * (k.val + 1) + 2) 50) fun j => iprop(∃ g : Buf (Elt F) (oLoc d), oLoc d ↦[oSet L j]{fullShare} g)) : sProp 𝕄) := by
  have hk := trip_lt k
  rw [ico_split k.val hk,
    SparseCore.bigSep_insert' (by intro hmem; simp only [Finset.mem_insert, Finset.mem_Ico] at hmem; omega),
    SparseCore.bigSep_insert' (by intro hmem; simp only [Finset.mem_insert, Finset.mem_Ico] at hmem; omega),
    SparseCore.bigSep_insert' (by intro hmem; simp only [Finset.mem_Ico] at hmem; omega),
    show 3 * (k.val + 1) + 2 = 3 * k.val + 5 from by omega]
  iintro ⟨H2, H3, H4, Hr⟩
  isplitl [H2]
  · iapply (psi_ch d L (3 * k.val + 2) (off4_eq L k) (k1_off4_inb L k)); iexact H2
  isplitl [H3]
  · iapply (psi_ch d L (3 * k.val + 3) (off7_1 L k) (k1_off7_inb L k 0)); iexact H3
  isplitl [H4]
  · iapply (psi_ch d L (3 * k.val + 4) (off7_2 L k) (k1_off7_inb L k 1)); iexact H4
  iexact Hr

end Tile

end Cert.Proof.Kernel

end
-- ==== Proof.Kernel.ScFactsB.lean ====
/-
  Regroupings of a tile's fifty chunks of the output. The chunks that hold the gathered rows grow by three per trip of
  the loop and by four at the end; the chunks still to be written are handed out, before the loop the first two and after
  it the last three, each as the kernel addresses it: at the tile's first row plus a literal row, which is the chunk's
  start.
-/
import proofs.«210904_g42554535969575_cont_8to1_b_1627_27_alg».proof.Proof.Kernel.ScInv

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

local notation "tV" => (Memref.whole Cert.Kernel.main_v1_scv : Memref Cert.Kernel.sig Kind.scVector Space.hbm Cert.Kernel.S10000x128 EltTy.f32)
local notation "hV" => (Memref.whole Cert.Kernel.main_arg2_scv : Memref Cert.Kernel.sig Kind.scVector Space.hbm Cert.Kernel.S320000 EltTy.i32)
local notation "oW" => (Memref.whole Cert.Kernel.main_v2_scv : Memref Cert.Kernel.sig Kind.scVector Space.hbm Cert.Kernel.S320000x128 EltTy.f32)
local notation "sI" => (Memref.whole Cert.Kernel.cc1_scratch0 : Memref Cert.Kernel.sig Kind.scVector Space.vmem Cert.Kernel.S10000 EltTy.i32)
local notation "r0" => (Memref.whole Cert.Kernel.cc1_scratch1 : Memref Cert.Kernel.sig Kind.scVector Space.vmem Cert.Kernel.S200x128 EltTy.f32)
local notation "r1" => (Memref.whole Cert.Kernel.cc1_scratch2 : Memref Cert.Kernel.sig Kind.scVector Space.vmem Cert.Kernel.S200x128 EltTy.f32)
local notation "r2" => (Memref.whole Cert.Kernel.cc1_scratch3 : Memref Cert.Kernel.sig Kind.scVector Space.vmem Cert.Kernel.S200x128 EltTy.f32)

section Tile

variable (d : Dev nD) (L : grid1.Coords)

/-! ## The chunks done -/

/-- After trip `k` three more chunks hold the gathered rows. -/
theorem done_step (k : Nat) :
    iprop((bigSep (Finset.range (3 * k + 1)) fun j => (oLoc d ↦[oSet L j]{fullShare} gathered Tv m hh d : sProp 𝕄))
        ∗ (oLoc d ↦[oSet L (3 * k + 1)]{fullShare} gathered Tv m hh d) ∗ (oLoc d ↦[oSet L (3 * k + 2)]{fullShare} gathered Tv m hh d) ∗ (oLoc d ↦[oSet L (3 * k + 3)]{fullShare} gathered Tv m hh d))
      ⊢ bigSep (Finset.range (3 * (k + 1) + 1)) fun j => (oLoc d ↦[oSet L j]{fullShare} gathered Tv m hh d : sProp 𝕄) := by
  rw [range_split,
    SparseCore.bigSep_insert' (by simp only [Finset.mem_insert, Finset.mem_range]; omega),
    SparseCore.bigSep_insert' (by simp only [Finset.mem_insert, Finset.mem_range]; omega),
    SparseCore.bigSep_insert' (by simp only [Finset.mem_range]; omega)]
  iintro ⟨H, H1, H2, H3⟩
  isplitl [H3]; · iexact H3
  isplitl [H2]; · iexact H2
  isplitl [H1]; · iexact H1
  iexact H

/-- The numbers below 50 are those below 46 and the last four. -/
theorem range50_split : Finset.range 50 = insert 49 (insert 48 (insert 47 (insert 46 (Finset.range 46)))) := by
  ext x
  simp only [Finset.mem_range, Finset.mem_insert]
  omega

/-- After the loop the last four chunks complete the fifty. -/
theorem done_last :
    iprop((bigSep (Finset.range 46) fun j => (oLoc d ↦[oSet L j]{fullShare} gathered Tv m hh d : sProp 𝕄))
        ∗ (oLoc d ↦[oSet L 46]{fullShare} gathered Tv m hh d) ∗ (oLoc d ↦[oSet L 47]{fullShare} gathered Tv m hh d) ∗ (oLoc d ↦[oSet L 48]{fullShare} gathered Tv m hh d) ∗ (oLoc d ↦[oSet L 49]{fullShare} gathered Tv m hh d))
      ⊢ bigSep (Finset.range 50) fun j => (oLoc d ↦[oSet L j]{fullShare} gathered Tv m hh d : sProp 𝕄) := by
  rw [range50_split,
    SparseCore.bigSep_insert' (by simp only [Finset.mem_insert, Finset.mem_range]; omega),
    SparseCore.bigSep_insert' (by simp only [Finset.mem_insert, Finset.mem_range]; omega),
    SparseCore.bigSep_insert' (by simp only [Finset.mem_insert, Finset.mem_range]; omega),
    SparseCore.bigSep_insert' (by simp only [Finset.mem_range]; omega)]
  iintro ⟨H, H46, H47, H48, H49⟩
  isplitl [H49]; · iexact H49
  isplitl [H48]; · iexact H48
  isplitl [H47]; · iexact H47
  isplitl [H46]; · iexact H46
  iexact H

/-! ## The chunks still to be written, as the kernel addresses them -/

omit [FloatOps F] in
/-- A chunk held at some contents, addressed at offsets that are the chunk's start. -/
theorem chunk_at (j : Nat) {off : Fin 2 → Nat} (h : off = oOff L j) (inb : ∀ a, off a + S200x128.size a ≤ S320000x128.size a) :
    iprop(∃ g, oLoc d ↦[oSet L j]{fullShare} g)
      ⊢ (iprop((∃ g : Buf (Elt F) (oLoc d), (oSl off inb).view.loc (V d (cV L) (jV L)) ↦[(oSl off inb).view.set]{fullShare} g)) : sProp 𝕄) := by
  subst h
  exact .refl

theorem range50_first : Finset.range 50 = insert 0 (insert 1 (Finset.Ico 2 50)) := by
  ext x
  simp only [Finset.mem_range, Finset.mem_insert, Finset.mem_Ico]
  omega

/-- Before the loop: the first two chunks, at the literal rows 0 and 200. -/
theorem todo_first :
    iprop(bigSep (Finset.range 50) fun j => (iprop(∃ g, oLoc d ↦[oSet L j]{fullShare} g) : sProp 𝕄))
      ⊢ iprop((∃ g : Buf (Elt F) (oLoc d), (oSl (k1_off2 L 0#32) (k1_off2_inb L 0)).view.loc (V d (cV L) (jV L)) ↦[(oSl (k1_off2 L 0#32) (k1_off2_inb L 0)).view.set]{fullShare} g)
          ∗ (∃ g : Buf (Elt F) (oLoc d), (oSl (k1_off2 L 200#32) (k1_off2_inb L 1)).view.loc (V d (cV L) (jV L)) ↦[(oSl (k1_off2 L 200#32) (k1_off2_inb L 1)).view.set]{fullShare} g)
          ∗ bigSep (Finset.Ico 2 50) fun j => (iprop(∃ g, oLoc d ↦[oSet L j]{fullShare} g) : sProp 𝕄)) := by
  rw [range50_first,
    SparseCore.bigSep_insert' (by simp only [Finset.mem_insert, Finset.mem_Ico]; omega),
    SparseCore.bigSep_insert' (by simp only [Finset.mem_Ico]; omega)]
  iintro ⟨H0, H1, H⟩
  isplitl [H0]; · iapply (chunk_at (F := F) d L 0 (off2_0 L) (k1_off2_inb L 0)) $$ H0
  isplitl [H1]; · iapply (chunk_at (F := F) d L 1 (off2_200 L) (k1_off2_inb L 1)) $$ H1
  iexact H

theorem ico47_split : Finset.Ico 47 50 = insert 47 (insert 48 ({49} : Finset Nat)) := by
  ext x
  simp only [Finset.mem_Ico, Finset.mem_insert, Finset.mem_singleton]
  omega

/-- After the loop: the last three chunks, at the literal rows 9400, 9600 and 9800. -/
theorem todo_last :
    iprop(bigSep (Finset.Ico 47 50) fun j => (iprop(∃ g, oLoc d ↦[oSet L j]{fullShare} g) : sProp 𝕄))
      ⊢ iprop((∃ g : Buf (Elt F) (oLoc d), (oSl (k1_off2 L 9400#32) (k1_off2_inb L 2)).view.loc (V d (cV L) (jV L)) ↦[(oSl (k1_off2 L 9400#32) (k1_off2_inb L 2)).view.set]{fullShare} g)
          ∗ (∃ g : Buf (Elt F) (oLoc d), (oSl (k1_off2 L 9600#32) (k1_off2_inb L 4)).view.loc (V d (cV L) (jV L)) ↦[(oSl (k1_off2 L 9600#32) (k1_off2_inb L 4)).view.set]{fullShare} g)
          ∗ (∃ g : Buf (Elt F) (oLoc d), (oSl (k1_off2 L 9800#32) (k1_off2_inb L 5)).view.loc (V d (cV L) (jV L)) ↦[(oSl (k1_off2 L 9800#32) (k1_off2_inb L 5)).view.set]{fullShare} g)) := by
  rw [ico47_split,
    SparseCore.bigSep_insert' (by simp only [Finset.mem_insert, Finset.mem_singleton]; omega),
    SparseCore.bigSep_insert' (by simp only [Finset.mem_singleton]; omega), bigSep_singleton]
  iintro ⟨H47, H48, H49⟩
  isplitl [H47]; · iapply (chunk_at (F := F) d L 47 (off2_9400 L) (k1_off2_inb L 2)) $$ H47
  isplitl [H48]; · iapply (chunk_at (F := F) d L 48 (off2_9600 L) (k1_off2_inb L 4)) $$ H48
  iapply (chunk_at (F := F) d L 49 (off2_9800 L) (k1_off2_inb L 5)) $$ H49

end Tile

end Cert.Proof.Kernel

end
-- ==== Proof.Kernel.ScVal.lean ====
/-
  What one indirect gather of the kernel delivers. The tile's index list is its 10000 words of the index array; the
  gather of the 200 words from word 200 j of the list, out of the table, puts at element y of the 200 × 128 slot row
  (word 200 j + y₀ of the list) of the table, column y₁ — and word 200 j + y₀ of the tile's list is word
  20000 s + 10000 c + 200 j + y₀ of the index array, the row of the output that element y of the tile's chunk j sits in.
  So the slot holds, element by element, what the call's result holds on that chunk.
-/
import proofs.«210904_g42554535969575_cont_8to1_b_1627_27_alg».proof.Proof.Kernel.ScGeom
import Idealize.ShloMosaic.Lib.SparseCore.Stream
import Idealize.ShloMosaic.Lib.ValueIdx

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "tV" => (Memref.whole Cert.Kernel.main_v1_scv : Memref Cert.Kernel.sig Kind.scVector Space.hbm Cert.Kernel.S10000x128 EltTy.f32)
local notation "hV" => (Memref.whole Cert.Kernel.main_arg2_scv : Memref Cert.Kernel.sig Kind.scVector Space.hbm Cert.Kernel.S320000 EltTy.i32)
local notation "oW" => (Memref.whole Cert.Kernel.main_v2_scv : Memref Cert.Kernel.sig Kind.scVector Space.hbm Cert.Kernel.S320000x128 EltTy.f32)
local notation "sI" => (Memref.whole Cert.Kernel.cc1_scratch0 : Memref Cert.Kernel.sig Kind.scVector Space.vmem Cert.Kernel.S10000 EltTy.i32)
local notation "r0" => (Memref.whole Cert.Kernel.cc1_scratch1 : Memref Cert.Kernel.sig Kind.scVector Space.vmem Cert.Kernel.S200x128 EltTy.f32)
local notation "r1" => (Memref.whole Cert.Kernel.cc1_scratch2 : Memref Cert.Kernel.sig Kind.scVector Space.vmem Cert.Kernel.S200x128 EltTy.f32)
local notation "r2" => (Memref.whole Cert.Kernel.cc1_scratch3 : Memref Cert.Kernel.sig Kind.scVector Space.vmem Cert.Kernel.S200x128 EltTy.f32)

variable (Tv : (d : Dev nD) → Buf (Elt F) (tLoc d)) (m : (ℓ : Loc nD τ sig) → Buf (Elt F) ℓ)
  (hh : ∀ (d : Dev nD) x, (m (hLoc d) x).toNat < 10000)

section Tile
variable (d : Dev nD) (L : grid1.Coords)

/-- The tile's 10000 words of the index array, as the kernel slices them. -/
abbrev hSl (L : grid1.Coords) : Memref sig .scVector .hbm S10000 .i32 :=
  (hV).slice (Rect.unit (s := S320000) (k1_off1 L) S10000.size (k1_off1_inb L)) (fun _ => rfl)

/-- One gather's payload is the call's result on the chunk: for the gather of the 200 words from word `200 j` of the tile's
    list (held as `fJ`, which is the tile's 10000 words of the index array), slot element `y` is `gathered` at element `y`
    of the tile's chunk `j`. Both sides are the table at an index; on the row axis the index is the word the list holds at
    `200 j + y₀`, which is word `20000 s + 10000 c + 200 j + y₀` of the index array, and on the column axis it is `y₁`. -/
theorem gather_is_gathered (fJ : Buf (Elt F) ((V d (cV L) (jV L)).loc cc1_scratch0))
    (hfJ : ∀ z : S10000.Idx, fJ z = m (hLoc d) ((hSl L).view.emb z))
    (j : Nat) (hj : j < 50) (off : Fin 1 → Nat) (hoff : off = ![200 * j]) (inb : ∀ a, off a + S200.size a ≤ S10000.size a)
    (hn : S200.numel = S200x128.size gathers_S10000x128_S200x128.axis')
    (hin : ∀ x, ((iSl off inb).view.read (Elt F) fJ x).toNat < S10000x128.size gathers_S10000x128_S200x128.axis)
    (y : S200x128.Idx) :
    SparseCore.gatherPayload gathers_S10000x128_S200x128 ((tSl).view.read (Elt F) (Tv d))
        (SparseCore.rows ((iSl off inb).view.read (Elt F) fJ) hn hin) y
      = gathered Tv m hh d ((oSl (oOff L j) (oOff_inb L j)).view.emb y) := by
  subst hoff
  have hj' : min (200 * j) 9800 = 200 * j := by omega
  -- the word of the tile's list that names the row of slot element `y`
  let z : S200.Idx := S200.rowMajor.symm ((y gathers_S10000x128_S200x128.axis').cast hn.symm)
  have hz : (z 0).val = (y 0).val := by
    have h1 := Shape.rowMajor_val_one z
    rw [show S200.rowMajor z = (y gathers_S10000x128_S200x128.axis').cast hn.symm from Equiv.apply_symm_apply _ _] at h1
    exact h1.symm
  have hword : (iSl ![200 * j] inb).view.read (Elt F) fJ z
      = m (hLoc d) (ValueIdx.ix1 (((oSl (oOff L j) (oOff_inb L j)).view.emb y) 0)) := by
    refine ((View.read_apply _ _).trans (cast_eq _ _)).trans ((hfJ _).trans (congrArg (m (hLoc d)) (funext fun a => Fin.ext ?_)))
    match a with
    | ⟨0, _⟩ =>
      show k1_off1 L 0 + 1 * (200 * j + 1 * (z 0).val) = oOff L j 0 + 1 * (y 0).val
      rw [k1_off1_eq, hz]
      unfold oOff
      show 20000 * (L 1).val + 10000 * (L 0).val + 1 * (200 * j + 1 * (y 0).val)
        = 20000 * (L 1).val + 10000 * (L 0).val + min (200 * j) 9800 + 1 * (y 0).val
      omega
  unfold SparseCore.gatherPayload
  refine ((View.read_apply _ _).trans (cast_eq _ _)).trans ?_
  unfold gathered
  refine congrArg (Tv d) (funext fun b => Fin.ext ?_)
  match b with
  | ⟨0, _⟩ =>
    show 0 + 1 * (gathers_S10000x128_S200x128.idx _ y gathers_S10000x128_S200x128.axis).val = (m (hLoc d) (ValueIdx.ix1 (((oSl (oOff L j) (oOff_inb L j)).view.emb y) 0))).toNat
    rw [Shape.Gathers.idx_axis]
    show 0 + 1 * ((iSl ![200 * j] inb).view.read (Elt F) fJ z).toNat = _
    rw [hword]
    omega
  | ⟨1, _⟩ =>
    show 0 + 1 * (gathers_S10000x128_S200x128.idx _ y ⟨1, _⟩).val = 0 + 1 * (y 1).val
    rw [Shape.Gathers.idx_of_ne _ _ _ _ Nat.one_ne_zero]
    rfl

end Tile

end Cert.Proof.Kernel

end
-- ==== Proof.Kernel.ScTrip.lean ====
/-
  One trip of the ring: from the ring's state before trip k to its state before trip k + 1. The trip waits for the gather
  into slot 2 and stores the slot, waits for slot 1's store and gathers into it, and so round the three slots: three
  chunks stored, three gathered, three earlier stores waited for. Each wait hands back what its copy delivered, which
  the state names; what the landed gathers and stores hold is read off against the one function `gathered`.
-/
import proofs.«210904_g42554535969575_cont_8to1_b_1627_27_alg».proof.Proof.Kernel.ScFacts
import proofs.«210904_g42554535969575_cont_8to1_b_1627_27_alg».proof.Proof.Kernel.ScFactsB
import proofs.«210904_g42554535969575_cont_8to1_b_1627_27_alg».proof.Proof.Kernel.ScVal
import Idealize.ShloMosaic.Lib.SparseCore.Ops

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

local notation "tV" => (Memref.whole Cert.Kernel.main_v1_scv : Memref Cert.Kernel.sig Kind.scVector Space.hbm Cert.Kernel.S10000x128 EltTy.f32)
local notation "hV" => (Memref.whole Cert.Kernel.main_arg2_scv : Memref Cert.Kernel.sig Kind.scVector Space.hbm Cert.Kernel.S320000 EltTy.i32)
local notation "oW" => (Memref.whole Cert.Kernel.main_v2_scv : Memref Cert.Kernel.sig Kind.scVector Space.hbm Cert.Kernel.S320000x128 EltTy.f32)
local notation "sI" => (Memref.whole Cert.Kernel.cc1_scratch0 : Memref Cert.Kernel.sig Kind.scVector Space.vmem Cert.Kernel.S10000 EltTy.i32)
local notation "r0" => (Memref.whole Cert.Kernel.cc1_scratch1 : Memref Cert.Kernel.sig Kind.scVector Space.vmem Cert.Kernel.S200x128 EltTy.f32)
local notation "r1" => (Memref.whole Cert.Kernel.cc1_scratch2 : Memref Cert.Kernel.sig Kind.scVector Space.vmem Cert.Kernel.S200x128 EltTy.f32)
local notation "r2" => (Memref.whole Cert.Kernel.cc1_scratch3 : Memref Cert.Kernel.sig Kind.scVector Space.vmem Cert.Kernel.S200x128 EltTy.f32)

section Tile

variable (d : Dev nD) (L : grid1.Coords)

/-! ## The same capability, its windows spelt otherwise -/

theorem FG6_congr (q : PosShare TreeShare) (fJ : Buf (Elt F) ((V d (cV L) (jV L)).loc cc1_scratch0)) (X : Buf (Elt F) ((V d (cV L) (jV L)).loc cc1_scratch3))
    {off off' : Fin 1 → Nat} (h : off = off') (inb : ∀ a, off a + S200.size a ≤ S10000.size a) (inb' : ∀ a, off' a + S200.size a ≤ S10000.size a) :
    (Transfers.Flight countersEmb (V d (cV L) (jV L)) (SemLoc.dma cc1_scratch6.sem) (default : HIx 1) 819200
          iprop(((((r2).view.loc (V d (cV L) (jV L)) ↦[(r2).view.set]{fullShare} X) ∗ ((sI).view.loc (V d (cV L) (jV L)) ↦[(iSl (off) (inb)).view.set]{fullShare} fJ))
            ∗ ((tV).view.loc (V d (cV L) (jV L)) ↦[(tSl).view.set]{Transfers.shareTokN q 6} Tv d)) : sProp 𝕄) : sProp 𝕄) ⊢ (Transfers.Flight countersEmb (V d (cV L) (jV L)) (SemLoc.dma cc1_scratch6.sem) (default : HIx 1) 819200
          iprop(((((r2).view.loc (V d (cV L) (jV L)) ↦[(r2).view.set]{fullShare} X) ∗ ((sI).view.loc (V d (cV L) (jV L)) ↦[(iSl (off') (inb')).view.set]{fullShare} fJ))
            ∗ ((tV).view.loc (V d (cV L) (jV L)) ↦[(tSl).view.set]{Transfers.shareTokN q 6} Tv d)) : sProp 𝕄) : sProp 𝕄) := by
  subst h; exact Entails.refl _
theorem FG4_congr (q : PosShare TreeShare) (fJ : Buf (Elt F) ((V d (cV L) (jV L)).loc cc1_scratch0)) (X : Buf (Elt F) ((V d (cV L) (jV L)).loc cc1_scratch1))
    {off off' : Fin 1 → Nat} (h : off = off') (inb : ∀ a, off a + S200.size a ≤ S10000.size a) (inb' : ∀ a, off' a + S200.size a ≤ S10000.size a) :
    (Transfers.Flight countersEmb (V d (cV L) (jV L)) (SemLoc.dma cc1_scratch4.sem) (default : HIx 1) 819200
          iprop(((((r0).view.loc (V d (cV L) (jV L)) ↦[(r0).view.set]{fullShare} X) ∗ ((sI).view.loc (V d (cV L) (jV L)) ↦[(iSl (off) (inb)).view.set]{fullShare} fJ))
            ∗ ((tV).view.loc (V d (cV L) (jV L)) ↦[(tSl).view.set]{Transfers.shareTokN q 4} Tv d)) : sProp 𝕄) : sProp 𝕄) ⊢ (Transfers.Flight countersEmb (V d (cV L) (jV L)) (SemLoc.dma cc1_scratch4.sem) (default : HIx 1) 819200
          iprop(((((r0).view.loc (V d (cV L) (jV L)) ↦[(r0).view.set]{fullShare} X) ∗ ((sI).view.loc (V d (cV L) (jV L)) ↦[(iSl (off') (inb')).view.set]{fullShare} fJ))
            ∗ ((tV).view.loc (V d (cV L) (jV L)) ↦[(tSl).view.set]{Transfers.shareTokN q 4} Tv d)) : sProp 𝕄) : sProp 𝕄) := by
  subst h; exact Entails.refl _
theorem FS8_congr (Y : Buf (Elt F) (oLoc d)) (X : Buf (Elt F) ((V d (cV L) (jV L)).loc cc1_scratch2))
    {off off' : Fin 2 → Nat} (h : off = off') (inb : ∀ a, off a + S200x128.size a ≤ S320000x128.size a) (inb' : ∀ a, off' a + S200x128.size a ≤ S320000x128.size a) :
    (Transfers.Flight countersEmb (V d (cV L) (jV L)) (SemLoc.dma cc1_scratch8.sem) (default : HIx 1) 819200
          iprop((((oSl (off) (inb)).view.loc (V d (cV L) (jV L)) ↦[(oSl (off) (inb)).view.set]{fullShare} Y)
            ∗ ((r1).view.loc (V d (cV L) (jV L)) ↦[(r1).view.set]{fullShare} X)) : sProp 𝕄) : sProp 𝕄) ⊢ (Transfers.Flight countersEmb (V d (cV L) (jV L)) (SemLoc.dma cc1_scratch8.sem) (default : HIx 1) 819200
          iprop((((oSl (off') (inb')).view.loc (V d (cV L) (jV L)) ↦[(oSl (off') (inb')).view.set]{fullShare} Y)
            ∗ ((r1).view.loc (V d (cV L) (jV L)) ↦[(r1).view.set]{fullShare} X)) : sProp 𝕄) : sProp 𝕄) := by
  subst h; exact Entails.refl _
theorem rest_congr (fJ : Buf (Elt F) ((V d (cV L) (jV L)).loc cc1_scratch0)) {a a' b b' : Fin 1 → Nat} (ha : a = a') (hb : b = b')
    (ia : ∀ x, a x + S200.size x ≤ S10000.size x) (ia' : ∀ x, a' x + S200.size x ≤ S10000.size x)
    (ib : ∀ x, b x + S200.size x ≤ S10000.size x) (ib' : ∀ x, b' x + S200.size x ≤ S10000.size x) :
    ((sI).view.loc (V d (cV L) (jV L)) ↦[(Finset.univ \ (iSl a ia).view.set) \ (iSl b ib).view.set]{fullShare} fJ : sProp 𝕄)
      ⊢ ((sI).view.loc (V d (cV L) (jV L)) ↦[(Finset.univ \ (iSl a' ia').view.set) \ (iSl b' ib').view.set]{fullShare} fJ : sProp 𝕄) := by
  subst ha; subst hb; exact Entails.refl _

theorem done_first : iprop((fun j => (oLoc d ↦[oSet L j]{fullShare} gathered Tv m hh d : sProp 𝕄)) 0) ⊢ bigSep (Finset.range (3 * 0 + 1)) (fun j => (oLoc d ↦[oSet L j]{fullShare} gathered Tv m hh d : sProp 𝕄)) := by
  rw [show Finset.range (3 * 0 + 1) = {0} from by decide, bigSep_singleton]

omit [FloatOps F] in
/-- Two windows of the index list 200 words apart or more do not meet. -/
theorem iSl_disjoint {a b : Fin 1 → Nat} (ia : ∀ x, a x + S200.size x ≤ S10000.size x) (ib : ∀ x, b x + S200.size x ≤ S10000.size x)
    (h : a 0 + 200 ≤ b 0 ∨ b 0 + 200 ≤ a 0) : Disjoint (α := Finset S10000.Idx) (iSl a ia).view.set (iSl b ib).view.set := by
  show Disjoint (((sI).view.slice (Rect.unit (s := S10000) a S200.size ia)).set) (((sI).view.slice (Rect.unit (s := S10000) b S200.size ib)).set)
  rw [View.set_slice, View.set_slice]
  exact (Finset.disjoint_map _).mpr (Rect.unit_disjoint (s := S10000) 0 h)

theorem ChunkAt_congr {off off' : Fin 2 → Nat} (h : off = off') (inb : ∀ a, off a + S200x128.size a ≤ S320000x128.size a)
    (inb' : ∀ a, off' a + S200x128.size a ≤ S320000x128.size a) (Y : Buf (Elt F) (oLoc d)) (hY : ChunkAt Tv m hh d off inb Y) :
    ChunkAt Tv m hh d off' inb' Y := by subst h; exact hY

set_option maxHeartbeats 4000000 in
include hh in
theorem trip_step (q : PosShare TreeShare) (O : CellTallies nD τ sig (HIx 1)) (W : Waits sig (HIx 1))
    (fJ : Buf (Elt F) ((V d (cV L) (jV L)).loc cc1_scratch0)) (hfJ : ∀ z : S10000.Idx, fJ z = m (hLoc d) ((hSl L).view.emb z))
    (hin : ∀ (off : Fin 1 → Nat) (inb : ∀ a, off a + S200.size a ≤ S10000.size a) (x : (Rect.unit (s := S10000) off S200.size inb).shape.Idx),
      ((iSl off inb).view.read (Elt F) fJ x).toNat < 10000)
    (v2 : BitVec 32) (k : Fin k1_t1_loop.trips) (x : PUnit) :
    inv Tv m hh d L q O W fJ k.val x
      ⊢ wp frame (wpE (defs₀ (F := F)) 𝒱₀ (V d (cV L) (jV L)) none) Set.univ
          (k1_t1_body L tV (Memref.isWhole_whole _) hV (Memref.isWhole_whole _) oW (Memref.isWhole_whole _)
            sI (Memref.isWhole_whole _) r0 (Memref.isWhole_whole _) r1 (Memref.isWhole_whole _) r2 (Memref.isWhole_whole _)
            cc1_scratch4 cc1_scratch5 cc1_scratch6 cc1_scratch7 cc1_scratch8 cc1_scratch9 cc1_scoped0 v2 k x)
          (inv Tv m hh d L q O W fJ (k.val + 1)) := by
    unfold k1_t1_body

    have hk15 : k.val < 15 := trip_lt k
    unfold inv
    iintro ⟨%hk, Hmw, Ht5, Hg1, Hs0, Hs2, ⟨%X2, %hX2, Hg2, Hr2⟩, Ht6, ⟨%Y, %X1, %hY, Hs1, Hr1⟩, ⟨%X0, %hX0, Hg0, Hr0⟩, Ht4, HsI, Hdone, Htodo, %W', %hW', HO⟩
    ihave Hc := (todo_take (F := F) d L k) $$ Htodo
    icases Hc with ⟨⟨%gc0, Hc0⟩, ⟨%gc1, Hc1⟩, ⟨%gc2, Hc2⟩, Htodo⟩
    have h62' : (k1_off6 k 2#32) 0 = 600 * k.val + 800 := by
      have := congrFun (k1_off6_eq k ⟨1, by decide⟩) 0; simpa using this
    have dW2B : Disjoint (α := Finset S10000.Idx) ((sI).slice (Rect.unit (s := S10000) (k1_off6 k 2#32) S200.size (k1_off6_inb k 1)) (fun _ => rfl)).view.set (iWB k.val hk) :=
      iSl_disjoint _ _ (Or.inr (by rw [h62']; show 600 * k.val + 600 + 200 ≤ 600 * k.val + 800; omega))
    sl_exec
    sl_step
    have hk1 : k.val + 1 ≤ 15 := by omega
    have e72 : k1_off7 L k 2#32 = oOff L (3 * (k.val + 1) + 1) := (off7_2 L k).trans (congrArg (oOff L) (by omega))
    have h62 : k1_off6 k 2#32 = ![200 * (3 * k.val + 4)] :=
      (show k1_off6 k 2#32 = ![600 * k.val + 200 * 1 + 600] from k1_off6_eq k ⟨1, by decide⟩).trans
        (congrArg (fun n => (![n] : Fin 1 → Nat)) (by omega))
    have h63 : k1_off6 k 3#32 = ![200 * (3 * (k.val + 1) + 2)] :=
      (off6_3 k).trans (congrArg (fun n => (![n] : Fin 1 → Nat)) (by omega))
    have h64 : k1_off6 k 4#32 = ![200 * (3 * (k.val + 1) + 3)] :=
      (off6_4 k).trans (congrArg (fun n => (![n] : Fin 1 → Nat)) (by omega))
    iexists hk1
    isplitl [Hmw]; · iexact Hmw
    isplitl [Ht5]; · iexact Ht5
    isplitl [Hg1]; · iexact Hg1
    isplitl [Hs0]; · iexact Hs0
    isplitl [Hs2]; · iexact Hs2
    isplitl [Hg2 Hr2]
    · iexists _
      isplitr
      swap
      · isplitl [Hg2]
        · iapply (FG6_congr Tv d L q fJ _ (off6_3 k) (k1_off6_inb k 2) (wA (k.val + 1) hk1)); iexact Hg2
        · iexact Hr2
      · ipureintro
        exact slot_of_gather Tv m hh d (r2).view X2 _ _ _ fun y =>
          gather_is_gathered Tv m hh d L fJ hfJ (3 * (k.val + 1) + 2) (by omega) (k1_off6 k 3#32) h63 _ _ _ y
    isplitl [Ht6]; · iexact Ht6
    isplitl [Hs1 Hr1]
    · iexists _, _
      isplitr
      swap
      · isplitl [Hs1]
        · iapply (FS8_congr d L _ _ e72 (k1_off7_inb L k 1) (oOff_inb L _)); iexact Hs1
        · iexact Hr1
      · ipureintro
        exact ChunkAt_congr Tv m hh d e72 (k1_off7_inb L k 1) (oOff_inb L _) _
          (chunk_of_store Tv m hh d (r1).view _ (oOff L (3 * k.val + 4)) (oOff_inb L _)
            (slot_of_gather Tv m hh d (r1).view X1 _ _ _ fun y =>
              gather_is_gathered Tv m hh d L fJ hfJ (3 * k.val + 4) (by omega) (k1_off6 k 2#32) h62 _ _ _ y)
            (off7_2 L k) (k1_off7_inb L k 1) gc2)
    isplitl [Hg0 Hr0]
    · iexists _
      isplitr
      swap
      · isplitl [Hg0]
        · iapply (FG4_congr Tv d L q fJ _ (off6_4 k) (k1_off6_inb k 3) (wB (k.val + 1) hk1)); iexact Hg0
        · iexact Hr0
      · ipureintro
        exact slot_of_gather Tv m hh d (r0).view X0 _ _ _ fun y =>
          gather_is_gathered Tv m hh d L fJ hfJ (3 * (k.val + 1) + 3) (by omega) (k1_off6 k 4#32) h64 _ _ _ y
    isplitl [Ht4]; · iexact Ht4
    isplitl [HsI]
    · iapply (rest_congr d L fJ (off6_3 k) (off6_4 k) (k1_off6_inb k 2) (wA (k.val + 1) hk1) (k1_off6_inb k 3) (wB (k.val + 1) hk1)); iexact HsI
    isplitl [Hdone Hs1_dst Hc0 Hc1]
    · iapply (done_step Tv m hh d L k.val)
      isplitl [Hdone]; · iexact Hdone
      isplitl [Hs1_dst]; · iapply (chunk_done Tv m hh d L (3 * k.val + 1) rfl (oOff_inb L _) Y hY); iexact Hs1_dst
      isplitl [Hc0]
      · iapply (chunk_done Tv m hh d L (3 * k.val + 2) (off4_eq L k) (k1_off4_inb L k) _
          (chunk_of_store Tv m hh d (r2).view X2 (oOff L (3 * k.val + 2)) (oOff_inb L _) hX2 (off4_eq L k) (k1_off4_inb L k) gc0)); iexact Hc0
      · iapply (chunk_done Tv m hh d L (3 * k.val + 3) (off7_1 L k) (k1_off7_inb L k 0) _
          (chunk_of_store Tv m hh d (r0).view X0 (oOff L (3 * k.val + 3)) (oOff_inb L _) hX0 (off7_1 L k) (k1_off7_inb L k 0) gc1)); iexact Hc1
    isplitl [Htodo]; · iexact Htodo
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

end Tile
end Cert.Proof.Kernel
end
-- ==== Proof.Kernel.ScTile.lean ====
/-
  One tile's task, run: its rows of the index array copied into its index list; then fifty chunks of 200 rows through a
  ring of three slots — gather chunk k into slot k mod 3, wait, store the slot to the output's rows, wait for that store
  before the slot is gathered into again — as a prologue, fifteen trips of three chunks under the ring's invariant, and
  an epilogue. Every copy is issued and waited for on its own semaphore, and no slot is touched between a copy's issue
  and its wait, so each wait hands back exactly what its copy delivered.
-/
import proofs.«210904_g42554535969575_cont_8to1_b_1627_27_alg».proof.Proof.Kernel.ScTrip
import Idealize.ShloMosaic.Lib.SparseCore.Ops

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

local notation "tV" => (Memref.whole Cert.Kernel.main_v1_scv : Memref Cert.Kernel.sig Kind.scVector Space.hbm Cert.Kernel.S10000x128 EltTy.f32)
local notation "hV" => (Memref.whole Cert.Kernel.main_arg2_scv : Memref Cert.Kernel.sig Kind.scVector Space.hbm Cert.Kernel.S320000 EltTy.i32)
local notation "oW" => (Memref.whole Cert.Kernel.main_v2_scv : Memref Cert.Kernel.sig Kind.scVector Space.hbm Cert.Kernel.S320000x128 EltTy.f32)
local notation "sI" => (Memref.whole Cert.Kernel.cc1_scratch0 : Memref Cert.Kernel.sig Kind.scVector Space.vmem Cert.Kernel.S10000 EltTy.i32)
local notation "r0" => (Memref.whole Cert.Kernel.cc1_scratch1 : Memref Cert.Kernel.sig Kind.scVector Space.vmem Cert.Kernel.S200x128 EltTy.f32)
local notation "r1" => (Memref.whole Cert.Kernel.cc1_scratch2 : Memref Cert.Kernel.sig Kind.scVector Space.vmem Cert.Kernel.S200x128 EltTy.f32)
local notation "r2" => (Memref.whole Cert.Kernel.cc1_scratch3 : Memref Cert.Kernel.sig Kind.scVector Space.vmem Cert.Kernel.S200x128 EltTy.f32)

section Tile

variable (d : Dev nD) (L : grid1.Coords)

omit [FloatOps F] in
/-- The tile's index list once its rows of the index array have landed in it: word `z` of the list is word `z` of the tile's rows. -/
theorem idx_landed (fI : Buf (Elt F) ((V d (cV L) (jV L)).loc cc1_scratch0)) (pay : S10000.Idx → Elt F .i32)
    (hpay : ∀ z, pay z = m (hLoc d) ((hSl L).view.emb z)) :
    ((sI).view.loc (V d (cV L) (jV L)) ↦{fullShare} View.write (Elt F) (sI).view fI pay Finset.univ : sProp 𝕄)
      ⊢ iprop(∃ fJ : Buf (Elt F) ((V d (cV L) (jV L)).loc cc1_scratch0), ⌜∀ z : S10000.Idx, fJ z = m (hLoc d) ((hSl L).view.emb z)⌝ ∗ ((sI).view.loc (V d (cV L) (jV L)) ↦{fullShare} fJ)) := by
  iintro H
  iexists (View.write (Elt F) (sI).view fI pay Finset.univ)
  isplitr
  · ipureintro; intro z
    rw [show View.write (Elt F) (sI).view fI pay Finset.univ = pay from View.write_whole_univ (Val := Elt F) cc1_scratch0 fI pay]
    exact hpay z
  · iexact H

set_option maxHeartbeats 4000000 in
include hh in
theorem tile_run (q qh : PosShare TreeShare) (O : CellTallies nD τ sig (HIx 1)) (W : Waits sig (HIx 1)) (hO : ∀ g, O g none = 0)
    (fI : Buf (Elt F) ((V d (cV L) (jV L)).loc cc1_scratch0)) (f0 : Buf (Elt F) ((V d (cV L) (jV L)).loc cc1_scratch1))
    (f1 : Buf (Elt F) ((V d (cV L) (jV L)).loc cc1_scratch2)) (f2 : Buf (Elt F) ((V d (cV L) (jV L)).loc cc1_scratch3)) :
    iprop(levAts (K (F := F)).L (K (F := F)).lev
        ∗ (tLoc d ↦{Transfers.shareTokN q 4} Tv d)
        ∗ (tLoc d ↦{Transfers.shareTokN q 5} Tv d)
        ∗ (tLoc d ↦{Transfers.shareTokN q 6} Tv d)
        ∗ (hLoc d ↦{qh} m (hLoc d))
        ∗ (bigSep (Finset.range 50) (fun j => (iprop(∃ g, oLoc d ↦[oSet L j]{fullShare} g) : sProp 𝕄)))
        ∗ ((V d (cV L) (jV L)).loc cc1_scratch0 ↦{fullShare} fI)
        ∗ ((V d (cV L) (jV L)).loc cc1_scratch1 ↦{fullShare} f0)
        ∗ ((V d (cV L) (jV L)).loc cc1_scratch2 ↦{fullShare} f1)
        ∗ ((V d (cV L) (jV L)).loc cc1_scratch3 ↦{fullShare} f2)
        ∗ semVal (g0c d (cV L) (jV L)) 0 ∗ semVal (g1c d (cV L) (jV L)) 0 ∗ semVal (g2c d (cV L) (jV L)) 0
        ∗ semVal (o0c d (cV L) (jV L)) 0 ∗ semVal (o1c d (cV L) (jV L)) 0 ∗ semVal (o2c d (cV L) (jV L)) 0
        ∗ semVal (icc d (cV L) (jV L)) 0
        ∗ owes (V d (cV L) (jV L)) O W)
      ⊢ wp frame (wpE (defs₀ (F := F)) 𝒱₀ (V d (cV L) (jV L)) none) Set.univ
          (cc1__sc_gather_body L tV (Memref.isWhole_whole _) hV (Memref.isWhole_whole _) oW (Memref.isWhole_whole _)
            sI (Memref.isWhole_whole _) r0 (Memref.isWhole_whole _) r1 (Memref.isWhole_whole _) r2 (Memref.isWhole_whole _)
            cc1_scratch4 cc1_scratch5 cc1_scratch6 cc1_scratch7 cc1_scratch8 cc1_scratch9 cc1_scoped0)
          fun _ => iprop((tLoc d ↦{Transfers.shareTokN q 4} Tv d) ∗ (tLoc d ↦{Transfers.shareTokN q 5} Tv d) ∗ (tLoc d ↦{Transfers.shareTokN q 6} Tv d)
            ∗ (hLoc d ↦{qh} m (hLoc d))
            ∗ (bigSep (Finset.range 50) (fun j => (oLoc d ↦[oSet L j]{fullShare} gathered Tv m hh d : sProp 𝕄)))
            ∗ (∃ f, (V d (cV L) (jV L)).loc cc1_scratch0 ↦{fullShare} f) ∗ (∃ f, (V d (cV L) (jV L)).loc cc1_scratch1 ↦{fullShare} f)
            ∗ (∃ f, (V d (cV L) (jV L)).loc cc1_scratch2 ↦{fullShare} f) ∗ (∃ f, (V d (cV L) (jV L)).loc cc1_scratch3 ↦{fullShare} f)
            ∗ semVal (g0c d (cV L) (jV L)) 0 ∗ semVal (g1c d (cV L) (jV L)) 0 ∗ semVal (g2c d (cV L) (jV L)) 0
            ∗ semVal (o0c d (cV L) (jV L)) 0 ∗ semVal (o1c d (cV L) (jV L)) 0 ∗ semVal (o2c d (cV L) (jV L)) 0
            ∗ semVal (icc d (cV L) (jV L)) 0
            ∗ ∃ W', ⌜∀ p ∈ W', p ∈ W ∨ p.2 = none⌝ ∗ owes (V d (cV L) (jV L)) O W') := by
  simp only [cc1__sc_gather_body_eq_skeleton]; unfold cc1__sc_gather_body_skel
  iintro ⟨#Hlv, Ht4, Ht5, Ht6, Hh, Hall, HsI, Hr0, Hr1, Hr2, Hg0, Hg1, Hg2, Hs0, Hs1, Hs2, Hic, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hc := (todo_first (F := F) d L) $$ Hall
  icases Hc with ⟨⟨%g0, Ho0⟩, ⟨%g1, Ho1⟩, Htodo⟩
  ihave Ht4 := (Entails.of_eq (show (tLoc d ↦{Transfers.shareTokN q 4} Tv d : sProp 𝕄) = ((tV).view.loc (V d (cV L) (jV L)) ↦{Transfers.shareTokN q 4} Tv d) from rfl)) $$ Ht4
  ihave Ht5 := (Entails.of_eq (show (tLoc d ↦{Transfers.shareTokN q 5} Tv d : sProp 𝕄) = ((tV).view.loc (V d (cV L) (jV L)) ↦{Transfers.shareTokN q 5} Tv d) from rfl)) $$ Ht5
  ihave Ht6 := (Entails.of_eq (show (tLoc d ↦{Transfers.shareTokN q 6} Tv d : sProp 𝕄) = ((tV).view.loc (V d (cV L) (jV L)) ↦{Transfers.shareTokN q 6} Tv d) from rfl)) $$ Ht6
  ihave Hh := (Entails.of_eq (show (hLoc d ↦{qh} m (hLoc d) : sProp 𝕄) = ((hV).view.loc (V d (cV L) (jV L)) ↦{qh} m (hLoc d)) from rfl)) $$ Hh
  ihave HsI := (Entails.of_eq (show ((V d (cV L) (jV L)).loc cc1_scratch0 ↦{fullShare} fI : sProp 𝕄) = ((sI).view.loc (V d (cV L) (jV L)) ↦{fullShare} fI) from rfl)) $$ HsI
  ihave Hr0 := (Entails.of_eq (show ((V d (cV L) (jV L)).loc cc1_scratch1 ↦{fullShare} f0 : sProp 𝕄) = ((r0).view.loc (V d (cV L) (jV L)) ↦{fullShare} f0) from rfl)) $$ Hr0
  ihave Hr1 := (Entails.of_eq (show ((V d (cV L) (jV L)).loc cc1_scratch2 ↦{fullShare} f1 : sProp 𝕄) = ((r1).view.loc (V d (cV L) (jV L)) ↦{fullShare} f1) from rfl)) $$ Hr1
  ihave Hr2 := (Entails.of_eq (show ((V d (cV L) (jV L)).loc cc1_scratch3 ↦{fullShare} f2 : sProp 𝕄) = ((r2).view.loc (V d (cV L) (jV L)) ↦{fullShare} f2) from rfl)) $$ Hr2
  -- the tile's rows of the index array into its index list, and the wait
  sl_exec
  have hp : ∀ z, tile_run.sl.dma0 m d L z = m (hLoc d) ((hSl L).view.emb z) := fun z => (View.read_apply _ _).trans (cast_eq _ _)
  ihave HsI := (idx_landed (F := F) m d L fI _ hp) $$ HsI
  icases HsI with ⟨%fJ, %hfJ, HsI⟩
  have hJ : ∀ z : S10000.Idx, (fJ z).toNat < 10000 := fun z => by rw [hfJ z]; exact hh d _
  have hin : ∀ (off : Fin 1 → Nat) (inb : ∀ a, off a + S200.size a ≤ S10000.size a) (x : (Rect.unit (s := S10000) off S200.size inb).shape.Idx),
      ((iSl off inb).view.read (Elt F) fJ x).toNat < 10000 := by
    intro off inb x
    have e : (iSl off inb).view.read (Elt F) fJ x = fJ ((iSl off inb).view.emb x) := (View.read_apply _ _).trans (cast_eq _ _)
    rw [e]; exact hJ _
  -- the prologue: chunks 0 to 3 started
  sl_exec

  sl_for (inv Tv m hh d L q O W fJ) $$ [Hmw Ht5 Hg1 Hs0 Hs2 Hg2 Hr2 Ht6 Hs1 Hr1 Hg0 Hr0 Ht4 HsI Ho0 Htodo HO]
  case region =>
    intro k x
    exact trip_step Tv m hh d L q O W fJ hfJ hin _ k x

  · -- the ring as the prologue leaves it is the ring before trip 0
    unfold inv
    iexists (Nat.zero_le 15)
    isplitl [Hmw]; · iexact Hmw
    isplitl [Ht5]; · iexact Ht5
    isplitl [Hg1]; · iexact Hg1
    isplitl [Hs0]; · iexact Hs0
    isplitl [Hs2]; · iexact Hs2
    isplitl [Hg2 Hr2]
    · iexists _
      isplitr
      swap
      · isplitl [Hg2]; · iexact Hg2
        iexact Hr2
      · ipureintro
        exact slot_of_gather Tv m hh d (r2).view f2 _ _ _ fun y => gather_is_gathered Tv m hh d L fJ hfJ 2 (by omega) ![400] rfl _ _ _ y
    isplitl [Ht6]; · iexact Ht6
    isplitl [Hs1 Hr1]
    · iexists _, _
      isplitr
      swap
      · isplitl [Hs1]; · iapply (FS8_congr d L _ _ (off2_200 L) (k1_off2_inb L 1) (oOff_inb L _)); iexact Hs1
        iexact Hr1
      · ipureintro
        exact ChunkAt_congr Tv m hh d (off2_200 L) (k1_off2_inb L 1) (oOff_inb L _) _
          (chunk_of_store Tv m hh d (r1).view _ (oOff L 1) (oOff_inb L _)
            (slot_of_gather Tv m hh d (r1).view f1 _ _ _ fun y => gather_is_gathered Tv m hh d L fJ hfJ 1 (by omega) ![200] rfl _ _ _ y)
            (off2_200 L) (k1_off2_inb L 1) g1)
    isplitl [Hg0 Hr0]
    · iexists _
      isplitr
      swap
      · isplitl [Hg0]; · iexact Hg0
        iexact Hr0
      · ipureintro
        exact slot_of_gather Tv m hh d (r0).view ((r0).view.writes (Elt F) f0 [_]) _ _ _ fun y => gather_is_gathered Tv m hh d L fJ hfJ 3 (by omega) ![600] rfl _ _ _ y
    isplitl [Ht4]; · iexact Ht4
    isplitl [HsI]; · iexact HsI
    isplitl [Ho0]
    · iapply (done_first Tv m hh d L)
      iapply (chunk_done Tv m hh d L 0 (off2_0 L) (k1_off2_inb L 0) _
        (chunk_of_store Tv m hh d (r0).view _ (oOff L 0) (oOff_inb L _)
          (slot_of_gather Tv m hh d (r0).view f0 _ _ _ fun y => gather_is_gathered Tv m hh d L fJ hfJ 0 (by omega) ![0] rfl _ _ _ y)
          (off2_0 L) (k1_off2_inb L 0) _))
      iexact Ho0
    isplitl [Htodo]; · iexact Htodo
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp

  iintro %u HI
  have ht : Scf.trips k1_t1_loop.lb k1_t1_loop.ub k1_t1_loop.st = 15 := by decide
  ihave HI := (Entails.of_eq (show inv Tv m hh d L q O W fJ (Scf.trips k1_t1_loop.lb k1_t1_loop.ub k1_t1_loop.st) u = inv Tv m hh d L q O W fJ 15 u from by rw [ht])) $$ HI
  unfold inv
  icases HI with ⟨%hk, -, Ht5, Hg1, Hs0, Hs2, ⟨%X2, %hX2, Hg2, Hr2⟩, Ht6, ⟨%Y, %X1, %hY, Hs1, Hr1⟩, ⟨%X0, %hX0, Hg0, Hr0⟩, Ht4, HsI, Hdone, Htodo, %W', %hW', HO⟩
  ihave Hc := (todo_last (F := F) d L) $$ Htodo
  icases Hc with ⟨⟨%g47, Hc47⟩, ⟨%g48, Hc48⟩, ⟨%g49, Hc49⟩⟩
  have dE : Disjoint (α := Finset S10000.Idx) ((sI).slice (Rect.unit (s := S10000) ![9800] S200.size inb_S10000_S200_9800) (fun _ => rfl)).view.set (iWB 15 hk) :=
    iSl_disjoint _ _ (Or.inr (by show 600 * 15 + 600 + 200 ≤ 9800; omega))
  -- the epilogue: chunks 47, 48 and 49 stored, every store waited for
  sl_exec
  sl_step
  isplitl [Ht4]; · iexact Ht4
  isplitl [Ht5]; · iexact Ht5
  isplitl [Ht6]; · iexact Ht6
  isplitl [Hh]; · iexact Hh
  isplitl [Hdone Hs1_dst Hc47 Hc48 Hc49]
  · iapply (done_last Tv m hh d L)
    isplitl [Hdone]; · iexact Hdone
    isplitl [Hs1_dst]; · iapply (chunk_done Tv m hh d L 46 rfl (oOff_inb L _) Y hY); iexact Hs1_dst
    isplitl [Hc47]
    · iapply (chunk_done Tv m hh d L 47 (off2_9400 L) (k1_off2_inb L 2) _
        (chunk_of_store Tv m hh d (r2).view X2 (oOff L 47) (oOff_inb L _) hX2 (off2_9400 L) (k1_off2_inb L 2) g47)); iexact Hc47
    isplitl [Hc48]
    · iapply (chunk_done Tv m hh d L 48 (off2_9600 L) (k1_off2_inb L 4) _
        (chunk_of_store Tv m hh d (r0).view X0 (oOff L 48) (oOff_inb L _) hX0 (off2_9600 L) (k1_off2_inb L 4) g48)); iexact Hc48
    · iapply (chunk_done Tv m hh d L 49 (off2_9800 L) (k1_off2_inb L 5) _
        (chunk_of_store Tv m hh d (r1).view _ (oOff L 49) (oOff_inb L _)
          (slot_of_gather Tv m hh d (r1).view X1 _ _ _ fun y => gather_is_gathered Tv m hh d L fJ hfJ 49 (by omega) ![9800] rfl _ _ _ y)
          (off2_9800 L) (k1_off2_inb L 5) g49)); iexact Hc49
  isplitl [HsI]; · iexists _; iexact HsI
  isplitl [Hr0]; · iexists _; iexact Hr0
  isplitl [Hr1]; · iexists _; iexact Hr1
  isplitl [Hr2]; · iexists _; iexact Hr2
  isplitl [Hg0]; · iexact Hg0
  isplitl [Hg1]; · iexact Hg1
  isplitl [Hg2]; · iexact Hg2
  isplitl [Hs0]; · iexact Hs0
  isplitl [Hs1]; · iexact Hs1
  isplitl [Hs2]; · iexact Hs2
  isplitl [Hic]; · iexact Hic
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Tile
end Cert.Proof.Kernel
end
-- ==== Proof.Kernel.ScBody.lean ====
/-
  The tile's task of the SparseCore call from its run: the tile is handed read shares of the table and of the index
  array, its fifty chunks of the output at unknown contents, and its own scoped storage; three read tokens of the
  table's share go to the three slots' gathers and the rest waits aside; the chunks are renumbered from the call's
  numbering to the tile's; the tile's seven DMA semaphores and four scratch buffers come out of its scoped storage.
  After the run everything is put back, the chunks holding the gathered rows.
-/
import proofs.«210904_g42554535969575_cont_8to1_b_1627_27_alg».proof.Proof.Kernel.ScTile

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

local notation "tV" => (Memref.whole Cert.Kernel.main_v1_scv : Memref Cert.Kernel.sig Kind.scVector Space.hbm Cert.Kernel.S10000x128 EltTy.f32)
local notation "hV" => (Memref.whole Cert.Kernel.main_arg2_scv : Memref Cert.Kernel.sig Kind.scVector Space.hbm Cert.Kernel.S320000 EltTy.i32)
local notation "oW" => (Memref.whole Cert.Kernel.main_v2_scv : Memref Cert.Kernel.sig Kind.scVector Space.hbm Cert.Kernel.S320000x128 EltTy.f32)
local notation "sI" => (Memref.whole Cert.Kernel.cc1_scratch0 : Memref Cert.Kernel.sig Kind.scVector Space.vmem Cert.Kernel.S10000 EltTy.i32)
local notation "r0" => (Memref.whole Cert.Kernel.cc1_scratch1 : Memref Cert.Kernel.sig Kind.scVector Space.vmem Cert.Kernel.S200x128 EltTy.f32)
local notation "r1" => (Memref.whole Cert.Kernel.cc1_scratch2 : Memref Cert.Kernel.sig Kind.scVector Space.vmem Cert.Kernel.S200x128 EltTy.f32)
local notation "r2" => (Memref.whole Cert.Kernel.cc1_scratch3 : Memref Cert.Kernel.sig Kind.scVector Space.vmem Cert.Kernel.S200x128 EltTy.f32)

section Tile

variable (d : Dev nD) (L : grid1.Coords)

/-! ## The tile's own semaphores and scratch buffers, out of its scoped storage -/

omit [FloatOps F] in
theorem ownSems0_V :
    (ownSems0 (V d (cV L) (jV L)) : sProp 𝕄)
      = iprop(semVal (g0c d (cV L) (jV L)) 0 ∗ semVal (g1c d (cV L) (jV L)) 0 ∗ semVal (g2c d (cV L) (jV L)) 0 ∗ semVal (o0c d (cV L) (jV L)) 0 ∗ semVal (o1c d (cV L) (jV L)) 0 ∗ semVal (o2c d (cV L) (jV L)) 0 ∗ semVal (icc d (cV L) (jV L)) 0
          ∗ bigSep ((((((((ownCells (V d (cV L) (jV L))).erase (g0c d (cV L) (jV L))).erase (g1c d (cV L) (jV L))).erase (g2c d (cV L) (jV L))).erase (o0c d (cV L) (jV L))).erase (o1c d (cV L) (jV L))).erase (o2c d (cV L) (jV L))).erase (icc d (cV L) (jV L))) fun g => semVal g 0) := by
  unfold SparseCore.Cfg.ownSems0
  rw [SparseCore.bigSep_erase' ((mem_ownCells (g := g0c d (cV L) (jV L))).mpr ⟨rfl, by show (SemLoc.dma cc1_scratch4.sem : SemLoc sig).isScoped .scVector = true; decide⟩),
    SparseCore.bigSep_erase' (Finset.mem_erase.mpr ⟨by simp [g1c, g0c]; decide, (mem_ownCells (g := g1c d (cV L) (jV L))).mpr ⟨rfl, by show (SemLoc.dma cc1_scratch5.sem : SemLoc sig).isScoped .scVector = true; decide⟩⟩),
    SparseCore.bigSep_erase' (Finset.mem_erase.mpr ⟨by simp [g2c, g1c]; decide, Finset.mem_erase.mpr ⟨by simp [g2c, g0c]; decide, (mem_ownCells (g := g2c d (cV L) (jV L))).mpr ⟨rfl, by show (SemLoc.dma cc1_scratch6.sem : SemLoc sig).isScoped .scVector = true; decide⟩⟩⟩),
    SparseCore.bigSep_erase' (Finset.mem_erase.mpr ⟨by simp [o0c, g2c]; decide, Finset.mem_erase.mpr ⟨by simp [o0c, g1c]; decide, Finset.mem_erase.mpr ⟨by simp [o0c, g0c]; decide, (mem_ownCells (g := o0c d (cV L) (jV L))).mpr ⟨rfl, by show (SemLoc.dma cc1_scratch7.sem : SemLoc sig).isScoped .scVector = true; decide⟩⟩⟩⟩),
    SparseCore.bigSep_erase' (Finset.mem_erase.mpr ⟨by simp [o1c, o0c]; decide, Finset.mem_erase.mpr ⟨by simp [o1c, g2c]; decide, Finset.mem_erase.mpr ⟨by simp [o1c, g1c]; decide, Finset.mem_erase.mpr ⟨by simp [o1c, g0c]; decide, (mem_ownCells (g := o1c d (cV L) (jV L))).mpr ⟨rfl, by show (SemLoc.dma cc1_scratch8.sem : SemLoc sig).isScoped .scVector = true; decide⟩⟩⟩⟩⟩),
    SparseCore.bigSep_erase' (Finset.mem_erase.mpr ⟨by simp [o2c, o1c]; decide, Finset.mem_erase.mpr ⟨by simp [o2c, o0c]; decide, Finset.mem_erase.mpr ⟨by simp [o2c, g2c]; decide, Finset.mem_erase.mpr ⟨by simp [o2c, g1c]; decide, Finset.mem_erase.mpr ⟨by simp [o2c, g0c]; decide, (mem_ownCells (g := o2c d (cV L) (jV L))).mpr ⟨rfl, by show (SemLoc.dma cc1_scratch9.sem : SemLoc sig).isScoped .scVector = true; decide⟩⟩⟩⟩⟩⟩),
    SparseCore.bigSep_erase' (Finset.mem_erase.mpr ⟨by simp [icc, o2c]; decide, Finset.mem_erase.mpr ⟨by simp [icc, o1c]; decide, Finset.mem_erase.mpr ⟨by simp [icc, o0c]; decide, Finset.mem_erase.mpr ⟨by simp [icc, g2c]; decide, Finset.mem_erase.mpr ⟨by simp [icc, g1c]; decide, Finset.mem_erase.mpr ⟨by simp [icc, g0c]; decide, (mem_ownCells (g := icc d (cV L) (jV L))).mpr ⟨rfl, by show (SemLoc.dma cc1_scoped0.sem : SemLoc sig).isScoped .scVector = true; decide⟩⟩⟩⟩⟩⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := (Proc.scVector (cV L) (jV L))) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := (Proc.scVector (cV L) (jV L))) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := (Proc.scVector (cV L) (jV L))) (b := (Proc.scVector (cV L) (jV L)).devRef cc1_scratch3) rfl⟩⟩⟩)]

/-! ## The fifty chunks, by the call's numbering and by the tile's -/

omit [FloatOps F] in
/-- The tile's chunks still to be written: over the call's chunk numbers, and over the tile's own. -/
theorem chunks_todo :
    (bigSep Finset.univ fun k : Fin 50 => iprop(∃ f : Buf (Elt F) (oLoc d), oLoc d ↦[cSet (gix (cL L) (sL L) k)]{fullShare} f) : sProp 𝕄)
      = bigSep (Finset.range 50) fun j => iprop(∃ g : Buf (Elt F) (oLoc d), oLoc d ↦[oSet L j]{fullShare} g) := by
  rw [← chunks_in (F := F) (fun j => iprop(∃ g : Buf (Elt F) (oLoc d), oLoc d ↦[oSet L j]{fullShare} g))]
  exact bigSep_congr fun k _ => by rw [oSet_eq L k.val k.isLt]

/-- The tile's chunks holding the gathered rows: over the call's chunk numbers, and over the tile's own. -/
theorem chunks_done :
    (bigSep Finset.univ fun k : Fin 50 => (oLoc d ↦[cSet (gix (cL L) (sL L) k)]{fullShare} gathered Tv m hh d : sProp 𝕄))
      = bigSep (Finset.range 50) fun j => (oLoc d ↦[oSet L j]{fullShare} gathered Tv m hh d : sProp 𝕄) := by
  rw [← chunks_in (F := F) (fun j => (oLoc d ↦[oSet L j]{fullShare} gathered Tv m hh d : sProp 𝕄))]
  exact bigSep_congr fun k _ => by rw [oSet_eq L k.val k.isLt]

/-! ## Three read tokens of the table's share -/

theorem range7 : Finset.range 7 = insert 6 (insert 5 (insert 4 (Finset.range 4))) := by decide

/-- What is left of a share once read tokens 4, 5 and 6 are taken out of its first seven. -/
def tokRest (q : PosShare TreeShare) (ℓ : Loc nD τ sig) (f : Buf (Elt F) ℓ) : sProp 𝕄 :=
  iprop((ℓ ↦{Transfers.shareDrop q 7} f) ∗ bigSep (Finset.range 4) fun i => (ℓ ↦{Transfers.shareTokN q i} f : sProp 𝕄))

omit [FloatOps F] in
theorem toks_split (q : PosShare TreeShare) (ℓ : Loc nD τ sig) (f : Buf (Elt F) ℓ) :
    (ℓ ↦{q} f : sProp 𝕄) ⊢ iprop((ℓ ↦{Transfers.shareTokN q 4} f) ∗ (ℓ ↦{Transfers.shareTokN q 5} f) ∗ (ℓ ↦{Transfers.shareTokN q 6} f) ∗ tokRest q ℓ f) := by
  refine (Transfers.pointsTo_toks_range q 7).1.trans ?_
  unfold tokRest
  rw [range7, SparseCore.bigSep_insert' (by decide), SparseCore.bigSep_insert' (by decide), SparseCore.bigSep_insert' (by decide)]
  iintro ⟨Hd, H6, H5, H4, Hr⟩
  isplitl [H4]; · iexact H4
  isplitl [H5]; · iexact H5
  isplitl [H6]; · iexact H6
  isplitl [Hd]; · iexact Hd
  iexact Hr

omit [FloatOps F] in
theorem toks_join (q : PosShare TreeShare) (ℓ : Loc nD τ sig) (f : Buf (Elt F) ℓ) :
    iprop((ℓ ↦{Transfers.shareTokN q 4} f) ∗ (ℓ ↦{Transfers.shareTokN q 5} f) ∗ (ℓ ↦{Transfers.shareTokN q 6} f) ∗ tokRest q ℓ f) ⊢ (ℓ ↦{q} f : sProp 𝕄) := by
  refine BIBase.Entails.trans ?_ (Transfers.pointsTo_toks_range q 7).2
  unfold tokRest
  rw [range7, SparseCore.bigSep_insert' (by decide), SparseCore.bigSep_insert' (by decide), SparseCore.bigSep_insert' (by decide)]
  iintro ⟨H4, H5, H6, Hd, Hr⟩
  isplitl [Hd]; · iexact Hd
  isplitl [H6]; · iexact H6
  isplitl [H5]; · iexact H5
  isplitl [H4]; · iexact H4
  iexact Hr

/-! ## The tile's task -/

include hh in
/-- THE TILE'S BODY, as the call's dispatch hands it its task and takes it back: the table's and the index array's read
    shares, the fifty chunks at anything in and at the gathered rows out, its scoped storage, what it owes. -/
theorem tile_body (hF : (K (F := F)).Facts) (O : CellTallies nD τ sig (HIx 1)) (W : Waits sig (HIx 1)) (hO : ∀ g, O g none = 0) :
    iprop(levAts (K (F := F)).L (K (F := F)).lev ∗ emp ∗ goT Tv m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L tV (Memref.isWhole_whole _) hV (Memref.isWhole_whole _) oW (Memref.isWhole_whole _)
            sI (Memref.isWhole_whole _) r0 (Memref.isWhole_whole _) r1 (Memref.isWhole_whole _) r2 (Memref.isWhole_whole _)
            cc1_scratch4 cc1_scratch5 cc1_scratch6 cc1_scratch7 cc1_scratch8 cc1_scratch9 cc1_scoped0)
          fun _ => iprop(tdT Tv m hh d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goT tdT
  rw [chunks_todo d L, chunks_done Tv m hh d L]
  iintro ⟨Hlv, -, ⟨Ht, Hh, Ho⟩, ⟨⟨%fI, HI⟩, ⟨%f0, H0⟩, ⟨%f1, H1⟩, ⟨%f2, H2⟩, Hbufs⟩, ⟨Hg0, Hg1, Hg2, Ho0, Ho1, Ho2, Hic, Hsems⟩, HO⟩
  ihave Htk := (toks_split (F := F) (tqq (cL L) (sL L)) (tLoc d) (Tv d)) $$ Ht
  icases Htk with ⟨Ht4, Ht5, Ht6, Htr⟩
  iapply (wp_wand_r _ _ _)
  isplitr [Htr Hbufs Hsems]
  · iapply (tile_run Tv m hh d L (tqq (cL L) (sL L)) (tqq (cL L) (sL L)) O W hO fI f0 f1 f2)
    isplitl [Hlv]; · iexact Hlv
    isplitl [Ht4]; · iexact Ht4
    isplitl [Ht5]; · iexact Ht5
    isplitl [Ht6]; · iexact Ht6
    isplitl [Hh]; · iexact Hh
    isplitl [Ho]; · iexact Ho
    isplitl [HI]; · iexact HI
    isplitl [H0]; · iexact H0
    isplitl [H1]; · iexact H1
    isplitl [H2]; · iexact H2
    isplitl [Hg0]; · iexact Hg0
    isplitl [Hg1]; · iexact Hg1
    isplitl [Hg2]; · iexact Hg2
    isplitl [Ho0]; · iexact Ho0
    isplitl [Ho1]; · iexact Ho1
    isplitl [Ho2]; · iexact Ho2
    isplitl [Hic]; · iexact Hic
    iexact HO
  iintro %a ⟨Ht4, Ht5, Ht6, Hh, Ho, HI, H0, H1, H2, Hg0, Hg1, Hg2, Ho0, Ho1, Ho2, Hic, HO⟩
  ihave Ht := (toks_join (F := F) (tqq (cL L) (sL L)) (tLoc d) (Tv d)) $$ [Ht4 Ht5 Ht6 Htr]
  · isplitl [Ht4]; · iexact Ht4
    isplitl [Ht5]; · iexact Ht5
    isplitl [Ht6]; · iexact Ht6
    iexact Htr
  isplitl [Ht Hh Ho]
  · isplitl [Ht]; · iexact Ht
    isplitl [Hh]; · iexact Hh
    iexact Ho
  isplitl [HI H0 H1 H2 Hbufs]
  · isplitl [HI]; · iexact HI
    isplitl [H0]; · iexact H0
    isplitl [H1]; · iexact H1
    isplitl [H2]; · iexact H2
    iexact Hbufs
  isplitl [Hg0 Hg1 Hg2 Ho0 Ho1 Ho2 Hic Hsems]
  · isplitl [Hg0]; · iexact Hg0
    isplitl [Hg1]; · iexact Hg1
    isplitl [Hg2]; · iexact Hg2
    isplitl [Ho0]; · iexact Ho0
    isplitl [Ho1]; · iexact Ho1
    isplitl [Ho2]; · iexact Ho2
    isplitl [Hic]; · iexact Hic
    iexact Hsems
  iexact HO

end Tile

end Cert.Proof.Kernel

end
-- ==== Proof.Kernel.ScCall.lean ====
/-
  The SparseCore call's obligation for one tile, as the launch states it. The launch asks, of tile (c, i) of the call's
  grid, that its row of the body table run from what the tile is handed — its read shares of the table and of the index
  array, its fifty chunks of the output — and its own scoped storage, to what it hands back. That row is the kernel's
  function at the grid point (c, i), guarded by the grid's bounds, which the point meets; so the obligation is the body's
  run at that point, lifted through the pipelines' label signature.
-/
import proofs.«210904_g42554535969575_cont_8to1_b_1627_27_alg».proof.Proof.Kernel.ScBody
import Idealize.ShloMosaic.Lib.Tactic

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

local notation "tV" => (Memref.whole Cert.Kernel.main_v1_scv : Memref Cert.Kernel.sig Kind.scVector Space.hbm Cert.Kernel.S10000x128 EltTy.f32)
local notation "hV" => (Memref.whole Cert.Kernel.main_arg2_scv : Memref Cert.Kernel.sig Kind.scVector Space.hbm Cert.Kernel.S320000 EltTy.i32)
local notation "oW" => (Memref.whole Cert.Kernel.main_v2_scv : Memref Cert.Kernel.sig Kind.scVector Space.hbm Cert.Kernel.S320000x128 EltTy.f32)
local notation "sI" => (Memref.whole Cert.Kernel.cc1_scratch0 : Memref Cert.Kernel.sig Kind.scVector Space.vmem Cert.Kernel.S10000 EltTy.i32)
local notation "r0" => (Memref.whole Cert.Kernel.cc1_scratch1 : Memref Cert.Kernel.sig Kind.scVector Space.vmem Cert.Kernel.S200x128 EltTy.f32)
local notation "r1" => (Memref.whole Cert.Kernel.cc1_scratch2 : Memref Cert.Kernel.sig Kind.scVector Space.vmem Cert.Kernel.S200x128 EltTy.f32)
local notation "r2" => (Memref.whole Cert.Kernel.cc1_scratch3 : Memref Cert.Kernel.sig Kind.scVector Space.vmem Cert.Kernel.S200x128 EltTy.f32)

/-! ## The tile's obligation to the launch

The launch asks of tile `(c, i)` of the call's grid: from what it is handed and its own scoped storage, its row of the
body table runs to what it hands back. That row is the kernel's function at the grid point `(c, i)`, guarded by the grid's
bounds; the point's two coordinates are the tile's, so what the tile is handed and hands back are the body's own. -/

/-- The grid point of SparseCore `c`, tile `s`. -/
def coordsV (c : Fin (grid1.bound 0)) (s : Fin (grid1.bound 1)) : grid1.Coords :=
  fun | 0 => c | 1 => s | ⟨_ + 2, h⟩ => absurd h (Nat.not_lt.2 (Nat.le_add_left _ _))

/-- A tile's row of the body table: the kernel's function at its grid point, inside the grid's bounds. -/
theorem defs₀_vector (c : Fin τ.nSC) (s : Fin τ.nSub) :
    defs₀ (F := F) (.scVector c s) 1 ()
      = SparseCore.onTile hcore1 hsub1 (fun c s => cc1__sc_gather_body (coordsV c s)
          tV (Memref.isWhole_whole _) hV (Memref.isWhole_whole _) oW (Memref.isWhole_whole _)
          sI (Memref.isWhole_whole _) r0 (Memref.isWhole_whole _) r1 (Memref.isWhole_whole _) r2 (Memref.isWhole_whole _)
          cc1_scratch4 cc1_scratch5 cc1_scratch6 cc1_scratch7 cc1_scratch8 cc1_scratch9 cc1_scoped0) ⟨⟩ c s := rfl

omit [FloatOps F] in
/-- The waits a body recorded beside the ones it found are waits the launch admits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P Tv m hh) v₀ 0 := by
  intro d c i O W hO _ _
  simp only [show (P Tv m hh).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body Tv m hh d (coordsV ⟨_, hci.1⟩ ⟨_, hci.2⟩) facts O W hO).trans (wp_mono frame _ _ fun _ => obl_post)

end Cert.Proof.Kernel

end
-- ==== Proof.KernelIdeal.Setup.lean ====
/-
  The kernel's program as the SparseCore launch theorem sees it (written once per printed program; the texts differ
  only in the program they name): its label signature over the two
  TensorCore pipelines, the SparseCore configuration, the body table, and the ghost state of the whole run —
  the launch handshakes' rounds, the two pipelines' staging cells' rounds, and the counters of the tiles' own
  local copies (which need no schedule: every copy is issued and waited for by the tile that owns its semaphore).
-/
import proofs.«210904_g42554535969575_cont_8to1_b_1627_27_alg».proof.Defs
import Idealize.ShloMosaic.Lib.SparseCore.Launch
import Idealize.ShloMosaic.Lib.StableHlo.Run
import Idealize.ShloMosaic.Lib.Pipeline.Kit
import Idealize.ShloMosaic.Lib.Tactic
import proofs.«210904_g42554535969575_cont_8to1_b_1627_27_alg».proof.Proof.Gen.KernelIdeal
import proofs.«210904_g42554535969575_cont_8to1_b_1627_27_alg».proof.Proof.Gen.KernelIdeal.Skeleton
import proofs.«210904_g42554535969575_cont_8to1_b_1627_27_alg».proof.Proof.Gen.KernelIdeal.Launch

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' cells' rounds, the transfers' counters -/

abbrev UH : Type := URounds (GSem nD τ sig) ℕ
abbrev UP : Type := URounds (GSem nD τ sig) Unit
abbrev UU : Type := UH × (UP × Counters)

/-- The handshakes' rounds library: the left factor. -/
abbrev EH : Emb UH (MT nD τ sig (HIx 1) (Elt F) ℕ UU ℕ) := embL

/-- The pipelines' staging cells' rounds library: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.KernelIdeal

end
-- ==== Proof.KernelIdeal.Fin.lean ====
/-
  How the TensorCore's final holdings read the claim off the final memory: holding an array whole at given contents,
  together with the state interpretation, says the memory holds those contents there.
-/
import proofs.«210904_g42554535969575_cont_8to1_b_1627_27_alg».proof.Proof.KernelIdeal.Setup

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- An array of device `d`, as the TensorCore names it. -/
abbrev aLoc (d : Dev nD) (b : Ref sig .tc) : Loc nD τ sig := (SparseCore.T d).loc b

variable (m : (ℓ : Loc nD τ sig) → Buf (Elt F) ℓ)
variable (outv : (d : Dev nD) → Buf (Elt F) (aLoc d main_v3))

/-- What @main leaves the claim on device `d`: the six arguments whole at their launch contents and the result whole
    at `outv d`. -/
def FIN (d : Dev nD) : sProp 𝕄 :=
  iprop((aLoc d main_v3 ↦{fullShare} outv d)
    ∗ (aLoc d main_arg0 ↦{fullShare} m (aLoc d main_arg0)) ∗ (aLoc d main_arg1 ↦{fullShare} m (aLoc d main_arg1))
    ∗ (aLoc d main_arg2 ↦{fullShare} m (aLoc d main_arg2)) ∗ (aLoc d main_arg3 ↦{fullShare} m (aLoc d main_arg3))
    ∗ (aLoc d main_arg4 ↦{fullShare} m (aLoc d main_arg4)) ∗ (aLoc d main_arg5 ↦{fullShare} m (aLoc d main_arg5)))

/-- The claim's reading of a final state on device `d`. -/
def fq (d : Dev nD) (s' : Phys nD τ sig (Elt F)) : Prop :=
  s'.mem.mem (aLoc d main_v3) = outv d
    ∧ s'.mem.mem (aLoc d main_arg0) = m (aLoc d main_arg0) ∧ s'.mem.mem (aLoc d main_arg1) = m (aLoc d main_arg1)
    ∧ s'.mem.mem (aLoc d main_arg2) = m (aLoc d main_arg2) ∧ s'.mem.mem (aLoc d main_arg3) = m (aLoc d main_arg3)
    ∧ s'.mem.mem (aLoc d main_arg4) = m (aLoc d main_arg4) ∧ s'.mem.mem (aLoc d main_arg5) = m (aLoc d main_arg5)

omit [FloatOps F] in
/-- An array held whole at `f`, against the state interpretation: the memory holds `f` there. -/
theorem agree_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] in
theorem hfin (d : Dev nD) (s' : Phys nD τ sig (Elt F)) : iprop(FIN m outv d ∗ SI s') ⊢ (⌜fq m outv d s'⌝ : sProp 𝕄) := by
  unfold FIN fq
  iintro ⟨⟨H3, H0, H1, H2, H3', H4, H5⟩, HSI⟩
  ihave %h3 := (agree_whole (F := F) _ _ s') $$ [H3 HSI]
  · isplitl [H3] <;> iassumption
  ihave %h0 := (agree_whole (F := F) _ _ s') $$ [H0 HSI]
  · isplitl [H0] <;> iassumption
  ihave %h1 := (agree_whole (F := F) _ _ s') $$ [H1 HSI]
  · isplitl [H1] <;> iassumption
  ihave %h2 := (agree_whole (F := F) _ _ s') $$ [H2 HSI]
  · isplitl [H2] <;> iassumption
  ihave %h3' := (agree_whole (F := F) _ _ s') $$ [H3' HSI]
  · isplitl [H3'] <;> iassumption
  ihave %h4 := (agree_whole (F := F) _ _ s') $$ [H4 HSI]
  · isplitl [H4] <;> iassumption
  ihave %h5 := (agree_whole (F := F) _ _ s') $$ [H5 HSI]
  · isplitl [H5] <;> iassumption
  ipureintro
  exact ⟨h3, h0, h1, h2, h3', h4, h5⟩

end Cert.Proof.KernelIdeal

end
-- ==== Proof.KernelIdeal.Host.lean ====
/-
  The TensorCore's own arrays during @main: its ten unscoped buffers — the six arguments, the reshaped bias, the node
  table, the gathered rows and the result — as one set held whole, and as a chain of ten arrays each at its contents.
-/
import proofs.«210904_g42554535969575_cont_8to1_b_1627_27_alg».proof.Proof.KernelIdeal.Fin

noncomputable section

namespace Cert.Proof.KernelIdeal

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {F : FTy → Type} [FloatOps F]

local notation "𝕄" => MT nD τ sig (HIx 1) (Elt F) ℕ UU ℕ

variable (m : (ℓ : Loc nD τ sig) → Buf (Elt F) ℓ)

/-- A TensorCore array as a buffer of the device. -/
abbrev dr (b : Ref sig .tc) : DevRef τ sig := Proc.devRef .tc b

/-- The bias and its reshaped copy: the buffers of @main's one host operation. -/
abbrev Sb : Finset (DevRef τ sig) := {dr main_arg5, dr main_v0}

/-- @main's host operation: the bias as a 1 × 128 array. -/
abbrev opReshape : HloOp τ sig (Elt F) := StableHlo.reshape main_arg5 main_v0 rfl shapeCasts_S128_S1x128

/-- The launch valuation of device `d`. -/
def V0 (d : Dev nD) : Valuation τ sig (Elt F) := fun b => m (d, b)

/-- The reshaped bias: the launch bias read at the 1 × 128 shape. -/
def b2dVal (d : Dev nD) : Buf (Elt F) (aLoc d main_v0) := (opReshape (F := F)).result (V0 m d) (dr main_v0)

omit [FloatOps F] in
theorem held_Sb (d : Dev nD) (W : Valuation τ sig (Elt F)) :
    (held (SparseCore.T d) Sb W : sProp 𝕄) = iprop((aLoc d main_arg5 ↦{fullShare} W (dr main_arg5)) ∗ (aLoc d main_v0 ↦{fullShare} W (dr main_v0))) := by
  unfold held Sb
  rw [SparseCore.bigSep_insert' (by decide), bigSep_singleton]

omit [FloatOps F] in
/-- The ten unscoped arrays, one by one. -/
theorem unscopedBufs_eq (d : Dev nD) (W : (b : Ref sig .tc) → Buf (Elt F) ((d.tc : Thread nD τ).loc b)) :
    (unscopedBufs d W : sProp 𝕄)
      = iprop((aLoc d main_arg0 ↦{fullShare} W main_arg0) ∗ (aLoc d main_arg1 ↦{fullShare} W main_arg1) ∗ (aLoc d main_arg2 ↦{fullShare} W main_arg2)
          ∗ (aLoc d main_arg3 ↦{fullShare} W main_arg3) ∗ (aLoc d main_arg4 ↦{fullShare} W main_arg4) ∗ (aLoc d main_arg5 ↦{fullShare} W main_arg5)
          ∗ (aLoc d main_v0 ↦{fullShare} W main_v0) ∗ (aLoc d main_v1 ↦{fullShare} W main_v1) ∗ (aLoc d main_v2 ↦{fullShare} W main_v2)
          ∗ (aLoc d main_v3 ↦{fullShare} W main_v3)) := by
  unfold unscopedBufs
  rw [show (Finset.univ.filter fun b : Ref sig .tc => ¬ b.isScoped) = {main_arg0, main_arg1, main_arg2, main_arg3, main_arg4, main_arg5, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem hReshape : (opReshape (F := F)).bufs ⊆ Sb := show ({dr main_arg5, dr main_v0} : Finset (DevRef τ sig)) ⊆ Sb by decide

theorem reshape_arg5 (d : Dev nD) : (opReshape (F := F)).result (V0 m d) (dr main_arg5) = m (aLoc d main_arg5) :=
  (opReshape (F := F)).result_of_not_mem (V0 m d) (b := dr main_arg5) (show dr main_arg5 ∉ ({dr main_v0} : Finset (DevRef τ sig)) by decide)

end Cert.Proof.KernelIdeal

end
-- ==== Proof.KernelIdeal.LaunchElem.lean ====
/-
  The launch element of the run's ghost state and what the launch makes of it: the handshakes' rounds go to the
  launch theorem as they are; the pipelines' staging cells' rounds are funded into each device's cells' launch state
  and the duty tokens of the transfers its two pipelines issue, which is what @main's proof on the TensorCore
  starts from; the counters of the tiles' own copies start empty and nothing of the launch is dealt a kernel's proof.
-/
import proofs.«210904_g42554535969575_cont_8to1_b_1627_27_alg».proof.Proof.KernelIdeal.Setup

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The launch element: the handshake cells' rounds at their launch tokens, the two pipelines' staging cells' rounds
    at the tokens of every transfer their loops issue, no counter. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof on device `d`'s TensorCore starts from: per pipeline, its staging cells' launch state and the
    duty tokens of its transfers. -/
def G (d : Dev nD) : sProp 𝕄 :=
  bigSep Finset.univ fun p : Fin 2 => iprop(Pipeline.cellsGhost (nD := nD) (τ := τ) cfgs (EP (F := F)) p d ∗ Pipeline.toksInit (nD := nD) (τ := τ) cfgs (EP (F := F)) p d)

omit [FloatOps F] in
theorem bigSep_emp' {I : Type} (s : Finset I) : (bigSep s fun _ => iprop(emp)) = (iprop(emp) : sProp 𝕄) := bigSep_emp_const s

omit [FloatOps F] in
/-- Owning an element of the pipelines' rounds through the nested injections is owning it through `EP`. -/
theorem own_EP (x : UP) :
    (BI.own (((Emb.inl : Emb UP (UP × Counters)).trans (embR : Emb (UP × Counters) (MT nD τ sig (HIx 1) (Elt F) ℕ UU ℕ))) x) : sProp 𝕄) = BI.own (EP (F := F) x) := rfl

/-- The launch element splits: the handshakes' rounds as the launch theorem takes them, each device's pipelines'
    ghost state, and nothing for the kernels' proofs. -/
theorem hu₀ (P : (K (F := F)).Pay (nD := nD) (Val := Elt F) (Name := ℕ) (U := UU)) (hx : P.x = fun _ _ => iprop(emp)) :
    iprop(ownU (u₀ (F := F)) ∗ P.oxCred ∗ (K (F := F)).freeSems0)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => P.x q thr) := by
  unfold u₀
  iintro ⟨Hu, -, -⟩
  ihave H := (ownU_pair _ _) $$ Hu
  icases H with ⟨HH, HR⟩
  ihave H2 := (own_pair_emb embR _ _) $$ HR
  icases H2 with ⟨HP, -⟩
  ihave HP' := (Entails.of_eq (own_EP (F := F) _)) $$ HP
  imod (Pipeline.fund_ghost (nD := nD) (τ := τ) cfgs (EP (F := F)) cellOf_inj) $$ HP' with ⟨Hg, Ht⟩
  imodintro
  isplitl [HH]; · iexact HH
  isplitl [Hg Ht]
  · unfold G
    simp only [bigSep_sep']
    isplitl [Hg] <;> iassumption
  · rw [hx]
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Proof.KernelIdeal

end
-- ==== Proof.KernelIdeal.Main.lean ====
/-
  @main on a device's TensorCore, from what the launch deals it to what the claim reads: the bias reshaped on the host,
  the node transform's region, the SparseCore call that gathers the rows, the edge transform's region. The two regions'
  runs, the call's split of the arrays among the SparseCores and the join back, and the values the three kernels leave
  are taken here as given (hypotheses of `hmain`); this module is the bookkeeping between them: which array is whole at
  which contents at each step, what the TensorCore owes the handshakes across the first region, and that its recorded
  waits stay below the next call's levels.
-/
import proofs.«210904_g42554535969575_cont_8to1_b_1627_27_alg».proof.Proof.KernelIdeal.Host
import proofs.«210904_g42554535969575_cont_8to1_b_1627_27_alg».proof.Proof.KernelIdeal.LaunchElem

noncomputable section

namespace Cert.Proof.KernelIdeal

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-- What the TensorCore owes the handshakes sits at the calls' own indices: nothing at the index of a kernel's waits. -/
theorem Otc_none (d : Dev nD) (n : ℕ) (g : GSem nD τ sig) : (K (F := F)).Otc d n g none = 0 := by
  unfold SparseCore.Cfg.Otc
  rw [Finset.sum_apply, Finsupp.finsetSum_apply]
  refine Finset.sum_eq_zero fun q _ => ?_
  split
  · rw [Finset.sum_apply, Finsupp.finsetSum_apply]
    exact Finset.sum_eq_zero fun c _ => by rw [tallyAt_apply]; simp
  · rfl

/-- A set of recorded waits below a level stays below it when waits at the kernels' own index are added. -/
theorem wbelow_of_none {d : Dev nD} {W W' : Waits sig (HIx 1)} {b : ℕ} (hW : (K (F := F)).WBelow (SparseCore.T d) W b)
    (h : ∀ p ∈ W', p ∈ W ∨ p.2 = none) : (K (F := F)).WBelow (SparseCore.T d) W' b := by
  intro p hp
  rcases h p hp with h | h
  · exact hW p h
  · rw [h, SparseCore.Cfg.lev_none]; exact Nat.zero_le _

omit [FloatOps F] in
/-- The two pipelines' ghost state, one by one. -/
theorem G_eq (d : Dev nD) :
    (G (F := F) d : sProp 𝕄)
      = iprop((Pipeline.cellsGhost (nD := nD) (τ := τ) cfgs (EP (F := F)) 0 d ∗ Pipeline.toksInit (nD := nD) (τ := τ) cfgs (EP (F := F)) 0 d)
          ∗ (Pipeline.cellsGhost (nD := nD) (τ := τ) cfgs (EP (F := F)) 1 d ∗ Pipeline.toksInit (nD := nD) (τ := τ) cfgs (EP (F := F)) 1 d)) := by
  unfold G
  rw [show (Finset.univ : Finset (Fin 2)) = {0, 1} by decide, SparseCore.bigSep_insert' (by decide), bigSep_singleton]

variable (m : (ℓ : Loc nD τ sig) → Buf (Elt F) ℓ) (ρ : Dev nD → PrngReg)

/-! ## What is taken as given -/

variable (PP : (K (F := F)).Pay (nD := nD) (Val := Elt F) (Name := ℕ) (U := UU))
-- the node table the first region leaves, the rows the call gathers, the result the second region leaves
variable (tblV : (d : Dev nD) → Buf (Elt F) (aLoc d main_v1)) (gatV : (d : Dev nD) → Buf (Elt F) (aLoc d main_v2))
  (outV : (d : Dev nD) → Buf (Elt F) (aLoc d main_v3))

/-- The first region's run: from the node features, the weights and the reshaped bias whole (the table at anything), the
    TensorCore owing `O` with recorded waits `W₀`, to the table at `tblV d`. -/
def Region0 : Prop :=
  ∀ (d : Dev nD) (O : CellTallies nD τ sig (HIx 1)) (W₀ : Waits sig (HIx 1)), (∀ g, O g none = 0) →
    ∀ (Φ : PUnit → sProp 𝕄),
    iprop(boundary (SparseCore.T d) ∗ levAts (K (F := F)).L (K (F := F)).lev
        ∗ (Pipeline.cellsGhost (nD := nD) (τ := τ) cfgs (EP (F := F)) 0 d ∗ Pipeline.toksInit (nD := nD) (τ := τ) cfgs (EP (F := F)) 0 d)
        ∗ owes (SparseCore.T d) O W₀
        ∗ (aLoc d main_arg0 ↦{fullShare} m (aLoc d main_arg0)) ∗ (aLoc d main_arg4 ↦{fullShare} m (aLoc d main_arg4))
        ∗ (aLoc d main_v0 ↦{fullShare} b2dVal m d) ∗ (∃ f, aLoc d main_v1 ↦{fullShare} f)
        ∗ (iprop(boundary (SparseCore.T d) ∗ (∃ W', ⌜∀ p ∈ W', p ∈ W₀ ∨ p.2 = none⌝ ∗ owes (SparseCore.T d) O W')
            ∗ (aLoc d main_arg0 ↦{fullShare} m (aLoc d main_arg0)) ∗ (aLoc d main_arg4 ↦{fullShare} m (aLoc d main_arg4))
            ∗ (aLoc d main_v0 ↦{fullShare} b2dVal m d) ∗ (aLoc d main_v1 ↦{fullShare} tblV d)) -∗ Φ ⟨⟩))
      ⊢ wp frame (wpE ((K (F := F)).defs (D (F := F))) 𝒱 (SparseCore.T d) none) Set.univ
          (Prog.lift (TpuEff.customCall (SparseCore.inner (Pipeline.entry 0)) ())) Φ

/-- The second region's run: from the gathered rows, the edge features and the weights whole (the result at anything) to
    the result at `outV d`. -/
def Region1 : Prop :=
  ∀ (d : Dev nD) (O : CellTallies nD τ sig (HIx 1)) (W₀ : Waits sig (HIx 1)), (∀ g, O g none = 0) →
    ∀ (Φ : PUnit → sProp 𝕄),
    iprop(boundary (SparseCore.T d) ∗ levAts (K (F := F)).L (K (F := F)).lev
        ∗ (Pipeline.cellsGhost (nD := nD) (τ := τ) cfgs (EP (F := F)) 1 d ∗ Pipeline.toksInit (nD := nD) (τ := τ) cfgs (EP (F := F)) 1 d)
        ∗ owes (SparseCore.T d) O W₀
        ∗ (aLoc d main_v2 ↦{fullShare} gatV d) ∗ (aLoc d main_arg1 ↦{fullShare} m (aLoc d main_arg1))
        ∗ (aLoc d main_arg4 ↦{fullShare} m (aLoc d main_arg4)) ∗ (∃ f, aLoc d main_v3 ↦{fullShare} f)
        ∗ (iprop(boundary (SparseCore.T d) ∗ (∃ W', ⌜∀ p ∈ W', p ∈ W₀ ∨ p.2 = none⌝ ∗ owes (SparseCore.T d) O W')
            ∗ (aLoc d main_v2 ↦{fullShare} gatV d) ∗ (aLoc d main_arg1 ↦{fullShare} m (aLoc d main_arg1))
            ∗ (aLoc d main_arg4 ↦{fullShare} m (aLoc d main_arg4)) ∗ (aLoc d main_v3 ↦{fullShare} outV d)) -∗ Φ ⟨⟩))
      ⊢ wp frame (wpE ((K (F := F)).defs (D (F := F))) 𝒱 (SparseCore.T d) none) Set.univ
          (Prog.lift (TpuEff.customCall (SparseCore.inner (Pipeline.entry 1)) ())) Φ

/-- What the call takes for the two SparseCores: the table and the indices whole, the gathered rows' array at anything; -/
def CallSplit : Prop :=
  ∀ d : Dev nD, iprop((aLoc d main_v1 ↦{fullShare} tblV d) ∗ (aLoc d main_arg2 ↦{fullShare} m (aLoc d main_arg2)) ∗ ∃ f, aLoc d main_v2 ↦{fullShare} f)
    ⊢ bigSep Finset.univ fun c : Fin ((K (F := F)).nCore 0) => PP.st 0 d c
/-- and what it hands back: the same, the gathered rows at `gatV d`. -/
def CallJoin : Prop :=
  ∀ d : Dev nD, (bigSep Finset.univ fun c : Fin ((K (F := F)).nCore 0) => PP.dn 0 d c)
    ⊢ iprop((aLoc d main_v1 ↦{fullShare} tblV d) ∗ (aLoc d main_arg2 ↦{fullShare} m (aLoc d main_arg2)) ∗ aLoc d main_v2 ↦{fullShare} gatV d)

/-! ## @main -/

/-- @main on device `d`'s TensorCore. -/
theorem hmain (hR0 : Region0 m tblV) (hR1 : Region1 m gatV outV) (hsplit : CallSplit m PP tblV) (hjoin : CallJoin m PP tblV gatV)
    (κ : GSem nD τ sig → ℕ) (d : Dev nD) :
    iprop((K (F := F)).ctx EH PP κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m outV d) := by
  unfold SparseCore.Cfg.tcRes
  rw [unscopedBufs_eq, G_eq]
  simp only [main, wp_bind, wp_pure]
  iintro ⟨#Hctx, Hst, ⟨Hb, ⟨Ha0, Ha1, Ha2, Ha3, Ha4, Ha5, Hv0, Hv1, Hv2, Hv3⟩, -, -⟩, ⟨HG0, HG1⟩⟩
  ihave #Hlv := (SparseCore.Cfg.ctx_levAts κ) $$ Hctx
  -- the bias reshaped
  ihave Hheld := (Entails.of_eq (held_Sb (F := F) d (V0 m d)).symm) $$ [Ha5 Hv0]
  · isplitl [Ha5]; · iexact Ha5
    iexact Hv0
  iapply (wp_hlo_within 𝒱 (SparseCore.T d) none Set.univ (op := opReshape) (S := Sb) hReshape (V := V0 m d)) $$ [Hb Hheld]
  · isplitl [Hb]; · iexact Hb
    iexact Hheld
  iintro ⟨Hb, Hheld⟩
  ihave Hh := (Entails.of_eq (held_Sb (F := F) d _)) $$ Hheld
  icases Hh with ⟨Ha5, Hv0⟩
  rw [reshape_arg5, wp_ret]
  imodintro
  -- the node transform's region, the TensorCore owing the call's start signals
  unfold SparseCore.Cfg.tcSt
  icases Hst with ⟨⟨%W, %hW, HO⟩, Hrest⟩
  iapply (hR0 d _ W (Otc_none (F := F) d 0) _) $$ [Hb HG0 HO Ha0 Ha4 Hv0 Hv1 Hrest Ha1 Ha2 Ha3 Ha5 Hv2 Hv3 HG1]
  isplitl [Hb]; · iexact Hb
  isplitr; · iexact Hlv
  isplitl [HG0]; · iexact HG0
  isplitl [HO]; · iexact HO
  isplitl [Ha0]; · iexact Ha0
  isplitl [Ha4]; · iexact Ha4
  isplitl [Hv0]; · iexact Hv0
  isplitl [Hv1]; · iexists _; iexact Hv1
  iintro ⟨Hb, ⟨%W1, %hW1, HO⟩, Ha0, Ha4, Hv0, Hv1⟩
  -- the SparseCore call: the table, the indices and the rows' array out to the two SparseCores and back
  iapply ((K (F := F)).wp_run (D (F := F)) 𝒱 (EH := EH) (P := PP) κ d 0) $$ [HO Hrest Hv1 Ha2 Hv2 Hb Ha0 Ha1 Ha3 Ha4 Ha5 Hv0 Hv3 HG1]
  isplitr; · iexact Hctx
  isplitl [HO Hrest]
  · unfold SparseCore.Cfg.tcSt
    isplitl [HO]
    · iexists W1; isplitr
      · ipureintro; exact wbelow_of_none (F := F) hW hW1
      · iexact HO
    · iexact Hrest
  isplitl [Hv1 Ha2 Hv2]
  · iapply (hsplit d)
    isplitl [Hv1]; · iexact Hv1
    isplitl [Ha2]; · iexact Ha2
    iexists _; iexact Hv2
  iintro ⟨Hst, Hdn⟩
  ihave Hdn' := (hjoin d) $$ Hdn
  icases Hdn' with ⟨Hv1, Ha2, Hv2⟩
  -- the edge transform's region, nothing owed
  unfold SparseCore.Cfg.tcSt
  icases Hst with ⟨⟨%W2, %hW2, HO⟩, Hrest⟩
  iapply (hR1 d _ W2 (Otc_none (F := F) d (0 + 1)) _) $$ [Hb HG1 HO Hv2 Ha1 Ha4 Hv3 Hrest Ha0 Ha2 Ha3 Ha5 Hv0 Hv1]
  isplitl [Hb]; · iexact Hb
  isplitr; · iexact Hlv
  isplitl [HG1]; · iexact HG1
  isplitl [HO]; · iexact HO
  isplitl [Hv2]; · iexact Hv2
  isplitl [Ha1]; · iexact Ha1
  isplitl [Ha4]; · iexact Ha4
  isplitl [Hv3]; · iexists _; iexact Hv3
  iintro ⟨Hb, ⟨%W3, %hW3, HO⟩, Hv2, Ha1, Ha4, Hv3⟩
  imodintro
  isplitl [HO Hrest]
  · isplitl [HO]
    · iexists W3; isplitr
      · ipureintro; exact wbelow_of_none (F := F) hW2 hW3
      · iexact HO
    · iexact Hrest
  unfold FIN
  isplitl [Hv3]; · iexact Hv3
  isplitl [Ha0]; · iexact Ha0
  isplitl [Ha1]; · iexact Ha1
  isplitl [Ha2]; · iexact Ha2
  isplitl [Ha3]; · iexact Ha3
  isplitl [Ha4]; · iexact Ha4
  iexact Ha5

end Cert.Proof.KernelIdeal

end
-- ==== Proof.KernelIdeal.Run.lean ====
/-
  The program's run, from the launch theorem of a SparseCore program: every weakly fair execution of the device's 35
  threads — the TensorCore's @main, the two sequencers, the 32 tiles — terminates, nothing faulting, with the result array
  at the value the three kernels compose to and the six arguments unchanged. Given here: the tile's task and the split of
  a SparseCore's operands among its tiles, the two regions' runs, the call's split and join (hypotheses, as in `hmain`).
-/
import proofs.«210904_g42554535969575_cont_8to1_b_1627_27_alg».proof.Proof.KernelIdeal.Main

noncomputable section

namespace Cert.Proof.KernelIdeal

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)
variable (outV : (d : Dev nD) → Buf (Elt F) (aLoc d main_v3))

/-- The run's post: on every device the result at `outV`, the six arguments at their launch contents. -/
def QC : PUnit × MemSt nD τ sig (Elt F) → Prop := fun r => ∀ c : Dev nD,
  r.2.mem (aLoc c main_v3) = outV c
    ∧ r.2.mem (aLoc c main_arg0) = m (aLoc c main_arg0) ∧ r.2.mem (aLoc c main_arg1) = m (aLoc c main_arg1)
    ∧ r.2.mem (aLoc c main_arg2) = m (aLoc c main_arg2) ∧ r.2.mem (aLoc c main_arg3) = m (aLoc c main_arg3)
    ∧ r.2.mem (aLoc c main_arg4) = m (aLoc c main_arg4) ∧ r.2.mem (aLoc c main_arg5) = m (aLoc c main_arg5)

theorem run_main [∀ e, Nonempty (Elt F e)]
    (PP : (K (F := F)).Pay (nD := nD) (Val := Elt F) (Name := ℕ) (U := UU)) [PP.IsStorable]
    (hx : PP.x = fun _ _ => iprop(emp)) (hheld : PP.held = ∅)
    (tblV : (d : Dev nD) → Buf (Elt F) (aLoc d main_v1)) (gatV : (d : Dev nD) → Buf (Elt F) (aLoc d main_v2))
    (htile : (K (F := F)).TileObl (D (F := F)) 𝒱 PP v₀ 0) (hvec : (K (F := F)).VecSplit PP 0)
    (hR0 : Region0 m tblV) (hR1 : Region1 m gatV outV) (hsplit : CallSplit m PP tblV) (hjoin : CallJoin m PP tblV gatV) :
    θ_run (Cert.KernelIdeal.defs (F := F)) (Cert.KernelIdeal.threads (F := F)) ⟨m, fun _ => 0, ρ⟩ (QC m outV) :=
  SparseCore.Cfg.θ_run_sc (K := K (F := F)) (D := D (F := F)) (𝒱 := 𝒱) (EH := EH) (P := PP) facts v₀
    (fun q hq => match q with | 0 => nomatch hq)
    (fun q _ => match q with | 0 => htile)
    (fun q _ => match q with | 0 => hvec)
    m ρ main (fun d => G (F := F) d) (FIN m outV) (u₀ (F := F)) (hu₀ PP hx) (hmain m ρ PP tblV gatV outV hR0 hR1 hsplit hjoin)
    (fq m outV) (hfin m outV) (QC m outV) (fun _ h => h) hheld

end Cert.Proof.KernelIdeal

end
-- ==== Proof.KernelIdeal.RegData.lean ====
/-
  The proof data of the two TensorCore pipelines of the kernel's @main.

  Pipeline 0 has one point and four windows that are whole arrays: the node features H (10000×128), the weights
  W (128×256), the bias as a 1×128 row, and the result T. Its body stores, over the whole result,
  H · W[:, 0:128]ᵀ + bias (the bias row broadcast down the rows).

  Pipeline 1 has 40 points; at point t it sees rows [8000 t, 8000 (t+1)) of the gathered rows G, of the edge
  features E and of the result, and the weights whole; its body stores G-block + E-block · W[:, 128:256]ᵀ.

  Both bodies are one pure payload over what they load; the data below name what every staging buffer holds
  after the body at a point, over the arrays' contents at the region's entry, and what the TensorCore still
  owes other threads while the region runs (a constant tally `O`, untouched by the pipeline and its body).
-/
import proofs.«210904_g42554535969575_cont_8to1_b_1627_27_alg».proof.Proof.KernelIdeal.Setup
import proofs.«210904_g42554535969575_cont_8to1_b_1627_27_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The rectangles the bodies load and store -/

/-- All of a 10000×128 buffer. -/
abbrev rH : Rect S10000x128 := Rect.unit (s := S10000x128) ![0, 0] S10000x128.size inb_S10000x128_S10000x128_0_0
/-- Columns 0–127 of the weights. -/
abbrev rWl : Rect S128x256 := Rect.unit (s := S128x256) ![0, 0] S128x128.size inb_S128x256_S128x128_0_0
/-- Columns 128–255 of the weights. -/
abbrev rWr : Rect S128x256 := Rect.unit (s := S128x256) ![0, 128] S128x128.size inb_S128x256_S128x128_0_128
/-- All of the bias row. -/
abbrev rB : Rect S1x128 := Rect.unit (s := S1x128) ![0, 0] S1x128.size inb_S1x128_S1x128_0_0
/-- All of an 8000×128 block. -/
abbrev rG : Rect S8000x128 := Rect.unit (s := S8000x128) ![0, 0] S8000x128.size inb_S8000x128_S8000x128_0_0

/-! ## What each body leaves in its output buffer -/

/-- Pipeline 0's result buffer after the body, from the three input buffers: one store over the whole buffer. -/
def out0 (x0 : Vec F S10000x128 .f32) (x1 : Vec F S128x256 .f32) (x2 : Vec F S1x128 .f32) : Vec F S10000x128 .f32 :=
  View.canon [⟨rH, k0_pay1 (View.ld x1 rWl) (View.ld x0 rH) (View.ld x2 rB)⟩]

/-- Pipeline 1's result buffer after the body at a point, from the three input buffers: one store over the whole buffer. -/
def out1 (x0 : Vec F S8000x128 .f32) (x1 : Vec F S8000x128 .f32) (x2 : Vec F S128x256 .f32) : Vec F S8000x128 .f32 :=
  View.canon [⟨rG, k2_pay1 (View.ld x2 rWr) (View.ld x0 rG) (View.ld x1 rG)⟩]

theorem cover0 (p0 : Vec F S10000x128 .f32) (y : S10000x128.Idx) :
    ∃ pc ∈ ([⟨rH, p0⟩] : List (View.Piece (Elt F) S10000x128 .f32)), y ∈ pc.1.set :=
  View.cover_of_tiled [⟨rH, p0⟩] S10000x128.size (by rfl) y

theorem cover1 (p0 : Vec F S8000x128 .f32) (y : S8000x128.Idx) :
    ∃ pc ∈ ([⟨rG, p0⟩] : List (View.Piece (Elt F) S8000x128 .f32)), y ∈ pc.1.set :=
  View.cover_of_tiled [⟨rG, p0⟩] S8000x128.size (by rfl) y

/-! ## The proof data -/

/-- No pipeline has a prefetched table. -/
abbrev adm : (p : Fin 2) → (pcfgs (F := F) p).Adm := fun p => (cfgs p).toPCfg_adm

section Data

variable (O : CellTallies nD τ sig (HIx 1)) (W₀ : Waits sig (HIx 1)) (d : Dev nD)

/-- Window `w`'s block of pipeline 0 at point `t`, read off the array's entry contents. -/
def iblk0 (A : (w : Fin cfg0.W) → Buf (Elt F) ((cfg0.win w).arr.view.loc (d.tc : Thread nD τ))) (w : Fin cfg0.W) (t : Fin cfg0.N) :
    ((cfg0.win w).xblock (cfg0.grid.coords t)).Idx → Elt F (cfg0.win w).elt :=
  ((cfg0.win w).blk t).view.read (Elt F) (A w)

/-- Pipeline 0's proof data at the entry contents `A` of its four arrays: inputs' buffers keep their blocks, the result's
    holds the body's store; the invariant is the scoped buffers no window stages; the core owes `O` throughout,
    the pairs its waits recorded before the region being `W₀`. -/
def dat0 (A : (w : Fin cfg0.W) → Buf (Elt F) ((cfg0.win w).arr.view.loc (d.tc : Thread nD τ))) : Dat τ (Elt F) (HIx 1) ℕ UU ℕ cfg0 d where
  A := A
  after w t := match w with
    | ⟨0, _⟩ => iblk0 d A 0 t
    | ⟨1, _⟩ => iblk0 d A 1 t
    | ⟨2, _⟩ => iblk0 d A 2 t
    | ⟨3, _⟩ => out0 (iblk0 d A 0 t) (iblk0 d A 1 t) (iblk0 d A 2 t)
  Φ _ := Pipeline.scopedRest spec0 d
  q _ := fullShare
  owed _ := O
  recorded _ := ↑W₀

/-- Window `w`'s block of pipeline 1 at point `t`, read off the array's entry contents. -/
def iblk1 (A : (w : Fin cfg2.W) → Buf (Elt F) ((cfg2.win w).arr.view.loc (d.tc : Thread nD τ))) (w : Fin cfg2.W) (t : Fin cfg2.N) :
    ((cfg2.win w).xblock (cfg2.grid.coords t)).Idx → Elt F (cfg2.win w).elt :=
  ((cfg2.win w).blk t).view.read (Elt F) (A w)

/-- Pipeline 1's proof data at the entry contents `A` of its four arrays. -/
def dat1 (A : (w : Fin cfg2.W) → Buf (Elt F) ((cfg2.win w).arr.view.loc (d.tc : Thread nD τ))) : Dat τ (Elt F) (HIx 1) ℕ UU ℕ cfg2 d where
  A := A
  after w t := match w with
    | ⟨0, _⟩ => iblk1 d A 0 t
    | ⟨1, _⟩ => iblk1 d A 1 t
    | ⟨2, _⟩ => iblk1 d A 2 t
    | ⟨3, _⟩ => out1 (iblk1 d A 0 t) (iblk1 d A 1 t) (iblk1 d A 2 t)
  Φ _ := Pipeline.scopedRest spec2 d
  q _ := fullShare
  owed _ := O
  recorded _ := ↑W₀

end Data

end Cert.Proof.KernelIdeal

end
-- ==== Proof.KernelIdeal.Reg0Body.lean ====
/-
  Pipeline 0's body (the bias matmul) at its one point: from the three input buffers at their blocks and the
  result's buffer at anything, the body loads the left half of the weights, the features and the bias row, and
  stores the payload over the whole result buffer; nothing else is touched.
-/
import proofs.«210904_g42554535969575_cont_8to1_b_1627_27_alg».proof.Proof.KernelIdeal.RegData

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option maxHeartbeats 1000000 in
/-- The body on whole staging memrefs: the inputs' at `x0`, `x1`, `x2` stay, the result's ends at `out0 x0 x1 x2`. -/
theorem sound_kernel0 (c : Dev nD) (E : Set ℕ) (arg0 : Memref sig .tc .vmem S10000x128 .f32) (harg0 : arg0.IsWhole)
    (arg1 : Memref sig .tc .vmem S128x256 .f32) (harg1 : arg1.IsWhole) (arg2 : Memref sig .tc .vmem S1x128 .f32) (harg2 : arg2.IsWhole)
    (arg3 : Memref sig .tc .vmem S10000x128 .f32) (harg3 : arg3.IsWhole)
    (x0 : Vec F S10000x128 .f32) (x1 : Vec F S128x256 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ y, owns (c : Thread nD τ) arg3 fullShare y)
        ∗ (iprop(owns (c : Thread nD τ) arg0 fullShare x0 ∗ owns (c : Thread nD τ) arg1 fullShare x1 ∗ owns (c : Thread nD τ) arg2 fullShare x2
            ∗ owns (c : Thread nD τ) arg3 fullShare (out0 x0 x1 x2)) -∗ K ⟨⟩))
      ⊢ wp frame (wpE (defs₀ (F := F)) Variants.none c none) E (cc0__mm_bias_kernel arg0 harg0 arg1 harg1 arg2 harg2 arg3 harg3) K := by
  simp only [cc0__mm_bias_kernel_eq_skeleton]; unfold cc0__mm_bias_kernel_skel
  unfold owns
  iintro ⟨⟨%f0, %hf0, H0⟩, ⟨%f1, %hf1, H1⟩, ⟨%f2, %hf2, H2⟩, ⟨%y, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The body obligation of pipeline 0 -/

section Obligation

variable (O : CellTallies nD τ sig (HIx 1)) (W₀ : Waits sig (HIx 1)) (d : Dev nD)
  (A : (w : Fin cfg0.W) → Buf (Elt F) ((cfg0.win w).arr.view.loc (d.tc : Thread nD τ)))

theorem after0_0 (t : Fin cfg0.N) : (dat0 O W₀ d A).after 0 t = iblk0 d A 0 t := by dsimp only [dat0]
theorem after0_1 (t : Fin cfg0.N) : (dat0 O W₀ d A).after 1 t = iblk0 d A 1 t := by dsimp only [dat0]
theorem after0_2 (t : Fin cfg0.N) : (dat0 O W₀ d A).after 2 t = iblk0 d A 2 t := by dsimp only [dat0]
theorem after0_3 (t : Fin cfg0.N) : (dat0 O W₀ d A).after 3 t = out0 (iblk0 d A 0 t) (iblk0 d A 1 t) (iblk0 d A 2 t) := by dsimp only [dat0]

/-- Each input's staging buffer holds its block when the body runs. -/
theorem before0_0 (t : Fin cfg0.N) (x) : (dat0 O W₀ d A).before 0 t x = iblk0 d A 0 t :=
  ((dat0 O W₀ d A).before_in_eq_fetched 0 rfl (fun _ => rfl) (fun _ _ _ => rfl) (fun t => by rw [after0_0]; unfold Dat.blockOf iblk0; try rfl) t x).trans
    (by unfold Dat.fetched Dat.blockOf iblk0; try rfl)
theorem before0_1 (t : Fin cfg0.N) (x) : (dat0 O W₀ d A).before 1 t x = iblk0 d A 1 t :=
  ((dat0 O W₀ d A).before_in_eq_fetched 1 rfl (fun _ => rfl) (fun _ _ _ => rfl) (fun t => by rw [after0_1]; unfold Dat.blockOf iblk0; try rfl) t x).trans
    (by unfold Dat.fetched Dat.blockOf iblk0; try rfl)
theorem before0_2 (t : Fin cfg0.N) (x) : (dat0 O W₀ d A).before 2 t x = iblk0 d A 2 t :=
  ((dat0 O W₀ d A).before_in_eq_fetched 2 rfl (fun _ => rfl) (fun _ _ _ => rfl) (fun t => by rw [after0_2]; unfold Dat.blockOf iblk0; try rfl) t x).trans
    (by unfold Dat.fetched Dat.blockOf iblk0; try rfl)

/-- What the body is called with at point `t`, -/
def bodyPre0 (t : Fin cfg0.N) : sProp 𝕄 :=
  iprop((dat0 O W₀ d A).Φ t.castSucc ∗ (dat0 O W₀ d A).owesAt none t.castSucc
    ∗ (∃ x, owns (d : Thread nD τ) (st0_0 t) fullShare ((dat0 O W₀ d A).before 0 t x))
    ∗ (∃ x, owns (d : Thread nD τ) (st0_1 t) fullShare ((dat0 O W₀ d A).before 1 t x))
    ∗ (∃ x, owns (d : Thread nD τ) (st0_2 t) fullShare ((dat0 O W₀ d A).before 2 t x))
    ∗ (∃ x, owns (d : Thread nD τ) (st0_3 t) fullShare ((dat0 O W₀ d A).before 3 t x)))

/-- and what it returns. -/
def bodyPost0 (t : Fin cfg0.N) : sProp 𝕄 :=
  iprop((dat0 O W₀ d A).Φ t.succ ∗ (dat0 O W₀ d A).owesAt none t.succ
    ∗ owns (d : Thread nD τ) (st0_0 t) fullShare ((dat0 O W₀ d A).after 0 t)
    ∗ owns (d : Thread nD τ) (st0_1 t) fullShare ((dat0 O W₀ d A).after 1 t)
    ∗ owns (d : Thread nD τ) (st0_2 t) fullShare ((dat0 O W₀ d A).after 2 t)
    ∗ owns (d : Thread nD τ) (st0_3 t) fullShare ((dat0 O W₀ d A).after 3 t))

/-- The body at the point: the inputs' buffers hold their blocks, the invariant and what the core owes pass through unread. -/
theorem sound_body0 (t : Fin cfg0.N) :
    bodyPre0 O W₀ d A t ⊢ wp frame (wpE (defs₀ (F := F)) Variants.none d none) Set.univ (bodyAt0 t) (fun _ => bodyPost0 O W₀ d A t) := by
  unfold bodyPre0 bodyPost0 bodyAt0
  simp only [before0_0, before0_1, before0_2]
  rw [show (dat0 O W₀ d A).Φ t.succ = (dat0 O W₀ d A).Φ t.castSucc from rfl,
    show (dat0 O W₀ d A).owesAt none t.succ = (dat0 O W₀ d A).owesAt none t.castSucc from rfl,
    after0_0, after0_1, after0_2, after0_3]
  iintro ⟨HΦ, Ho, ⟨%x0, H0⟩, ⟨%x1, H1⟩, ⟨%x2, H2⟩, ⟨%x3, H3⟩⟩
  iapply (sound_kernel0 d Set.univ _ _ _ _ _ _ _ _ (iblk0 d A 0 t) (iblk0 d A 1 t) (iblk0 d A 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 : BodyObligation (dat0 (F := F) O W₀ d A) (defs₀ (F := F)) Variants.none none Set.univ := fun t => by
  rw [bigSep_W0, bigSep_W0]
  exact sound_body0 O W₀ d A t

end Obligation

end Cert.Proof.KernelIdeal

end
-- ==== Proof.KernelIdeal.Reg0.lean ====
/-
  Pipeline 0 as a kernel region of @main entered while the TensorCore owes other threads a constant tally: the
  region's record for the library's region rule, and the rule applied — from the region boundary, the pipeline's
  staging cells' launch state and duty tokens, the four arrays whole, and what the core owes, the region's call
  runs to the boundary, the three inputs unchanged and the result at what the single point's write-back leaves.
-/
import proofs.«210904_g42554535969575_cont_8to1_b_1627_27_alg».proof.Proof.KernelIdeal.Reg0Body

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Region

variable (O : CellTallies nD τ sig (HIx 1)) (hO : ∀ g, O g none = 0) (W₀ : Waits sig (HIx 1))

/-- Arbitrary contents, for the pipeline that is not being entered. -/
def junk {ℓ : Loc nD τ sig} : Buf (Elt F) ℓ := Classical.arbitrary _

/-- The proof data family when region 0 is entered at the arrays' contents `A`. -/
def pdatsA (A : (c : Dev nD) → (w : Fin cfg0.W) → Buf (Elt F) ((cfg0.win w).arr.view.loc (c.tc : Thread nD τ))) :
    (p : Fin 2) → (c : Dev nD) → Dat τ (Elt F) (HIx 1) ℕ UU ℕ (Pipeline.pin (pcfgs (F := F)) adm p) c
  | ⟨0, _⟩ => fun c => dat0 O W₀ c (A c)
  | ⟨1, _⟩ => fun c => dat1 O W₀ c (fun _ => junk)

/-- The four arrays of pipeline 0 whole at contents `X`. -/
def arrs0 (c : Dev nD) (X : (w : Fin cfg0.W) → Buf (Elt F) ((cfg0.win w).arr.view.loc (c.tc : Thread nD τ))) : sProp 𝕄 :=
  iprop((((c : Thread nD τ).loc main_arg0) ↦{fullShare} X 0) ∗ (((c : Thread nD τ).loc main_arg4) ↦{fullShare} X 1)
    ∗ (((c : Thread nD τ).loc main_v0) ↦{fullShare} X 2) ∗ (((c : Thread nD τ).loc main_v1) ↦{fullShare} X 3))

variable (A : (c : Dev nD) → (w : Fin cfg0.W) → Buf (Elt F) ((cfg0.win w).arr.view.loc (c.tc : Thread nD τ)))

set_option backward.isDefEq.respectTransparency.types false in
/-- REGION 0. -/
def reg0 : Pipeline.RegionSeg (pcfgs (F := F)) adm (pdatsA O W₀ A) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 O W₀ c (A c)).loose
  hwaits c := Pipeline.cellsWaits_intro (Pipeline.pin (pcfgs (F := F)) adm) (pdatsA O W₀ A) none 0 c
    fun w s t => (K (F := F)).mayWait_none _ hO
  pre c := iprop(arrs0 c (A c) ∗ owes (c : Thread nD τ) O W₀)
  post c := iprop(arrs0 c ((pdatsA O W₀ A 0 c).arrAt · cfg0.N) ∗ ∃ W', ⌜∀ p ∈ W', p ∈ W₀ ∨ p.2 = none⌝ ∗ owes (c : Thread nD τ) O W')
  X _ := iprop(emp)
  Y _ := iprop(emp)
  Z _ := iprop(emp)
  hentry c := by
    rw [Pipeline.ownSems0_none, Pipeline.arrays_eq (Pipeline.pin (pcfgs (F := F)) adm) (pdatsA O W₀ A) 0 c launch0.arr_whole
      ((pdatsA O W₀ A 0 c).share_full fun _ => rfl), bigSep_W0]
    unfold arrs0
    iintro ⟨⟨⟨H0, H1, H2, H3⟩, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W₀; isplitr; · ipureintro; exact fun _ h => Or.inl h
      iexact HO
    isplitr <;> iempintro
  hin c := by
    rw [show (pdatsA O W₀ A 0 c).Φ 0 = Pipeline.scopedRest spec0 c from rfl]
    iintro ⟨-, -, Hr⟩
    iexact Hr
  hout c := by
    rw [Pipeline.ownSems0_none, show (pdatsA O W₀ A 0 c).Φ (Fin.last _) = Pipeline.scopedRest spec0 c from rfl]
    iintro Hr
    isplitr; · iempintro
    isplitr; · iempintro
    iexact Hr
  hexit c := by
    rw [Pipeline.arrays_eq (Pipeline.pin (pcfgs (F := F)) adm) (pdatsA O W₀ A) 0 c launch0.arr_whole
      ((pdatsA O W₀ A 0 c).share_full fun _ => rfl), bigSep_W0]
    unfold arrs0
    iintro ⟨⟨H0, H1, H2, H3⟩, HO, -, -⟩
    imodintro
    isplitl [H0 H1 H2 H3]
    · isplitl [H0]; · iexact H0
      isplitl [H1]; · iexact H1
      isplitl [H2]; · iexact H2
      iexact H3
    unfold Pipeline.Dat.owesAt Pipeline.owesWithin
    icases HO with ⟨%W', %hW', HO⟩
    iexists W'; isplitr
    · ipureintro
      intro p hp
      rcases hW' (Finset.mem_coe.mpr hp) with h | ⟨w, s, rfl⟩
      · exact Or.inl (Finset.mem_coe.mp h)
      · exact Or.inr rfl
    iexact HO

/-- Pipeline `p`'s region call, in the pipelines' own signature. -/
abbrev callP (p : Fin 2) : Prog (TpuEff nD τ sig (Elt F) (ΛP (F := F)) .tc) PUnit :=
  .op (.customCall (Pipeline.entry p) ()) fun _ => .ret PUnit.unit

/-- The region's call in the SparseCore program's signature is the pipeline's own call, lifted. -/
theorem liftCall (p : Fin 2) :
    (SparseCore.liftProg (Q := 1) (callP (F := F) p) : Prog (TpuEff nD τ sig (Elt F) (SparseCore.Sig (ΛP (F := F)) 1) .tc) PUnit)
      = Prog.lift (.customCall (SparseCore.inner (Pipeline.entry p)) ()) := rfl

include hO in
set_option backward.isDefEq.respectTransparency.types false in
/-- REGION 0 ENTERED from @main on the TensorCore of device `d`, the core owing `O` with recorded pairs `W₀`. -/
theorem enter0 (d : Dev nD) (Φ : PUnit → sProp 𝕄) :
    iprop(boundary (SparseCore.T d) ∗ levAts (K (F := F)).L (K (F := F)).lev
        ∗ (Pipeline.cellsGhost (nD := nD) (τ := τ) cfgs (EP (F := F)) 0 d ∗ Pipeline.toksInit (nD := nD) (τ := τ) cfgs (EP (F := F)) 0 d)
        ∗ owes (SparseCore.T d) O W₀ ∗ arrs0 d (A d)
        ∗ (iprop(boundary (SparseCore.T d) ∗ arrs0 d ((pdatsA O W₀ A 0 d).arrAt · cfg0.N)
              ∗ ∃ W', ⌜∀ p ∈ W', p ∈ W₀ ∨ p.2 = none⌝ ∗ owes (SparseCore.T d) O W')
            -∗ Φ ⟨⟩))
      ⊢ wp frame (wpE ((K (F := F)).defs (D (F := F))) 𝒱 (SparseCore.T d) none) Set.univ
          (Prog.lift (.customCall (SparseCore.inner (Pipeline.entry 0)) ())) Φ := by
  rw [← liftCall]
  have h1 := Pipeline.RegionSeg.wp (pcfgs (F := F)) adm (pdatsA O W₀ A) (none : HIx 1) cellOf_inj (EP (F := F)) defs₀ 𝒱₀
    (K (F := F)).L (K (F := F)).lev (reg0 O hO W₀ A) d none (fun _ h => nomatch h) (α := PUnit) (fun _ => Prog.ret PUnit.unit)
    (fun _ => iprop(boundary (SparseCore.T d) ∗ arrs0 d ((pdatsA O W₀ A 0 d).arrAt · cfg0.N)
              ∗ ∃ W', ⌜∀ p ∈ W', p ∈ W₀ ∨ p.2 = none⌝ ∗ owes (SparseCore.T d) O W'))
  have h2 := (K (F := F)).wp_liftProg (D (F := F)) 𝒱 (SparseCore.T d) Set.univ none
    (callP (F := F) 0) (fun _ => iprop(boundary (SparseCore.T d) ∗ arrs0 d ((pdatsA O W₀ A 0 d).arrAt · cfg0.N)
              ∗ ∃ W', ⌜∀ p ∈ W', p ∈ W₀ ∨ p.2 = none⌝ ∗ owes (SparseCore.T d) O W'))
  rw [show (reg0 O hO W₀ A).post d = iprop(arrs0 d ((pdatsA O W₀ A 0 d).arrAt · cfg0.N)
      ∗ ∃ W', ⌜∀ p ∈ W', p ∈ W₀ ∨ p.2 = none⌝ ∗ owes (SparseCore.T d) O W') from rfl,
    show (reg0 O hO W₀ A).pre d = iprop(arrs0 d (A d) ∗ owes (SparseCore.T d) O W₀) from rfl] at h1
  refine (?_ : _ ⊢ iprop(wp frame (wpE ((K (F := F)).defs (D (F := F))) 𝒱 (SparseCore.T d) none) Set.univ
      (SparseCore.liftProg (Q := 1) (callP (F := F) 0)) (fun _ => iprop(boundary (SparseCore.T d) ∗ arrs0 d ((pdatsA O W₀ A 0 d).arrAt · cfg0.N)
              ∗ ∃ W', ⌜∀ p ∈ W', p ∈ W₀ ∨ p.2 = none⌝ ∗ owes (SparseCore.T d) O W'))
      ∗ (∀ a, iprop(boundary (SparseCore.T d) ∗ arrs0 d ((pdatsA O W₀ A 0 d).arrAt · cfg0.N)
              ∗ ∃ W', ⌜∀ p ∈ W', p ∈ W₀ ∨ p.2 = none⌝ ∗ owes (SparseCore.T d) O W') -∗ Φ a))).trans
    (wp_wand_r _ _ _)
  iintro ⟨Hb, Hlev, ⟨Hg, Ht⟩, HO, Ha, Hk⟩
  isplitr [Hk]
  · iapply h2
    iapply h1
    isplitr
    · iintro H
      iapply (le_wp_ret _ _ _ _ _)
      iexact H
    isplitl [Hb]; · iexact Hb
    isplitl [Ha HO]
    · isplitl [Ha]; · iexact Ha
      iexact HO
    isplitl [Hlev]; · iexact Hlev
    isplitl [Hg]; · iexact Hg
    iexact Ht
  · iintro %a
    iexact Hk

end Region

end Cert.Proof.KernelIdeal

end
-- ==== Proof.KernelIdeal.Reg1Body.lean ====
/-
  Pipeline 1's body (the residual add of a matmul) at a point of its grid of 40: from the block of gathered rows,
  the block of edge features and the weights in their staging buffers, and the result's buffer at anything, the body
  loads the right half of the weights and the two blocks, and stores G-block + E-block · W[:, 128:256]ᵀ over the whole
  result buffer; nothing else is touched.
-/
import proofs.«210904_g42554535969575_cont_8to1_b_1627_27_alg».proof.Proof.KernelIdeal.RegData

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option maxHeartbeats 1000000 in
/-- The body on whole staging memrefs: the inputs' at `x0`, `x1`, `x2` stay, the result's ends at `out1 x0 x1 x2`. -/
theorem sound_kernel2 (c : Dev nD) (E : Set ℕ) (i : grid2.Coords) (arg1 : Memref sig .tc .vmem S8000x128 .f32) (harg1 : arg1.IsWhole)
    (arg2 : Memref sig .tc .vmem S8000x128 .f32) (harg2 : arg2.IsWhole) (arg3 : Memref sig .tc .vmem S128x256 .f32) (harg3 : arg3.IsWhole)
    (arg4 : Memref sig .tc .vmem S8000x128 .f32) (harg4 : arg4.IsWhole)
    (x0 : Vec F S8000x128 .f32) (x1 : Vec F S8000x128 .f32) (x2 : Vec F S128x256 .f32) (K : PUnit → sProp 𝕄) :
    iprop(owns (c : Thread nD τ) arg1 fullShare x0 ∗ owns (c : Thread nD τ) arg2 fullShare x1 ∗ owns (c : Thread nD τ) arg3 fullShare x2
        ∗ (∃ y, owns (c : Thread nD τ) arg4 fullShare y)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc2__add_mm_kernel i arg1 harg1 arg2 harg2 arg3 harg3 arg4 harg4) K := by
  simp only [cc2__add_mm_kernel_eq_skeleton]; unfold cc2__add_mm_kernel_skel
  unfold owns
  iintro ⟨⟨%f0, %hf0, H0⟩, ⟨%f1, %hf1, H1⟩, ⟨%f2, %hf2, H2⟩, ⟨%y, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The body obligation of pipeline 1 -/

section Obligation

variable (O : CellTallies nD τ sig (HIx 1)) (W₀ : Waits sig (HIx 1)) (d : Dev nD)
  (A : (w : Fin cfg2.W) → Buf (Elt F) ((cfg2.win w).arr.view.loc (d.tc : Thread nD τ)))

theorem after1_0 (t : Fin cfg2.N) : (dat1 O W₀ d A).after 0 t = iblk1 d A 0 t := by dsimp only [dat1]
theorem after1_1 (t : Fin cfg2.N) : (dat1 O W₀ d A).after 1 t = iblk1 d A 1 t := by dsimp only [dat1]
theorem after1_2 (t : Fin cfg2.N) : (dat1 O W₀ d A).after 2 t = iblk1 d A 2 t := by dsimp only [dat1]
theorem after1_3 (t : Fin cfg2.N) : (dat1 O W₀ d A).after 3 t = out1 (iblk1 d A 0 t) (iblk1 d A 1 t) (iblk1 d A 2 t) := by dsimp only [dat1]

/-- Each input's current staging buffer holds its block when the body runs, fetched at that point or not. -/
theorem before1_0 (t : Fin cfg2.N) (x) : (dat1 O W₀ d A).before 0 t x = iblk1 d A 0 t :=
  ((dat1 O W₀ d A).before_in_eq_fetched 0 rfl (fun _ => rfl) (fun _ _ _ => rfl) (fun t => by rw [after1_0]; unfold Dat.blockOf iblk1; try rfl) t x).trans
    (by unfold Dat.fetched Dat.blockOf iblk1; try rfl)
theorem before1_1 (t : Fin cfg2.N) (x) : (dat1 O W₀ d A).before 1 t x = iblk1 d A 1 t :=
  ((dat1 O W₀ d A).before_in_eq_fetched 1 rfl (fun _ => rfl) (fun _ _ _ => rfl) (fun t => by rw [after1_1]; unfold Dat.blockOf iblk1; try rfl) t x).trans
    (by unfold Dat.fetched Dat.blockOf iblk1; try rfl)
theorem before1_2 (t : Fin cfg2.N) (x) : (dat1 O W₀ d A).before 2 t x = iblk1 d A 2 t :=
  ((dat1 O W₀ d A).before_in_eq_fetched 2 rfl (fun _ => rfl) (fun _ _ _ => rfl) (fun t => by rw [after1_2]; unfold Dat.blockOf iblk1; try rfl) t x).trans
    (by unfold Dat.fetched Dat.blockOf iblk1; try rfl)

/-- What the body is called with at point `t`, -/
def bodyPre1 (t : Fin cfg2.N) : sProp 𝕄 :=
  iprop((dat1 O W₀ d A).Φ t.castSucc ∗ (dat1 O W₀ d A).owesAt none t.castSucc
    ∗ (∃ x, owns (d : Thread nD τ) (st2_0 t) fullShare ((dat1 O W₀ d A).before 0 t x))
    ∗ (∃ x, owns (d : Thread nD τ) (st2_1 t) fullShare ((dat1 O W₀ d A).before 1 t x))
    ∗ (∃ x, owns (d : Thread nD τ) (st2_2 t) fullShare ((dat1 O W₀ d A).before 2 t x))
    ∗ (∃ x, owns (d : Thread nD τ) (st2_3 t) fullShare ((dat1 O W₀ d A).before 3 t x)))

/-- and what it returns. -/
def bodyPost1 (t : Fin cfg2.N) : sProp 𝕄 :=
  iprop((dat1 O W₀ d A).Φ t.succ ∗ (dat1 O W₀ d A).owesAt none t.succ
    ∗ owns (d : Thread nD τ) (st2_0 t) fullShare ((dat1 O W₀ d A).after 0 t)
    ∗ owns (d : Thread nD τ) (st2_1 t) fullShare ((dat1 O W₀ d A).after 1 t)
    ∗ owns (d : Thread nD τ) (st2_2 t) fullShare ((dat1 O W₀ d A).after 2 t)
    ∗ owns (d : Thread nD τ) (st2_3 t) fullShare ((dat1 O W₀ d A).after 3 t))

/-- The body at any point: the inputs' buffers hold their blocks, the invariant and what the core owes pass through unread. -/
theorem sound_body1 (t : Fin cfg2.N) :
    bodyPre1 O W₀ d A t ⊢ wp frame (wpE (defs₀ (F := F)) Variants.none d none) Set.univ (bodyAt2 t) (fun _ => bodyPost1 O W₀ d A t) := by
  unfold bodyPre1 bodyPost1 bodyAt2
  simp only [before1_0, before1_1, before1_2]
  rw [show (dat1 O W₀ d A).Φ t.succ = (dat1 O W₀ d A).Φ t.castSucc from rfl,
    show (dat1 O W₀ d A).owesAt none t.succ = (dat1 O W₀ d A).owesAt none t.castSucc from rfl,
    after1_0, after1_1, after1_2, after1_3]
  iintro ⟨HΦ, Ho, ⟨%x0, H0⟩, ⟨%x1, H1⟩, ⟨%x2, H2⟩, ⟨%x3, H3⟩⟩
  iapply (sound_kernel2 d Set.univ _ _ _ _ _ _ _ _ _ (iblk1 d A 0 t) (iblk1 d A 1 t) (iblk1 d A 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 : BodyObligation (dat1 (F := F) O W₀ d A) (defs₀ (F := F)) Variants.none none Set.univ := fun t => by
  rw [bigSep_W2, bigSep_W2]
  exact sound_body1 O W₀ d A t

end Obligation

end Cert.Proof.KernelIdeal

end
-- ==== Proof.KernelIdeal.Reg1.lean ====
/-
  Pipeline 1 as a kernel region of @main entered while the TensorCore owes other threads a constant tally: the
  region's record for the library's region rule, and the rule applied — from the region boundary, the pipeline's
  staging cells' launch state and duty tokens, the four arrays whole, and what the core owes, the region's call
  runs to the boundary, the three inputs unchanged and the result at what the 40 points' write-backs leave.
-/
import proofs.«210904_g42554535969575_cont_8to1_b_1627_27_alg».proof.Proof.KernelIdeal.Reg1Body
import proofs.«210904_g42554535969575_cont_8to1_b_1627_27_alg».proof.Proof.KernelIdeal.Reg0

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Region

variable (O : CellTallies nD τ sig (HIx 1)) (hO : ∀ g, O g none = 0) (W₀ : Waits sig (HIx 1))

/-- The proof data family when region 1 is entered at the arrays' contents `A`. -/
def pdatsB (A : (c : Dev nD) → (w : Fin cfg2.W) → Buf (Elt F) ((cfg2.win w).arr.view.loc (c.tc : Thread nD τ))) :
    (p : Fin 2) → (c : Dev nD) → Dat τ (Elt F) (HIx 1) ℕ UU ℕ (Pipeline.pin (pcfgs (F := F)) adm p) c
  | ⟨0, _⟩ => fun c => dat0 O W₀ c (fun _ => junk)
  | ⟨1, _⟩ => fun c => dat1 O W₀ c (A c)

/-- The four arrays of pipeline 1 whole at contents `X`. -/
def arrs1 (c : Dev nD) (X : (w : Fin cfg2.W) → Buf (Elt F) ((cfg2.win w).arr.view.loc (c.tc : Thread nD τ))) : sProp 𝕄 :=
  iprop((((c : Thread nD τ).loc main_v2) ↦{fullShare} X 0) ∗ (((c : Thread nD τ).loc main_arg1) ↦{fullShare} X 1)
    ∗ (((c : Thread nD τ).loc main_arg4) ↦{fullShare} X 2) ∗ (((c : Thread nD τ).loc main_v3) ↦{fullShare} X 3))

variable (A : (c : Dev nD) → (w : Fin cfg2.W) → Buf (Elt F) ((cfg2.win w).arr.view.loc (c.tc : Thread nD τ)))

set_option backward.isDefEq.respectTransparency.types false in
/-- REGION 1. -/
def reg1 : Pipeline.RegionSeg (pcfgs (F := F)) adm (pdatsB O W₀ A) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation1 O W₀ c (A c)).loose
  hwaits c := Pipeline.cellsWaits_intro (Pipeline.pin (pcfgs (F := F)) adm) (pdatsB O W₀ A) none 1 c
    fun w s t => (K (F := F)).mayWait_none _ hO
  pre c := iprop(arrs1 c (A c) ∗ owes (c : Thread nD τ) O W₀)
  post c := iprop(arrs1 c ((pdatsB O W₀ A 1 c).arrAt · cfg2.N) ∗ ∃ W', ⌜∀ p ∈ W', p ∈ W₀ ∨ p.2 = none⌝ ∗ owes (c : Thread nD τ) O W')
  X _ := iprop(emp)
  Y _ := iprop(emp)
  Z _ := iprop(emp)
  hentry c := by
    rw [Pipeline.ownSems0_none, Pipeline.arrays_eq (Pipeline.pin (pcfgs (F := F)) adm) (pdatsB O W₀ A) 1 c launch2.arr_whole
      ((pdatsB O W₀ A 1 c).share_full fun _ => rfl), bigSep_W2]
    unfold arrs1
    iintro ⟨⟨⟨H0, H1, H2, H3⟩, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W₀; isplitr; · ipureintro; exact fun _ h => Or.inl h
      iexact HO
    isplitr <;> iempintro
  hin c := by
    rw [show (pdatsB O W₀ A 1 c).Φ 0 = Pipeline.scopedRest spec2 c from rfl]
    iintro ⟨-, -, Hr⟩
    iexact Hr
  hout c := by
    rw [Pipeline.ownSems0_none, show (pdatsB O W₀ A 1 c).Φ (Fin.last _) = Pipeline.scopedRest spec2 c from rfl]
    iintro Hr
    isplitr; · iempintro
    isplitr; · iempintro
    iexact Hr
  hexit c := by
    rw [Pipeline.arrays_eq (Pipeline.pin (pcfgs (F := F)) adm) (pdatsB O W₀ A) 1 c launch2.arr_whole
      ((pdatsB O W₀ A 1 c).share_full fun _ => rfl), bigSep_W2]
    unfold arrs1
    iintro ⟨⟨H0, H1, H2, H3⟩, HO, -, -⟩
    imodintro
    isplitl [H0 H1 H2 H3]
    · isplitl [H0]; · iexact H0
      isplitl [H1]; · iexact H1
      isplitl [H2]; · iexact H2
      iexact H3
    unfold Pipeline.Dat.owesAt Pipeline.owesWithin
    icases HO with ⟨%W', %hW', HO⟩
    iexists W'; isplitr
    · ipureintro
      intro p hp
      rcases hW' (Finset.mem_coe.mpr hp) with h | ⟨w, s, rfl⟩
      · exact Or.inl (Finset.mem_coe.mp h)
      · exact Or.inr rfl
    iexact HO

include hO in
set_option backward.isDefEq.respectTransparency.types false in
/-- REGION 1 ENTERED from @main on the TensorCore of device `d`, the core owing `O` with recorded pairs `W₀`. -/
theorem enter1 (d : Dev nD) (Φ : PUnit → sProp 𝕄) :
    iprop(boundary (SparseCore.T d) ∗ levAts (K (F := F)).L (K (F := F)).lev
        ∗ (Pipeline.cellsGhost (nD := nD) (τ := τ) cfgs (EP (F := F)) 1 d ∗ Pipeline.toksInit (nD := nD) (τ := τ) cfgs (EP (F := F)) 1 d)
        ∗ owes (SparseCore.T d) O W₀ ∗ arrs1 d (A d)
        ∗ (iprop(boundary (SparseCore.T d) ∗ arrs1 d ((pdatsB O W₀ A 1 d).arrAt · cfg2.N)
              ∗ ∃ W', ⌜∀ p ∈ W', p ∈ W₀ ∨ p.2 = none⌝ ∗ owes (SparseCore.T d) O W')
            -∗ Φ ⟨⟩))
      ⊢ wp frame (wpE ((K (F := F)).defs (D (F := F))) 𝒱 (SparseCore.T d) none) Set.univ
          (Prog.lift (.customCall (SparseCore.inner (Pipeline.entry 1)) ())) Φ := by
  rw [← liftCall]
  have h1 := Pipeline.RegionSeg.wp (pcfgs (F := F)) adm (pdatsB O W₀ A) (none : HIx 1) cellOf_inj (EP (F := F)) defs₀ 𝒱₀
    (K (F := F)).L (K (F := F)).lev (reg1 O hO W₀ A) d none (fun _ h => nomatch h) (α := PUnit) (fun _ => Prog.ret PUnit.unit)
    (fun _ => iprop(boundary (SparseCore.T d) ∗ arrs1 d ((pdatsB O W₀ A 1 d).arrAt · cfg2.N)
              ∗ ∃ W', ⌜∀ p ∈ W', p ∈ W₀ ∨ p.2 = none⌝ ∗ owes (SparseCore.T d) O W'))
  have h2 := (K (F := F)).wp_liftProg (D (F := F)) 𝒱 (SparseCore.T d) Set.univ none
    (callP (F := F) 1) (fun _ => iprop(boundary (SparseCore.T d) ∗ arrs1 d ((pdatsB O W₀ A 1 d).arrAt · cfg2.N)
              ∗ ∃ W', ⌜∀ p ∈ W', p ∈ W₀ ∨ p.2 = none⌝ ∗ owes (SparseCore.T d) O W'))
  rw [show (reg1 O hO W₀ A).post d = iprop(arrs1 d ((pdatsB O W₀ A 1 d).arrAt · cfg2.N)
      ∗ ∃ W', ⌜∀ p ∈ W', p ∈ W₀ ∨ p.2 = none⌝ ∗ owes (SparseCore.T d) O W') from rfl,
    show (reg1 O hO W₀ A).pre d = iprop(arrs1 d (A d) ∗ owes (SparseCore.T d) O W₀) from rfl] at h1
  refine (?_ : _ ⊢ iprop(wp frame (wpE ((K (F := F)).defs (D (F := F))) 𝒱 (SparseCore.T d) none) Set.univ
      (SparseCore.liftProg (Q := 1) (callP (F := F) 1)) (fun _ => iprop(boundary (SparseCore.T d) ∗ arrs1 d ((pdatsB O W₀ A 1 d).arrAt · cfg2.N)
              ∗ ∃ W', ⌜∀ p ∈ W', p ∈ W₀ ∨ p.2 = none⌝ ∗ owes (SparseCore.T d) O W'))
      ∗ (∀ a, iprop(boundary (SparseCore.T d) ∗ arrs1 d ((pdatsB O W₀ A 1 d).arrAt · cfg2.N)
              ∗ ∃ W', ⌜∀ p ∈ W', p ∈ W₀ ∨ p.2 = none⌝ ∗ owes (SparseCore.T d) O W') -∗ Φ a))).trans
    (wp_wand_r _ _ _)
  iintro ⟨Hb, Hlev, ⟨Hg, Ht⟩, HO, Ha, Hk⟩
  isplitr [Hk]
  · iapply h2
    iapply h1
    isplitr
    · iintro H
      iapply (le_wp_ret _ _ _ _ _)
      iexact H
    isplitl [Hb]; · iexact Hb
    isplitl [Ha HO]
    · isplitl [Ha]; · iexact Ha
      iexact HO
    isplitl [Hlev]; · iexact Hlev
    isplitl [Hg]; · iexact Hg
    iexact Ht
  · iintro %a
    iexact Hk

end Region

end Cert.Proof.KernelIdeal

end
-- ==== Proof.KernelIdeal.RegVal.lean ====
/-
  What the two pipelines of the kernel's @main leave in their result arrays, as whole-array functions of the arrays
  they read at entry.

  Pipeline 0 has one point whose blocks are the whole arrays, so its result array ends at the body's store of the
  three whole inputs. Pipeline 1's point t reads rows [8000 t, 8000 (t+1)) of the gathered rows and of the edge
  features and writes the same rows of the result: the 40 blocks tile the 320000 rows, so row r of the result is row
  r mod 8000 of the body's store of block r / 8000 of the two row arrays and the weights.
-/
import proofs.«210904_g42554535969575_cont_8to1_b_1627_27_alg».proof.Proof.KernelIdeal.Reg0Body
import proofs.«210904_g42554535969575_cont_8to1_b_1627_27_alg».proof.Proof.KernelIdeal.Reg1Body
import Idealize.ShloMosaic.Lib.Pipeline.Value
import Idealize.ShloMosaic.Lib.ValueIdx

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

attribute [local irreducible] out0 out1

theorem hz2 : (![0, 0] : Fin 2 → Nat) = fun _ => 0 := funext fun a => by fin_cases a <;> rfl

/-! ## Pipeline 0 -/

/-- The node table after region 0: the body's store of the features, the weights and the bias row, each whole. -/
abbrev tblVal (H : Vec F S10000x128 .f32) (W : Vec F S128x256 .f32) (b : Vec F S1x128 .f32) : Vec F S10000x128 .f32 :=
  out0 H W b

/-- Every window of pipeline 0 sits at block index 0 on both axes, at its one point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- A whole-array window's block at the one point is the array itself. -/
theorem read0_0 (t : Fin cfg0.N) (X : Vec F S10000x128 .f32) : ((cfg0.win 0).blk t).view.read (Elt F) X = X := by
  obtain ⟨a0, a1, b0, b1, c0, c1, d0, d1⟩ := idx0 t
  funext j
  show X (((cfg0.win 0).blk t).view.emb j) = X j
  congr 1; funext a; apply Fin.ext
  match a with
  | ⟨0, _⟩ => show win0_0.index t (0 : Fin 2) * 10000 + 1 * (j 0).val = (j 0).val; omega
  | ⟨1, _⟩ => show win0_0.index t (1 : Fin 2) * 128 + 1 * (j 1).val = (j 1).val; omega
theorem read0_1 (t : Fin cfg0.N) (X : Vec F S128x256 .f32) : ((cfg0.win 1).blk t).view.read (Elt F) X = X := by
  obtain ⟨a0, a1, b0, b1, c0, c1, d0, d1⟩ := idx0 t
  funext j
  show X (((cfg0.win 1).blk t).view.emb j) = X j
  congr 1; funext a; apply Fin.ext
  match a with
  | ⟨0, _⟩ => show win0_1.index t (0 : Fin 2) * 128 + 1 * (j 0).val = (j 0).val; omega
  | ⟨1, _⟩ => show win0_1.index t (1 : Fin 2) * 256 + 1 * (j 1).val = (j 1).val; omega
theorem read0_2 (t : Fin cfg0.N) (X : Vec F S1x128 .f32) : ((cfg0.win 2).blk t).view.read (Elt F) X = X := by
  obtain ⟨a0, a1, b0, b1, c0, c1, d0, d1⟩ := idx0 t
  funext j
  show X (((cfg0.win 2).blk t).view.emb j) = X j
  congr 1; funext a; apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega
/-- What the result's buffer holds is written back whole, where the block of the array is the array. -/
theorem cut0_3 (t : Fin cfg0.N) (X : Vec F S10000x128 .f32) : (cfg0.win 3).cut (grid0.coords t) X = ((cfg0.win 3).blk t).view.read (Elt F) X := by
  obtain ⟨a0, a1, b0, b1, c0, c1, d0, d1⟩ := idx0 t
  funext j
  show X j = X (((cfg0.win 3).blk t).view.emb j)
  congr 1; funext a; apply Fin.ext
  match a with
  | ⟨0, _⟩ => show (j 0).val = win0_3.index t (0 : Fin 2) * 10000 + 1 * (j 0).val; omega
  | ⟨1, _⟩ => show (j 1).val = win0_3.index t (1 : Fin 2) * 128 + 1 * (j 1).val; omega

section V0
variable (O : CellTallies nD τ sig (HIx 1)) (W₀ : Waits sig (HIx 1)) (d : Dev nD)
  (A : (w : Fin cfg0.W) → Buf (Elt F) ((cfg0.win w).arr.view.loc (d.tc : Thread nD τ)))

/-- What the one point writes back is the whole of `tblVal` of the entry arrays. -/
theorem flushed0_eq (t : Fin cfg0.N) :
    (dat0 O W₀ d A).flushed 3 t = ((cfg0.win 3).blk t).view.read (Elt F) (tblVal (A 0) (A 1) (A 2)) := by
  show (cfg0.win 3).cut (grid0.coords t) ((dat0 O W₀ d A).after 3 t) = _
  rw [after0_3]
  unfold iblk0
  rw [read0_0 t (A 0), read0_1 t (A 1), read0_2 t (A 2)]
  exact cut0_3 t _

/-- An index of the result array is in the point's block iff each coordinate is in the block's range. -/
theorem mem_blk0 (t : Fin cfg0.N) (i : S10000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v1).slice (win0_3.rect t)).set ↔ _
  rw [View.set_slice_whole, Rect.mem_set_unit]
  exact Iff.rfl

/-- THE RESULT ARRAY after region 0. -/
theorem final0 : (dat0 O W₀ d A).arrAt 3 cfg0.N = tblVal (A 0) (A 1) (A 2) :=
  (dat0 O W₀ d A).arrAt_eq_of_cover 3 _ (fun t _ => flushed0_eq O W₀ d A t) fun i => by
    refine ⟨t0_0, flush0_3 t0_0, ?_⟩
    rw [mem_blk0]
    obtain ⟨a0, a1, b0, b1, c0, c1, d0, d1⟩ := idx0 t0_0
    intro a
    match a with
    | ⟨0, _⟩ => show win0_3.index t0_0 (0 : Fin 2) * 10000 ≤ (i 0).val ∧ (i 0).val < win0_3.index t0_0 (0 : Fin 2) * 10000 + 10000; have h : (i 0).val < 10000 := (i 0).isLt; omega
    | ⟨1, _⟩ => show win0_3.index t0_0 (1 : Fin 2) * 128 ≤ (i 1).val ∧ (i 1).val < win0_3.index t0_0 (1 : Fin 2) * 128 + 128; have h : (i 1).val < 128 := (i 1).isLt; omega

/-- The input arrays are never written. -/
theorem kept0_0 : (dat0 O W₀ d A).arrAt 0 cfg0.N = A 0 := (dat0 O W₀ d A).arrAt_in 0 rfl _
theorem kept0_1 : (dat0 O W₀ d A).arrAt 1 cfg0.N = A 1 := (dat0 O W₀ d A).arrAt_in 1 rfl _
theorem kept0_2 : (dat0 O W₀ d A).arrAt 2 cfg0.N = A 2 := (dat0 O W₀ d A).arrAt_in 2 rfl _

end V0

/-! ## Pipeline 1 -/

/-- Row `n` (taken modulo the extent), column `b` of a 320000×128 array. -/
abbrev rowIx (n : ℕ) (b : Fin 128) : S320000x128.Idx := ix2 (⟨n % 320000, Nat.mod_lt _ (by decide)⟩ : Fin 320000) b

/-- Block `t` of the rows of a 320000×128 array: rows [8000 t, 8000 (t+1)). -/
def rowBlk (X : Vec F S320000x128 .f32) (t : ℕ) : Vec F S8000x128 .f32 :=
  fun j => X (rowIx (8000 * t + (j 0).val) (j 1))

/-- The result after region 1: row `r` is row `r % 8000` of the body's store of block `r / 8000` of the gathered rows, of
    the edge features, and the weights. -/
def outVal (G : Vec F S320000x128 .f32) (E : Vec F S320000x128 .f32) (W : Vec F S128x256 .f32) : Vec F S320000x128 .f32 :=
  fun i => out1 (rowBlk G ((i 0).val / 8000)) (rowBlk E ((i 0).val / 8000)) W
    (ix2 (⟨(i 0).val % 8000, Nat.mod_lt _ (by decide)⟩ : Fin 8000) (i 1))

/-- The block index maps of pipeline 1: the three row windows sit at block `t` of the rows, the weights at block 0. -/
theorem idx1 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt40 (t : Fin cfg2.N) : t.val < 40 := lt_of_lt_of_eq t.isLt N_2

/-- A row window's block at point `t` is block `t` of the rows. -/
theorem read1_0 (t : Fin cfg2.N) (X : Vec F S320000x128 .f32) : ((cfg2.win 0).blk t).view.read (Elt F) X = rowBlk X t.val := by
  obtain ⟨a0, a1, b0, b1, c0, c1, d0, d1⟩ := idx1 t
  have ht := lt40 t
  funext j
  show X (((cfg2.win 0).blk t).view.emb j) = X (rowIx (8000 * t.val + (j 0).val) (j 1))
  congr 1; funext a; apply Fin.ext
  match a with
  | ⟨0, _⟩ => show win2_0.index t (0 : Fin 2) * 8000 + 1 * (j 0).val = (8000 * t.val + (j 0).val) % 320000; have h : (j 0).val < 8000 := (j 0).isLt; omega
  | ⟨1, _⟩ => show win2_0.index t (1 : Fin 2) * 128 + 1 * (j 1).val = (j 1).val; omega
theorem read1_1 (t : Fin cfg2.N) (X : Vec F S320000x128 .f32) : ((cfg2.win 1).blk t).view.read (Elt F) X = rowBlk X t.val := by
  obtain ⟨a0, a1, b0, b1, c0, c1, d0, d1⟩ := idx1 t
  have ht := lt40 t
  funext j
  show X (((cfg2.win 1).blk t).view.emb j) = X (rowIx (8000 * t.val + (j 0).val) (j 1))
  congr 1; funext a; apply Fin.ext
  match a with
  | ⟨0, _⟩ => show win2_1.index t (0 : Fin 2) * 8000 + 1 * (j 0).val = (8000 * t.val + (j 0).val) % 320000; have h : (j 0).val < 8000 := (j 0).isLt; omega
  | ⟨1, _⟩ => show win2_1.index t (1 : Fin 2) * 128 + 1 * (j 1).val = (j 1).val; omega
/-- The weights' window is the whole array at every point. -/
theorem read1_2 (t : Fin cfg2.N) (X : Vec F S128x256 .f32) : ((cfg2.win 2).blk t).view.read (Elt F) X = X := by
  obtain ⟨a0, a1, b0, b1, c0, c1, d0, d1⟩ := idx1 t
  funext j
  show X (((cfg2.win 2).blk t).view.emb j) = X j
  congr 1; funext a; apply Fin.ext
  match a with
  | ⟨0, _⟩ => show win2_2.index t (0 : Fin 2) * 128 + 1 * (j 0).val = (j 0).val; omega
  | ⟨1, _⟩ => show win2_2.index t (1 : Fin 2) * 256 + 1 * (j 1).val = (j 1).val; omega
/-- What the result's buffer holds at point `t` is written back whole onto rows [8000 t, 8000 (t+1)). -/
theorem cut1_3 (t : Fin cfg2.N) (Y : Vec F S8000x128 .f32) (Z : Vec F S320000x128 .f32)
    (h : ∀ j : S8000x128.Idx, Y j = Z (rowIx (8000 * t.val + (j 0).val) (j 1))) :
    (cfg2.win 3).cut (grid2.coords t) Y = ((cfg2.win 3).blk t).view.read (Elt F) Z := by
  obtain ⟨a0, a1, b0, b1, c0, c1, d0, d1⟩ := idx1 t
  have ht := lt40 t
  funext j
  show Y j = Z (((cfg2.win 3).blk t).view.emb j)
  rw [h j]
  congr 1; funext a; apply Fin.ext
  match a with
  | ⟨0, _⟩ => show (8000 * t.val + (j 0).val) % 320000 = win2_3.index t (0 : Fin 2) * 8000 + 1 * (j 0).val; have h : (j 0).val < 8000 := (j 0).isLt; omega
  | ⟨1, _⟩ => show (j 1).val = win2_3.index t (1 : Fin 2) * 128 + 1 * (j 1).val; omega

/-- Row `8000 t + j₀` of `outVal` is row `j₀` of the body's store of block `t`. -/
theorem outVal_blk (G : Vec F S320000x128 .f32) (E : Vec F S320000x128 .f32) (W : Vec F S128x256 .f32) (t : ℕ) (ht : t < 40) (j : S8000x128.Idx) :
    out1 (rowBlk G t) (rowBlk E t) W j = outVal G E W (rowIx (8000 * t + (j 0).val) (j 1)) := by
  have hj0 : (j 0).val < 8000 := (j 0).isLt
  have q : (8000 * t + (j 0).val) % 320000 / 8000 = t := by omega
  have r : (⟨(8000 * t + (j 0).val) % 320000 % 8000, Nat.mod_lt _ (by decide)⟩ : Fin 8000) = j 0 :=
    Fin.ext (by show (8000 * t + (j 0).val) % 320000 % 8000 = (j 0).val; omega)
  unfold outVal
  show _ = out1 (rowBlk G ((8000 * t + (j 0).val) % 320000 / 8000)) (rowBlk E ((8000 * t + (j 0).val) % 320000 / 8000)) W
    (ix2 (⟨(8000 * t + (j 0).val) % 320000 % 8000, Nat.mod_lt _ (by decide)⟩ : Fin 8000) (j 1))
  rw [q, r]
  exact congrArg _ (eq_ix2 j)

section V1
variable (O : CellTallies nD τ sig (HIx 1)) (W₀ : Waits sig (HIx 1)) (d : Dev nD)
  (A : (w : Fin cfg2.W) → Buf (Elt F) ((cfg2.win w).arr.view.loc (d.tc : Thread nD τ)))

/-- What point `t` writes back is block `t` of `outVal` of the entry arrays. -/
theorem flushed1_eq (t : Fin cfg2.N) :
    (dat1 O W₀ d A).flushed 3 t = ((cfg2.win 3).blk t).view.read (Elt F) (outVal (A 0) (A 1) (A 2)) := by
  show (cfg2.win 3).cut (grid2.coords t) ((dat1 O W₀ d A).after 3 t) = _
  rw [after1_3]
  unfold iblk1
  rw [read1_0 t (A 0), read1_1 t (A 1), read1_2 t (A 2)]
  exact cut1_3 t _ _ fun j => outVal_blk (A 0) (A 1) (A 2) t.val (lt40 t) j

/-- An index of the result array is in point `t`'s block iff each coordinate is in the block's range. -/
theorem mem_blk1 (t : Fin cfg2.N) (i : S320000x128.Idx) :
    i ∈ ((cfg2.win 3).blk t).view.set ↔ ∀ a : Fin 2, win2_3.index t a * S8000x128.size a ≤ (i a).val ∧ (i a).val < win2_3.index t a * S8000x128.size a + S8000x128.size a := by
  show i ∈ ((View.whole main_v3).slice (win2_3.rect t)).set ↔ _
  rw [View.set_slice_whole, Rect.mem_set_unit]
  exact Iff.rfl

/-- THE RESULT ARRAY after region 1: the 40 blocks of 8000 rows cover the 320000 rows. -/
theorem final1 : (dat1 O W₀ d A).arrAt 3 cfg2.N = outVal (A 0) (A 1) (A 2) :=
  (dat1 O W₀ d A).arrAt_eq_of_cover 3 _ (fun t _ => flushed1_eq O W₀ d A t) fun i => by
    have hi0 : (i 0).val < 320000 := (i 0).isLt
    have hi1 : (i 1).val < 128 := (i 1).isLt
    have hN := N_2
    let t : Fin cfg2.N := ⟨(i 0).val / 8000, by show (i 0).val / 8000 < grid2.N; omega⟩
    refine ⟨t, flush2_3 t, ?_⟩
    rw [mem_blk1]
    obtain ⟨a0, a1, b0, b1, c0, c1, d0, d1⟩ := idx1 t
    have ht : t.val = (i 0).val / 8000 := rfl
    intro a
    match a with
    | ⟨0, _⟩ => show win2_3.index t (0 : Fin 2) * 8000 ≤ (i 0).val ∧ (i 0).val < win2_3.index t (0 : Fin 2) * 8000 + 8000; omega
    | ⟨1, _⟩ => show win2_3.index t (1 : Fin 2) * 128 ≤ (i 1).val ∧ (i 1).val < win2_3.index t (1 : Fin 2) * 128 + 128; omega

/-- The input arrays are never written. -/
theorem kept1_0 : (dat1 O W₀ d A).arrAt 0 cfg2.N = A 0 := (dat1 O W₀ d A).arrAt_in 0 rfl _
theorem kept1_1 : (dat1 O W₀ d A).arrAt 1 cfg2.N = A 1 := (dat1 O W₀ d A).arrAt_in 1 rfl _
theorem kept1_2 : (dat1 O W₀ d A).arrAt 2 cfg2.N = A 2 := (dat1 O W₀ d A).arrAt_in 2 rfl _

end V1

end Cert.Proof.KernelIdeal

end
-- ==== Proof.KernelIdeal.RegEnter.lean ====
/-
  The two TensorCore regions of the kernel's @main as the TensorCore's proof meets them: entered from the region
  boundary with the pipeline's staging cells' launch state, what the core owes, and the four window arrays whole —
  the three inputs at given contents, the result at anything — each region's call runs to the boundary with the
  inputs unchanged and the result at its value: region 0 leaves the node table, the body's store of the features,
  the weights and the bias row; region 1 leaves, on every block of 8000 rows, the body's store of that block of the
  gathered rows and of the edge features and the weights.
-/
import proofs.«210904_g42554535969575_cont_8to1_b_1627_27_alg».proof.Proof.KernelIdeal.Reg0
import proofs.«210904_g42554535969575_cont_8to1_b_1627_27_alg».proof.Proof.KernelIdeal.Reg1
import proofs.«210904_g42554535969575_cont_8to1_b_1627_27_alg».proof.Proof.KernelIdeal.RegVal
import proofs.«210904_g42554535969575_cont_8to1_b_1627_27_alg».proof.Proof.KernelIdeal.Main

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- A family over the devices with a given member at `d`. -/
def atDev (d : Dev nD) {β : Dev nD → Type} (f : β d) (dflt : (c : Dev nD) → β c) : (c : Dev nD) → β c :=
  fun c => if h : c = d then h ▸ f else dflt c

theorem atDev_self (d : Dev nD) {β : Dev nD → Type} (f : β d) (dflt : (c : Dev nD) → β c) : atDev d f dflt d = f := by
  unfold atDev; rw [dif_pos rfl]

/-- Pipeline 0's arrays' contents, window by window. -/
def A0of (H : (c : Dev nD) → Buf (Elt F) ((c : Thread nD τ).loc main_arg0)) (W : (c : Dev nD) → Buf (Elt F) ((c : Thread nD τ).loc main_arg4))
    (b : (c : Dev nD) → Buf (Elt F) ((c : Thread nD τ).loc main_v0)) (y : (c : Dev nD) → Buf (Elt F) ((c : Thread nD τ).loc main_v1)) :
    (c : Dev nD) → (w : Fin cfg0.W) → Buf (Elt F) ((cfg0.win w).arr.view.loc (c.tc : Thread nD τ))
  | c, ⟨0, _⟩ => H c
  | c, ⟨1, _⟩ => W c
  | c, ⟨2, _⟩ => b c
  | c, ⟨3, _⟩ => y c

/-- Pipeline 1's arrays' contents, window by window. -/
def A1of (G : (c : Dev nD) → Buf (Elt F) ((c : Thread nD τ).loc main_v2)) (E : (c : Dev nD) → Buf (Elt F) ((c : Thread nD τ).loc main_arg1))
    (W : (c : Dev nD) → Buf (Elt F) ((c : Thread nD τ).loc main_arg4)) (y : (c : Dev nD) → Buf (Elt F) ((c : Thread nD τ).loc main_v3)) :
    (c : Dev nD) → (w : Fin cfg2.W) → Buf (Elt F) ((cfg2.win w).arr.view.loc (c.tc : Thread nD τ))
  | c, ⟨0, _⟩ => G c
  | c, ⟨1, _⟩ => E c
  | c, ⟨2, _⟩ => W c
  | c, ⟨3, _⟩ => y c

variable (m : (ℓ : Loc nD τ sig) → Buf (Elt F) ℓ)

/-- REGION 0: the node table. -/
theorem region0 : Region0 m (fun d => tblVal (m (aLoc d main_arg0)) (m (aLoc d main_arg4)) (b2dVal m d)) := by
  intro d O W₀ hO Φ
  iintro ⟨Hb, Hlev, Hg, HO, H0, H1, H2, ⟨%f, H3⟩, Hk⟩
  have hA3 : atDev d (β := fun c => Buf (Elt F) ((c : Thread nD τ).loc main_v1)) f (fun _ => junk) d = f :=
    atDev_self d (β := fun c => Buf (Elt F) ((c : Thread nD τ).loc main_v1)) f (fun _ => junk)
  iapply (enter0 O hO W₀ (A0of (fun c => m (aLoc c main_arg0)) (fun c => m (aLoc c main_arg4)) (fun c => b2dVal m c)
    (atDev d (β := fun c => Buf (Elt F) ((c : Thread nD τ).loc main_v1)) f (fun _ => junk))) d Φ)
  isplitl [Hb]; · iexact Hb
  isplitl [Hlev]; · iexact Hlev
  isplitl [Hg]; · iexact Hg
  isplitl [HO]; · iexact HO
  isplitl [H0 H1 H2 H3]
  · unfold arrs0
    isplitl [H0]; · iexact H0
    isplitl [H1]; · iexact H1
    isplitl [H2]; · iexact H2
    show _ ⊢ (((d : Thread nD τ).loc main_v1) ↦{fullShare} atDev d (β := fun c => Buf (Elt F) ((c : Thread nD τ).loc main_v1)) f (fun _ => junk) d)
    rw [hA3]
  iintro ⟨Hb, Ha, HO⟩
  iapply Hk
  isplitl [Hb]; · iexact Hb
  isplitl [HO]; · iexact HO
  unfold arrs0
  beta_reduce
  rw [show (pdatsA O W₀ (A0of (fun c => m (aLoc c main_arg0)) (fun c => m (aLoc c main_arg4)) (fun c => b2dVal m c)
        (atDev d (β := fun c => Buf (Elt F) ((c : Thread nD τ).loc main_v1)) f (fun _ => junk))) 0 d).arrAt 0 cfg0.N = m (aLoc d main_arg0) from kept0_0 O W₀ d _,
    show (pdatsA O W₀ (A0of (fun c => m (aLoc c main_arg0)) (fun c => m (aLoc c main_arg4)) (fun c => b2dVal m c)
        (atDev d (β := fun c => Buf (Elt F) ((c : Thread nD τ).loc main_v1)) f (fun _ => junk))) 0 d).arrAt 1 cfg0.N = m (aLoc d main_arg4) from kept0_1 O W₀ d _,
    show (pdatsA O W₀ (A0of (fun c => m (aLoc c main_arg0)) (fun c => m (aLoc c main_arg4)) (fun c => b2dVal m c)
        (atDev d (β := fun c => Buf (Elt F) ((c : Thread nD τ).loc main_v1)) f (fun _ => junk))) 0 d).arrAt 2 cfg0.N = b2dVal m d from kept0_2 O W₀ d _,
    show (pdatsA O W₀ (A0of (fun c => m (aLoc c main_arg0)) (fun c => m (aLoc c main_arg4)) (fun c => b2dVal m c)
        (atDev d (β := fun c => Buf (Elt F) ((c : Thread nD τ).loc main_v1)) f (fun _ => junk))) 0 d).arrAt 3 cfg0.N
          = tblVal (m (aLoc d main_arg0)) (m (aLoc d main_arg4)) (b2dVal m d) from final0 O W₀ d _]
  iexact Ha

/-- REGION 1: the result. -/
theorem region1 (gatV : (d : Dev nD) → Buf (Elt F) (aLoc d main_v2)) :
    Region1 m gatV (fun d => outVal (gatV d) (m (aLoc d main_arg1)) (m (aLoc d main_arg4))) := by
  intro d O W₀ hO Φ
  iintro ⟨Hb, Hlev, Hg, HO, H0, H1, H2, ⟨%f, H3⟩, Hk⟩
  have hA3 : atDev d (β := fun c => Buf (Elt F) ((c : Thread nD τ).loc main_v3)) f (fun _ => junk) d = f :=
    atDev_self d (β := fun c => Buf (Elt F) ((c : Thread nD τ).loc main_v3)) f (fun _ => junk)
  iapply (enter1 O hO W₀ (A1of gatV (fun c => m (aLoc c main_arg1)) (fun c => m (aLoc c main_arg4))
    (atDev d (β := fun c => Buf (Elt F) ((c : Thread nD τ).loc main_v3)) f (fun _ => junk))) d Φ)
  isplitl [Hb]; · iexact Hb
  isplitl [Hlev]; · iexact Hlev
  isplitl [Hg]; · iexact Hg
  isplitl [HO]; · iexact HO
  isplitl [H0 H1 H2 H3]
  · unfold arrs1
    isplitl [H0]; · iexact H0
    isplitl [H1]; · iexact H1
    isplitl [H2]; · iexact H2
    show _ ⊢ (((d : Thread nD τ).loc main_v3) ↦{fullShare} atDev d (β := fun c => Buf (Elt F) ((c : Thread nD τ).loc main_v3)) f (fun _ => junk) d)
    rw [hA3]
  iintro ⟨Hb, Ha, HO⟩
  iapply Hk
  isplitl [Hb]; · iexact Hb
  isplitl [HO]; · iexact HO
  unfold arrs1
  beta_reduce
  rw [show (pdatsB O W₀ (A1of gatV (fun c => m (aLoc c main_arg1)) (fun c => m (aLoc c main_arg4))
        (atDev d (β := fun c => Buf (Elt F) ((c : Thread nD τ).loc main_v3)) f (fun _ => junk))) 1 d).arrAt 0 cfg2.N = gatV d from kept1_0 O W₀ d _,
    show (pdatsB O W₀ (A1of gatV (fun c => m (aLoc c main_arg1)) (fun c => m (aLoc c main_arg4))
        (atDev d (β := fun c => Buf (Elt F) ((c : Thread nD τ).loc main_v3)) f (fun _ => junk))) 1 d).arrAt 1 cfg2.N = m (aLoc d main_arg1) from kept1_1 O W₀ d _,
    show (pdatsB O W₀ (A1of gatV (fun c => m (aLoc c main_arg1)) (fun c => m (aLoc c main_arg4))
        (atDev d (β := fun c => Buf (Elt F) ((c : Thread nD τ).loc main_v3)) f (fun _ => junk))) 1 d).arrAt 2 cfg2.N = m (aLoc d main_arg4) from kept1_2 O W₀ d _,
    show (pdatsB O W₀ (A1of gatV (fun c => m (aLoc c main_arg1)) (fun c => m (aLoc c main_arg4))
        (atDev d (β := fun c => Buf (Elt F) ((c : Thread nD τ).loc main_v3)) f (fun _ => junk))) 1 d).arrAt 3 cfg2.N
          = outVal (gatV d) (m (aLoc d main_arg1)) (m (aLoc d main_arg4)) from final1 O W₀ d _]
  iexact Ha

end Cert.Proof.KernelIdeal

end
-- ==== Proof.KernelIdeal.ScPay.lean ====
/-
  What the SparseCore call's handshakes carry. The table (the first call's result) and the index array are only
  read: they travel as read shares of the whole arrays, halved between the two SparseCores and cut in sixteen among
  a SparseCore's tiles. The output is written: it travels by elements, cut along its rows into the 1600 chunks of
  200 rows the tiles store — tile (c, s), whose number is 2 s + c, owns the fifty chunks 50 (2 s + c) + k — each
  chunk at unknown contents on the way in and, on the way out, at the one function `gathered`: row e of the output
  is the row of the table that word e of the index array names.
-/
import proofs.«210904_g42554535969575_cont_8to1_b_1627_27_alg».proof.Proof.KernelIdeal.Setup
import Idealize.ShloMosaic.Lib.SparseCore.Stream
import Idealize.ShloMosaic.Lib.ValueIdx

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type} [FloatOps F]

local notation "𝕄" => MT nD τ sig (HIx 1) (Elt F) ℕ UU ℕ

/-! ## The three arrays, as the TensorCore names them -/

abbrev tLoc (d : Dev nD) : Loc nD τ sig := (SparseCore.T d).loc main_v1
abbrev hLoc (d : Dev nD) : Loc nD τ sig := (SparseCore.T d).loc main_arg2
abbrev oLoc (d : Dev nD) : Loc nD τ sig := (SparseCore.T d).loc main_v2

variable (Tv : (d : Dev nD) → Buf (Elt F) (tLoc d)) (m : (ℓ : Loc nD τ sig) → Buf (Elt F) ℓ)
  (hh : ∀ (d : Dev nD) x, (m (hLoc d) x).toNat < 10000)

/-- The call's result: row `e` of the output is row `heads[e]` of the table. -/
def gathered (d : Dev nD) : Buf (Elt F) (oLoc d) :=
  fun y => Tv d (ValueIdx.ix2 ⟨(m (hLoc d) (ValueIdx.ix1 (y 0))).toNat, hh d _⟩ (y 1))

theorem gathered_apply (d : Dev nD) (e : Fin 320000) (j : Fin 128) :
    gathered Tv m hh d (ValueIdx.ix2 e j) = Tv d (ValueIdx.ix2 ⟨(m (hLoc d) (ValueIdx.ix1 e)).toNat, hh d _⟩ j) := rfl

/-! ## The output's chunks and the read shares -/

theorem hdiv : 1600 ∣ S320000x128.size 0 := ⟨200, rfl⟩

/-- Chunk `g` of the output: rows `[200 g, 200 g + 200)`, every column. -/
abbrev cRect (g : Fin 1600) : Rect S320000x128 := Rect.part (s := S320000x128) (a₀ := 0) hdiv g
abbrev oV : Memref sig .scVector .hbm S320000x128 .f32 := Memref.whole main_v2_scv
abbrev cSet (g : Fin 1600) : Finset S320000x128.Idx := ((oV).view.slice (cRect g)).set

/-- The number of chunk `k` of tile `(c, s)`: the tile's number is `2 s + c`, and it owns fifty consecutive chunks. -/
def gix (c : Fin 2) (s : Fin 16) (k : Fin 50) : Fin 1600 := ⟨100 * s.val + 50 * c.val + k.val, by omega⟩

/-- A SparseCore's read share: half. -/
abbrev tq (c : Fin 2) : PosShare TreeShare := pieceOf fullShare 2 (by decide) c
/-- A tile's read share: a sixteenth of its SparseCore's. -/
abbrev tqq (c : Fin 2) (s : Fin 16) : PosShare TreeShare := pieceOf (tq c) 16 (by decide) s

/-- What tile `(c, s)` is handed: its read shares of the table and of the index array, its fifty chunks of the output. -/
def goT (d : Dev nD) (c : Fin 2) (s : Fin 16) : sProp 𝕄 :=
  iprop((tLoc d ↦{tqq c s} Tv d) ∗ (hLoc d ↦{tqq c s} m (hLoc d))
    ∗ bigSep Finset.univ fun k : Fin 50 => iprop(∃ f, oLoc d ↦[cSet (gix c s k)]{fullShare} f))
/-- What it hands back: the shares, and its chunks holding the gathered rows. -/
def tdT (d : Dev nD) (c : Fin 2) (s : Fin 16) : sProp 𝕄 :=
  iprop((tLoc d ↦{tqq c s} Tv d) ∗ (hLoc d ↦{tqq c s} m (hLoc d))
    ∗ bigSep Finset.univ fun k : Fin 50 => oLoc d ↦[cSet (gix c s k)]{fullShare} gathered Tv m hh d)
/-- What SparseCore `c` is handed, -/
def stC (d : Dev nD) (c : Fin 2) : sProp 𝕄 :=
  iprop((tLoc d ↦{tq c} Tv d) ∗ (hLoc d ↦{tq c} m (hLoc d))
    ∗ bigSep Finset.univ fun s : Fin 16 => bigSep Finset.univ fun k : Fin 50 => iprop(∃ f, oLoc d ↦[cSet (gix c s k)]{fullShare} f))
/-- and hands back. -/
def dnC (d : Dev nD) (c : Fin 2) : sProp 𝕄 :=
  iprop((tLoc d ↦{tq c} Tv d) ∗ (hLoc d ↦{tq c} m (hLoc d))
    ∗ bigSep Finset.univ fun s : Fin 16 => bigSep Finset.univ fun k : Fin 50 => oLoc d ↦[cSet (gix c s k)]{fullShare} gathered Tv m hh d)

instance goT_storable (d : Dev nD) (c : Fin 2) (s : Fin 16) : BI.Storable (upEmb : UEmb _ 𝕄) (goT Tv m d c s) := by
  unfold goT; infer_instance
instance tdT_storable (d : Dev nD) (c : Fin 2) (s : Fin 16) : BI.Storable (upEmb : UEmb _ 𝕄) (tdT Tv m hh d c s) := by
  unfold tdT; infer_instance
instance stC_storable (d : Dev nD) (c : Fin 2) : BI.Storable (upEmb : UEmb _ 𝕄) (stC Tv m d c) := by
  unfold stC; infer_instance
instance dnC_storable (d : Dev nD) (c : Fin 2) : BI.Storable (upEmb : UEmb _ 𝕄) (dnC Tv m hh d c) := by
  unfold dnC; infer_instance

/-- The one call's payloads; the tiles' proofs consume nothing of the launch's. -/
def P : (K (F := F)).Pay (nD := nD) (Val := Elt F) (Name := ℕ) (U := UU) where
  st := fun q d c => match q with | 0 => stC Tv m d (Fin.cast nCore_zero c)
  dn := fun q d c => match q with | 0 => dnC Tv m hh d (Fin.cast nCore_zero c)
  go := fun q d c i => match q with | 0 => goT Tv m d (Fin.cast nCore_zero c) (Fin.cast nSub_zero i)
  td := fun q d c i => match q with | 0 => tdT Tv m hh d (Fin.cast nCore_zero c) (Fin.cast nSub_zero i)
  x := fun _ _ => iprop(emp)

instance P_storable : (P Tv m hh).IsStorable where
  st q d c := match q with | 0 => (inferInstance : BI.Storable (upEmb : UEmb _ 𝕄) (stC Tv m d (Fin.cast nCore_zero c)))
  dn q d c := match q with | 0 => (inferInstance : BI.Storable (upEmb : UEmb _ 𝕄) (dnC Tv m hh d (Fin.cast nCore_zero c)))
  go q d c i := match q with | 0 => (inferInstance : BI.Storable (upEmb : UEmb _ 𝕄) (goT Tv m d (Fin.cast nCore_zero c) (Fin.cast nSub_zero i)))
  td q d c i := match q with | 0 => (inferInstance : BI.Storable (upEmb : UEmb _ 𝕄) (tdT Tv m hh d (Fin.cast nCore_zero c) (Fin.cast nSub_zero i)))

theorem P_st (d : Dev nD) (c : Fin ((K (F := F)).nCore 0)) : (P Tv m hh).st 0 d c = stC Tv m d (Fin.cast nCore_zero c) := rfl
theorem P_dn (d : Dev nD) (c : Fin ((K (F := F)).nCore 0)) : (P Tv m hh).dn 0 d c = dnC Tv m hh d (Fin.cast nCore_zero c) := rfl
theorem P_go (d : Dev nD) (c : Fin ((K (F := F)).nCore 0)) (i : Fin ((K (F := F)).nSub 0)) :
    (P Tv m hh).go 0 d c i = goT Tv m d (Fin.cast nCore_zero c) (Fin.cast nSub_zero i) := rfl
theorem P_td (d : Dev nD) (c : Fin ((K (F := F)).nCore 0)) (i : Fin ((K (F := F)).nSub 0)) :
    (P Tv m hh).td 0 d c i = tdT Tv m hh d (Fin.cast nCore_zero c) (Fin.cast nSub_zero i) := rfl

end Cert.Proof.KernelIdeal

end
-- ==== Proof.KernelIdeal.ScSplit.lean ====
/-
  How the call's operands split and its results join. The table and the index array are read shares all the way
  down: a share is the separating product of its pieces. The output is its 1600 chunks of 200 rows, which are
  pairwise disjoint and cover it; numbered 100 s + 50 c + k they regroup as SparseCore c, tile s, chunk k.
-/
import proofs.«210904_g42554535969575_cont_8to1_b_1627_27_alg».proof.Proof.KernelIdeal.ScPay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

/-! ## The chunks: disjoint, covering, regrouped -/

omit [FloatOps F] in
theorem cSet_eq (g : Fin 1600) : cSet g = (cRect g).set := by
  show ((View.whole (main_v2_scv : Ref sig .scVector)).slice (cRect g)).set = _
  exact View.set_slice_whole _ _

omit [FloatOps F] in
theorem cSet_disjoint : ∀ g ∈ (Finset.univ : Finset (Fin 1600)), ∀ g' ∈ (Finset.univ : Finset (Fin 1600)), g ≠ g' → Disjoint (cSet g) (cSet g') :=
  fun g _ g' _ h => by rw [cSet_eq, cSet_eq]; exact Rect.part_disjoint hdiv h

omit [FloatOps F] in
theorem cSet_cover : (Finset.univ : Finset (Fin 1600)).biUnion cSet = Finset.univ :=
  (Finset.biUnion_congr rfl fun g _ => cSet_eq g).trans (Rect.biUnion_part hdiv)

/-- Chunk numbers are triples: SparseCore, tile, chunk of the tile. -/
def gEquiv : Fin 2 × Fin 16 × Fin 50 ≃ Fin 1600 where
  toFun p := gix p.1 p.2.1 p.2.2
  invFun g := (⟨g.val / 50 % 2, Nat.mod_lt _ (by decide)⟩, ⟨g.val / 100, by have := g.isLt; omega⟩, ⟨g.val % 50, Nat.mod_lt _ (by decide)⟩)
  left_inv := by
    rintro ⟨c, s, k⟩
    have hc := c.isLt; have hs := s.isLt; have hk := k.isLt
    simp only [gix, Prod.mk.injEq]
    refine ⟨Fin.ext ?_, Fin.ext ?_, Fin.ext ?_⟩ <;> simp only <;> omega
  right_inv := by
    intro g
    have hg := g.isLt
    apply Fin.ext
    simp only [gix]
    omega

omit [FloatOps F] in
/-- The output whole is its chunks, grouped by SparseCore, tile and chunk. -/
theorem out_split (d : Dev nD) (f : Buf (Elt F) (oLoc d)) :
    (oLoc d ↦{fullShare} f : sProp 𝕄)
      = bigSep Finset.univ fun c : Fin 2 => bigSep Finset.univ fun s : Fin 16 => bigSep Finset.univ fun k : Fin 50 =>
          oLoc d ↦[cSet (gix c s k)]{fullShare} f := by
  have h1 : (oLoc d ↦{fullShare} f : sProp 𝕄) = bigSep Finset.univ fun g : Fin 1600 => oLoc d ↦[cSet g]{fullShare} f := by
    rw [← pointsTo_biUnion Finset.univ (ℓ := oLoc d) cSet cSet_disjoint, cSet_cover]; try rfl
  rw [h1, bigSep_univ_equiv gEquiv (fun g : Fin 1600 => (oLoc d ↦[cSet g]{fullShare} f : sProp 𝕄)), bigSep_univ_prod]
  refine bigSep_congr fun c _ => ?_
  rw [bigSep_univ_prod]
  rfl

omit [FloatOps F] in
/-- Chunks held at one function are chunks held at some. -/
theorem chunk_some (d : Dev nD) (f : Buf (Elt F) (oLoc d)) (g : Fin 1600) :
    (oLoc d ↦[cSet g]{fullShare} f : sProp 𝕄) ⊢ (iprop(∃ f, oLoc d ↦[cSet g]{fullShare} f) : sProp 𝕄) := by
  iintro H; iexists f; iexact H

omit [FloatOps F] in
theorem out_some (d : Dev nD) (f : Buf (Elt F) (oLoc d)) :
    iprop(bigSep Finset.univ fun c : Fin 2 => bigSep Finset.univ fun s : Fin 16 => bigSep Finset.univ fun k : Fin 50 =>
        (oLoc d ↦[cSet (gix c s k)]{fullShare} f : sProp 𝕄))
      ⊢ ((bigSep Finset.univ fun c : Fin 2 => bigSep Finset.univ fun s : Fin 16 => bigSep Finset.univ fun k : Fin 50 =>
        iprop(∃ f, oLoc d ↦[cSet (gix c s k)]{fullShare} f)) : sProp 𝕄) :=
  bigSep_mono fun c _ => bigSep_mono fun s _ => bigSep_mono fun k _ => chunk_some d f (gix c s k)

/-! ## Families over the call's grid are families over the literal extents -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## A SparseCore's operands among its tiles -/

theorem vecSplit' : (K (F := F)).VecSplit' (P Tv m hh) 0 := by
  intro d c
  show stC Tv m d (Fin.cast nCore_zero c) ⊢ |={Set.univ}=> iprop(
      (bigSep Finset.univ fun i : Fin ((K (F := F)).nSub 0) => goT Tv m d (Fin.cast nCore_zero c) (Fin.cast nSub_zero i))
      ∗ ((bigSep Finset.univ fun i : Fin ((K (F := F)).nSub 0) => tdT Tv m hh d (Fin.cast nCore_zero c) (Fin.cast nSub_zero i))
          -∗ dnC Tv m hh d (Fin.cast nCore_zero c)))
  generalize (Fin.cast nCore_zero c : Fin 2) = c'
  rw [bigSep_tasks (F := F) (fun s => goT Tv m d c' s), bigSep_tasks (F := F) (fun s => tdT Tv m hh d c' s)]
  unfold stC dnC goT tdT
  rw [bigSep_sep', bigSep_sep', bigSep_sep', bigSep_sep']
  rw [pointsTo_piecesOf (Finset.univ) (Tv d) (show 0 < 16 by decide) (tq c'),
    pointsTo_piecesOf (Finset.univ) (m (hLoc d)) (show 0 < 16 by decide) (tq c')]
  iintro ⟨Ht, Hh, Ho⟩; imodintro
  isplitl [Ht Hh Ho]
  · isplitl [Ht]; · iexact Ht
    isplitl [Hh]; · iexact Hh
    iexact Ho
  iintro ⟨Ht, Hh, Ho⟩
  isplitl [Ht]; · iexact Ht
  isplitl [Hh]; · iexact Hh
  iexact Ho

theorem vecSplit : (K (F := F)).VecSplit (P Tv m hh) 0 := SparseCore.Cfg.VecSplit.of_plain (vecSplit' Tv m hh)

/-! ## The TensorCore's arrays among the SparseCores, and back -/

theorem st0_intro (d : Dev nD) :
    iprop((tLoc d ↦{fullShare} Tv d) ∗ (hLoc d ↦{fullShare} m (hLoc d)) ∗ ∃ f, oLoc d ↦{fullShare} f)
      ⊢ bigSep Finset.univ fun c : Fin ((K (F := F)).nCore 0) => (P Tv m hh).st 0 d c := by
  show _ ⊢ bigSep Finset.univ fun c : Fin ((K (F := F)).nCore 0) => stC Tv m d (Fin.cast nCore_zero c)
  rw [bigSep_cores (F := F) (fun c => stC Tv m d c)]
  unfold stC
  rw [bigSep_sep', bigSep_sep']
  rw [pointsTo_piecesOf (Finset.univ) (Tv d) (show 0 < 2 by decide) fullShare,
    pointsTo_piecesOf (Finset.univ) (m (hLoc d)) (show 0 < 2 by decide) fullShare]
  iintro ⟨Ht, Hh, %f, Ho⟩
  isplitl [Ht]; · iexact Ht
  isplitl [Hh]; · iexact Hh
  ihave Ho := (Entails.of_eq (out_split (F := F) d f)) $$ Ho
  ihave Ho' := (out_some (F := F) d f) $$ Ho
  iexact Ho'

theorem dn0_elim (d : Dev nD) :
    (bigSep Finset.univ fun c : Fin ((K (F := F)).nCore 0) => (P Tv m hh).dn 0 d c)
      ⊢ iprop((tLoc d ↦{fullShare} Tv d) ∗ (hLoc d ↦{fullShare} m (hLoc d)) ∗ oLoc d ↦{fullShare} gathered Tv m hh d) := by
  show (bigSep Finset.univ fun c : Fin ((K (F := F)).nCore 0) => dnC Tv m hh d (Fin.cast nCore_zero c)) ⊢ _
  rw [bigSep_cores (F := F) (fun c => dnC Tv m hh d c)]
  unfold dnC
  rw [bigSep_sep', bigSep_sep']
  rw [pointsTo_piecesOf (Finset.univ) (Tv d) (show 0 < 2 by decide) fullShare,
    pointsTo_piecesOf (Finset.univ) (m (hLoc d)) (show 0 < 2 by decide) fullShare, out_split (F := F) d (gathered Tv m hh d)]

end Cert.Proof.KernelIdeal

end
-- ==== Proof.KernelIdeal.All.lean ====
/-
  The kernel's run composed: the node table is the first region's value of the launch features, weights and reshaped
  bias; the gathered rows are the table's rows at the heads; the result is the second region's value of the gathered rows,
  the edge features and the weights. From the launch theorem's run (`run_main`) with the two regions' runs, the
  SparseCore call's payloads, split and join, and the tile's task.
-/
import proofs.«210904_g42554535969575_cont_8to1_b_1627_27_alg».proof.Proof.KernelIdeal.Run
import proofs.«210904_g42554535969575_cont_8to1_b_1627_27_alg».proof.Proof.KernelIdeal.RegEnter
import proofs.«210904_g42554535969575_cont_8to1_b_1627_27_alg».proof.Proof.KernelIdeal.ScSplit

noncomputable section

namespace Cert.Proof.KernelIdeal

open Cert.KernelIdeal Cert.KernelIdeal.Gen

open Idealize.ShloMosaic
open Idealize.ShloMosaic.SparseCore.Cfg (HIx Pay)
open Idealize.SL Idealize.SL.Sem Idealize.SL.BI
open scoped Idealize.SL.BI
open Idealize.SL.BI.BIBase

variable {F : FTy → Type} [FloatOps F]

variable (m : (ℓ : Loc nD τ sig) → Buf (Elt F) ℓ) (ρ : Dev nD → PrngReg)
  (hh : ∀ (d : Dev nD) x, (m (hLoc d) x).toNat < 10000)

/-- The node table: H · W[:, 0:128]ᵀ + b. -/
def tblAll (d : Dev nD) : Buf (Elt F) (aLoc d main_v1) := tblVal (m (aLoc d main_arg0)) (m (aLoc d main_arg4)) (b2dVal m d)
/-- The gathered rows: row e is the table's row heads[e]. -/
def gatAll (d : Dev nD) : Buf (Elt F) (aLoc d main_v2) := gathered (tblAll m) m hh d
/-- The result: the gathered rows plus E · W[:, 128:256]ᵀ. -/
def outAll (d : Dev nD) : Buf (Elt F) (aLoc d main_v3) := outVal (gatAll m hh d) (m (aLoc d main_arg1)) (m (aLoc d main_arg4))

/-- The run of the whole program, given the tile's task. -/
theorem run_all [∀ e, Nonempty (Elt F e)]
    (htile : (K (F := F)).TileObl (D (F := F)) 𝒱 (P (tblAll m) m hh) v₀ 0) :
    θ_run (Cert.KernelIdeal.defs (F := F)) (Cert.KernelIdeal.threads (F := F)) ⟨m, fun _ => 0, ρ⟩ (QC m (outAll m hh)) :=
by
  have h0 : Region0 m (tblAll m) := by delta tblAll; exact region0 m
  have h1 : Region1 m (gatAll m hh) (outAll m hh) := by delta outAll; exact region1 m (gatAll m hh)
  have h2 : CallSplit m (P (tblAll m) m hh) (tblAll m) := st0_intro (tblAll m) m hh
  have h3 : CallJoin m (P (tblAll m) m hh) (tblAll m) (gatAll m hh) := by delta gatAll; exact dn0_elim (tblAll m) m hh
  have hx : (P (tblAll m) m hh).x = fun _ _ => iprop(emp) := rfl
  have hd : (P (tblAll m) m hh).held = ∅ := rfl
  exact run_main m ρ (outAll m hh) (P (tblAll m) m hh) hx hd (tblAll m) (gatAll m hh) htile (vecSplit (tblAll m) m hh) h0 h1 h2 h3

end Cert.Proof.KernelIdeal

end
-- ==== Proof.KernelIdeal.ScGeom.lean ====
/-
  The kernel's chunk offsets as arithmetic. Tile (c, s) of the SparseCore call, whose number is 2 s + c, owns rows
  [10000 (2 s + c), 10000 (2 s + c) + 10000) of the output, which it stores in fifty chunks of 200 rows: chunk j starts
  at row 20000 s + 10000 c + 200 j. The offsets the kernel computes in 32-bit words — before the loop at the literal
  rows 0, 200, 9200 … 9800, in trip k of the loop at rows 600 k + 200, + 400, + 600, + 800 — are these, and the index
  scratch is read in windows of 200 words at 600 k + 400 … 600 k + 1200.
-/
import proofs.«210904_g42554535969575_cont_8to1_b_1627_27_alg».proof.Proof.KernelIdeal.ScSplit

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "tV" => (Memref.whole Cert.KernelIdeal.main_v1_scv : Memref Cert.KernelIdeal.sig Kind.scVector Space.hbm Cert.KernelIdeal.S10000x128 EltTy.f32)
local notation "hV" => (Memref.whole Cert.KernelIdeal.main_arg2_scv : Memref Cert.KernelIdeal.sig Kind.scVector Space.hbm Cert.KernelIdeal.S320000 EltTy.i32)
local notation "oW" => (Memref.whole Cert.KernelIdeal.main_v2_scv : Memref Cert.KernelIdeal.sig Kind.scVector Space.hbm Cert.KernelIdeal.S320000x128 EltTy.f32)
local notation "sI" => (Memref.whole Cert.KernelIdeal.cc1_scratch0 : Memref Cert.KernelIdeal.sig Kind.scVector Space.vmem Cert.KernelIdeal.S10000 EltTy.i32)
local notation "r0" => (Memref.whole Cert.KernelIdeal.cc1_scratch1 : Memref Cert.KernelIdeal.sig Kind.scVector Space.vmem Cert.KernelIdeal.S200x128 EltTy.f32)
local notation "r1" => (Memref.whole Cert.KernelIdeal.cc1_scratch2 : Memref Cert.KernelIdeal.sig Kind.scVector Space.vmem Cert.KernelIdeal.S200x128 EltTy.f32)
local notation "r2" => (Memref.whole Cert.KernelIdeal.cc1_scratch3 : Memref Cert.KernelIdeal.sig Kind.scVector Space.vmem Cert.KernelIdeal.S200x128 EltTy.f32)

section Tile
variable (d : Dev nD) (L : grid1.Coords)

/-! ## The tile's coordinates, its slices of the arrays, its chunks -/

/-- The tile's SparseCore and vector subcore, as the device numbers them, -/
abbrev cV (L : grid1.Coords) : Fin τ.nSC := (L 0).castLE hcore1
abbrev jV (L : grid1.Coords) : Fin τ.nSub := (L 1).castLE hsub1
/-- and as the call's grid does. -/
abbrev cL (L : grid1.Coords) : Fin 2 := Fin.cast (show grid1.bound 0 = 2 from rfl) (L 0)
abbrev sL (L : grid1.Coords) : Fin 16 := Fin.cast (show grid1.bound 1 = 16 from rfl) (L 1)

/-- 200 rows of the output from an offset, -/
abbrev oSl (off : Fin 2 → Nat) (inb : ∀ a, off a + S200x128.size a ≤ S320000x128.size a) : Memref sig .scVector .hbm S200x128 .f32 :=
  (oW).slice (Rect.unit (s := S320000x128) off S200x128.size inb) (fun _ => rfl)
/-- 200 words of the index scratch from an offset, -/
abbrev iSl (off : Fin 1 → Nat) (inb : ∀ a, off a + S200.size a ≤ S10000.size a) : Memref sig .scVector .vmem S200 .i32 :=
  (sI).slice (Rect.unit (s := S10000) off S200.size inb) (fun _ => rfl)
/-- and the whole table, as the kernel slices it. -/
abbrev tSl : Memref sig .scVector .hbm S10000x128 .f32 :=
  (tV).slice (Rect.unit (s := S10000x128) ![0, 0] S10000x128.size inb_S10000x128_S10000x128_0_0) (fun _ => rfl)

/-- Where the tile's chunk `c` starts in the output (the last chunk's start for any later number). -/
def oOff (L : grid1.Coords) (c : Nat) : Fin 2 → Nat := ![20000 * (L 1).val + 10000 * (L 0).val + min (200 * c) 9800, 0]

theorem oOff_inb (L : grid1.Coords) (c : Nat) : ∀ a, oOff L c a + S200x128.size a ≤ S320000x128.size a :=
  Fin.forall_fin_two.mpr ⟨by
    have h1 : (L 1).val < 16 := (L 1).isLt
    have h0 : (L 0).val < 2 := (L 0).isLt
    show 20000 * (L 1).val + 10000 * (L 0).val + min (200 * c) 9800 + 200 ≤ 320000
    omega, by show 0 + 128 ≤ 128; omega⟩

/-- The elements of the tile's chunk `j`. -/
abbrev oSet (L : grid1.Coords) (j : Nat) : Finset S320000x128.Idx := (oSl (oOff L j) (oOff_inb L j)).view.set

theorem oSl_congr {off off' : Fin 2 → Nat} (h : off = off') (inb) (inb') : oSl off inb = oSl off' inb' := by subst h; rfl
theorem iSl_congr {off off' : Fin 1 → Nat} (h : off = off') (inb) (inb') : iSl off inb = iSl off' inb' := by subst h; rfl

/-- The two windows of the index scratch trip `k` of the loop reads lie inside it. -/
theorem wA (k : Nat) (hk : k ≤ 15) : ∀ a, (![600 * k + 400] : Fin 1 → Nat) a + S200.size a ≤ S10000.size a :=
  Fin.forall_fin_one.mpr (by show 600 * k + 400 + 200 ≤ 10000; omega)
theorem wB (k : Nat) (hk : k ≤ 15) : ∀ a, (![600 * k + 600] : Fin 1 → Nat) a + S200.size a ≤ S10000.size a :=
  Fin.forall_fin_one.mpr (by show 600 * k + 600 + 200 ≤ 10000; omega)
abbrev iWA (k : Nat) (hk : k ≤ 15) : Finset S10000.Idx := (iSl ![600 * k + 400] (wA k hk)).view.set
abbrev iWB (k : Nat) (hk : k ≤ 15) : Finset S10000.Idx := (iSl ![600 * k + 600] (wB k hk)).view.set

/-! ## The offsets the kernel computes are the chunks' starts

Trip `k` of the loop (`k < 15`) stores chunk `3 k + 2`, waits for the store of chunk `3 k + 1`, stores chunk `3 k + 3`,
stores chunk `3 k + 4` and waits for the store of chunk `3 k + 3`; all are below chunk 49, so the cap in `oOff` is idle.
Its two gathers read the windows of the index scratch at `600 (k + 1) + 400` and `600 (k + 1) + 600`. -/

theorem trip_lt (k : Fin k1_t1_loop.trips) : k.val < 15 := Nat.lt_of_lt_of_le k.isLt k1_t1_abs.2.1

theorem off4_eq (k : Fin k1_t1_loop.trips) : k1_off4 L k = oOff L (3 * k.val + 2) := by
  have hk := trip_lt k
  rw [k1_off4_eq]
  unfold oOff
  refine congrArg (fun x : Nat => (![x, 0] : Fin 2 → Nat)) ?_
  omega

theorem off5_eq (k : Fin k1_t1_loop.trips) : k1_off5 L k = oOff L (3 * k.val + 1) := by
  have hk := trip_lt k
  rw [k1_off5_eq]
  unfold oOff
  refine congrArg (fun x : Nat => (![x, 0] : Fin 2 → Nat)) ?_
  omega

theorem off7_1 (k : Fin k1_t1_loop.trips) : k1_off7 L k 1#32 = oOff L (3 * k.val + 3) := by
  have hk := trip_lt k
  refine (k1_off7_eq L k ⟨0, by decide⟩ : k1_off7 L k 1#32 = _).trans ?_
  unfold oOff
  refine congrArg (fun x : Nat => (![x, 0] : Fin 2 → Nat)) ?_
  show 20000 * (L 1).val + 10000 * (L 0).val + 600 * k.val + 200 * 0 + 600 = _
  omega

theorem off7_2 (k : Fin k1_t1_loop.trips) : k1_off7 L k 2#32 = oOff L (3 * k.val + 4) := by
  have hk := trip_lt k
  refine (k1_off7_eq L k ⟨1, by decide⟩ : k1_off7 L k 2#32 = _).trans ?_
  unfold oOff
  refine congrArg (fun x : Nat => (![x, 0] : Fin 2 → Nat)) ?_
  show 20000 * (L 1).val + 10000 * (L 0).val + 600 * k.val + 200 * 1 + 600 = _
  omega

theorem off6_3 (k : Fin k1_t1_loop.trips) : k1_off6 k 3#32 = ![600 * (k.val + 1) + 400] := by
  refine (k1_off6_eq k ⟨2, by decide⟩ : k1_off6 k 3#32 = _).trans ?_
  refine congrArg (fun x : Nat => (![x] : Fin 1 → Nat)) ?_
  show 600 * k.val + 200 * 2 + 600 = _
  omega

theorem off6_4 (k : Fin k1_t1_loop.trips) : k1_off6 k 4#32 = ![600 * (k.val + 1) + 600] := by
  refine (k1_off6_eq k ⟨3, by decide⟩ : k1_off6 k 4#32 = _).trans ?_
  refine congrArg (fun x : Nat => (![x] : Fin 1 → Nat)) ?_
  show 600 * k.val + 200 * 3 + 600 = _
  omega

/-! ## The literal offsets outside the loop

Before and after the loop the kernel addresses the output at the tile's first row plus one of six literal rows:
0, 200, 9200, 9400, 9600, 9800 — chunks 0, 1, 46, 47, 48, 49. -/

theorem k1_off2_eq : ∀ (i : grid1.Coords) (r : Fin 6),
    k1_off2 i (k1_off2_at r) = ![20000 * (i 1).val + 10000 * (i 0).val + (k1_off2_at r).toNat, 0] := by decide +kernel

theorem off2_0 : k1_off2 L 0#32 = oOff L 0 := by
  refine (k1_off2_eq L ⟨0, by decide⟩ : k1_off2 L 0#32 = _).trans ?_
  unfold oOff
  refine congrArg (fun x : Nat => (![x, 0] : Fin 2 → Nat)) ?_
  show 20000 * (L 1).val + 10000 * (L 0).val + 0 = _
  omega

theorem off2_200 : k1_off2 L 200#32 = oOff L 1 := by
  refine (k1_off2_eq L ⟨1, by decide⟩ : k1_off2 L 200#32 = _).trans ?_
  unfold oOff
  refine congrArg (fun x : Nat => (![x, 0] : Fin 2 → Nat)) ?_
  show 20000 * (L 1).val + 10000 * (L 0).val + 200 = _
  omega

theorem off2_9200 : k1_off2 L 9200#32 = oOff L 46 := by
  refine (k1_off2_eq L ⟨3, by decide⟩ : k1_off2 L 9200#32 = _).trans ?_
  unfold oOff
  refine congrArg (fun x : Nat => (![x, 0] : Fin 2 → Nat)) ?_
  show 20000 * (L 1).val + 10000 * (L 0).val + 9200 = _
  omega

theorem off2_9400 : k1_off2 L 9400#32 = oOff L 47 := by
  refine (k1_off2_eq L ⟨2, by decide⟩ : k1_off2 L 9400#32 = _).trans ?_
  unfold oOff
  refine congrArg (fun x : Nat => (![x, 0] : Fin 2 → Nat)) ?_
  show 20000 * (L 1).val + 10000 * (L 0).val + 9400 = _
  omega

theorem off2_9600 : k1_off2 L 9600#32 = oOff L 48 := by
  refine (k1_off2_eq L ⟨4, by decide⟩ : k1_off2 L 9600#32 = _).trans ?_
  unfold oOff
  refine congrArg (fun x : Nat => (![x, 0] : Fin 2 → Nat)) ?_
  show 20000 * (L 1).val + 10000 * (L 0).val + 9600 = _
  omega

theorem off2_9800 : k1_off2 L 9800#32 = oOff L 49 := by
  refine (k1_off2_eq L ⟨5, by decide⟩ : k1_off2 L 9800#32 = _).trans ?_
  unfold oOff
  refine congrArg (fun x : Nat => (![x, 0] : Fin 2 → Nat)) ?_
  show 20000 * (L 1).val + 10000 * (L 0).val + 9800 = _
  omega

end Tile

end Cert.Proof.KernelIdeal

end
-- ==== Proof.KernelIdeal.ScGeomSets.lean ====
/-
  Runs of a tile's chunk numbers split into the next three and the rest, a family over the fifty chunk numbers read
  over the numbers below fifty, and the tile's chunk j of the output — 200 rows from row 20000 s + 10000 c + 200 j —
  as chunk 100 s + 50 c + j of the output's cut into 1600 chunks of 200 rows.
-/
import proofs.«210904_g42554535969575_cont_8to1_b_1627_27_alg».proof.Proof.KernelIdeal.ScGeom

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Runs of chunk numbers -/

/-- The chunks from `3 k + 2` on: the next three, then the rest. -/
theorem ico_split (k : Nat) (hk : k < 15) :
    Finset.Ico (3 * k + 2) 50 = insert (3 * k + 2) (insert (3 * k + 3) (insert (3 * k + 4) (Finset.Ico (3 * k + 5) 50))) := by
  ext x
  simp only [Finset.mem_Ico, Finset.mem_insert]
  omega

/-- The chunks below `3 (k + 1) + 1`: those below `3 k + 1` and the next three. -/
theorem range_split (k : Nat) :
    Finset.range (3 * (k + 1) + 1) = insert (3 * k + 3) (insert (3 * k + 2) (insert (3 * k + 1) (Finset.range (3 * k + 1)))) := by
  ext x
  simp only [Finset.mem_range, Finset.mem_insert]
  omega

omit [FloatOps F] in
/-- A family over the fifty chunk numbers as a family over the numbers below fifty. -/
theorem chunks_in (Φ : Nat → sProp 𝕄) : (bigSep Finset.univ fun k : Fin 50 => Φ k.val) = bigSep (Finset.range 50) Φ := by
  rw [← Nat.Iio_eq_range, ← Fin.map_valEmbedding_univ, BI.bigSep_map]; rfl

/-! ## A tile's chunk of the output is a chunk of the cut into 1600 -/

section Tile

variable (L : grid1.Coords)

/-- Chunk `j` of tile `L`, rows `[20000 s + 10000 c + 200 j, … + 200)` of the output, is chunk `100 s + 50 c + j` of the
    output's cut into 1600 chunks of 200 rows. -/
theorem oSet_eq (j : Nat) (h : j < 50) : oSet L j = cSet (gix (cL L) (sL L) ⟨j, h⟩) := by
  rw [cSet_eq]
  show ((View.whole (main_v2_scv : Ref sig .scVector)).slice (Rect.unit (s := S320000x128) (oOff L j) S200x128.size (oOff_inb L j))).set = _
  rw [View.set_slice_whole]
  ext i
  rw [Rect.mem_set_unit, Rect.mem_set_unit]
  show (∀ a : Fin 2, oOff L j a ≤ ((i a : Fin _) : Nat) ∧ ((i a : Fin _) : Nat) < oOff L j a + S200x128.size a)
    ↔ (∀ a : Fin 2, S320000x128.partIx 0 (gix (cL L) (sL L) ⟨j, h⟩).val a * S320000x128.partSize 0 1600 a ≤ ((i a : Fin _) : Nat)
        ∧ ((i a : Fin _) : Nat) < S320000x128.partIx 0 (gix (cL L) (sL L) ⟨j, h⟩).val a * S320000x128.partSize 0 1600 a + S320000x128.partSize 0 1600 a)
  rw [Fin.forall_fin_two, Fin.forall_fin_two]
  have h0 : (L 0).val < 2 := (L 0).isLt
  have h1 : (L 1).val < 16 := (L 1).isLt
  show (20000 * (L 1).val + 10000 * (L 0).val + min (200 * j) 9800 ≤ (i 0).val
        ∧ (i 0).val < 20000 * (L 1).val + 10000 * (L 0).val + min (200 * j) 9800 + 200)
      ∧ (0 ≤ (i 1).val ∧ (i 1).val < 0 + 128)
    ↔ ((100 * (L 1).val + 50 * (L 0).val + j) * 200 ≤ (i 0).val
        ∧ (i 0).val < (100 * (L 1).val + 50 * (L 0).val + j) * 200 + 200)
      ∧ (0 * 128 ≤ (i 1).val ∧ (i 1).val < 0 * 128 + 128)
  omega

end Tile

end Cert.Proof.KernelIdeal

end
-- ==== Proof.KernelIdeal.ScInv.lean ====
/-
  The tile's ring of three slots: what is held between two trips of its loop. Chunk `c = 3 k + 2` is being gathered
  into slot 2 and chunk `c + 1` into slot 0, chunk `c - 1` is being stored out of slot 1; the chunks below `c - 1` hold
  the gathered rows and the chunks from `c` on are still to be written. Each copy in flight is held as the capability
  of its wait; what a slot will hold when its gather lands, and what a chunk holds when its store lands, are stated
  against the one function `gathered`.
-/
import proofs.«210904_g42554535969575_cont_8to1_b_1627_27_alg».proof.Proof.KernelIdeal.ScGeomSets
import Idealize.ShloMosaic.Lib.SparseCore.Ops

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

local notation "tV" => (Memref.whole Cert.KernelIdeal.main_v1_scv : Memref Cert.KernelIdeal.sig Kind.scVector Space.hbm Cert.KernelIdeal.S10000x128 EltTy.f32)
local notation "hV" => (Memref.whole Cert.KernelIdeal.main_arg2_scv : Memref Cert.KernelIdeal.sig Kind.scVector Space.hbm Cert.KernelIdeal.S320000 EltTy.i32)
local notation "oW" => (Memref.whole Cert.KernelIdeal.main_v2_scv : Memref Cert.KernelIdeal.sig Kind.scVector Space.hbm Cert.KernelIdeal.S320000x128 EltTy.f32)
local notation "sI" => (Memref.whole Cert.KernelIdeal.cc1_scratch0 : Memref Cert.KernelIdeal.sig Kind.scVector Space.vmem Cert.KernelIdeal.S10000 EltTy.i32)
local notation "r0" => (Memref.whole Cert.KernelIdeal.cc1_scratch1 : Memref Cert.KernelIdeal.sig Kind.scVector Space.vmem Cert.KernelIdeal.S200x128 EltTy.f32)
local notation "r1" => (Memref.whole Cert.KernelIdeal.cc1_scratch2 : Memref Cert.KernelIdeal.sig Kind.scVector Space.vmem Cert.KernelIdeal.S200x128 EltTy.f32)
local notation "r2" => (Memref.whole Cert.KernelIdeal.cc1_scratch3 : Memref Cert.KernelIdeal.sig Kind.scVector Space.vmem Cert.KernelIdeal.S200x128 EltTy.f32)

section Tile

variable (d : Dev nD) (L : grid1.Coords)

abbrev g0c (d : Dev nD) (c : Fin τ.nSC) (i : Fin τ.nSub) : GSem nD τ sig := (V d c i, .dma cc1_scratch4.sem)
abbrev g1c (d : Dev nD) (c : Fin τ.nSC) (i : Fin τ.nSub) : GSem nD τ sig := (V d c i, .dma cc1_scratch5.sem)
abbrev g2c (d : Dev nD) (c : Fin τ.nSC) (i : Fin τ.nSub) : GSem nD τ sig := (V d c i, .dma cc1_scratch6.sem)
abbrev o0c (d : Dev nD) (c : Fin τ.nSC) (i : Fin τ.nSub) : GSem nD τ sig := (V d c i, .dma cc1_scratch7.sem)
abbrev o1c (d : Dev nD) (c : Fin τ.nSC) (i : Fin τ.nSub) : GSem nD τ sig := (V d c i, .dma cc1_scratch8.sem)
abbrev o2c (d : Dev nD) (c : Fin τ.nSC) (i : Fin τ.nSub) : GSem nD τ sig := (V d c i, .dma cc1_scratch9.sem)
abbrev icc (d : Dev nD) (c : Fin τ.nSC) (i : Fin τ.nSub) : GSem nD τ sig := (V d c i, .dma cc1_scoped0.sem)

/-- A slot's contents `X` (read through the slot's view `v`) are the rows of the output chunk at offsets `off`. -/
def SlotIs (off : Fin 2 → Nat) (inb : ∀ a, off a + S200x128.size a ≤ S320000x128.size a)
    (v : View sig .scVector .vmem S200x128 .f32) (X : v.ty.Contents (Elt F)) : Prop :=
  ∀ y : S200x128.Idx, v.read (Elt F) X y = gathered Tv m hh d ((oSl off inb).view.emb y)

/-- The output's contents `Y` hold, on the chunk at offsets `off`, the gathered rows. -/
def ChunkAt (off : Fin 2 → Nat) (inb : ∀ a, off a + S200x128.size a ≤ S320000x128.size a) (Y : Buf (Elt F) (oLoc d)) : Prop :=
  ∀ y : S200x128.Idx, (oSl off inb).view.read (Elt F) Y y = gathered Tv m hh d ((oSl off inb).view.emb y)

/-- The ring's state before trip `k`. -/
def inv (q : PosShare TreeShare) (O : CellTallies nD τ sig (HIx 1)) (W : Waits sig (HIx 1))
    (fJ : Buf (Elt F) ((V d (cV L) (jV L)).loc cc1_scratch0)) (k : Nat) (_ : PUnit) : sProp 𝕄 :=
  iprop(∃ hk : k ≤ 15, Transfers.MayWaits (V d (cV L) (jV L)) (default : HIx 1) O
    ∗ ((tV).view.loc (V d (cV L) (jV L)) ↦{Transfers.shareTokN q 5} Tv d)
    ∗ semVal (g1c d (cV L) (jV L)) 0 ∗ semVal (o0c d (cV L) (jV L)) 0 ∗ semVal (o2c d (cV L) (jV L)) 0
    ∗ (∃ X2 : Buf (Elt F) ((V d (cV L) (jV L)).loc cc1_scratch3), ⌜SlotIs Tv m hh d (oOff L (3 * k + 2)) (oOff_inb L _) (r2).view X2⌝ ∗ Transfers.Flight countersEmb (V d (cV L) (jV L)) (SemLoc.dma cc1_scratch6.sem) (default : HIx 1) 819200
          iprop(((((r2).view.loc (V d (cV L) (jV L)) ↦[(r2).view.set]{fullShare} X2) ∗ ((sI).view.loc (V d (cV L) (jV L)) ↦[iWA k hk]{fullShare} fJ))
            ∗ ((tV).view.loc (V d (cV L) (jV L)) ↦[(tSl).view.set]{Transfers.shareTokN q 6} Tv d)) : sProp 𝕄)
        ∗ ((r2).view.loc (V d (cV L) (jV L)) ↦[Finset.univ \ (r2).view.set]{fullShare} X2))
    ∗ ((tV).view.loc (V d (cV L) (jV L)) ↦[Finset.univ \ (tSl).view.set]{Transfers.shareTokN q 6} Tv d)
    ∗ (∃ (Y : Buf (Elt F) (oLoc d)) (X1 : Buf (Elt F) ((V d (cV L) (jV L)).loc cc1_scratch2)), ⌜ChunkAt Tv m hh d (oOff L (3 * k + 1)) (oOff_inb L _) Y⌝ ∗ Transfers.Flight countersEmb (V d (cV L) (jV L)) (SemLoc.dma cc1_scratch8.sem) (default : HIx 1) 819200
          iprop((((oSl (oOff L (3 * k + 1)) (oOff_inb L _)).view.loc (V d (cV L) (jV L)) ↦[(oSl (oOff L (3 * k + 1)) (oOff_inb L _)).view.set]{fullShare} Y)
            ∗ ((r1).view.loc (V d (cV L) (jV L)) ↦[(r1).view.set]{fullShare} X1)) : sProp 𝕄)
        ∗ ((r1).view.loc (V d (cV L) (jV L)) ↦[Finset.univ \ (r1).view.set]{fullShare} X1))
    ∗ (∃ X0 : Buf (Elt F) ((V d (cV L) (jV L)).loc cc1_scratch1), ⌜SlotIs Tv m hh d (oOff L (3 * k + 3)) (oOff_inb L _) (r0).view X0⌝ ∗ Transfers.Flight countersEmb (V d (cV L) (jV L)) (SemLoc.dma cc1_scratch4.sem) (default : HIx 1) 819200
          iprop(((((r0).view.loc (V d (cV L) (jV L)) ↦[(r0).view.set]{fullShare} X0) ∗ ((sI).view.loc (V d (cV L) (jV L)) ↦[iWB k hk]{fullShare} fJ))
            ∗ ((tV).view.loc (V d (cV L) (jV L)) ↦[(tSl).view.set]{Transfers.shareTokN q 4} Tv d)) : sProp 𝕄)
        ∗ ((r0).view.loc (V d (cV L) (jV L)) ↦[Finset.univ \ (r0).view.set]{fullShare} X0))
    ∗ ((tV).view.loc (V d (cV L) (jV L)) ↦[Finset.univ \ (tSl).view.set]{Transfers.shareTokN q 4} Tv d)
    ∗ ((sI).view.loc (V d (cV L) (jV L)) ↦[(Finset.univ \ iWA k hk) \ iWB k hk]{fullShare} fJ)
    ∗ (bigSep (Finset.range (3 * k + 1)) fun j => oLoc d ↦[oSet L j]{fullShare} gathered Tv m hh d)
    ∗ (bigSep (Finset.Ico (3 * k + 2) 50) fun j => iprop(∃ g, oLoc d ↦[oSet L j]{fullShare} g))
    ∗ ∃ W', ⌜∀ p ∈ W', p ∈ W ∨ p.2 = none⌝ ∗ owes (V d (cV L) (jV L)) O W')

end Tile

end Cert.Proof.KernelIdeal

end
-- ==== Proof.KernelIdeal.ScFacts.lean ====
/-
  Pure facts about the tile's ring: a slot a gather has landed in holds its chunk's rows; what a store of such a slot
  leaves in the output holds the gathered rows on the chunk; a chunk held through its slice is the chunk the call's
  split names; and the chunks still to be written, from the trip's first on, are the trip's three and the rest.
-/
import proofs.«210904_g42554535969575_cont_8to1_b_1627_27_alg».proof.Proof.KernelIdeal.ScInv

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

local notation "tV" => (Memref.whole Cert.KernelIdeal.main_v1_scv : Memref Cert.KernelIdeal.sig Kind.scVector Space.hbm Cert.KernelIdeal.S10000x128 EltTy.f32)
local notation "hV" => (Memref.whole Cert.KernelIdeal.main_arg2_scv : Memref Cert.KernelIdeal.sig Kind.scVector Space.hbm Cert.KernelIdeal.S320000 EltTy.i32)
local notation "oW" => (Memref.whole Cert.KernelIdeal.main_v2_scv : Memref Cert.KernelIdeal.sig Kind.scVector Space.hbm Cert.KernelIdeal.S320000x128 EltTy.f32)
local notation "sI" => (Memref.whole Cert.KernelIdeal.cc1_scratch0 : Memref Cert.KernelIdeal.sig Kind.scVector Space.vmem Cert.KernelIdeal.S10000 EltTy.i32)
local notation "r0" => (Memref.whole Cert.KernelIdeal.cc1_scratch1 : Memref Cert.KernelIdeal.sig Kind.scVector Space.vmem Cert.KernelIdeal.S200x128 EltTy.f32)
local notation "r1" => (Memref.whole Cert.KernelIdeal.cc1_scratch2 : Memref Cert.KernelIdeal.sig Kind.scVector Space.vmem Cert.KernelIdeal.S200x128 EltTy.f32)
local notation "r2" => (Memref.whole Cert.KernelIdeal.cc1_scratch3 : Memref Cert.KernelIdeal.sig Kind.scVector Space.vmem Cert.KernelIdeal.S200x128 EltTy.f32)

section Tile

variable (d : Dev nD) (L : grid1.Coords)

/-! ## A chunk of the output, as the tile holds it and as the call's split names it -/

omit [FloatOps F] in
/-- A chunk held through its slice of the output, at the offsets of the tile's chunk `j`, is that chunk of the output
    held by elements. -/
theorem ch_eq {off : Fin 2 → Nat} (j : Nat) (h : off = oOff L j) (inb : ∀ a, off a + S200x128.size a ≤ S320000x128.size a)
    (g : Buf (Elt F) (oLoc d)) :
    ((oSl off inb).view.loc (V d (cV L) (jV L)) ↦[(oSl off inb).view.set]{fullShare} g : sProp 𝕄)
      = (oLoc d ↦[oSet L j]{fullShare} g : sProp 𝕄) := by
  subst h; rfl

/-- F3. A chunk whose store has landed holds the gathered rows. -/
theorem chunk_done (j : Nat) {off : Fin 2 → Nat} (h : off = oOff L j) (inb : ∀ a, off a + S200x128.size a ≤ S320000x128.size a)
    (Z : Buf (Elt F) (oLoc d)) (hZ : ChunkAt Tv m hh d off inb Z) :
    iprop((oSl off inb).view.loc (V d (cV L) (jV L)) ↦[(oSl off inb).view.set]{fullShare} Z)
      ⊢ (oLoc d ↦[oSet L j]{fullShare} gathered Tv m hh d : sProp 𝕄) := by
  rw [ch_eq d L j h inb Z]
  subst h
  refine Entails.of_eq (pointsTo_congr fun i hi => ?_)
  obtain ⟨y, -, rfl⟩ := Finset.mem_map.mp hi
  exact ((View.read_apply _ _).trans (cast_eq _ _)).symm.trans (hZ y)

/-- F2. What a store of a slot holding the chunk's rows leaves in the output holds, on the chunk, the gathered rows. -/
theorem chunk_of_store (v : View sig .scVector .vmem S200x128 .f32) (X : v.ty.Contents (Elt F)) (off : Fin 2 → Nat)
    (inb : ∀ a, off a + S200x128.size a ≤ S320000x128.size a) (hX : SlotIs Tv m hh d off inb v X) {off' : Fin 2 → Nat} (h : off' = off)
    (inb' : ∀ a, off' a + S200x128.size a ≤ S320000x128.size a) (g : Buf (Elt F) (oLoc d)) :
    ChunkAt Tv m hh d off' inb' ((oSl off' inb').view.writes (Elt F) g [⟨Rect.whole S200x128, ReadAs.same.apply (v.read (Elt F) X)⟩]) := by
  subst h
  intro y
  have e := View.read_writes_cons_emb (v := (oSl off' inb').view) (f := g) (Rect.whole S200x128) (ReadAs.same.apply (v.read (Elt F) X)) [] y
  rw [Rect.emb_whole_apply] at e
  exact e.trans (hX y)

/-- F1. A slot a gather of the chunk's rows has landed in holds the chunk's rows. -/
theorem slot_of_gather (v : View sig .scVector .vmem S200x128 .f32) (b : v.ty.Contents (Elt F)) (G : S200x128.Idx → Elt F .f32) (off : Fin 2 → Nat)
    (inb : ∀ a, off a + S200x128.size a ≤ S320000x128.size a) (hG : ∀ y, G y = gathered Tv m hh d ((oSl off inb).view.emb y)) :
    SlotIs Tv m hh d off inb v (v.writes (Elt F) b [⟨Rect.whole S200x128, G⟩]) := by
  intro y
  have e := View.read_writes_cons_emb (v := v) (f := b) (Rect.whole S200x128) G [] y
  rw [Rect.emb_whole_apply] at e
  exact e.trans (hG y)

omit [FloatOps F] in
/-- A chunk still to be written, held at some contents, is its slice of the output held at some contents. -/
theorem psi_ch {off : Fin 2 → Nat} (j : Nat) (h : off = oOff L j) (inb : ∀ a, off a + S200x128.size a ≤ S320000x128.size a) :
    iprop(∃ g : Buf (Elt F) (oLoc d), oLoc d ↦[oSet L j]{fullShare} g)
      ⊢ (iprop(∃ g : Buf (Elt F) (oLoc d), (oSl off inb).view.loc (V d (cV L) (jV L)) ↦[(oSl off inb).view.set]{fullShare} g) : sProp 𝕄) := by
  iintro ⟨%g, H⟩
  iexists g
  rw [ch_eq d L j h inb g]
  iexact H

omit [FloatOps F] in
/-- F4. The chunks still to be written before trip `k`: the three the trip starts copies into, as their slices, and the rest. -/
theorem todo_take (k : Fin k1_t1_loop.trips) :
    iprop(bigSep (Finset.Ico (3 * k.val + 2) 50) fun j => iprop(∃ g : Buf (Elt F) (oLoc d), oLoc d ↦[oSet L j]{fullShare} g))
      ⊢ (iprop((∃ g : Buf (Elt F) (oLoc d), (oSl (k1_off4 L k) (k1_off4_inb L k)).view.loc (V d (cV L) (jV L)) ↦[(oSl (k1_off4 L k) (k1_off4_inb L k)).view.set]{fullShare} g)
          ∗ (∃ g : Buf (Elt F) (oLoc d), (oSl (k1_off7 L k 1#32) (k1_off7_inb L k 0)).view.loc (V d (cV L) (jV L)) ↦[(oSl (k1_off7 L k 1#32) (k1_off7_inb L k 0)).view.set]{fullShare} g)
          ∗ (∃ g : Buf (Elt F) (oLoc d), (oSl (k1_off7 L k 2#32) (k1_off7_inb L k 1)).view.loc (V d (cV L) (jV L)) ↦[(oSl (k1_off7 L k 2#32) (k1_off7_inb L k 1)).view.set]{fullShare} g)
          ∗ bigSep (Finset.Ico (3 * (k.val + 1) + 2) 50) fun j => iprop(∃ g : Buf (Elt F) (oLoc d), oLoc d ↦[oSet L j]{fullShare} g)) : sProp 𝕄) := by
  have hk := trip_lt k
  rw [ico_split k.val hk,
    SparseCore.bigSep_insert' (by intro hmem; simp only [Finset.mem_insert, Finset.mem_Ico] at hmem; omega),
    SparseCore.bigSep_insert' (by intro hmem; simp only [Finset.mem_insert, Finset.mem_Ico] at hmem; omega),
    SparseCore.bigSep_insert' (by intro hmem; simp only [Finset.mem_Ico] at hmem; omega),
    show 3 * (k.val + 1) + 2 = 3 * k.val + 5 from by omega]
  iintro ⟨H2, H3, H4, Hr⟩
  isplitl [H2]
  · iapply (psi_ch d L (3 * k.val + 2) (off4_eq L k) (k1_off4_inb L k)); iexact H2
  isplitl [H3]
  · iapply (psi_ch d L (3 * k.val + 3) (off7_1 L k) (k1_off7_inb L k 0)); iexact H3
  isplitl [H4]
  · iapply (psi_ch d L (3 * k.val + 4) (off7_2 L k) (k1_off7_inb L k 1)); iexact H4
  iexact Hr

end Tile

end Cert.Proof.KernelIdeal

end
-- ==== Proof.KernelIdeal.ScFactsB.lean ====
/-
  Regroupings of a tile's fifty chunks of the output. The chunks that hold the gathered rows grow by three per trip of
  the loop and by four at the end; the chunks still to be written are handed out, before the loop the first two and after
  it the last three, each as the kernel addresses it: at the tile's first row plus a literal row, which is the chunk's
  start.
-/
import proofs.«210904_g42554535969575_cont_8to1_b_1627_27_alg».proof.Proof.KernelIdeal.ScInv

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

local notation "tV" => (Memref.whole Cert.KernelIdeal.main_v1_scv : Memref Cert.KernelIdeal.sig Kind.scVector Space.hbm Cert.KernelIdeal.S10000x128 EltTy.f32)
local notation "hV" => (Memref.whole Cert.KernelIdeal.main_arg2_scv : Memref Cert.KernelIdeal.sig Kind.scVector Space.hbm Cert.KernelIdeal.S320000 EltTy.i32)
local notation "oW" => (Memref.whole Cert.KernelIdeal.main_v2_scv : Memref Cert.KernelIdeal.sig Kind.scVector Space.hbm Cert.KernelIdeal.S320000x128 EltTy.f32)
local notation "sI" => (Memref.whole Cert.KernelIdeal.cc1_scratch0 : Memref Cert.KernelIdeal.sig Kind.scVector Space.vmem Cert.KernelIdeal.S10000 EltTy.i32)
local notation "r0" => (Memref.whole Cert.KernelIdeal.cc1_scratch1 : Memref Cert.KernelIdeal.sig Kind.scVector Space.vmem Cert.KernelIdeal.S200x128 EltTy.f32)
local notation "r1" => (Memref.whole Cert.KernelIdeal.cc1_scratch2 : Memref Cert.KernelIdeal.sig Kind.scVector Space.vmem Cert.KernelIdeal.S200x128 EltTy.f32)
local notation "r2" => (Memref.whole Cert.KernelIdeal.cc1_scratch3 : Memref Cert.KernelIdeal.sig Kind.scVector Space.vmem Cert.KernelIdeal.S200x128 EltTy.f32)

section Tile

variable (d : Dev nD) (L : grid1.Coords)

/-! ## The chunks done -/

/-- After trip `k` three more chunks hold the gathered rows. -/
theorem done_step (k : Nat) :
    iprop((bigSep (Finset.range (3 * k + 1)) fun j => (oLoc d ↦[oSet L j]{fullShare} gathered Tv m hh d : sProp 𝕄))
        ∗ (oLoc d ↦[oSet L (3 * k + 1)]{fullShare} gathered Tv m hh d) ∗ (oLoc d ↦[oSet L (3 * k + 2)]{fullShare} gathered Tv m hh d) ∗ (oLoc d ↦[oSet L (3 * k + 3)]{fullShare} gathered Tv m hh d))
      ⊢ bigSep (Finset.range (3 * (k + 1) + 1)) fun j => (oLoc d ↦[oSet L j]{fullShare} gathered Tv m hh d : sProp 𝕄) := by
  rw [range_split,
    SparseCore.bigSep_insert' (by simp only [Finset.mem_insert, Finset.mem_range]; omega),
    SparseCore.bigSep_insert' (by simp only [Finset.mem_insert, Finset.mem_range]; omega),
    SparseCore.bigSep_insert' (by simp only [Finset.mem_range]; omega)]
  iintro ⟨H, H1, H2, H3⟩
  isplitl [H3]; · iexact H3
  isplitl [H2]; · iexact H2
  isplitl [H1]; · iexact H1
  iexact H

/-- The numbers below 50 are those below 46 and the last four. -/
theorem range50_split : Finset.range 50 = insert 49 (insert 48 (insert 47 (insert 46 (Finset.range 46)))) := by
  ext x
  simp only [Finset.mem_range, Finset.mem_insert]
  omega

/-- After the loop the last four chunks complete the fifty. -/
theorem done_last :
    iprop((bigSep (Finset.range 46) fun j => (oLoc d ↦[oSet L j]{fullShare} gathered Tv m hh d : sProp 𝕄))
        ∗ (oLoc d ↦[oSet L 46]{fullShare} gathered Tv m hh d) ∗ (oLoc d ↦[oSet L 47]{fullShare} gathered Tv m hh d) ∗ (oLoc d ↦[oSet L 48]{fullShare} gathered Tv m hh d) ∗ (oLoc d ↦[oSet L 49]{fullShare} gathered Tv m hh d))
      ⊢ bigSep (Finset.range 50) fun j => (oLoc d ↦[oSet L j]{fullShare} gathered Tv m hh d : sProp 𝕄) := by
  rw [range50_split,
    SparseCore.bigSep_insert' (by simp only [Finset.mem_insert, Finset.mem_range]; omega),
    SparseCore.bigSep_insert' (by simp only [Finset.mem_insert, Finset.mem_range]; omega),
    SparseCore.bigSep_insert' (by simp only [Finset.mem_insert, Finset.mem_range]; omega),
    SparseCore.bigSep_insert' (by simp only [Finset.mem_range]; omega)]
  iintro ⟨H, H46, H47, H48, H49⟩
  isplitl [H49]; · iexact H49
  isplitl [H48]; · iexact H48
  isplitl [H47]; · iexact H47
  isplitl [H46]; · iexact H46
  iexact H

/-! ## The chunks still to be written, as the kernel addresses them -/

omit [FloatOps F] in
/-- A chunk held at some contents, addressed at offsets that are the chunk's start. -/
theorem chunk_at (j : Nat) {off : Fin 2 → Nat} (h : off = oOff L j) (inb : ∀ a, off a + S200x128.size a ≤ S320000x128.size a) :
    iprop(∃ g, oLoc d ↦[oSet L j]{fullShare} g)
      ⊢ (iprop((∃ g : Buf (Elt F) (oLoc d), (oSl off inb).view.loc (V d (cV L) (jV L)) ↦[(oSl off inb).view.set]{fullShare} g)) : sProp 𝕄) := by
  subst h
  exact .refl

theorem range50_first : Finset.range 50 = insert 0 (insert 1 (Finset.Ico 2 50)) := by
  ext x
  simp only [Finset.mem_range, Finset.mem_insert, Finset.mem_Ico]
  omega

/-- Before the loop: the first two chunks, at the literal rows 0 and 200. -/
theorem todo_first :
    iprop(bigSep (Finset.range 50) fun j => (iprop(∃ g, oLoc d ↦[oSet L j]{fullShare} g) : sProp 𝕄))
      ⊢ iprop((∃ g : Buf (Elt F) (oLoc d), (oSl (k1_off2 L 0#32) (k1_off2_inb L 0)).view.loc (V d (cV L) (jV L)) ↦[(oSl (k1_off2 L 0#32) (k1_off2_inb L 0)).view.set]{fullShare} g)
          ∗ (∃ g : Buf (Elt F) (oLoc d), (oSl (k1_off2 L 200#32) (k1_off2_inb L 1)).view.loc (V d (cV L) (jV L)) ↦[(oSl (k1_off2 L 200#32) (k1_off2_inb L 1)).view.set]{fullShare} g)
          ∗ bigSep (Finset.Ico 2 50) fun j => (iprop(∃ g, oLoc d ↦[oSet L j]{fullShare} g) : sProp 𝕄)) := by
  rw [range50_first,
    SparseCore.bigSep_insert' (by simp only [Finset.mem_insert, Finset.mem_Ico]; omega),
    SparseCore.bigSep_insert' (by simp only [Finset.mem_Ico]; omega)]
  iintro ⟨H0, H1, H⟩
  isplitl [H0]; · iapply (chunk_at (F := F) d L 0 (off2_0 L) (k1_off2_inb L 0)) $$ H0
  isplitl [H1]; · iapply (chunk_at (F := F) d L 1 (off2_200 L) (k1_off2_inb L 1)) $$ H1
  iexact H

theorem ico47_split : Finset.Ico 47 50 = insert 47 (insert 48 ({49} : Finset Nat)) := by
  ext x
  simp only [Finset.mem_Ico, Finset.mem_insert, Finset.mem_singleton]
  omega

/-- After the loop: the last three chunks, at the literal rows 9400, 9600 and 9800. -/
theorem todo_last :
    iprop(bigSep (Finset.Ico 47 50) fun j => (iprop(∃ g, oLoc d ↦[oSet L j]{fullShare} g) : sProp 𝕄))
      ⊢ iprop((∃ g : Buf (Elt F) (oLoc d), (oSl (k1_off2 L 9400#32) (k1_off2_inb L 2)).view.loc (V d (cV L) (jV L)) ↦[(oSl (k1_off2 L 9400#32) (k1_off2_inb L 2)).view.set]{fullShare} g)
          ∗ (∃ g : Buf (Elt F) (oLoc d), (oSl (k1_off2 L 9600#32) (k1_off2_inb L 4)).view.loc (V d (cV L) (jV L)) ↦[(oSl (k1_off2 L 9600#32) (k1_off2_inb L 4)).view.set]{fullShare} g)
          ∗ (∃ g : Buf (Elt F) (oLoc d), (oSl (k1_off2 L 9800#32) (k1_off2_inb L 5)).view.loc (V d (cV L) (jV L)) ↦[(oSl (k1_off2 L 9800#32) (k1_off2_inb L 5)).view.set]{fullShare} g)) := by
  rw [ico47_split,
    SparseCore.bigSep_insert' (by simp only [Finset.mem_insert, Finset.mem_singleton]; omega),
    SparseCore.bigSep_insert' (by simp only [Finset.mem_singleton]; omega), bigSep_singleton]
  iintro ⟨H47, H48, H49⟩
  isplitl [H47]; · iapply (chunk_at (F := F) d L 47 (off2_9400 L) (k1_off2_inb L 2)) $$ H47
  isplitl [H48]; · iapply (chunk_at (F := F) d L 48 (off2_9600 L) (k1_off2_inb L 4)) $$ H48
  iapply (chunk_at (F := F) d L 49 (off2_9800 L) (k1_off2_inb L 5)) $$ H49

end Tile

end Cert.Proof.KernelIdeal

end
-- ==== Proof.KernelIdeal.ScVal.lean ====
/-
  What one indirect gather of the kernel delivers. The tile's index list is its 10000 words of the index array; the
  gather of the 200 words from word 200 j of the list, out of the table, puts at element y of the 200 × 128 slot row
  (word 200 j + y₀ of the list) of the table, column y₁ — and word 200 j + y₀ of the tile's list is word
  20000 s + 10000 c + 200 j + y₀ of the index array, the row of the output that element y of the tile's chunk j sits in.
  So the slot holds, element by element, what the call's result holds on that chunk.
-/
import proofs.«210904_g42554535969575_cont_8to1_b_1627_27_alg».proof.Proof.KernelIdeal.ScGeom
import Idealize.ShloMosaic.Lib.SparseCore.Stream
import Idealize.ShloMosaic.Lib.ValueIdx

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "tV" => (Memref.whole Cert.KernelIdeal.main_v1_scv : Memref Cert.KernelIdeal.sig Kind.scVector Space.hbm Cert.KernelIdeal.S10000x128 EltTy.f32)
local notation "hV" => (Memref.whole Cert.KernelIdeal.main_arg2_scv : Memref Cert.KernelIdeal.sig Kind.scVector Space.hbm Cert.KernelIdeal.S320000 EltTy.i32)
local notation "oW" => (Memref.whole Cert.KernelIdeal.main_v2_scv : Memref Cert.KernelIdeal.sig Kind.scVector Space.hbm Cert.KernelIdeal.S320000x128 EltTy.f32)
local notation "sI" => (Memref.whole Cert.KernelIdeal.cc1_scratch0 : Memref Cert.KernelIdeal.sig Kind.scVector Space.vmem Cert.KernelIdeal.S10000 EltTy.i32)
local notation "r0" => (Memref.whole Cert.KernelIdeal.cc1_scratch1 : Memref Cert.KernelIdeal.sig Kind.scVector Space.vmem Cert.KernelIdeal.S200x128 EltTy.f32)
local notation "r1" => (Memref.whole Cert.KernelIdeal.cc1_scratch2 : Memref Cert.KernelIdeal.sig Kind.scVector Space.vmem Cert.KernelIdeal.S200x128 EltTy.f32)
local notation "r2" => (Memref.whole Cert.KernelIdeal.cc1_scratch3 : Memref Cert.KernelIdeal.sig Kind.scVector Space.vmem Cert.KernelIdeal.S200x128 EltTy.f32)

variable (Tv : (d : Dev nD) → Buf (Elt F) (tLoc d)) (m : (ℓ : Loc nD τ sig) → Buf (Elt F) ℓ)
  (hh : ∀ (d : Dev nD) x, (m (hLoc d) x).toNat < 10000)

section Tile
variable (d : Dev nD) (L : grid1.Coords)

/-- The tile's 10000 words of the index array, as the kernel slices them. -/
abbrev hSl (L : grid1.Coords) : Memref sig .scVector .hbm S10000 .i32 :=
  (hV).slice (Rect.unit (s := S320000) (k1_off1 L) S10000.size (k1_off1_inb L)) (fun _ => rfl)

/-- One gather's payload is the call's result on the chunk: for the gather of the 200 words from word `200 j` of the tile's
    list (held as `fJ`, which is the tile's 10000 words of the index array), slot element `y` is `gathered` at element `y`
    of the tile's chunk `j`. Both sides are the table at an index; on the row axis the index is the word the list holds at
    `200 j + y₀`, which is word `20000 s + 10000 c + 200 j + y₀` of the index array, and on the column axis it is `y₁`. -/
theorem gather_is_gathered (fJ : Buf (Elt F) ((V d (cV L) (jV L)).loc cc1_scratch0))
    (hfJ : ∀ z : S10000.Idx, fJ z = m (hLoc d) ((hSl L).view.emb z))
    (j : Nat) (hj : j < 50) (off : Fin 1 → Nat) (hoff : off = ![200 * j]) (inb : ∀ a, off a + S200.size a ≤ S10000.size a)
    (hn : S200.numel = S200x128.size gathers_S10000x128_S200x128.axis')
    (hin : ∀ x, ((iSl off inb).view.read (Elt F) fJ x).toNat < S10000x128.size gathers_S10000x128_S200x128.axis)
    (y : S200x128.Idx) :
    SparseCore.gatherPayload gathers_S10000x128_S200x128 ((tSl).view.read (Elt F) (Tv d))
        (SparseCore.rows ((iSl off inb).view.read (Elt F) fJ) hn hin) y
      = gathered Tv m hh d ((oSl (oOff L j) (oOff_inb L j)).view.emb y) := by
  subst hoff
  have hj' : min (200 * j) 9800 = 200 * j := by omega
  -- the word of the tile's list that names the row of slot element `y`
  let z : S200.Idx := S200.rowMajor.symm ((y gathers_S10000x128_S200x128.axis').cast hn.symm)
  have hz : (z 0).val = (y 0).val := by
    have h1 := Shape.rowMajor_val_one z
    rw [show S200.rowMajor z = (y gathers_S10000x128_S200x128.axis').cast hn.symm from Equiv.apply_symm_apply _ _] at h1
    exact h1.symm
  have hword : (iSl ![200 * j] inb).view.read (Elt F) fJ z
      = m (hLoc d) (ValueIdx.ix1 (((oSl (oOff L j) (oOff_inb L j)).view.emb y) 0)) := by
    refine ((View.read_apply _ _).trans (cast_eq _ _)).trans ((hfJ _).trans (congrArg (m (hLoc d)) (funext fun a => Fin.ext ?_)))
    match a with
    | ⟨0, _⟩ =>
      show k1_off1 L 0 + 1 * (200 * j + 1 * (z 0).val) = oOff L j 0 + 1 * (y 0).val
      rw [k1_off1_eq, hz]
      unfold oOff
      show 20000 * (L 1).val + 10000 * (L 0).val + 1 * (200 * j + 1 * (y 0).val)
        = 20000 * (L 1).val + 10000 * (L 0).val + min (200 * j) 9800 + 1 * (y 0).val
      omega
  unfold SparseCore.gatherPayload
  refine ((View.read_apply _ _).trans (cast_eq _ _)).trans ?_
  unfold gathered
  refine congrArg (Tv d) (funext fun b => Fin.ext ?_)
  match b with
  | ⟨0, _⟩ =>
    show 0 + 1 * (gathers_S10000x128_S200x128.idx _ y gathers_S10000x128_S200x128.axis).val = (m (hLoc d) (ValueIdx.ix1 (((oSl (oOff L j) (oOff_inb L j)).view.emb y) 0))).toNat
    rw [Shape.Gathers.idx_axis]
    show 0 + 1 * ((iSl ![200 * j] inb).view.read (Elt F) fJ z).toNat = _
    rw [hword]
    omega
  | ⟨1, _⟩ =>
    show 0 + 1 * (gathers_S10000x128_S200x128.idx _ y ⟨1, _⟩).val = 0 + 1 * (y 1).val
    rw [Shape.Gathers.idx_of_ne _ _ _ _ Nat.one_ne_zero]
    rfl

end Tile

end Cert.Proof.KernelIdeal

end
-- ==== Proof.KernelIdeal.ScTrip.lean ====
/-
  One trip of the ring: from the ring's state before trip k to its state before trip k + 1. The trip waits for the gather
  into slot 2 and stores the slot, waits for slot 1's store and gathers into it, and so round the three slots: three
  chunks stored, three gathered, three earlier stores waited for. Each wait hands back what its copy delivered, which
  the state names; what the landed gathers and stores hold is read off against the one function `gathered`.
-/
import proofs.«210904_g42554535969575_cont_8to1_b_1627_27_alg».proof.Proof.KernelIdeal.ScFacts
import proofs.«210904_g42554535969575_cont_8to1_b_1627_27_alg».proof.Proof.KernelIdeal.ScFactsB
import proofs.«210904_g42554535969575_cont_8to1_b_1627_27_alg».proof.Proof.KernelIdeal.ScVal
import Idealize.ShloMosaic.Lib.SparseCore.Ops

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

local notation "tV" => (Memref.whole Cert.KernelIdeal.main_v1_scv : Memref Cert.KernelIdeal.sig Kind.scVector Space.hbm Cert.KernelIdeal.S10000x128 EltTy.f32)
local notation "hV" => (Memref.whole Cert.KernelIdeal.main_arg2_scv : Memref Cert.KernelIdeal.sig Kind.scVector Space.hbm Cert.KernelIdeal.S320000 EltTy.i32)
local notation "oW" => (Memref.whole Cert.KernelIdeal.main_v2_scv : Memref Cert.KernelIdeal.sig Kind.scVector Space.hbm Cert.KernelIdeal.S320000x128 EltTy.f32)
local notation "sI" => (Memref.whole Cert.KernelIdeal.cc1_scratch0 : Memref Cert.KernelIdeal.sig Kind.scVector Space.vmem Cert.KernelIdeal.S10000 EltTy.i32)
local notation "r0" => (Memref.whole Cert.KernelIdeal.cc1_scratch1 : Memref Cert.KernelIdeal.sig Kind.scVector Space.vmem Cert.KernelIdeal.S200x128 EltTy.f32)
local notation "r1" => (Memref.whole Cert.KernelIdeal.cc1_scratch2 : Memref Cert.KernelIdeal.sig Kind.scVector Space.vmem Cert.KernelIdeal.S200x128 EltTy.f32)
local notation "r2" => (Memref.whole Cert.KernelIdeal.cc1_scratch3 : Memref Cert.KernelIdeal.sig Kind.scVector Space.vmem Cert.KernelIdeal.S200x128 EltTy.f32)

section Tile

variable (d : Dev nD) (L : grid1.Coords)

/-! ## The same capability, its windows spelt otherwise -/

theorem FG6_congr (q : PosShare TreeShare) (fJ : Buf (Elt F) ((V d (cV L) (jV L)).loc cc1_scratch0)) (X : Buf (Elt F) ((V d (cV L) (jV L)).loc cc1_scratch3))
    {off off' : Fin 1 → Nat} (h : off = off') (inb : ∀ a, off a + S200.size a ≤ S10000.size a) (inb' : ∀ a, off' a + S200.size a ≤ S10000.size a) :
    (Transfers.Flight countersEmb (V d (cV L) (jV L)) (SemLoc.dma cc1_scratch6.sem) (default : HIx 1) 819200
          iprop(((((r2).view.loc (V d (cV L) (jV L)) ↦[(r2).view.set]{fullShare} X) ∗ ((sI).view.loc (V d (cV L) (jV L)) ↦[(iSl (off) (inb)).view.set]{fullShare} fJ))
            ∗ ((tV).view.loc (V d (cV L) (jV L)) ↦[(tSl).view.set]{Transfers.shareTokN q 6} Tv d)) : sProp 𝕄) : sProp 𝕄) ⊢ (Transfers.Flight countersEmb (V d (cV L) (jV L)) (SemLoc.dma cc1_scratch6.sem) (default : HIx 1) 819200
          iprop(((((r2).view.loc (V d (cV L) (jV L)) ↦[(r2).view.set]{fullShare} X) ∗ ((sI).view.loc (V d (cV L) (jV L)) ↦[(iSl (off') (inb')).view.set]{fullShare} fJ))
            ∗ ((tV).view.loc (V d (cV L) (jV L)) ↦[(tSl).view.set]{Transfers.shareTokN q 6} Tv d)) : sProp 𝕄) : sProp 𝕄) := by
  subst h; exact Entails.refl _
theorem FG4_congr (q : PosShare TreeShare) (fJ : Buf (Elt F) ((V d (cV L) (jV L)).loc cc1_scratch0)) (X : Buf (Elt F) ((V d (cV L) (jV L)).loc cc1_scratch1))
    {off off' : Fin 1 → Nat} (h : off = off') (inb : ∀ a, off a + S200.size a ≤ S10000.size a) (inb' : ∀ a, off' a + S200.size a ≤ S10000.size a) :
    (Transfers.Flight countersEmb (V d (cV L) (jV L)) (SemLoc.dma cc1_scratch4.sem) (default : HIx 1) 819200
          iprop(((((r0).view.loc (V d (cV L) (jV L)) ↦[(r0).view.set]{fullShare} X) ∗ ((sI).view.loc (V d (cV L) (jV L)) ↦[(iSl (off) (inb)).view.set]{fullShare} fJ))
            ∗ ((tV).view.loc (V d (cV L) (jV L)) ↦[(tSl).view.set]{Transfers.shareTokN q 4} Tv d)) : sProp 𝕄) : sProp 𝕄) ⊢ (Transfers.Flight countersEmb (V d (cV L) (jV L)) (SemLoc.dma cc1_scratch4.sem) (default : HIx 1) 819200
          iprop(((((r0).view.loc (V d (cV L) (jV L)) ↦[(r0).view.set]{fullShare} X) ∗ ((sI).view.loc (V d (cV L) (jV L)) ↦[(iSl (off') (inb')).view.set]{fullShare} fJ))
            ∗ ((tV).view.loc (V d (cV L) (jV L)) ↦[(tSl).view.set]{Transfers.shareTokN q 4} Tv d)) : sProp 𝕄) : sProp 𝕄) := by
  subst h; exact Entails.refl _
theorem FS8_congr (Y : Buf (Elt F) (oLoc d)) (X : Buf (Elt F) ((V d (cV L) (jV L)).loc cc1_scratch2))
    {off off' : Fin 2 → Nat} (h : off = off') (inb : ∀ a, off a + S200x128.size a ≤ S320000x128.size a) (inb' : ∀ a, off' a + S200x128.size a ≤ S320000x128.size a) :
    (Transfers.Flight countersEmb (V d (cV L) (jV L)) (SemLoc.dma cc1_scratch8.sem) (default : HIx 1) 819200
          iprop((((oSl (off) (inb)).view.loc (V d (cV L) (jV L)) ↦[(oSl (off) (inb)).view.set]{fullShare} Y)
            ∗ ((r1).view.loc (V d (cV L) (jV L)) ↦[(r1).view.set]{fullShare} X)) : sProp 𝕄) : sProp 𝕄) ⊢ (Transfers.Flight countersEmb (V d (cV L) (jV L)) (SemLoc.dma cc1_scratch8.sem) (default : HIx 1) 819200
          iprop((((oSl (off') (inb')).view.loc (V d (cV L) (jV L)) ↦[(oSl (off') (inb')).view.set]{fullShare} Y)
            ∗ ((r1).view.loc (V d (cV L) (jV L)) ↦[(r1).view.set]{fullShare} X)) : sProp 𝕄) : sProp 𝕄) := by
  subst h; exact Entails.refl _
theorem rest_congr (fJ : Buf (Elt F) ((V d (cV L) (jV L)).loc cc1_scratch0)) {a a' b b' : Fin 1 → Nat} (ha : a = a') (hb : b = b')
    (ia : ∀ x, a x + S200.size x ≤ S10000.size x) (ia' : ∀ x, a' x + S200.size x ≤ S10000.size x)
    (ib : ∀ x, b x + S200.size x ≤ S10000.size x) (ib' : ∀ x, b' x + S200.size x ≤ S10000.size x) :
    ((sI).view.loc (V d (cV L) (jV L)) ↦[(Finset.univ \ (iSl a ia).view.set) \ (iSl b ib).view.set]{fullShare} fJ : sProp 𝕄)
      ⊢ ((sI).view.loc (V d (cV L) (jV L)) ↦[(Finset.univ \ (iSl a' ia').view.set) \ (iSl b' ib').view.set]{fullShare} fJ : sProp 𝕄) := by
  subst ha; subst hb; exact Entails.refl _

theorem done_first : iprop((fun j => (oLoc d ↦[oSet L j]{fullShare} gathered Tv m hh d : sProp 𝕄)) 0) ⊢ bigSep (Finset.range (3 * 0 + 1)) (fun j => (oLoc d ↦[oSet L j]{fullShare} gathered Tv m hh d : sProp 𝕄)) := by
  rw [show Finset.range (3 * 0 + 1) = {0} from by decide, bigSep_singleton]

omit [FloatOps F] in
/-- Two windows of the index list 200 words apart or more do not meet. -/
theorem iSl_disjoint {a b : Fin 1 → Nat} (ia : ∀ x, a x + S200.size x ≤ S10000.size x) (ib : ∀ x, b x + S200.size x ≤ S10000.size x)
    (h : a 0 + 200 ≤ b 0 ∨ b 0 + 200 ≤ a 0) : Disjoint (α := Finset S10000.Idx) (iSl a ia).view.set (iSl b ib).view.set := by
  show Disjoint (((sI).view.slice (Rect.unit (s := S10000) a S200.size ia)).set) (((sI).view.slice (Rect.unit (s := S10000) b S200.size ib)).set)
  rw [View.set_slice, View.set_slice]
  exact (Finset.disjoint_map _).mpr (Rect.unit_disjoint (s := S10000) 0 h)

theorem ChunkAt_congr {off off' : Fin 2 → Nat} (h : off = off') (inb : ∀ a, off a + S200x128.size a ≤ S320000x128.size a)
    (inb' : ∀ a, off' a + S200x128.size a ≤ S320000x128.size a) (Y : Buf (Elt F) (oLoc d)) (hY : ChunkAt Tv m hh d off inb Y) :
    ChunkAt Tv m hh d off' inb' Y := by subst h; exact hY

set_option maxHeartbeats 4000000 in
include hh in
theorem trip_step (q : PosShare TreeShare) (O : CellTallies nD τ sig (HIx 1)) (W : Waits sig (HIx 1))
    (fJ : Buf (Elt F) ((V d (cV L) (jV L)).loc cc1_scratch0)) (hfJ : ∀ z : S10000.Idx, fJ z = m (hLoc d) ((hSl L).view.emb z))
    (hin : ∀ (off : Fin 1 → Nat) (inb : ∀ a, off a + S200.size a ≤ S10000.size a) (x : (Rect.unit (s := S10000) off S200.size inb).shape.Idx),
      ((iSl off inb).view.read (Elt F) fJ x).toNat < 10000)
    (v2 : BitVec 32) (k : Fin k1_t1_loop.trips) (x : PUnit) :
    inv Tv m hh d L q O W fJ k.val x
      ⊢ wp frame (wpE (defs₀ (F := F)) 𝒱₀ (V d (cV L) (jV L)) none) Set.univ
          (k1_t1_body L tV (Memref.isWhole_whole _) hV (Memref.isWhole_whole _) oW (Memref.isWhole_whole _)
            sI (Memref.isWhole_whole _) r0 (Memref.isWhole_whole _) r1 (Memref.isWhole_whole _) r2 (Memref.isWhole_whole _)
            cc1_scratch4 cc1_scratch5 cc1_scratch6 cc1_scratch7 cc1_scratch8 cc1_scratch9 cc1_scoped0 v2 k x)
          (inv Tv m hh d L q O W fJ (k.val + 1)) := by
    unfold k1_t1_body

    have hk15 : k.val < 15 := trip_lt k
    unfold inv
    iintro ⟨%hk, Hmw, Ht5, Hg1, Hs0, Hs2, ⟨%X2, %hX2, Hg2, Hr2⟩, Ht6, ⟨%Y, %X1, %hY, Hs1, Hr1⟩, ⟨%X0, %hX0, Hg0, Hr0⟩, Ht4, HsI, Hdone, Htodo, %W', %hW', HO⟩
    ihave Hc := (todo_take (F := F) d L k) $$ Htodo
    icases Hc with ⟨⟨%gc0, Hc0⟩, ⟨%gc1, Hc1⟩, ⟨%gc2, Hc2⟩, Htodo⟩
    have h62' : (k1_off6 k 2#32) 0 = 600 * k.val + 800 := by
      have := congrFun (k1_off6_eq k ⟨1, by decide⟩) 0; simpa using this
    have dW2B : Disjoint (α := Finset S10000.Idx) ((sI).slice (Rect.unit (s := S10000) (k1_off6 k 2#32) S200.size (k1_off6_inb k 1)) (fun _ => rfl)).view.set (iWB k.val hk) :=
      iSl_disjoint _ _ (Or.inr (by rw [h62']; show 600 * k.val + 600 + 200 ≤ 600 * k.val + 800; omega))
    sl_exec
    sl_step
    have hk1 : k.val + 1 ≤ 15 := by omega
    have e72 : k1_off7 L k 2#32 = oOff L (3 * (k.val + 1) + 1) := (off7_2 L k).trans (congrArg (oOff L) (by omega))
    have h62 : k1_off6 k 2#32 = ![200 * (3 * k.val + 4)] :=
      (show k1_off6 k 2#32 = ![600 * k.val + 200 * 1 + 600] from k1_off6_eq k ⟨1, by decide⟩).trans
        (congrArg (fun n => (![n] : Fin 1 → Nat)) (by omega))
    have h63 : k1_off6 k 3#32 = ![200 * (3 * (k.val + 1) + 2)] :=
      (off6_3 k).trans (congrArg (fun n => (![n] : Fin 1 → Nat)) (by omega))
    have h64 : k1_off6 k 4#32 = ![200 * (3 * (k.val + 1) + 3)] :=
      (off6_4 k).trans (congrArg (fun n => (![n] : Fin 1 → Nat)) (by omega))
    iexists hk1
    isplitl [Hmw]; · iexact Hmw
    isplitl [Ht5]; · iexact Ht5
    isplitl [Hg1]; · iexact Hg1
    isplitl [Hs0]; · iexact Hs0
    isplitl [Hs2]; · iexact Hs2
    isplitl [Hg2 Hr2]
    · iexists _
      isplitr
      swap
      · isplitl [Hg2]
        · iapply (FG6_congr Tv d L q fJ _ (off6_3 k) (k1_off6_inb k 2) (wA (k.val + 1) hk1)); iexact Hg2
        · iexact Hr2
      · ipureintro
        exact slot_of_gather Tv m hh d (r2).view X2 _ _ _ fun y =>
          gather_is_gathered Tv m hh d L fJ hfJ (3 * (k.val + 1) + 2) (by omega) (k1_off6 k 3#32) h63 _ _ _ y
    isplitl [Ht6]; · iexact Ht6
    isplitl [Hs1 Hr1]
    · iexists _, _
      isplitr
      swap
      · isplitl [Hs1]
        · iapply (FS8_congr d L _ _ e72 (k1_off7_inb L k 1) (oOff_inb L _)); iexact Hs1
        · iexact Hr1
      · ipureintro
        exact ChunkAt_congr Tv m hh d e72 (k1_off7_inb L k 1) (oOff_inb L _) _
          (chunk_of_store Tv m hh d (r1).view _ (oOff L (3 * k.val + 4)) (oOff_inb L _)
            (slot_of_gather Tv m hh d (r1).view X1 _ _ _ fun y =>
              gather_is_gathered Tv m hh d L fJ hfJ (3 * k.val + 4) (by omega) (k1_off6 k 2#32) h62 _ _ _ y)
            (off7_2 L k) (k1_off7_inb L k 1) gc2)
    isplitl [Hg0 Hr0]
    · iexists _
      isplitr
      swap
      · isplitl [Hg0]
        · iapply (FG4_congr Tv d L q fJ _ (off6_4 k) (k1_off6_inb k 3) (wB (k.val + 1) hk1)); iexact Hg0
        · iexact Hr0
      · ipureintro
        exact slot_of_gather Tv m hh d (r0).view X0 _ _ _ fun y =>
          gather_is_gathered Tv m hh d L fJ hfJ (3 * (k.val + 1) + 3) (by omega) (k1_off6 k 4#32) h64 _ _ _ y
    isplitl [Ht4]; · iexact Ht4
    isplitl [HsI]
    · iapply (rest_congr d L fJ (off6_3 k) (off6_4 k) (k1_off6_inb k 2) (wA (k.val + 1) hk1) (k1_off6_inb k 3) (wB (k.val + 1) hk1)); iexact HsI
    isplitl [Hdone Hs1_dst Hc0 Hc1]
    · iapply (done_step Tv m hh d L k.val)
      isplitl [Hdone]; · iexact Hdone
      isplitl [Hs1_dst]; · iapply (chunk_done Tv m hh d L (3 * k.val + 1) rfl (oOff_inb L _) Y hY); iexact Hs1_dst
      isplitl [Hc0]
      · iapply (chunk_done Tv m hh d L (3 * k.val + 2) (off4_eq L k) (k1_off4_inb L k) _
          (chunk_of_store Tv m hh d (r2).view X2 (oOff L (3 * k.val + 2)) (oOff_inb L _) hX2 (off4_eq L k) (k1_off4_inb L k) gc0)); iexact Hc0
      · iapply (chunk_done Tv m hh d L (3 * k.val + 3) (off7_1 L k) (k1_off7_inb L k 0) _
          (chunk_of_store Tv m hh d (r0).view X0 (oOff L (3 * k.val + 3)) (oOff_inb L _) hX0 (off7_1 L k) (k1_off7_inb L k 0) gc1)); iexact Hc1
    isplitl [Htodo]; · iexact Htodo
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp

end Tile
end Cert.Proof.KernelIdeal
end
-- ==== Proof.KernelIdeal.ScTile.lean ====
/-
  One tile's task, run: its rows of the index array copied into its index list; then fifty chunks of 200 rows through a
  ring of three slots — gather chunk k into slot k mod 3, wait, store the slot to the output's rows, wait for that store
  before the slot is gathered into again — as a prologue, fifteen trips of three chunks under the ring's invariant, and
  an epilogue. Every copy is issued and waited for on its own semaphore, and no slot is touched between a copy's issue
  and its wait, so each wait hands back exactly what its copy delivered.
-/
import proofs.«210904_g42554535969575_cont_8to1_b_1627_27_alg».proof.Proof.KernelIdeal.ScTrip
import Idealize.ShloMosaic.Lib.SparseCore.Ops

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

local notation "tV" => (Memref.whole Cert.KernelIdeal.main_v1_scv : Memref Cert.KernelIdeal.sig Kind.scVector Space.hbm Cert.KernelIdeal.S10000x128 EltTy.f32)
local notation "hV" => (Memref.whole Cert.KernelIdeal.main_arg2_scv : Memref Cert.KernelIdeal.sig Kind.scVector Space.hbm Cert.KernelIdeal.S320000 EltTy.i32)
local notation "oW" => (Memref.whole Cert.KernelIdeal.main_v2_scv : Memref Cert.KernelIdeal.sig Kind.scVector Space.hbm Cert.KernelIdeal.S320000x128 EltTy.f32)
local notation "sI" => (Memref.whole Cert.KernelIdeal.cc1_scratch0 : Memref Cert.KernelIdeal.sig Kind.scVector Space.vmem Cert.KernelIdeal.S10000 EltTy.i32)
local notation "r0" => (Memref.whole Cert.KernelIdeal.cc1_scratch1 : Memref Cert.KernelIdeal.sig Kind.scVector Space.vmem Cert.KernelIdeal.S200x128 EltTy.f32)
local notation "r1" => (Memref.whole Cert.KernelIdeal.cc1_scratch2 : Memref Cert.KernelIdeal.sig Kind.scVector Space.vmem Cert.KernelIdeal.S200x128 EltTy.f32)
local notation "r2" => (Memref.whole Cert.KernelIdeal.cc1_scratch3 : Memref Cert.KernelIdeal.sig Kind.scVector Space.vmem Cert.KernelIdeal.S200x128 EltTy.f32)

section Tile

variable (d : Dev nD) (L : grid1.Coords)

omit [FloatOps F] in
/-- The tile's index list once its rows of the index array have landed in it: word `z` of the list is word `z` of the tile's rows. -/
theorem idx_landed (fI : Buf (Elt F) ((V d (cV L) (jV L)).loc cc1_scratch0)) (pay : S10000.Idx → Elt F .i32)
    (hpay : ∀ z, pay z = m (hLoc d) ((hSl L).view.emb z)) :
    ((sI).view.loc (V d (cV L) (jV L)) ↦{fullShare} View.write (Elt F) (sI).view fI pay Finset.univ : sProp 𝕄)
      ⊢ iprop(∃ fJ : Buf (Elt F) ((V d (cV L) (jV L)).loc cc1_scratch0), ⌜∀ z : S10000.Idx, fJ z = m (hLoc d) ((hSl L).view.emb z)⌝ ∗ ((sI).view.loc (V d (cV L) (jV L)) ↦{fullShare} fJ)) := by
  iintro H
  iexists (View.write (Elt F) (sI).view fI pay Finset.univ)
  isplitr
  · ipureintro; intro z
    rw [show View.write (Elt F) (sI).view fI pay Finset.univ = pay from View.write_whole_univ (Val := Elt F) cc1_scratch0 fI pay]
    exact hpay z
  · iexact H

set_option maxHeartbeats 4000000 in
include hh in
theorem tile_run (q qh : PosShare TreeShare) (O : CellTallies nD τ sig (HIx 1)) (W : Waits sig (HIx 1)) (hO : ∀ g, O g none = 0)
    (fI : Buf (Elt F) ((V d (cV L) (jV L)).loc cc1_scratch0)) (f0 : Buf (Elt F) ((V d (cV L) (jV L)).loc cc1_scratch1))
    (f1 : Buf (Elt F) ((V d (cV L) (jV L)).loc cc1_scratch2)) (f2 : Buf (Elt F) ((V d (cV L) (jV L)).loc cc1_scratch3)) :
    iprop(levAts (K (F := F)).L (K (F := F)).lev
        ∗ (tLoc d ↦{Transfers.shareTokN q 4} Tv d)
        ∗ (tLoc d ↦{Transfers.shareTokN q 5} Tv d)
        ∗ (tLoc d ↦{Transfers.shareTokN q 6} Tv d)
        ∗ (hLoc d ↦{qh} m (hLoc d))
        ∗ (bigSep (Finset.range 50) (fun j => (iprop(∃ g, oLoc d ↦[oSet L j]{fullShare} g) : sProp 𝕄)))
        ∗ ((V d (cV L) (jV L)).loc cc1_scratch0 ↦{fullShare} fI)
        ∗ ((V d (cV L) (jV L)).loc cc1_scratch1 ↦{fullShare} f0)
        ∗ ((V d (cV L) (jV L)).loc cc1_scratch2 ↦{fullShare} f1)
        ∗ ((V d (cV L) (jV L)).loc cc1_scratch3 ↦{fullShare} f2)
        ∗ semVal (g0c d (cV L) (jV L)) 0 ∗ semVal (g1c d (cV L) (jV L)) 0 ∗ semVal (g2c d (cV L) (jV L)) 0
        ∗ semVal (o0c d (cV L) (jV L)) 0 ∗ semVal (o1c d (cV L) (jV L)) 0 ∗ semVal (o2c d (cV L) (jV L)) 0
        ∗ semVal (icc d (cV L) (jV L)) 0
        ∗ owes (V d (cV L) (jV L)) O W)
      ⊢ wp frame (wpE (defs₀ (F := F)) 𝒱₀ (V d (cV L) (jV L)) none) Set.univ
          (cc1__sc_gather_body L tV (Memref.isWhole_whole _) hV (Memref.isWhole_whole _) oW (Memref.isWhole_whole _)
            sI (Memref.isWhole_whole _) r0 (Memref.isWhole_whole _) r1 (Memref.isWhole_whole _) r2 (Memref.isWhole_whole _)
            cc1_scratch4 cc1_scratch5 cc1_scratch6 cc1_scratch7 cc1_scratch8 cc1_scratch9 cc1_scoped0)
          fun _ => iprop((tLoc d ↦{Transfers.shareTokN q 4} Tv d) ∗ (tLoc d ↦{Transfers.shareTokN q 5} Tv d) ∗ (tLoc d ↦{Transfers.shareTokN q 6} Tv d)
            ∗ (hLoc d ↦{qh} m (hLoc d))
            ∗ (bigSep (Finset.range 50) (fun j => (oLoc d ↦[oSet L j]{fullShare} gathered Tv m hh d : sProp 𝕄)))
            ∗ (∃ f, (V d (cV L) (jV L)).loc cc1_scratch0 ↦{fullShare} f) ∗ (∃ f, (V d (cV L) (jV L)).loc cc1_scratch1 ↦{fullShare} f)
            ∗ (∃ f, (V d (cV L) (jV L)).loc cc1_scratch2 ↦{fullShare} f) ∗ (∃ f, (V d (cV L) (jV L)).loc cc1_scratch3 ↦{fullShare} f)
            ∗ semVal (g0c d (cV L) (jV L)) 0 ∗ semVal (g1c d (cV L) (jV L)) 0 ∗ semVal (g2c d (cV L) (jV L)) 0
            ∗ semVal (o0c d (cV L) (jV L)) 0 ∗ semVal (o1c d (cV L) (jV L)) 0 ∗ semVal (o2c d (cV L) (jV L)) 0
            ∗ semVal (icc d (cV L) (jV L)) 0
            ∗ ∃ W', ⌜∀ p ∈ W', p ∈ W ∨ p.2 = none⌝ ∗ owes (V d (cV L) (jV L)) O W') := by
  simp only [cc1__sc_gather_body_eq_skeleton]; unfold cc1__sc_gather_body_skel
  iintro ⟨#Hlv, Ht4, Ht5, Ht6, Hh, Hall, HsI, Hr0, Hr1, Hr2, Hg0, Hg1, Hg2, Hs0, Hs1, Hs2, Hic, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hc := (todo_first (F := F) d L) $$ Hall
  icases Hc with ⟨⟨%g0, Ho0⟩, ⟨%g1, Ho1⟩, Htodo⟩
  ihave Ht4 := (Entails.of_eq (show (tLoc d ↦{Transfers.shareTokN q 4} Tv d : sProp 𝕄) = ((tV).view.loc (V d (cV L) (jV L)) ↦{Transfers.shareTokN q 4} Tv d) from rfl)) $$ Ht4
  ihave Ht5 := (Entails.of_eq (show (tLoc d ↦{Transfers.shareTokN q 5} Tv d : sProp 𝕄) = ((tV).view.loc (V d (cV L) (jV L)) ↦{Transfers.shareTokN q 5} Tv d) from rfl)) $$ Ht5
  ihave Ht6 := (Entails.of_eq (show (tLoc d ↦{Transfers.shareTokN q 6} Tv d : sProp 𝕄) = ((tV).view.loc (V d (cV L) (jV L)) ↦{Transfers.shareTokN q 6} Tv d) from rfl)) $$ Ht6
  ihave Hh := (Entails.of_eq (show (hLoc d ↦{qh} m (hLoc d) : sProp 𝕄) = ((hV).view.loc (V d (cV L) (jV L)) ↦{qh} m (hLoc d)) from rfl)) $$ Hh
  ihave HsI := (Entails.of_eq (show ((V d (cV L) (jV L)).loc cc1_scratch0 ↦{fullShare} fI : sProp 𝕄) = ((sI).view.loc (V d (cV L) (jV L)) ↦{fullShare} fI) from rfl)) $$ HsI
  ihave Hr0 := (Entails.of_eq (show ((V d (cV L) (jV L)).loc cc1_scratch1 ↦{fullShare} f0 : sProp 𝕄) = ((r0).view.loc (V d (cV L) (jV L)) ↦{fullShare} f0) from rfl)) $$ Hr0
  ihave Hr1 := (Entails.of_eq (show ((V d (cV L) (jV L)).loc cc1_scratch2 ↦{fullShare} f1 : sProp 𝕄) = ((r1).view.loc (V d (cV L) (jV L)) ↦{fullShare} f1) from rfl)) $$ Hr1
  ihave Hr2 := (Entails.of_eq (show ((V d (cV L) (jV L)).loc cc1_scratch3 ↦{fullShare} f2 : sProp 𝕄) = ((r2).view.loc (V d (cV L) (jV L)) ↦{fullShare} f2) from rfl)) $$ Hr2
  -- the tile's rows of the index array into its index list, and the wait
  sl_exec
  have hp : ∀ z, tile_run.sl.dma0 m d L z = m (hLoc d) ((hSl L).view.emb z) := fun z => (View.read_apply _ _).trans (cast_eq _ _)
  ihave HsI := (idx_landed (F := F) m d L fI _ hp) $$ HsI
  icases HsI with ⟨%fJ, %hfJ, HsI⟩
  have hJ : ∀ z : S10000.Idx, (fJ z).toNat < 10000 := fun z => by rw [hfJ z]; exact hh d _
  have hin : ∀ (off : Fin 1 → Nat) (inb : ∀ a, off a + S200.size a ≤ S10000.size a) (x : (Rect.unit (s := S10000) off S200.size inb).shape.Idx),
      ((iSl off inb).view.read (Elt F) fJ x).toNat < 10000 := by
    intro off inb x
    have e : (iSl off inb).view.read (Elt F) fJ x = fJ ((iSl off inb).view.emb x) := (View.read_apply _ _).trans (cast_eq _ _)
    rw [e]; exact hJ _
  -- the prologue: chunks 0 to 3 started
  sl_exec

  sl_for (inv Tv m hh d L q O W fJ) $$ [Hmw Ht5 Hg1 Hs0 Hs2 Hg2 Hr2 Ht6 Hs1 Hr1 Hg0 Hr0 Ht4 HsI Ho0 Htodo HO]
  case region =>
    intro k x
    exact trip_step Tv m hh d L q O W fJ hfJ hin _ k x

  · -- the ring as the prologue leaves it is the ring before trip 0
    unfold inv
    iexists (Nat.zero_le 15)
    isplitl [Hmw]; · iexact Hmw
    isplitl [Ht5]; · iexact Ht5
    isplitl [Hg1]; · iexact Hg1
    isplitl [Hs0]; · iexact Hs0
    isplitl [Hs2]; · iexact Hs2
    isplitl [Hg2 Hr2]
    · iexists _
      isplitr
      swap
      · isplitl [Hg2]; · iexact Hg2
        iexact Hr2
      · ipureintro
        exact slot_of_gather Tv m hh d (r2).view f2 _ _ _ fun y => gather_is_gathered Tv m hh d L fJ hfJ 2 (by omega) ![400] rfl _ _ _ y
    isplitl [Ht6]; · iexact Ht6
    isplitl [Hs1 Hr1]
    · iexists _, _
      isplitr
      swap
      · isplitl [Hs1]; · iapply (FS8_congr d L _ _ (off2_200 L) (k1_off2_inb L 1) (oOff_inb L _)); iexact Hs1
        iexact Hr1
      · ipureintro
        exact ChunkAt_congr Tv m hh d (off2_200 L) (k1_off2_inb L 1) (oOff_inb L _) _
          (chunk_of_store Tv m hh d (r1).view _ (oOff L 1) (oOff_inb L _)
            (slot_of_gather Tv m hh d (r1).view f1 _ _ _ fun y => gather_is_gathered Tv m hh d L fJ hfJ 1 (by omega) ![200] rfl _ _ _ y)
            (off2_200 L) (k1_off2_inb L 1) g1)
    isplitl [Hg0 Hr0]
    · iexists _
      isplitr
      swap
      · isplitl [Hg0]; · iexact Hg0
        iexact Hr0
      · ipureintro
        exact slot_of_gather Tv m hh d (r0).view ((r0).view.writes (Elt F) f0 [_]) _ _ _ fun y => gather_is_gathered Tv m hh d L fJ hfJ 3 (by omega) ![600] rfl _ _ _ y
    isplitl [Ht4]; · iexact Ht4
    isplitl [HsI]; · iexact HsI
    isplitl [Ho0]
    · iapply (done_first Tv m hh d L)
      iapply (chunk_done Tv m hh d L 0 (off2_0 L) (k1_off2_inb L 0) _
        (chunk_of_store Tv m hh d (r0).view _ (oOff L 0) (oOff_inb L _)
          (slot_of_gather Tv m hh d (r0).view f0 _ _ _ fun y => gather_is_gathered Tv m hh d L fJ hfJ 0 (by omega) ![0] rfl _ _ _ y)
          (off2_0 L) (k1_off2_inb L 0) _))
      iexact Ho0
    isplitl [Htodo]; · iexact Htodo
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp

  iintro %u HI
  have ht : Scf.trips k1_t1_loop.lb k1_t1_loop.ub k1_t1_loop.st = 15 := by decide
  ihave HI := (Entails.of_eq (show inv Tv m hh d L q O W fJ (Scf.trips k1_t1_loop.lb k1_t1_loop.ub k1_t1_loop.st) u = inv Tv m hh d L q O W fJ 15 u from by rw [ht])) $$ HI
  unfold inv
  icases HI with ⟨%hk, -, Ht5, Hg1, Hs0, Hs2, ⟨%X2, %hX2, Hg2, Hr2⟩, Ht6, ⟨%Y, %X1, %hY, Hs1, Hr1⟩, ⟨%X0, %hX0, Hg0, Hr0⟩, Ht4, HsI, Hdone, Htodo, %W', %hW', HO⟩
  ihave Hc := (todo_last (F := F) d L) $$ Htodo
  icases Hc with ⟨⟨%g47, Hc47⟩, ⟨%g48, Hc48⟩, ⟨%g49, Hc49⟩⟩
  have dE : Disjoint (α := Finset S10000.Idx) ((sI).slice (Rect.unit (s := S10000) ![9800] S200.size inb_S10000_S200_9800) (fun _ => rfl)).view.set (iWB 15 hk) :=
    iSl_disjoint _ _ (Or.inr (by show 600 * 15 + 600 + 200 ≤ 9800; omega))
  -- the epilogue: chunks 47, 48 and 49 stored, every store waited for
  sl_exec
  sl_step
  isplitl [Ht4]; · iexact Ht4
  isplitl [Ht5]; · iexact Ht5
  isplitl [Ht6]; · iexact Ht6
  isplitl [Hh]; · iexact Hh
  isplitl [Hdone Hs1_dst Hc47 Hc48 Hc49]
  · iapply (done_last Tv m hh d L)
    isplitl [Hdone]; · iexact Hdone
    isplitl [Hs1_dst]; · iapply (chunk_done Tv m hh d L 46 rfl (oOff_inb L _) Y hY); iexact Hs1_dst
    isplitl [Hc47]
    · iapply (chunk_done Tv m hh d L 47 (off2_9400 L) (k1_off2_inb L 2) _
        (chunk_of_store Tv m hh d (r2).view X2 (oOff L 47) (oOff_inb L _) hX2 (off2_9400 L) (k1_off2_inb L 2) g47)); iexact Hc47
    isplitl [Hc48]
    · iapply (chunk_done Tv m hh d L 48 (off2_9600 L) (k1_off2_inb L 4) _
        (chunk_of_store Tv m hh d (r0).view X0 (oOff L 48) (oOff_inb L _) hX0 (off2_9600 L) (k1_off2_inb L 4) g48)); iexact Hc48
    · iapply (chunk_done Tv m hh d L 49 (off2_9800 L) (k1_off2_inb L 5) _
        (chunk_of_store Tv m hh d (r1).view _ (oOff L 49) (oOff_inb L _)
          (slot_of_gather Tv m hh d (r1).view X1 _ _ _ fun y => gather_is_gathered Tv m hh d L fJ hfJ 49 (by omega) ![9800] rfl _ _ _ y)
          (off2_9800 L) (k1_off2_inb L 5) g49)); iexact Hc49
  isplitl [HsI]; · iexists _; iexact HsI
  isplitl [Hr0]; · iexists _; iexact Hr0
  isplitl [Hr1]; · iexists _; iexact Hr1
  isplitl [Hr2]; · iexists _; iexact Hr2
  isplitl [Hg0]; · iexact Hg0
  isplitl [Hg1]; · iexact Hg1
  isplitl [Hg2]; · iexact Hg2
  isplitl [Hs0]; · iexact Hs0
  isplitl [Hs1]; · iexact Hs1
  isplitl [Hs2]; · iexact Hs2
  isplitl [Hic]; · iexact Hic
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Tile
end Cert.Proof.KernelIdeal
end
-- ==== Proof.KernelIdeal.ScBody.lean ====
/-
  The tile's task of the SparseCore call from its run: the tile is handed read shares of the table and of the index
  array, its fifty chunks of the output at unknown contents, and its own scoped storage; three read tokens of the
  table's share go to the three slots' gathers and the rest waits aside; the chunks are renumbered from the call's
  numbering to the tile's; the tile's seven DMA semaphores and four scratch buffers come out of its scoped storage.
  After the run everything is put back, the chunks holding the gathered rows.
-/
import proofs.«210904_g42554535969575_cont_8to1_b_1627_27_alg».proof.Proof.KernelIdeal.ScTile

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

local notation "tV" => (Memref.whole Cert.KernelIdeal.main_v1_scv : Memref Cert.KernelIdeal.sig Kind.scVector Space.hbm Cert.KernelIdeal.S10000x128 EltTy.f32)
local notation "hV" => (Memref.whole Cert.KernelIdeal.main_arg2_scv : Memref Cert.KernelIdeal.sig Kind.scVector Space.hbm Cert.KernelIdeal.S320000 EltTy.i32)
local notation "oW" => (Memref.whole Cert.KernelIdeal.main_v2_scv : Memref Cert.KernelIdeal.sig Kind.scVector Space.hbm Cert.KernelIdeal.S320000x128 EltTy.f32)
local notation "sI" => (Memref.whole Cert.KernelIdeal.cc1_scratch0 : Memref Cert.KernelIdeal.sig Kind.scVector Space.vmem Cert.KernelIdeal.S10000 EltTy.i32)
local notation "r0" => (Memref.whole Cert.KernelIdeal.cc1_scratch1 : Memref Cert.KernelIdeal.sig Kind.scVector Space.vmem Cert.KernelIdeal.S200x128 EltTy.f32)
local notation "r1" => (Memref.whole Cert.KernelIdeal.cc1_scratch2 : Memref Cert.KernelIdeal.sig Kind.scVector Space.vmem Cert.KernelIdeal.S200x128 EltTy.f32)
local notation "r2" => (Memref.whole Cert.KernelIdeal.cc1_scratch3 : Memref Cert.KernelIdeal.sig Kind.scVector Space.vmem Cert.KernelIdeal.S200x128 EltTy.f32)

section Tile

variable (d : Dev nD) (L : grid1.Coords)

/-! ## The tile's own semaphores and scratch buffers, out of its scoped storage -/

omit [FloatOps F] in
theorem ownSems0_V :
    (ownSems0 (V d (cV L) (jV L)) : sProp 𝕄)
      = iprop(semVal (g0c d (cV L) (jV L)) 0 ∗ semVal (g1c d (cV L) (jV L)) 0 ∗ semVal (g2c d (cV L) (jV L)) 0 ∗ semVal (o0c d (cV L) (jV L)) 0 ∗ semVal (o1c d (cV L) (jV L)) 0 ∗ semVal (o2c d (cV L) (jV L)) 0 ∗ semVal (icc d (cV L) (jV L)) 0
          ∗ bigSep ((((((((ownCells (V d (cV L) (jV L))).erase (g0c d (cV L) (jV L))).erase (g1c d (cV L) (jV L))).erase (g2c d (cV L) (jV L))).erase (o0c d (cV L) (jV L))).erase (o1c d (cV L) (jV L))).erase (o2c d (cV L) (jV L))).erase (icc d (cV L) (jV L))) fun g => semVal g 0) := by
  unfold SparseCore.Cfg.ownSems0
  rw [SparseCore.bigSep_erase' ((mem_ownCells (g := g0c d (cV L) (jV L))).mpr ⟨rfl, by show (SemLoc.dma cc1_scratch4.sem : SemLoc sig).isScoped .scVector = true; decide⟩),
    SparseCore.bigSep_erase' (Finset.mem_erase.mpr ⟨by simp [g1c, g0c]; decide, (mem_ownCells (g := g1c d (cV L) (jV L))).mpr ⟨rfl, by show (SemLoc.dma cc1_scratch5.sem : SemLoc sig).isScoped .scVector = true; decide⟩⟩),
    SparseCore.bigSep_erase' (Finset.mem_erase.mpr ⟨by simp [g2c, g1c]; decide, Finset.mem_erase.mpr ⟨by simp [g2c, g0c]; decide, (mem_ownCells (g := g2c d (cV L) (jV L))).mpr ⟨rfl, by show (SemLoc.dma cc1_scratch6.sem : SemLoc sig).isScoped .scVector = true; decide⟩⟩⟩),
    SparseCore.bigSep_erase' (Finset.mem_erase.mpr ⟨by simp [o0c, g2c]; decide, Finset.mem_erase.mpr ⟨by simp [o0c, g1c]; decide, Finset.mem_erase.mpr ⟨by simp [o0c, g0c]; decide, (mem_ownCells (g := o0c d (cV L) (jV L))).mpr ⟨rfl, by show (SemLoc.dma cc1_scratch7.sem : SemLoc sig).isScoped .scVector = true; decide⟩⟩⟩⟩),
    SparseCore.bigSep_erase' (Finset.mem_erase.mpr ⟨by simp [o1c, o0c]; decide, Finset.mem_erase.mpr ⟨by simp [o1c, g2c]; decide, Finset.mem_erase.mpr ⟨by simp [o1c, g1c]; decide, Finset.mem_erase.mpr ⟨by simp [o1c, g0c]; decide, (mem_ownCells (g := o1c d (cV L) (jV L))).mpr ⟨rfl, by show (SemLoc.dma cc1_scratch8.sem : SemLoc sig).isScoped .scVector = true; decide⟩⟩⟩⟩⟩),
    SparseCore.bigSep_erase' (Finset.mem_erase.mpr ⟨by simp [o2c, o1c]; decide, Finset.mem_erase.mpr ⟨by simp [o2c, o0c]; decide, Finset.mem_erase.mpr ⟨by simp [o2c, g2c]; decide, Finset.mem_erase.mpr ⟨by simp [o2c, g1c]; decide, Finset.mem_erase.mpr ⟨by simp [o2c, g0c]; decide, (mem_ownCells (g := o2c d (cV L) (jV L))).mpr ⟨rfl, by show (SemLoc.dma cc1_scratch9.sem : SemLoc sig).isScoped .scVector = true; decide⟩⟩⟩⟩⟩⟩),
    SparseCore.bigSep_erase' (Finset.mem_erase.mpr ⟨by simp [icc, o2c]; decide, Finset.mem_erase.mpr ⟨by simp [icc, o1c]; decide, Finset.mem_erase.mpr ⟨by simp [icc, o0c]; decide, Finset.mem_erase.mpr ⟨by simp [icc, g2c]; decide, Finset.mem_erase.mpr ⟨by simp [icc, g1c]; decide, Finset.mem_erase.mpr ⟨by simp [icc, g0c]; decide, (mem_ownCells (g := icc d (cV L) (jV L))).mpr ⟨rfl, by show (SemLoc.dma cc1_scoped0.sem : SemLoc sig).isScoped .scVector = true; decide⟩⟩⟩⟩⟩⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := (Proc.scVector (cV L) (jV L))) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := (Proc.scVector (cV L) (jV L))) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := (Proc.scVector (cV L) (jV L))) (b := (Proc.scVector (cV L) (jV L)).devRef cc1_scratch3) rfl⟩⟩⟩)]

/-! ## The fifty chunks, by the call's numbering and by the tile's -/

omit [FloatOps F] in
/-- The tile's chunks still to be written: over the call's chunk numbers, and over the tile's own. -/
theorem chunks_todo :
    (bigSep Finset.univ fun k : Fin 50 => iprop(∃ f : Buf (Elt F) (oLoc d), oLoc d ↦[cSet (gix (cL L) (sL L) k)]{fullShare} f) : sProp 𝕄)
      = bigSep (Finset.range 50) fun j => iprop(∃ g : Buf (Elt F) (oLoc d), oLoc d ↦[oSet L j]{fullShare} g) := by
  rw [← chunks_in (F := F) (fun j => iprop(∃ g : Buf (Elt F) (oLoc d), oLoc d ↦[oSet L j]{fullShare} g))]
  exact bigSep_congr fun k _ => by rw [oSet_eq L k.val k.isLt]

/-- The tile's chunks holding the gathered rows: over the call's chunk numbers, and over the tile's own. -/
theorem chunks_done :
    (bigSep Finset.univ fun k : Fin 50 => (oLoc d ↦[cSet (gix (cL L) (sL L) k)]{fullShare} gathered Tv m hh d : sProp 𝕄))
      = bigSep (Finset.range 50) fun j => (oLoc d ↦[oSet L j]{fullShare} gathered Tv m hh d : sProp 𝕄) := by
  rw [← chunks_in (F := F) (fun j => (oLoc d ↦[oSet L j]{fullShare} gathered Tv m hh d : sProp 𝕄))]
  exact bigSep_congr fun k _ => by rw [oSet_eq L k.val k.isLt]

/-! ## Three read tokens of the table's share -/

theorem range7 : Finset.range 7 = insert 6 (insert 5 (insert 4 (Finset.range 4))) := by decide

/-- What is left of a share once read tokens 4, 5 and 6 are taken out of its first seven. -/
def tokRest (q : PosShare TreeShare) (ℓ : Loc nD τ sig) (f : Buf (Elt F) ℓ) : sProp 𝕄 :=
  iprop((ℓ ↦{Transfers.shareDrop q 7} f) ∗ bigSep (Finset.range 4) fun i => (ℓ ↦{Transfers.shareTokN q i} f : sProp 𝕄))

omit [FloatOps F] in
theorem toks_split (q : PosShare TreeShare) (ℓ : Loc nD τ sig) (f : Buf (Elt F) ℓ) :
    (ℓ ↦{q} f : sProp 𝕄) ⊢ iprop((ℓ ↦{Transfers.shareTokN q 4} f) ∗ (ℓ ↦{Transfers.shareTokN q 5} f) ∗ (ℓ ↦{Transfers.shareTokN q 6} f) ∗ tokRest q ℓ f) := by
  refine (Transfers.pointsTo_toks_range q 7).1.trans ?_
  unfold tokRest
  rw [range7, SparseCore.bigSep_insert' (by decide), SparseCore.bigSep_insert' (by decide), SparseCore.bigSep_insert' (by decide)]
  iintro ⟨Hd, H6, H5, H4, Hr⟩
  isplitl [H4]; · iexact H4
  isplitl [H5]; · iexact H5
  isplitl [H6]; · iexact H6
  isplitl [Hd]; · iexact Hd
  iexact Hr

omit [FloatOps F] in
theorem toks_join (q : PosShare TreeShare) (ℓ : Loc nD τ sig) (f : Buf (Elt F) ℓ) :
    iprop((ℓ ↦{Transfers.shareTokN q 4} f) ∗ (ℓ ↦{Transfers.shareTokN q 5} f) ∗ (ℓ ↦{Transfers.shareTokN q 6} f) ∗ tokRest q ℓ f) ⊢ (ℓ ↦{q} f : sProp 𝕄) := by
  refine BIBase.Entails.trans ?_ (Transfers.pointsTo_toks_range q 7).2
  unfold tokRest
  rw [range7, SparseCore.bigSep_insert' (by decide), SparseCore.bigSep_insert' (by decide), SparseCore.bigSep_insert' (by decide)]
  iintro ⟨H4, H5, H6, Hd, Hr⟩
  isplitl [Hd]; · iexact Hd
  isplitl [H6]; · iexact H6
  isplitl [H5]; · iexact H5
  isplitl [H4]; · iexact H4
  iexact Hr

/-! ## The tile's task -/

include hh in
/-- THE TILE'S BODY, as the call's dispatch hands it its task and takes it back: the table's and the index array's read
    shares, the fifty chunks at anything in and at the gathered rows out, its scoped storage, what it owes. -/
theorem tile_body (hF : (K (F := F)).Facts) (O : CellTallies nD τ sig (HIx 1)) (W : Waits sig (HIx 1)) (hO : ∀ g, O g none = 0) :
    iprop(levAts (K (F := F)).L (K (F := F)).lev ∗ emp ∗ goT Tv m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L tV (Memref.isWhole_whole _) hV (Memref.isWhole_whole _) oW (Memref.isWhole_whole _)
            sI (Memref.isWhole_whole _) r0 (Memref.isWhole_whole _) r1 (Memref.isWhole_whole _) r2 (Memref.isWhole_whole _)
            cc1_scratch4 cc1_scratch5 cc1_scratch6 cc1_scratch7 cc1_scratch8 cc1_scratch9 cc1_scoped0)
          fun _ => iprop(tdT Tv m hh d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goT tdT
  rw [chunks_todo d L, chunks_done Tv m hh d L]
  iintro ⟨Hlv, -, ⟨Ht, Hh, Ho⟩, ⟨⟨%fI, HI⟩, ⟨%f0, H0⟩, ⟨%f1, H1⟩, ⟨%f2, H2⟩, Hbufs⟩, ⟨Hg0, Hg1, Hg2, Ho0, Ho1, Ho2, Hic, Hsems⟩, HO⟩
  ihave Htk := (toks_split (F := F) (tqq (cL L) (sL L)) (tLoc d) (Tv d)) $$ Ht
  icases Htk with ⟨Ht4, Ht5, Ht6, Htr⟩
  iapply (wp_wand_r _ _ _)
  isplitr [Htr Hbufs Hsems]
  · iapply (tile_run Tv m hh d L (tqq (cL L) (sL L)) (tqq (cL L) (sL L)) O W hO fI f0 f1 f2)
    isplitl [Hlv]; · iexact Hlv
    isplitl [Ht4]; · iexact Ht4
    isplitl [Ht5]; · iexact Ht5
    isplitl [Ht6]; · iexact Ht6
    isplitl [Hh]; · iexact Hh
    isplitl [Ho]; · iexact Ho
    isplitl [HI]; · iexact HI
    isplitl [H0]; · iexact H0
    isplitl [H1]; · iexact H1
    isplitl [H2]; · iexact H2
    isplitl [Hg0]; · iexact Hg0
    isplitl [Hg1]; · iexact Hg1
    isplitl [Hg2]; · iexact Hg2
    isplitl [Ho0]; · iexact Ho0
    isplitl [Ho1]; · iexact Ho1
    isplitl [Ho2]; · iexact Ho2
    isplitl [Hic]; · iexact Hic
    iexact HO
  iintro %a ⟨Ht4, Ht5, Ht6, Hh, Ho, HI, H0, H1, H2, Hg0, Hg1, Hg2, Ho0, Ho1, Ho2, Hic, HO⟩
  ihave Ht := (toks_join (F := F) (tqq (cL L) (sL L)) (tLoc d) (Tv d)) $$ [Ht4 Ht5 Ht6 Htr]
  · isplitl [Ht4]; · iexact Ht4
    isplitl [Ht5]; · iexact Ht5
    isplitl [Ht6]; · iexact Ht6
    iexact Htr
  isplitl [Ht Hh Ho]
  · isplitl [Ht]; · iexact Ht
    isplitl [Hh]; · iexact Hh
    iexact Ho
  isplitl [HI H0 H1 H2 Hbufs]
  · isplitl [HI]; · iexact HI
    isplitl [H0]; · iexact H0
    isplitl [H1]; · iexact H1
    isplitl [H2]; · iexact H2
    iexact Hbufs
  isplitl [Hg0 Hg1 Hg2 Ho0 Ho1 Ho2 Hic Hsems]
  · isplitl [Hg0]; · iexact Hg0
    isplitl [Hg1]; · iexact Hg1
    isplitl [Hg2]; · iexact Hg2
    isplitl [Ho0]; · iexact Ho0
    isplitl [Ho1]; · iexact Ho1
    isplitl [Ho2]; · iexact Ho2
    isplitl [Hic]; · iexact Hic
    iexact Hsems
  iexact HO

end Tile

end Cert.Proof.KernelIdeal

end
-- ==== Proof.KernelIdeal.ScCall.lean ====
/-
  The SparseCore call's obligation for one tile, as the launch states it. The launch asks, of tile (c, i) of the call's
  grid, that its row of the body table run from what the tile is handed — its read shares of the table and of the index
  array, its fifty chunks of the output — and its own scoped storage, to what it hands back. That row is the kernel's
  function at the grid point (c, i), guarded by the grid's bounds, which the point meets; so the obligation is the body's
  run at that point, lifted through the pipelines' label signature.
-/
import proofs.«210904_g42554535969575_cont_8to1_b_1627_27_alg».proof.Proof.KernelIdeal.ScBody
import Idealize.ShloMosaic.Lib.Tactic

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (Tv : (d : Dev nD) → Buf (Elt F) (tLoc d)) (m : (ℓ : Loc nD τ sig) → Buf (Elt F) ℓ)
  (hh : ∀ (d : Dev nD) x, (m (hLoc d) x).toNat < 10000)

local notation "tV" => (Memref.whole Cert.KernelIdeal.main_v1_scv : Memref Cert.KernelIdeal.sig Kind.scVector Space.hbm Cert.KernelIdeal.S10000x128 EltTy.f32)
local notation "hV" => (Memref.whole Cert.KernelIdeal.main_arg2_scv : Memref Cert.KernelIdeal.sig Kind.scVector Space.hbm Cert.KernelIdeal.S320000 EltTy.i32)
local notation "oW" => (Memref.whole Cert.KernelIdeal.main_v2_scv : Memref Cert.KernelIdeal.sig Kind.scVector Space.hbm Cert.KernelIdeal.S320000x128 EltTy.f32)
local notation "sI" => (Memref.whole Cert.KernelIdeal.cc1_scratch0 : Memref Cert.KernelIdeal.sig Kind.scVector Space.vmem Cert.KernelIdeal.S10000 EltTy.i32)
local notation "r0" => (Memref.whole Cert.KernelIdeal.cc1_scratch1 : Memref Cert.KernelIdeal.sig Kind.scVector Space.vmem Cert.KernelIdeal.S200x128 EltTy.f32)
local notation "r1" => (Memref.whole Cert.KernelIdeal.cc1_scratch2 : Memref Cert.KernelIdeal.sig Kind.scVector Space.vmem Cert.KernelIdeal.S200x128 EltTy.f32)
local notation "r2" => (Memref.whole Cert.KernelIdeal.cc1_scratch3 : Memref Cert.KernelIdeal.sig Kind.scVector Space.vmem Cert.KernelIdeal.S200x128 EltTy.f32)

/-! ## The tile's obligation to the launch

The launch asks of tile `(c, i)` of the call's grid: from what it is handed and its own scoped storage, its row of the
body table runs to what it hands back. That row is the kernel's function at the grid point `(c, i)`, guarded by the grid's
bounds; the point's two coordinates are the tile's, so what the tile is handed and hands back are the body's own. -/

/-- The grid point of SparseCore `c`, tile `s`. -/
def coordsV (c : Fin (grid1.bound 0)) (s : Fin (grid1.bound 1)) : grid1.Coords :=
  fun | 0 => c | 1 => s | ⟨_ + 2, h⟩ => absurd h (Nat.not_lt.2 (Nat.le_add_left _ _))

/-- A tile's row of the body table: the kernel's function at its grid point, inside the grid's bounds. -/
theorem defs₀_vector (c : Fin τ.nSC) (s : Fin τ.nSub) :
    defs₀ (F := F) (.scVector c s) 1 ()
      = SparseCore.onTile hcore1 hsub1 (fun c s => cc1__sc_gather_body (coordsV c s)
          tV (Memref.isWhole_whole _) hV (Memref.isWhole_whole _) oW (Memref.isWhole_whole _)
          sI (Memref.isWhole_whole _) r0 (Memref.isWhole_whole _) r1 (Memref.isWhole_whole _) r2 (Memref.isWhole_whole _)
          cc1_scratch4 cc1_scratch5 cc1_scratch6 cc1_scratch7 cc1_scratch8 cc1_scratch9 cc1_scoped0) ⟨⟩ c s := rfl

omit [FloatOps F] in
/-- The waits a body recorded beside the ones it found are waits the launch admits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P Tv m hh) v₀ 0 := by
  intro d c i O W hO _ _
  simp only [show (P Tv m hh).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body Tv m hh d (coordsV ⟨_, hci.1⟩ ⟨_, hci.2⟩) facts O W hO).trans (wp_mono frame _ _ fun _ => obl_post)

end Cert.Proof.KernelIdeal

end
-- ==== Proof.RefSpec.lean ====
/-
  The reference's result as ONE function of the five arrays it reads, entry by entry.

  An edge `r` (of 320000) carries a head index into the node table `H` (10000 rows of 128) and its own row of the edge
  table `E` (128 wide). The reference lays the head's node row and the edge row side by side into one row of 256 and
  applies the affine map `x ↦ x · Wᵀ + b` (`W` is 128 × 256, `b` is 128 long): entry `(r, c)` of the result is
      (∑ k < 256, cat r k · W c k) + b c,     cat r k = H (row r) k   for k < 128,   E r (k − 128)   for 128 ≤ k.
  The sum runs over `Fin 256` in that order with the operand to the left of the weight, as the contraction states it.

  The row read from `H` is the head index as a natural number, capped at the last row 9999: the cap is the one the
  reference's own lookup applies to every start index (it clamps into [0, 9999]); where every index is below 10000,
  which the precondition gives, the cap is the identity (`row_val`) and a word below 2³¹ reads the same signed and
  unsigned, so nothing depends on which reading is taken.
-/
import Idealize.ShloMosaic.PureOps.Ideal
import Idealize.ShloMosaic.Lib.ValueIdx

noncomputable section

open scoped BigOperators

namespace Cert.ReferenceIdeal.RefValue

open Idealize.ShloMosaic Idealize.ShloMosaic.ValueIdx

/-- The row of the node table that edge `r` reads: its head index as a natural number, capped at the last row. -/
def row (heads : (⟨1, ![320000]⟩ : Shape).Idx → BitVec 32) (r : Fin 320000) : Fin 10000 :=
  ⟨min (heads (ix1 r)).toNat 9999, by omega⟩

/-- Where the index is below 10000 the cap does nothing. -/
theorem row_val (heads : (⟨1, ![320000]⟩ : Shape).Idx → BitVec 32) (r : Fin 320000)
    (h : (heads (ix1 r)).toNat < 10000) : (row heads r).val = (heads (ix1 r)).toNat := by
  show min (heads (ix1 r)).toNat 9999 = _
  omega

/-- Entry `k` of edge `r`'s row of 256: the head's node row, then the edge's own row. -/
def cat (H : (⟨2, ![10000, 128]⟩ : Shape).Idx → EReal) (E : (⟨2, ![320000, 128]⟩ : Shape).Idx → EReal)
    (heads : (⟨1, ![320000]⟩ : Shape).Idx → BitVec 32) (r : Fin 320000) (k : Fin 256) : EReal :=
  if h : k.val < 128 then H (ix2 (row heads r) ⟨k.val, h⟩) else E (ix2 r ⟨k.val - 128, by omega⟩)

/-- Entry `(r, c)` of the result: the row of 256 against row `c` of the weights, plus the bias. -/
def refAt (H : (⟨2, ![10000, 128]⟩ : Shape).Idx → EReal) (E : (⟨2, ![320000, 128]⟩ : Shape).Idx → EReal)
    (heads : (⟨1, ![320000]⟩ : Shape).Idx → BitVec 32) (W : (⟨2, ![128, 256]⟩ : Shape).Idx → EReal)
    (b : (⟨1, ![128]⟩ : Shape).Idx → EReal) (r : Fin 320000) (c : Fin 128) : EReal :=
  (∑ k : Fin 256, cat H E heads r k * W (ix2 c k)) + b (ix1 c)

/-- The reference's result, as an array of 320000 × 128. -/
def refOut (H : (⟨2, ![10000, 128]⟩ : Shape).Idx → EReal) (E : (⟨2, ![320000, 128]⟩ : Shape).Idx → EReal)
    (heads : (⟨1, ![320000]⟩ : Shape).Idx → BitVec 32) (W : (⟨2, ![128, 256]⟩ : Shape).Idx → EReal)
    (b : (⟨1, ![128]⟩ : Shape).Idx → EReal) : (⟨2, ![320000, 128]⟩ : Shape).Idx → EReal :=
  fun i => refAt H E heads W b ⟨(i 0).val, idx2_lt0 i⟩ ⟨(i 1).val, idx2_lt1 i⟩

/-- At an index given by its coordinates. -/
theorem refOut_ix2 (H : (⟨2, ![10000, 128]⟩ : Shape).Idx → EReal) (E : (⟨2, ![320000, 128]⟩ : Shape).Idx → EReal)
    (heads : (⟨1, ![320000]⟩ : Shape).Idx → BitVec 32) (W : (⟨2, ![128, 256]⟩ : Shape).Idx → EReal)
    (b : (⟨1, ![128]⟩ : Shape).Idx → EReal) (r : Fin 320000) (c : Fin 128) :
    refOut H E heads W b (ix2 r c) = (∑ k : Fin 256, cat H E heads r k * W (ix2 c k)) + b (ix1 c) := rfl

end Cert.ReferenceIdeal.RefValue

end
-- ==== Proof.RefTerm.lean ====
/-
  The reference's operations composed into one term of the five arrays it reads, stage by stage.

  The lookup of the node rows comes first: a negative head index is moved up by the table's height (`wrapped`), made a
  column of start indices (`startIdx`), tested for lying in [0, 9999] (`inRange`), and the rows are gathered, a row whose
  index fails the test replaced by the not-a-number word (`taken`). Then the gathered rows and the edge rows are laid side
  by side, contracted against the transposed weights, and the bias, broadcast along the rows, is added (`refTerm`).
-/
import proofs.«210904_g42554535969575_cont_8to1_b_1627_27_alg».proof.Proof.Gen.ReferenceIdeal

noncomputable section

namespace Cert.ReferenceIdeal.RefValue

open Cert.ReferenceIdeal Cert.ReferenceIdeal.Gen Idealize.ShloMosaic

variable {F : FTy → Type} [FloatOps F]

/-- The head indices, a negative one moved up by the number of rows of the table. -/
def wrapped (heads : IVec S320000 32) : IVec S320000 32 :=
  select (cmpi .slt heads (broadcastInDim S320000 ![] bcast_S_S320000 (constantI S_ 32 0#32)))
    (addi heads (broadcastInDim S320000 ![] bcast_S_S320000 (constantI S_ 32 10000#32))) heads

/-- The same as a column: one start index per edge. -/
def startIdx (heads : IVec S320000 32) : IVec S320000x1 32 :=
  broadcastInDim S320000x1 ![0] bcast_S320000_S320000x1_0 (wrapped heads)

/-- Per edge, whether its start index lies in [0, 9999] (both comparisons signed). -/
def inRange (heads : IVec S320000 32) : IVec S320000 1 :=
  Host.reduce IntOp.andi
    (andi (cmpi .sge (startIdx heads) (broadcastInDim S320000x1 ![] bcast_S_S320000x1 (constantI S_ 32 0#32)))
      (cmpi .sle (startIdx heads)
        (broadcastInDim S320000x1 ![0, 1] bcast_S1x1_S320000x1_0_1
          (broadcastInDim S1x1 ![1] bcast_S1_S1x1_1 (constantI S1 32 9999#32)))))
    (constantI S_ 1 1#1) reducesTo_S320000x1_S320000_d1 h_S_

/-- The gathered node rows, a row whose index is out of range replaced by the not-a-number word. -/
def taken (H : FVec F S10000x128 .f32) (heads : IVec S320000 32) : FVec F S320000x128 .f32 :=
  select (broadcastInDim S320000x128 ![0] bcast_S320000_S320000x128_0 (inRange heads))
    (Host.gather gather_S10000x128_S320000x1_S320000x128_1_0_n_n_0_1_1128 H (startIdx heads))
    (broadcastInDim S320000x128 ![] bcast_S_S320000x128 (constant S_ .f32 0x7FC00000#32))

/-- The whole reference: rows side by side, against the transposed weights, plus the bias along the rows. -/
def refTerm (H : FVec F S10000x128 .f32) (E : FVec F S320000x128 .f32) (heads : IVec S320000 32)
    (W : FVec F S128x256 .f32) (b : FVec F S128 .f32) : FVec F S320000x128 .f32 :=
  addf
    (Host.dotGeneral dot_S320000x256_S256x128_S320000x128_1_0_0_1_n_n none
      (concatenate S320000x256 1 [⟨S320000x128, taken H heads⟩, ⟨S320000x128, E⟩]
        concatenates_S320000x128_S320000x128_S320000x256_d1)
      (transpose S256x128 [1, 0] W transposes_S128x256_S256x128_1_0))
    (broadcastInDim S320000x128 ![0, 1] bcast_S1x128_S320000x128_0_1 (broadcastInDim S1x128 ![1] bcast_S128_S1x128_1 b))

end Cert.ReferenceIdeal.RefValue

end
-- ==== Proof.RefRun.lean ====
/-
  The reference's run: its @main, with the lookup function and the select it calls written out at their call sites over
  the call's own buffers, is a straight line of 29 host operations; every weakly fair execution ends with the result
  buffer at the operations' composed term (`refTerm`) of the arguments' contents, and the arguments as they were.
-/
import proofs.«210904_g42554535969575_cont_8to1_b_1627_27_alg».proof.Proof.Gen.ReferenceIdeal
import proofs.«210904_g42554535969575_cont_8to1_b_1627_27_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order: the lookup's 23 (the wrap of negative indices — a comparison with zero, the height added,
    the select —, the column of start indices, the range test and its reduction along the unit axis, the gather, the
    not-a-number splat and the select on the test) into the call's buffers, then the concatenation, the transpose, the
    contraction, the bias broadcast in two steps, the sum. -/
abbrev ops : List (HloOp τ sig (Elt F)) :=
  [ TRef.nullary main_call0.c (constantI S_ 32 0#32),
    TRef.unary main_call0.c main_call0.v0 (broadcastInDim S320000 ![] bcast_S_S320000),
    TRef.binary (.of main_arg2 : TRef sig ⟨S320000, .i32⟩) main_call0.v0 main_call0.v1 (cmpi .slt),
    TRef.nullary main_call0.c_0 (constantI S_ 32 10000#32),
    TRef.unary main_call0.c_0 main_call0.v2 (broadcastInDim S320000 ![] bcast_S_S320000),
    TRef.binary (.of main_arg2 : TRef sig ⟨S320000, .i32⟩) main_call0.v2 main_call0.v3 addi,
    TRef.ternary main_call0.v1 main_call0.v3 (.of main_arg2 : TRef sig ⟨S320000, .i32⟩) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg0 : TRef sig ⟨S10000x128, .f32⟩) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    binary main_v0 main_arg1 main_v1 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    unary main_arg4 main_v2 ((transpose S256x128 [1, 0] · transposes_S128x256_S256x128_1_0) : (⟨S128x256, .f32⟩ : BufTy).Contents (Elt F) → (⟨S256x128, .f32⟩ : BufTy).Contents (Elt F)),
    binary main_v1 main_v2 main_v3 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    unary main_arg5 main_v4 (broadcastInDim S1x128 ![1] bcast_S128_S1x128_1 : (⟨S128, .f32⟩ : BufTy).Contents (Elt F) → (⟨S1x128, .f32⟩ : BufTy).Contents (Elt F)),
    unary main_v4 main_v5 (broadcastInDim S320000x128 ![0, 1] bcast_S1x128_S320000x128_0_1 : (⟨S1x128, .f32⟩ : BufTy).Contents (Elt F) → (⟨S320000x128, .f32⟩ : BufTy).Contents (Elt F)),
    binary main_v3 main_v5 main_v6 (addf : (⟨S320000x128, .f32⟩ : BufTy).Contents (Elt F) → (⟨S320000x128, .f32⟩ : BufTy).Contents (Elt F) → (⟨S320000x128, .f32⟩ : BufTy).Contents (Elt F)) ]

set_option maxRecDepth 1024 in
/-- @main is that straight line: the two functions' bodies unfolded at their calls and the records at their fields, both
    sides are one chain of host steps once the sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., binary_bufs_sub .., unary_bufs_sub .., unary_bufs_sub .., binary_bufs_sub ..⟩

attribute [local irreducible] Host.reduce Host.gather concatenate transpose broadcastInDim in
set_option maxRecDepth 8192 in
/-- The fold of the operations at the result buffer is the composed term: each operation's result is read at the buffer
    it writes and passed over at every other, and the typed references' casts are the identity at these literal
    references. The reductions, the gather and the layout operations stay folded meanwhile (the equation never looks
    inside them). -/
theorem res_eq (V : Valuation τ sig (Elt F)) :
    after ops V (main_v6 : DevRef τ sig)
      = refTerm (V (main_arg0 : DevRef τ sig)) (V (main_arg1 : DevRef τ sig)) (V (main_arg2 : DevRef τ sig))
          (V (main_arg4 : DevRef τ sig)) (V (main_arg5 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl
theorem arg5_eq (V : Valuation τ sig (Elt F)) : after ops V (main_arg5 : DevRef τ sig) = V (main_arg5 : DevRef τ sig) := by
  simp only [after_cons, after_nil]
  rfl

/-- On every device, for any float values, from any memory with zero counters: every weakly fair execution of @main
    terminates with the result buffer at the composed term of the arguments and the six arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
        = refTerm (m ((c.tc : Thread nD τ).loc main_arg0)) (m ((c.tc : Thread nD τ).loc main_arg1))
            (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v6).trans (res_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefValue

end
-- ==== Proof.RefRead.lean ====
/-
  The reference's composed term read entry by entry: where every head index is below 10000 it is `refOut`.

  With an index `h` below 10000 (so below 2³¹: it reads the same signed and unsigned) the lookup's guards do nothing:
  `h < 0` fails, so the wrap leaves `h`; `0 ≤ h ≤ 9999` holds, so the range test is 1 and the select keeps the gathered
  row; and the gather's own clamp `min h 9999` is `h`. The gathered array is then row `h` of the node table. The rest is
  layout: the concatenation reads the gathered row below column 128 and the edge row from it on, the transposed weights
  at `(k, c)` are the weights at `(c, k)`, the contraction over its one axis is a sum over `Fin 256`, and the bias
  broadcast along the rows reads `b c`.
-/
import proofs.«210904_g42554535969575_cont_8to1_b_1627_27_alg».proof.Proof.Gen.ReferenceIdeal
import proofs.«210904_g42554535969575_cont_8to1_b_1627_27_alg».proof.Proof.RefSpec
import proofs.«210904_g42554535969575_cont_8to1_b_1627_27_alg».proof.Proof.RefTerm
import Idealize.ShloMosaic.Lib.Pipeline.Value
import Idealize.ShloMosaic.Lib.IdealHost
import Idealize.ShloMosaic.Lib.KernelVsHost
import Idealize.ShloMosaic.Lib.Affine
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## Words -/

/-- A word below 10000 reads the same signed and unsigned. -/
theorem toInt_of_lt (w : BitVec 32) (h : w.toNat < 10000) : w.toInt = (w.toNat : Int) :=
  BitVec.toInt_eq_toNat_of_lt (by omega)

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from 1 of an array of ones is 1 everywhere. -/
theorem reduce_andi_of_all {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl, hi]
  exact foldl_andi_one x hx _

/-! ## The lookup's guards, where every index is below 10000 -/

section Guards
variable (heads : IVec S320000 32) (hh : ∀ x : S320000.Idx, (heads x).toNat < 10000)
include hh

/-- No index is negative, so none is moved. -/
theorem wrapped_apply (x : S320000.Idx) : wrapped heads x = heads x := by
  have hc : IntOp.cmpi .slt (heads x) 0#32 = 0#1 := eq_zero_of_ne_one (fun e => by
    have := IntOp.cmpi_slt.1 e
    rw [toInt_of_lt _ (hh x), show (0#32 : BitVec 32).toInt = 0 from by decide] at this
    omega)
  show Scalar.select (IntOp.cmpi .slt (heads x) 0#32) _ _ = _
  rw [hc]
  exact select_zero _ _

/-- The column of start indices at row `r` is the head index of edge `r`. -/
theorem startIdx_apply (j : S320000x1.Idx) : startIdx heads j = heads (ix1 ⟨(j 0).val, idx2_lt0 j⟩) := by
  unfold startIdx
  exact (broadcastInDim_apply ![0] bcast_S320000_S320000x1_0 (wrapped heads) j (ix1 ⟨(j 0).val, idx2_lt0 j⟩)
    (fun a => match a with | ⟨0, _⟩ => rfl)).trans (wrapped_apply heads hh _)

/-- Every start index lies in [0, 9999]. -/
theorem inRange_apply (x : S320000.Idx) : inRange heads x = 1#1 := by
  unfold inRange
  refine reduce_andi_of_all _ _ _ _ rfl (fun j => ?_) x
  show IntOp.andi (IntOp.cmpi .sge (startIdx heads j) 0#32) (IntOp.cmpi .sle (startIdx heads j) 9999#32) = 1#1
  rw [startIdx_apply heads hh j]
  have hlt := hh (ix1 ⟨(j 0).val, idx2_lt0 j⟩)
  refine IntOp.andi_eq_one.2 ⟨IntOp.cmpi_sge.2 ?_, IntOp.cmpi_sle.2 ?_⟩
  · rw [toInt_of_lt _ (hh _), show (0#32 : BitVec 32).toInt = 0 from by decide]; omega
  · rw [toInt_of_lt _ (hh _), show (9999#32 : BitVec 32).toInt = 9999 from by decide]; omega

end Guards

/-! ## The gather by rows, read at an entry

The operand is indexed on its first axis by the start index (read signed and clamped into [0, 9999]: the slice is one
row) and on its second by the result's column: that axis is the one offset axis, and the whole row is the slice. -/

theorem gather_rows_apply {α : Type} (x : S10000x128.Idx → α) (idx : IVec S320000x1 32) (r : Fin 320000) (c : Fin 128) :
    Host.gather gather_S10000x128_S320000x1_S320000x128_1_0_n_n_0_1_1128 x idx (ix2 r c)
      = x (ix2 ⟨min (idx (ix2 r (0 : Fin 1))).toInt.toNat 9999, by omega⟩ c) := by
  unfold Host.gather
  refine congrArg x (funext fun a => Fin.ext ?_)
  match a with
  | ⟨0, _⟩ =>
    show gather_S10000x128_S320000x1_S320000x128_1_0_n_n_0_1_1128.start (ix2 r c) idx 0 + gather_S10000x128_S320000x1_S320000x128_1_0_n_n_0_1_1128.batchCoord (ix2 r c) 0 + gather_S10000x128_S320000x1_S320000x128_1_0_n_n_0_1_1128.offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S320000x1_S320000x128_1_0_n_n_0_1_1128.startIndexMap from List.mem_singleton.mpr rfl)]
    have hsi : gather_S10000x128_S320000x1_S320000x128_1_0_n_n_0_1_1128.siIdx (ix2 r c) ⟨List.idxOf (0 : Fin 2) gather_S10000x128_S320000x1_S320000x128_1_0_n_n_0_1_1128.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show gather_S10000x128_S320000x1_S320000x128_1_0_n_n_0_1_1128.start (ix2 r c) idx 1 + gather_S10000x128_S320000x1_S320000x128_1_0_n_n_0_1_1128.batchCoord (ix2 r c) 1 + gather_S10000x128_S320000x1_S320000x128_1_0_n_n_0_1_1128.offCoord (ix2 r c) 1 = _
    rw [GatherDims.batchCoord_eq_zero _ _ _ List.not_mem_nil]
    unfold GatherDims.start
    rw [dif_neg (show ¬(1 : Fin 2) ∈ gather_S10000x128_S320000x1_S320000x128_1_0_n_n_0_1_1128.startIndexMap from fun h => absurd (List.mem_singleton.mp h) (by decide))]
    simp only [Nat.add_zero, Nat.zero_add]
    unfold GatherDims.offCoord
    rw [dif_pos ((GatherDims.mem_sKept _ _).mpr ⟨fun h => absurd (List.mem_singleton.mp h) (by decide), List.not_mem_nil⟩)]
    rfl

/-- The gathered rows: row `r` is the node row the head of edge `r` names. -/
theorem taken_apply (H : FVec Ideal S10000x128 .f32) (heads : IVec S320000 32)
    (hh : ∀ x : S320000.Idx, (heads x).toNat < 10000) (r : Fin 320000) (c : Fin 128) :
    taken (F := Ideal) H heads (ix2 r c) = H (ix2 (row heads r) c) := by
  have e14 : broadcastInDim S320000x128 ![0] bcast_S320000_S320000x128_0 (inRange heads) (ix2 r c) = 1#1 :=
    (broadcastInDim_apply ![0] bcast_S320000_S320000x128_0 (inRange heads) (ix2 r c) (ix1 r)
      (fun a => match a with | ⟨0, _⟩ => rfl)).trans (inRange_apply heads hh _)
  unfold taken
  rw [select_apply, e14, select_one, gather_rows_apply]
  refine congrArg H (congrArg (fun q => ix2 q c) (Fin.ext ?_))
  show min (startIdx heads (ix2 r (0 : Fin 1))).toInt.toNat 9999 = min (heads (ix1 r)).toNat 9999
  have e : startIdx heads (ix2 r (0 : Fin 1)) = heads (ix1 r) := startIdx_apply heads hh _
  rw [e, toInt_of_lt _ (hh _), Int.toNat_natCast]

/-! ## The layout operations at an entry -/

/-- Two arrays of 128 columns side by side: below column 128 the first, from it on the second. -/
theorem cat_apply (A B : FVec Ideal S320000x128 .f32) (r : Fin 320000) (k : Fin 256) :
    concatenate S320000x256 1 [⟨S320000x128, A⟩, ⟨S320000x128, B⟩] concatenates_S320000x128_S320000x128_S320000x256_d1 (ix2 r k)
      = if h : k.val < 128 then A (ix2 r ⟨k.val, h⟩) else B (ix2 r ⟨k.val - 128, by omega⟩) := by
  split
  · next h =>
    refine concatenate_pair_apply_left _ A B _ (ix2 r k) rfl (ix2 r ⟨k.val, h⟩) ?_
    intro b
    match b with
    | ⟨0, _⟩ => rfl
    | ⟨1, _⟩ => rfl
  · next h =>
    refine concatenate_pair_apply_right _ A B _ (ix2 r k) rfl rfl (ix2 r ⟨k.val - 128, by omega⟩) ?_ ?_
    · intro b hb
      match b, hb with
      | ⟨0, _⟩, _ => rfl
      | ⟨1, _⟩, hb => exact absurd rfl hb
    · show (k.val - 128) + 128 = k.val
      omega

/-- The transposed weights at `(k, c)` are the weights at `(c, k)`. -/
theorem wt_apply (W : FVec Ideal S128x256 .f32) (k : Fin 256) (c : Fin 128) :
    transpose S256x128 [1, 0] W transposes_S128x256_S256x128_1_0 (ix2 k c) = W (ix2 c k) :=
  transpose_apply _ W _ (ix2 k c) (ix2 c k) (fun b => match b with | ⟨0, _⟩ => rfl | ⟨1, _⟩ => rfl)

/-- The bias, made a row and laid along every row, reads `b c` at `(r, c)`. -/
theorem bias_apply (b : FVec Ideal S128 .f32) (r : Fin 320000) (c : Fin 128) :
    broadcastInDim S320000x128 ![0, 1] bcast_S1x128_S320000x128_0_1 (broadcastInDim S1x128 ![1] bcast_S128_S1x128_1 b) (ix2 r c)
      = b (ix1 c) :=
  (broadcastInDim_apply ![0, 1] bcast_S1x128_S320000x128_0_1 _ (ix2 r c) (ix2 (0 : Fin 1) c)
      (fun a => match a with | ⟨0, _⟩ => rfl | ⟨1, _⟩ => rfl)).trans
    (broadcastInDim_apply ![1] bcast_S128_S1x128_1 b (ix2 (0 : Fin 1) c) (ix1 c) (fun a => match a with | ⟨0, _⟩ => rfl))

/-! ## The contraction: its operand indices, and the sum over `Fin 256` -/

theorem lhs_0 (i : S320000x128.Idx) (q : dot_S320000x256_S256x128_S320000x128_1_0_0_1_n_n.contr.Idx) : (dot_S320000x256_S256x128_S320000x128_1_0_0_1_n_n.lhsIdx i q 0).val = (i 0).val := by
  unfold DotDims.lhsIdx
  rw [dif_neg (show ¬(0 : Fin S320000x256.rank) ∈ dot_S320000x256_S256x128_S320000x128_1_0_0_1_n_n.lhsBatch by decide),
    dif_pos (show (0 : Fin S320000x256.rank) ∈ dot_S320000x256_S256x128_S320000x128_1_0_0_1_n_n.lhsNonContracting by decide)]
  rfl
theorem lhs_1 (i : S320000x128.Idx) (q : dot_S320000x256_S256x128_S320000x128_1_0_0_1_n_n.contr.Idx) : (dot_S320000x256_S256x128_S320000x128_1_0_0_1_n_n.lhsIdx i q 1).val = (q ⟨0, by decide⟩).val :=
  dot_S320000x256_S256x128_S320000x128_1_0_0_1_n_n.lhsIdx_val_of_single rfl i q
theorem rhs_0 (i : S320000x128.Idx) (q : dot_S320000x256_S256x128_S320000x128_1_0_0_1_n_n.contr.Idx) : (dot_S320000x256_S256x128_S320000x128_1_0_0_1_n_n.rhsIdx i q 0).val = (q ⟨0, by decide⟩).val :=
  dot_S320000x256_S256x128_S320000x128_1_0_0_1_n_n.rhsIdx_val_of_single rfl i q
theorem rhs_1 (i : S320000x128.Idx) (q : dot_S320000x256_S256x128_S320000x128_1_0_0_1_n_n.contr.Idx) : (dot_S320000x256_S256x128_S320000x128_1_0_0_1_n_n.rhsIdx i q 1).val = (i 1).val := by
  unfold DotDims.rhsIdx
  rw [dif_neg (show ¬(1 : Fin S256x128.rank) ∈ dot_S320000x256_S256x128_S320000x128_1_0_0_1_n_n.rhsBatch by decide),
    dif_pos (show (1 : Fin S256x128.rank) ∈ dot_S320000x256_S256x128_S320000x128_1_0_0_1_n_n.rhsNonContracting by decide)]
  rfl

/-- The contraction at `(r, c)`: the sum over `k : Fin 256` of the left operand at `(r, k)` times the right at `(k, c)`. -/
theorem dot_apply (l : FVec Ideal S320000x256 .f32) (w : FVec Ideal S256x128 .f32) (r : Fin 320000) (c : Fin 128) :
    Host.dotGeneral dot_S320000x256_S256x128_S320000x128_1_0_0_1_n_n none l w (ix2 r c) = ∑ k : Fin 256, l (ix2 r k) * w (ix2 k c) := by
  simp only [Host.dotGeneral]
  rw [Ideal.dotGeneral_apply, ← Equiv.sum_comp (ValueIdx.contrEquiv1 dot_S320000x256_S256x128_S320000x128_1_0_0_1_n_n 256 rfl rfl).symm]
  refine Finset.sum_congr rfl fun k _ => ?_
  have hk := ValueIdx.contrEquiv1_symm_val dot_S320000x256_S256x128_S320000x128_1_0_0_1_n_n 256 rfl rfl k
  have el : dot_S320000x256_S256x128_S320000x128_1_0_0_1_n_n.lhsIdx (ix2 r c) ((ValueIdx.contrEquiv1 dot_S320000x256_S256x128_S320000x128_1_0_0_1_n_n 256 rfl rfl).symm k) = ix2 r k := funext fun a => Fin.ext (by
    match a with
    | ⟨0, _⟩ => exact lhs_0 _ _
    | ⟨1, _⟩ => exact (lhs_1 _ _).trans hk)
  have er : dot_S320000x256_S256x128_S320000x128_1_0_0_1_n_n.rhsIdx (ix2 r c) ((ValueIdx.contrEquiv1 dot_S320000x256_S256x128_S320000x128_1_0_0_1_n_n 256 rfl rfl).symm k) = ix2 k c := funext fun a => Fin.ext (by
    match a with
    | ⟨0, _⟩ => exact (rhs_0 _ _).trans hk
    | ⟨1, _⟩ => exact rhs_1 _ _)
  rw [el, er]

/-! ## The composed term is `refOut` -/

/-- Where every head index is below 10000, the reference's composed term is `refOut` of the same five arrays. -/
theorem refTerm_eq (H : FVec Ideal S10000x128 .f32) (E : FVec Ideal S320000x128 .f32) (heads : IVec S320000 32)
    (W : FVec Ideal S128x256 .f32) (b : FVec Ideal S128 .f32) (hh : ∀ x : S320000.Idx, (heads x).toNat < 10000) :
    refTerm (F := Ideal) H E heads W b = refOut H E heads W b := by
  funext i
  obtain ⟨r, c, rfl⟩ : ∃ (r : Fin 320000) (c : Fin 128), i = ix2 r c := ⟨i 0, i 1, eq_ix2 i⟩
  rw [refOut_ix2]
  unfold refTerm
  rw [addf_apply, bias_apply, dot_apply]
  refine congrArg (· + b (ix1 c)) (Finset.sum_congr rfl fun k _ => ?_)
  rw [cat_apply, wt_apply]
  refine congrArg (· * W (ix2 c k)) ?_
  unfold cat
  split
  · next h => exact taken_apply H heads hh r ⟨k.val, h⟩
  · rfl

end Cert.ReferenceIdeal.RefValue

end
-- ==== Proof.RefValue.lean ====
/-
  The reference's run with its result named: under the precondition every weakly fair execution of the reference ends
  with the result buffer at `refOut` of the five arrays it reads, and with the six arguments as they were. The run itself
  needs no precondition; the precondition enters once, through "every head index is below 10000", which turns the
  operations' composed term into `refOut`.
-/
import proofs.«210904_g42554535969575_cont_8to1_b_1627_27_alg».proof.Defs
import proofs.«210904_g42554535969575_cont_8to1_b_1627_27_alg».proof.Proof.Gen.ReferenceIdeal
import proofs.«210904_g42554535969575_cont_8to1_b_1627_27_alg».proof.Proof.Gen.Pre_input_domain
import proofs.«210904_g42554535969575_cont_8to1_b_1627_27_alg».proof.Proof.PreHeads
import proofs.«210904_g42554535969575_cont_8to1_b_1627_27_alg».proof.Proof.RefSpec
import proofs.«210904_g42554535969575_cont_8to1_b_1627_27_alg».proof.Proof.RefRun
import proofs.«210904_g42554535969575_cont_8to1_b_1627_27_alg».proof.Proof.RefRead

noncomputable section

namespace Cert.ReferenceIdeal.RefValue

open Cert.ReferenceIdeal Cert.ReferenceIdeal.Gen Idealize.ShloMosaic Idealize.SL.Sem

/-- The same from the one fact the precondition is used for: on every device every head index is below 10000. -/
theorem run_of_lt (m : (ℓ : Loc nD τ sig) → Buf (Elt Ideal) ℓ) (g : Dev nD → PrngReg)
    (hlt : ∀ (c : Dev nD) (x : S320000.Idx), (m ((c.tc : Thread nD τ).loc main_arg2) x).toNat < 10000) :
    θ_run (Cert.ReferenceIdeal.defs (F := Ideal)) (onTc (τ := Cert.ReferenceIdeal.τ) (Cert.ReferenceIdeal.main (F := Ideal))) ⟨m, fun _ => 0, g⟩
      (fun r => ∀ c : Dev nD,
        r.2.mem ((c.tc : Thread nD τ).loc main_v6)
          = refOut (m ((c.tc : Thread nD τ).loc main_arg0)) (m ((c.tc : Thread nD τ).loc main_arg1))
              (m ((c.tc : Thread nD τ).loc main_arg2)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run (Cert.ReferenceIdeal.defs (F := Ideal)) _ _).mono
    (fun _ h c => ⟨(h c).1.trans (refTerm_eq _ _ _ _ _ (hlt c)), (h c).2⟩)
    (run_term (F := Ideal) m g)

/-- Under the precondition: its last conjunct says every head index is below 10000. -/
theorem run (m : (ℓ : Loc nD τ sig) → Buf (Elt Ideal) ℓ) (g : Dev nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev nD,
        r.2.mem ((c.tc : Thread nD τ).loc main_v6)
          = refOut (m ((c.tc : Thread nD τ).loc main_arg0)) (m ((c.tc : Thread nD τ).loc main_arg1))
              (m ((c.tc : Thread nD τ).loc main_arg2)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  run_of_lt m g (fun c x => Cert.Proof.PreHeads.heads_lt _ _ _ _ _ _ (hpre c) x)

end Cert.ReferenceIdeal.RefValue

end
-- ==== Proof.IdealValue.RegVals.lean ====
/-
  The two TensorCore bodies' stores, and the reshaped bias, read entry by entry on the extended reals.

  Body 0 stores, over its whole 10000 × 128 buffer, the features times the left half of the weights, transposed, plus
  the bias row laid down the rows: entry (n, j) is ∑ k < 128, x0 n k · x1 j k + x2 0 j. The product contracts the second
  axis of BOTH operands, so the weights enter by ROW j; the load of the left half reads columns 0–127 of the 128 × 256
  weights, the load of the right half columns 128–255.
  Body 1 stores, over its whole 8000 × 128 buffer, the block of gathered rows plus the block of edge rows times the right
  half of the weights, transposed: entry (r, j) is x0 r j + ∑ k < 128, x1 r k · x2 j (128 + k).
  The bias enters region 0 as a 1 × 128 array: the reshape keeps row-major positions, so its entry (0, j) is entry j.
-/
import proofs.«210904_g42554535969575_cont_8to1_b_1627_27_alg».proof.Proof.KernelIdeal.RegData
import proofs.«210904_g42554535969575_cont_8to1_b_1627_27_alg».proof.Proof.KernelIdeal.Host
import Idealize.ShloMosaic.Lib.Pipeline.Value
import Idealize.ShloMosaic.Lib.ValueIdx
import Idealize.ShloMosaic.PureOps.Ideal.Laws

set_option maxRecDepth 16384

noncomputable section

open scoped BigOperators

namespace Cert.Proof.IdealValue

open Cert.KernelIdeal Cert.KernelIdeal.Gen Cert.Proof.KernelIdeal
open Idealize.ShloMosaic Idealize.ShloMosaic.ValueIdx

/-- The two zero offsets are the zero function. -/
theorem zero2 : (![0, 0] : Fin 2 → Nat) = fun _ => 0 := funext fun a => by
  match a with
  | ⟨0, _⟩ => rfl
  | ⟨1, _⟩ => rfl

/-! ## The products: both operands contracted on their second axis -/

theorem lhs0_0 (i : S10000x128.Idx) (q : dot_S10000x128_S128x128_S10000x128_1_1_0_0_n_n.contr.Idx) : (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide),
    dif_pos (show (0 : Fin S10000x128.rank) ∈ dot_S10000x128_S128x128_S10000x128_1_1_0_0_n_n.lhsNonContracting by decide)]
  rfl
theorem lhs0_1 (i : S10000x128.Idx) (q : dot_S10000x128_S128x128_S10000x128_1_1_0_0_n_n.contr.Idx) : (dot_S10000x128_S128x128_S10000x128_1_1_0_0_n_n.lhsIdx i q 1).val = (q ⟨0, by decide⟩).val :=
  dot_S10000x128_S128x128_S10000x128_1_1_0_0_n_n.lhsIdx_val_of_single rfl i q
theorem rhs0_0 (i : S10000x128.Idx) (q : dot_S10000x128_S128x128_S10000x128_1_1_0_0_n_n.contr.Idx) : (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide),
    dif_pos (show (0 : Fin S128x128.rank) ∈ dot_S10000x128_S128x128_S10000x128_1_1_0_0_n_n.rhsNonContracting by decide)]
  rfl
theorem rhs0_1 (i : S10000x128.Idx) (q : dot_S10000x128_S128x128_S10000x128_1_1_0_0_n_n.contr.Idx) : (dot_S10000x128_S128x128_S10000x128_1_1_0_0_n_n.rhsIdx i q 1).val = (q ⟨0, by decide⟩).val :=
  dot_S10000x128_S128x128_S10000x128_1_1_0_0_n_n.rhsIdx_val_of_single rfl i q

/-- The product into the zero accumulator at `(r, j)`: row `r` of the left operand against ROW `j` of the right one
    (both are contracted on their second axis), summed over the 128 columns. -/
theorem mm0_apply (l : FVec Ideal S10000x128 .f32) (w : FVec Ideal S128x128 .f32) (r : Fin 10000) (j : Fin 128) :
    matmul (F := Ideal) dot_S10000x128_S128x128_S10000x128_1_1_0_0_n_n none l w (constant (F := Ideal) S10000x128 .f32 0x00000000#32) (ix2 r j)
      = ∑ k : Fin 128, l (ix2 r k) * w (ix2 j k) := by
  simp only [matmul]
  rw [Ideal.matmul_constant_zero_apply, ← Equiv.sum_comp (ValueIdx.contrEquiv1 dot_S10000x128_S128x128_S10000x128_1_1_0_0_n_n 128 rfl rfl).symm]
  refine Finset.sum_congr rfl fun k _ => ?_
  have hk := ValueIdx.contrEquiv1_symm_val dot_S10000x128_S128x128_S10000x128_1_1_0_0_n_n 128 rfl rfl k
  have el : dot_S10000x128_S128x128_S10000x128_1_1_0_0_n_n.lhsIdx (ix2 r j) ((ValueIdx.contrEquiv1 dot_S10000x128_S128x128_S10000x128_1_1_0_0_n_n 128 rfl rfl).symm k) = ix2 r k := funext fun a => Fin.ext (by
    match a with
    | ⟨0, _⟩ => exact lhs0_0 _ _
    | ⟨1, _⟩ => exact (lhs0_1 _ _).trans hk)
  have er : dot_S10000x128_S128x128_S10000x128_1_1_0_0_n_n.rhsIdx (ix2 r j) ((ValueIdx.contrEquiv1 dot_S10000x128_S128x128_S10000x128_1_1_0_0_n_n 128 rfl rfl).symm k) = ix2 j k := funext fun a => Fin.ext (by
    match a with
    | ⟨0, _⟩ => exact rhs0_0 _ _
    | ⟨1, _⟩ => exact (rhs0_1 _ _).trans hk)
  rw [el, er]

theorem lhs2_0 (i : S8000x128.Idx) (q : dot_S8000x128_S128x128_S8000x128_1_1_0_0_n_n.contr.Idx) : (dot_S8000x128_S128x128_S8000x128_1_1_0_0_n_n.lhsIdx i q 0).val = (i 0).val := by
  unfold DotDims.lhsIdx
  rw [dif_neg (show ¬(0 : Fin S8000x128.rank) ∈ dot_S8000x128_S128x128_S8000x128_1_1_0_0_n_n.lhsBatch by decide),
    dif_pos (show (0 : Fin S8000x128.rank) ∈ dot_S8000x128_S128x128_S8000x128_1_1_0_0_n_n.lhsNonContracting by decide)]
  rfl
theorem lhs2_1 (i : S8000x128.Idx) (q : dot_S8000x128_S128x128_S8000x128_1_1_0_0_n_n.contr.Idx) : (dot_S8000x128_S128x128_S8000x128_1_1_0_0_n_n.lhsIdx i q 1).val = (q ⟨0, by decide⟩).val :=
  dot_S8000x128_S128x128_S8000x128_1_1_0_0_n_n.lhsIdx_val_of_single rfl i q
theorem rhs2_0 (i : S8000x128.Idx) (q : dot_S8000x128_S128x128_S8000x128_1_1_0_0_n_n.contr.Idx) : (dot_S8000x128_S128x128_S8000x128_1_1_0_0_n_n.rhsIdx i q 0).val = (i 1).val := by
  unfold DotDims.rhsIdx
  rw [dif_neg (show ¬(0 : Fin S128x128.rank) ∈ dot_S8000x128_S128x128_S8000x128_1_1_0_0_n_n.rhsBatch by decide),
    dif_pos (show (0 : Fin S128x128.rank) ∈ dot_S8000x128_S128x128_S8000x128_1_1_0_0_n_n.rhsNonContracting by decide)]
  rfl
theorem rhs2_1 (i : S8000x128.Idx) (q : dot_S8000x128_S128x128_S8000x128_1_1_0_0_n_n.contr.Idx) : (dot_S8000x128_S128x128_S8000x128_1_1_0_0_n_n.rhsIdx i q 1).val = (q ⟨0, by decide⟩).val :=
  dot_S8000x128_S128x128_S8000x128_1_1_0_0_n_n.rhsIdx_val_of_single rfl i q

/-- The product into the zero accumulator at `(r, j)`: row `r` of the left operand against ROW `j` of the right one
    (both are contracted on their second axis), summed over the 128 columns. -/
theorem mm2_apply (l : FVec Ideal S8000x128 .f32) (w : FVec Ideal S128x128 .f32) (r : Fin 8000) (j : Fin 128) :
    matmul (F := Ideal) dot_S8000x128_S128x128_S8000x128_1_1_0_0_n_n none l w (constant (F := Ideal) S8000x128 .f32 0x00000000#32) (ix2 r j)
      = ∑ k : Fin 128, l (ix2 r k) * w (ix2 j k) := by
  simp only [matmul]
  rw [Ideal.matmul_constant_zero_apply, ← Equiv.sum_comp (ValueIdx.contrEquiv1 dot_S8000x128_S128x128_S8000x128_1_1_0_0_n_n 128 rfl rfl).symm]
  refine Finset.sum_congr rfl fun k _ => ?_
  have hk := ValueIdx.contrEquiv1_symm_val dot_S8000x128_S128x128_S8000x128_1_1_0_0_n_n 128 rfl rfl k
  have el : dot_S8000x128_S128x128_S8000x128_1_1_0_0_n_n.lhsIdx (ix2 r j) ((ValueIdx.contrEquiv1 dot_S8000x128_S128x128_S8000x128_1_1_0_0_n_n 128 rfl rfl).symm k) = ix2 r k := funext fun a => Fin.ext (by
    match a with
    | ⟨0, _⟩ => exact lhs2_0 _ _
    | ⟨1, _⟩ => exact (lhs2_1 _ _).trans hk)
  have er : dot_S8000x128_S128x128_S8000x128_1_1_0_0_n_n.rhsIdx (ix2 r j) ((ValueIdx.contrEquiv1 dot_S8000x128_S128x128_S8000x128_1_1_0_0_n_n 128 rfl rfl).symm k) = ix2 j k := funext fun a => Fin.ext (by
    match a with
    | ⟨0, _⟩ => exact rhs2_0 _ _
    | ⟨1, _⟩ => exact (rhs2_1 _ _).trans hk)
  rw [el, er]

/-! ## Body 0 -/

/-- The bias row laid down the rows reads the row's entry `j` at `(n, j)`. -/
theorem bias0_apply {α : Type} (v3 : S1x128.Idx → α) (n : Fin 10000) (j : Fin 128) :
    broadcastTo S10000x128 (shapeCast S1x128 v3 shapeCasts_S1x128_S1x128) broadcasts_S1x128_S10000x128 (ix2 n j)
      = v3 (ix2 (0 : Fin 1) j) := by
  rw [shapeCast_self]
  exact broadcastTo_apply v3 _ (ix2 n j) (ix2 (0 : Fin 1) j) (fun a => match a with | ⟨0, _⟩ => rfl | ⟨1, _⟩ => rfl)

/-- Body 0's stored value at `(n, j)`, over what it loaded. -/
theorem pay0_apply (v0 : FVec Ideal S128x128 .f32) (v1 : FVec Ideal S10000x128 .f32) (v3 : FVec Ideal S1x128 .f32)
    (n : Fin 10000) (j : Fin 128) :
    k0_pay1 (F := Ideal) v0 v1 v3 (ix2 n j) = (∑ k : Fin 128, v1 (ix2 n k) * v0 (ix2 j k)) + v3 (ix2 (0 : Fin 1) j) := by
  unfold k0_pay1
  exact congr (congrArg (· + ·) (mm0_apply v1 v0 n j)) (bias0_apply v3 n j)

theorem out0_apply (x0 : Vec Ideal S10000x128 .f32) (x1 : Vec Ideal S128x256 .f32) (x2 : Vec Ideal S1x128 .f32)
    (n : Fin 10000) (j : Fin 128) :
    out0 (F := Ideal) x0 x1 x2 (ix2 n j)
      = (∑ k : Fin 128, x0 (ix2 n k) * x1 (ix2 j (⟨k.val, by omega⟩ : Fin 256))) + x2 (ix2 (0 : Fin 1) j) := by
  unfold out0
  rw [View.canon_unit_zero zero2, View.ld_unit_zero zero2 _ x0, View.ld_unit_zero zero2 _ x2]
  refine (pay0_apply (View.ld x1 rWl) x0 x2 n j).trans ?_
  refine congrArg (· + x2 (ix2 (0 : Fin 1) j)) (Finset.sum_congr rfl fun k _ => congrArg (x0 (ix2 n k) * ·) ?_)
  refine congrArg x1 (funext fun a => Fin.ext ?_)
  match a with
  | ⟨0, _⟩ => show 0 + 1 * j.val = j.val; omega
  | ⟨1, _⟩ => show 0 + 1 * k.val = k.val; omega

/-! ## Body 1 -/

/-- Body 1's stored value at `(r, j)`, over what it loaded. -/
theorem pay2_apply (v0 : FVec Ideal S128x128 .f32) (v1 : FVec Ideal S8000x128 .f32) (v3 : FVec Ideal S8000x128 .f32)
    (r : Fin 8000) (j : Fin 128) :
    k2_pay1 (F := Ideal) v0 v1 v3 (ix2 r j) = v1 (ix2 r j) + ∑ k : Fin 128, v3 (ix2 r k) * v0 (ix2 j k) := by
  unfold k2_pay1
  exact congr (congrArg (· + ·) (congrFun (shapeCast_self v1 shapeCasts_S8000x128_S8000x128) (ix2 r j))) (mm2_apply v3 v0 r j)

theorem out1_apply (x0 x1 : Vec Ideal S8000x128 .f32) (x2 : Vec Ideal S128x256 .f32) (r : Fin 8000) (j : Fin 128) :
    out1 (F := Ideal) x0 x1 x2 (ix2 r j)
      = x0 (ix2 r j) + ∑ k : Fin 128, x1 (ix2 r k) * x2 (ix2 j (⟨128 + k.val, by omega⟩ : Fin 256)) := by
  unfold out1
  rw [View.canon_unit_zero zero2, View.ld_unit_zero zero2 _ x0, View.ld_unit_zero zero2 _ x1]
  refine (pay2_apply (View.ld x2 rWr) x0 x1 r j).trans ?_
  refine congrArg (x0 (ix2 r j) + ·) (Finset.sum_congr rfl fun k _ => congrArg (x1 (ix2 r k) * ·) ?_)
  refine congrArg x2 (funext fun a => Fin.ext ?_)
  match a with
  | ⟨0, _⟩ => show 0 + 1 * j.val = j.val; omega
  | ⟨1, _⟩ => show 128 + 1 * k.val = 128 + k.val; omega

/-! ## The reshaped bias -/

theorem b2dVal_apply {F : FTy → Type} [FloatOps F] (m : (ℓ : Loc nD τ sig) → Buf (Elt F) ℓ) (d : Dev nD) (j : Fin 128) :
    b2dVal m d (ix2 (0 : Fin 1) j) = m (aLoc d main_arg5) (ix1 j) := by
  unfold b2dVal
  rw [StableHlo.reshape_result]
  show shapeCast S1x128 (m (aLoc d main_arg5)) shapeCasts_S128_S1x128 (ix2 (0 : Fin 1) j) = _
  exact shapeCast_apply _ _ (ix2 (0 : Fin 1) j) (ix1 j) (by
    rw [Shape.rowMajor_val_two, Shape.rowMajor_val_one]
    show j.val = 0 * 128 + j.val
    omega)

end Cert.Proof.IdealValue

end
-- ==== Proof.IdealValue.OutVal.lean ====
/-
  The two regions' result arrays read entry by entry on the extended reals.

  Region 0's array is body 0's store of the whole inputs. Region 1's array at row e is row e mod 8000 of body 1's
  store of block e / 8000 of the gathered rows and of the edge rows; a block's row r is row 8000 t + r of the array, and
  8000 (e / 8000) + e mod 8000 = e, so entry (e, j) is G e j + ∑ k < 128, E e k · W j (128 + k).
-/
import proofs.«210904_g42554535969575_cont_8to1_b_1627_27_alg».proof.Proof.KernelIdeal.RegVal
import proofs.«210904_g42554535969575_cont_8to1_b_1627_27_alg».proof.Proof.IdealValue.RegVals

set_option maxRecDepth 16384

noncomputable section

open scoped BigOperators

namespace Cert.Proof.IdealValue

open Cert.KernelIdeal Cert.KernelIdeal.Gen Cert.Proof.KernelIdeal
open Idealize.ShloMosaic Idealize.ShloMosaic.ValueIdx

theorem tblVal_apply (H : Vec Ideal S10000x128 .f32) (W : Vec Ideal S128x256 .f32) (b : Vec Ideal S1x128 .f32)
    (n : Fin 10000) (j : Fin 128) :
    tblVal (F := Ideal) H W b (ix2 n j)
      = (∑ k : Fin 128, H (ix2 n k) * W (ix2 j (⟨k.val, by omega⟩ : Fin 256))) + b (ix2 (0 : Fin 1) j) :=
  out0_apply H W b n j

/-- Row `r` of block `e / 8000`, at `r = e mod 8000`, is row `e`. -/
theorem rowBlk_apply {F : FTy → Type} [FloatOps F] (X : Vec F S320000x128 .f32) (e : Fin 320000) (j : Fin 128) :
    rowBlk X (e.val / 8000) (ix2 (⟨e.val % 8000, Nat.mod_lt _ (by decide)⟩ : Fin 8000) j) = X (ix2 e j) := by
  show X (ix2 (⟨(8000 * (e.val / 8000) + e.val % 8000) % 320000, _⟩ : Fin 320000) j) = X (ix2 e j)
  refine congrArg X (congrArg (fun q => ix2 q j) (Fin.ext ?_))
  show (8000 * (e.val / 8000) + e.val % 8000) % 320000 = e.val
  have := e.isLt
  omega

theorem outVal_apply (G E : Vec Ideal S320000x128 .f32) (W : Vec Ideal S128x256 .f32) (e : Fin 320000) (j : Fin 128) :
    outVal (F := Ideal) G E W (ix2 e j)
      = G (ix2 e j) + ∑ k : Fin 128, E (ix2 e k) * W (ix2 j (⟨128 + k.val, by omega⟩ : Fin 256)) := by
  show out1 (F := Ideal) (rowBlk G (e.val / 8000)) (rowBlk E (e.val / 8000)) W
      (ix2 (⟨e.val % 8000, Nat.mod_lt _ (by decide)⟩ : Fin 8000) j) = _
  rw [out1_apply, rowBlk_apply G e j]
  refine congrArg (G (ix2 e j) + ·) (Finset.sum_congr rfl fun k _ => ?_)
  rw [rowBlk_apply E e k]

end Cert.Proof.IdealValue

end
-- ==== Proof.Bridge.lean ====
/-
  The law that joins the two programs, on the extended reals: a row of 256 products splits into its first 128 (the head's
  node row against the left half of a weight row) and its last 128 (the edge's own row against the right half), and
  (S₁ + b) + S₂ = (S₁ + S₂) + b by commutativity and associativity of addition alone — no finiteness is used.
-/
import proofs.«210904_g42554535969575_cont_8to1_b_1627_27_alg».proof.Proof.RefSpec

noncomputable section

open scoped BigOperators

namespace Cert.Proof.Bridge

open Idealize.ShloMosaic Idealize.ShloMosaic.ValueIdx
open Cert.ReferenceIdeal.RefValue

/-- A sum over 256 positions is the sum over the first 128 plus the sum over the last 128. -/
theorem sum256_split (f : Fin 256 → EReal) :
    ∑ k : Fin 256, f k = (∑ k : Fin 128, f ⟨k.val, by omega⟩) + ∑ k : Fin 128, f ⟨128 + k.val, by omega⟩ := by
  show ∑ k : Fin (128 + 128), f k = _
  rw [Fin.sum_univ_add]
  rfl

/-- Entry (r, c): the node transform of the head's row, plus the edge's row against the right half of weight row c,
    is the reference's row of 256 against weight row c plus the bias. -/
theorem kernel_eq_ref (H : (⟨2, ![10000, 128]⟩ : Shape).Idx → EReal) (E : (⟨2, ![320000, 128]⟩ : Shape).Idx → EReal)
    (heads : (⟨1, ![320000]⟩ : Shape).Idx → BitVec 32) (W : (⟨2, ![128, 256]⟩ : Shape).Idx → EReal)
    (b : (⟨1, ![128]⟩ : Shape).Idx → EReal) (r : Fin 320000) (c : Fin 128) (n : Fin 10000) (hn : row heads r = n) :
    (((∑ k : Fin 128, H (ix2 n k) * W (ix2 c (⟨k.val, by omega⟩ : Fin 256))) + b (ix1 c))
        + ∑ k : Fin 128, E (ix2 r k) * W (ix2 c (⟨128 + k.val, by omega⟩ : Fin 256)))
      = refOut H E heads W b (ix2 r c) := by
  rw [refOut_ix2, sum256_split, add_right_comm]
  subst hn
  congr 2

end Cert.Proof.Bridge

end
-- ==== Proof.IdealValue.Final.lean ====
/-
  The kernel's result as one array, against the reference's: if the node table is H·W₁ᵀ + b entry by entry, the gathered
  rows are the table's rows at the heads, and the result is the gathered rows plus E·W₂ᵀ entry by entry, then the result is
  the reference's array — the law of `Bridge.kernel_eq_ref` at every entry, the head's row being the reference's capped
  row because the head index is below 10000.
-/
import proofs.«210904_g42554535969575_cont_8to1_b_1627_27_alg».proof.Proof.Bridge

noncomputable section

open scoped BigOperators

namespace Cert.Proof.IdealValue

open Idealize.ShloMosaic Idealize.ShloMosaic.ValueIdx
open Cert.ReferenceIdeal.RefValue Cert.Proof.Bridge

theorem out_eq_ref (H : (⟨2, ![10000, 128]⟩ : Shape).Idx → EReal) (E : (⟨2, ![320000, 128]⟩ : Shape).Idx → EReal)
    (heads : (⟨1, ![320000]⟩ : Shape).Idx → BitVec 32) (W : (⟨2, ![128, 256]⟩ : Shape).Idx → EReal)
    (b : (⟨1, ![128]⟩ : Shape).Idx → EReal) (hh : ∀ x, (heads x).toNat < 10000)
    (tbl : (⟨2, ![10000, 128]⟩ : Shape).Idx → EReal) (G out : (⟨2, ![320000, 128]⟩ : Shape).Idx → EReal)
    (htbl : ∀ (n : Fin 10000) (j : Fin 128), tbl (ix2 n j) = (∑ k : Fin 128, H (ix2 n k) * W (ix2 j (⟨k.val, by omega⟩ : Fin 256))) + b (ix1 j))
    (hG : ∀ (e : Fin 320000) (j : Fin 128), G (ix2 e j) = tbl (ix2 (⟨(heads (ix1 e)).toNat, hh _⟩ : Fin 10000) j))
    (hout : ∀ (e : Fin 320000) (j : Fin 128), out (ix2 e j) = G (ix2 e j) + ∑ k : Fin 128, E (ix2 e k) * W (ix2 j (⟨128 + k.val, by omega⟩ : Fin 256))) :
    out = refOut H E heads W b := by
  funext i
  obtain ⟨e, j, rfl⟩ : ∃ (e : Fin 320000) (j : Fin 128), i = ix2 e j := ⟨i 0, i 1, eq_ix2 i⟩
  rw [hout, hG, htbl]
  exact kernel_eq_ref H E heads W b e j _ (Fin.ext (row_val heads e (hh _)))

end Cert.Proof.IdealValue

end
-- ==== Proof.lean ====
/-
  The certificate's claim. The kernel's program (at the word level and idealized) is @main on the TensorCore — the bias
  reshaped on the host, a gridless TensorCore kernel T = H · W[:, 0:128]ᵀ + b, a SparseCore kernel on 2 × 16 tiles that
  gathers G = T[heads] (each tile 10000 rows in fifty chunks of 200 through a ring of three slots), and a TensorCore
  kernel over forty blocks of 8000 rows out = G + E · W[:, 128:256]ᵀ — beside the sequencers' and tiles' own programs.
  Each frame is the launch theorem's run of all 35 threads with the values dropped; the reference's frame is its host
  run; `preserves` has no conjunct (the ideal pass rewrote nothing). At the ideal instance the kernel's result is, entry
  (e, j), (∑ₖ H[heads e, k] · W[j, k] + b[j]) + ∑ₖ E[e, k] · W[j, 128 + k], and the reference's is
  ∑ₖ₍₂₅₆₎ cat(H[heads e], E[e])[k] · W[j, k] + b[j]: equal on the extended reals by splitting the sum of 256 into its
  halves and by commutativity and associativity of addition — finiteness of the inputs is not used; of the precondition
  only 0 ≤ heads ≤ 9999 is, for the gather's rows to exist.
-/
import proofs.«210904_g42554535969575_cont_8to1_b_1627_27_alg».proof.Defs
import proofs.«210904_g42554535969575_cont_8to1_b_1627_27_alg».proof.Proof.Gen.Kernel
import proofs.«210904_g42554535969575_cont_8to1_b_1627_27_alg».proof.Proof.Gen.KernelIdeal
import proofs.«210904_g42554535969575_cont_8to1_b_1627_27_alg».proof.Proof.Gen.ReferenceIdeal
import proofs.«210904_g42554535969575_cont_8to1_b_1627_27_alg».proof.Proof.Gen.Pre_input_domain
import proofs.«210904_g42554535969575_cont_8to1_b_1627_27_alg».proof.Proof.PreHeads
import proofs.«210904_g42554535969575_cont_8to1_b_1627_27_alg».proof.Proof.Kernel.All
import proofs.«210904_g42554535969575_cont_8to1_b_1627_27_alg».proof.Proof.Kernel.ScCall
import proofs.«210904_g42554535969575_cont_8to1_b_1627_27_alg».proof.Proof.KernelIdeal.All
import proofs.«210904_g42554535969575_cont_8to1_b_1627_27_alg».proof.Proof.KernelIdeal.ScCall
import proofs.«210904_g42554535969575_cont_8to1_b_1627_27_alg».proof.Proof.RefValue
import proofs.«210904_g42554535969575_cont_8to1_b_1627_27_alg».proof.Proof.IdealValue.OutVal
import proofs.«210904_g42554535969575_cont_8to1_b_1627_27_alg».proof.Proof.IdealValue.Final
import Idealize.ShloMosaic.Adequacy
import Idealize.ShloMosaic.Init

set_option maxRecDepth 16384

noncomputable section

namespace Cert.Proof

open Idealize.ShloMosaic Idealize.SL.Sem

/-- Under the precondition every index word of the word-level program's `heads` is below 10000. -/
theorem heads_K (m : (ℓ : Loc Cert.Kernel.nD Cert.Kernel.τ Cert.Kernel.sig) → Buf (Elt Bits) ℓ) (hpre : Cert.Pre_Kernel m) :
    ∀ (d : Dev Cert.Kernel.nD) x, (m (Cert.Proof.Kernel.hLoc d) x).toNat < 10000 :=
  fun d x => Cert.Proof.PreHeads.heads_lt _ _ _ _ _ _ (hpre d) x

/-- The same of the idealized program's. -/
theorem heads_KI (m : (ℓ : Loc Cert.KernelIdeal.nD Cert.KernelIdeal.τ Cert.KernelIdeal.sig) → Buf (Elt Ideal) ℓ) (hpre : Cert.Pre_KernelIdeal m) :
    ∀ (d : Dev Cert.KernelIdeal.nD) x, (m (Cert.Proof.KernelIdeal.hLoc d) x).toNat < 10000 :=
  fun d x => Cert.Proof.PreHeads.heads_lt _ _ _ _ _ _ (hpre d) x

theorem frame_K : Cert.frame_Kernel := fun m g hpre =>
  (θ_run (Cert.Kernel.defs (F := Bits)) _ _).mono (fun _ h c => (h c).2)
    (Cert.Proof.Kernel.run_all (F := Bits) m g (heads_K m hpre) (Cert.Proof.Kernel.tileObl _ m (heads_K m hpre)))

theorem frame_KI : Cert.frame_KernelIdeal := fun m g hpre =>
  (θ_run (Cert.KernelIdeal.defs (F := Ideal)) _ _).mono (fun _ h c => (h c).2)
    (Cert.Proof.KernelIdeal.run_all (F := Ideal) m g (heads_KI m hpre) (Cert.Proof.KernelIdeal.tileObl _ m (heads_KI m hpre)))

theorem frame_R : Cert.frame_ReferenceIdeal := fun m g hpre =>
  (θ_run (Cert.ReferenceIdeal.defs (F := Ideal)) _ _).mono (fun _ h c => (h c).2) (Cert.ReferenceIdeal.RefValue.run m g hpre)

open Cert.Proof.KernelIdeal Cert.Proof.IdealValue in
/-- At the ideal instance the kernel's result array is the reference's. -/
theorem out_eq (m : (ℓ : Loc Cert.KernelIdeal.nD Cert.KernelIdeal.τ Cert.KernelIdeal.sig) → Buf (Elt Ideal) ℓ)
    (hh : ∀ (d : Dev Cert.KernelIdeal.nD) x, (m (hLoc d) x).toNat < 10000) (c : Dev Cert.KernelIdeal.nD) :
    outAll (F := Ideal) m hh c
      = Cert.ReferenceIdeal.RefValue.refOut (m (aLoc c Cert.KernelIdeal.main_arg0)) (m (aLoc c Cert.KernelIdeal.main_arg1))
          (m (aLoc c Cert.KernelIdeal.main_arg2)) (m (aLoc c Cert.KernelIdeal.main_arg4)) (m (aLoc c Cert.KernelIdeal.main_arg5)) :=
  out_eq_ref _ _ _ _ _ (hh c) (tblAll m c) (gatAll m hh c) (outAll m hh c)
    (fun n j => by unfold tblAll; rw [tblVal_apply, b2dVal_apply])
    (fun e j => gathered_apply (tblAll m) m hh c e j)
    (fun e j => outVal_apply _ _ _ e j)

theorem algebraic : Cert.algebraic_KernelIdeal_ReferenceIdeal := by
  intro m g m' g' hpre hagree
  have hh := heads_KI m hpre
  refine ⟨fun c => Cert.Proof.KernelIdeal.outAll (F := Ideal) m hh c,
    Cert.Proof.KernelIdeal.run_all (F := Ideal) m g hh (Cert.Proof.KernelIdeal.tileObl _ m hh), ?_⟩
  have hlt : ∀ (c : Dev Cert.ReferenceIdeal.nD) (x : Cert.ReferenceIdeal.S320000.Idx),
      (m' ((c.tc : Thread Cert.ReferenceIdeal.nD Cert.ReferenceIdeal.τ).loc Cert.ReferenceIdeal.main_arg2) x).toNat < 10000 := fun c x => by
    rw [(hagree c).2.2.1]; exact hh c x
  refine (θ_run (Cert.ReferenceIdeal.defs (F := Ideal)) _ _).mono (fun _ h c => ⟨(h c).1.trans ?_, (h c).2⟩)
    (Cert.ReferenceIdeal.RefValue.run_of_lt m' g' hlt)
  rw [(hagree c).1, (hagree c).2.1, (hagree c).2.2.1, (hagree c).2.2.2.2.1, (hagree c).2.2.2.2.2]
  exact (out_eq m hh c).symm

theorem claim : Cert.Claim :=
  ⟨Cert.Kernel.Gen.facts, Cert.KernelIdeal.Gen.facts, Cert.ReferenceIdeal.Gen.facts, Cert.Pre_input_domain.Gen.facts,
    frame_K, frame_KI, frame_R, trivial, algebraic⟩

end Cert.Proof

end
